-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x5000 : Shape := ⟨2, ![10000, 5000]⟩
abbrev S10000 : Shape := ⟨1, ![10000]⟩
abbrev S5000 : Shape := ⟨1, ![5000]⟩
abbrev S10000x32 : Shape := ⟨2, ![10000, 32]⟩
abbrev S5000x32 : Shape := ⟨2, ![5000, 32]⟩
abbrev S8x8 : Shape := ⟨2, ![8, 8]⟩
abbrev S16x8 : Shape := ⟨2, ![16, 8]⟩
abbrev S32x48 : Shape := ⟨2, ![32, 48]⟩
abbrev S32 : Shape := ⟨1, ![32]⟩
abbrev S32x40 : Shape := ⟨2, ![32, 40]⟩
abbrev S_ : Shape := ⟨0, ![]⟩

class Facts : Prop where
  bcast_S_S10000x5000 : S_.BroadcastsInDim S10000x5000 (![] : Fin 0 → Fin S10000x5000.rank)
  reducesTo_S10000x5000_S_d0_1 : S10000x5000.ReducesTo [0, 1] S_
  h_S_ : 0 < S_.numel
  bcast_S_S10000x32 : S_.BroadcastsInDim S10000x32 (![] : Fin 0 → Fin S10000x32.rank)
  reducesTo_S10000x32_S_d0_1 : S10000x32.ReducesTo [0, 1] S_
  bcast_S_S5000x32 : S_.BroadcastsInDim S5000x32 (![] : Fin 0 → Fin S5000x32.rank)
  reducesTo_S5000x32_S_d0_1 : S5000x32.ReducesTo [0, 1] S_
  bcast_S_S8x8 : S_.BroadcastsInDim S8x8 (![] : Fin 0 → Fin S8x8.rank)
  reducesTo_S8x8_S_d0_1 : S8x8.ReducesTo [0, 1] S_
  bcast_S_S16x8 : S_.BroadcastsInDim S16x8 (![] : Fin 0 → Fin S16x8.rank)
  reducesTo_S16x8_S_d0_1 : S16x8.ReducesTo [0, 1] S_
  bcast_S_S32x48 : S_.BroadcastsInDim S32x48 (![] : Fin 0 → Fin S32x48.rank)
  reducesTo_S32x48_S_d0_1 : S32x48.ReducesTo [0, 1] S_
  bcast_S_S32 : S_.BroadcastsInDim S32 (![] : Fin 0 → Fin S32.rank)
  reducesTo_S32_S_d0 : S32.ReducesTo [0] S_
  bcast_S_S32x40 : S_.BroadcastsInDim S32x40 (![] : Fin 0 → Fin S32x40.rank)
  reducesTo_S32x40_S_d0_1 : S32x40.ReducesTo [0, 1] S_
  bcast_S_S10000 : S_.BroadcastsInDim S10000 (![] : Fin 0 → Fin S10000.rank)
  reducesTo_S10000_S_d0 : S10000.ReducesTo [0] S_
  bcast_S_S5000 : S_.BroadcastsInDim S5000 (![] : Fin 0 → Fin S5000.rank)
  reducesTo_S5000_S_d0 : S5000.ReducesTo [0] S_

variable [Facts]

def fn_part4 {F : FTy → Type} [FloatOps F] (main_v62 : IVec S_ 1) (main_v67 : IVec S5000 1) : IVec S_ 1 :=
  let main_c_26 : IVec S_ 1 := constantI S_ 1 1#1
  let main_v68 : IVec S_ 1 := (fun x v => Host.reduce IntOp.andi x v reducesTo_S5000_S_d0 h_S_) main_v67 main_c_26
  let main_v69 : IVec S_ 1 := andi main_v62 main_v68
  main_v69

def fn_part3 {F : FTy → Type} [FloatOps F] (main_arg1 : IVec S10000 32) (main_arg2 : IVec S10000 32) (main_arg3 : IVec S5000 32) (main_v48 : IVec S_ 1) (main_v50 : IVec S10000 1) : IVec S_ 1 :=
  let main_c_19 : IVec S_ 32 := constantI S_ 32 8#32
  let main_v51 : IVec S10000 32 := broadcastInDim S10000 ![] bcast_S_S10000 main_c_19
  let main_v52 : IVec S10000 1 := cmpi .slt main_arg1 main_v51
  let main_v53 : IVec S10000 1 := andi main_v50 main_v52
  let main_c_20 : IVec S_ 1 := constantI S_ 1 1#1
  let main_v54 : IVec S_ 1 := (fun x v => Host.reduce IntOp.andi x v reducesTo_S10000_S_d0 h_S_) main_v53 main_c_20
  let main_v55 : IVec S_ 1 := andi main_v48 main_v54
  let main_c_21 : IVec S_ 32 := constantI S_ 32 0#32
  let main_v56 : IVec S10000 32 := broadcastInDim S10000 ![] bcast_S_S10000 main_c_21
  let main_v57 : IVec S10000 1 := cmpi .sge main_arg2 main_v56
  let main_c_22 : IVec S_ 32 := constantI S_ 32 8#32
  let main_v58 : IVec S10000 32 := broadcastInDim S10000 ![] bcast_S_S10000 main_c_22
  let main_v59 : IVec S10000 1 := cmpi .slt main_arg2 main_v58
  let main_v60 : IVec S10000 1 := andi main_v57 main_v59
  let main_c_23 : IVec S_ 1 := constantI S_ 1 1#1
  let main_v61 : IVec S_ 1 := (fun x v => Host.reduce IntOp.andi x v reducesTo_S10000_S_d0 h_S_) main_v60 main_c_23
  let main_v62 : IVec S_ 1 := andi main_v55 main_v61
  let main_c_24 : IVec S_ 32 := constantI S_ 32 0#32
  let main_v63 : IVec S5000 32 := broadcastInDim S5000 ![] bcast_S_S5000 main_c_24
  let main_v64 : IVec S5000 1 := cmpi .sge main_arg3 main_v63
  let main_c_25 : IVec S_ 32 := constantI S_ 32 16#32
  let main_v65 : IVec S5000 32 := broadcastInDim S5000 ![] bcast_S_S5000 main_c_25
  let main_v66 : IVec S5000 1 := cmpi .slt main_arg3 main_v65
  let main_v67 : IVec S5000 1 := andi main_v64 main_v66
  fn_part4 (F := F) main_v62 main_v67

def fn_part2 {F : FTy → Type} [FloatOps F] (main_arg1 : IVec S10000 32) (main_arg2 : IVec S10000 32) (main_arg3 : IVec S5000 32) (main_arg10 : FVec F S32 .f32) (main_arg11 : FVec F S32x40 .f32) (main_arg12 : FVec F S32 .f32) (main_v33 : IVec S_ 1) : IVec S_ 1 :=
  let main_v34 : FVec F S32 .f32 := Host.absf main_arg10
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x40 .f32 := Host.absf main_arg11
  let main_cst_14 : FVec F S_ .f32 := constant S_ .f32 0x7F800000#32
  let main_v40 : FVec F S32x40 .f32 := broadcastInDim S32x40 ![] bcast_S_S32x40 main_cst_14
  let main_v41 : IVec S32x40 1 := cmpf .olt main_v39 main_v40
  let main_c_15 : IVec S_ 1 := constantI S_ 1 1#1
  let main_v42 : IVec S_ 1 := (fun x v => Host.reduce IntOp.andi x v reducesTo_S32x40_S_d0_1 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_c_18 : IVec S_ 32 := constantI S_ 32 0#32
  let main_v49 : IVec S10000 32 := broadcastInDim S10000 ![] bcast_S_S10000 main_c_18
  let main_v50 : IVec S10000 1 := cmpi .sge main_arg1 main_v49
  fn_part3 (F := F) main_arg1 main_arg2 main_arg3 main_v48 main_v50

def fn_part1 {F : FTy → Type} [FloatOps F] (main_arg1 : IVec S10000 32) (main_arg2 : IVec S10000 32) (main_arg3 : IVec S5000 32) (main_arg7 : FVec F S8x8 .f32) (main_arg8 : FVec F S16x8 .f32) (main_arg9 : FVec F S32x48 .f32) (main_arg10 : FVec F S32 .f32) (main_arg11 : FVec F S32x40 .f32) (main_arg12 : FVec F S32 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8x8 .f32 := Host.absf main_arg7
  let main_cst_6 : FVec F S_ .f32 := constant S_ .f32 0x7F800000#32
  let main_v20 : FVec F S8x8 .f32 := broadcastInDim S8x8 ![] bcast_S_S8x8 main_cst_6
  let main_v21 : IVec S8x8 1 := cmpf .olt main_v19 main_v20
  let main_c_7 : IVec S_ 1 := constantI S_ 1 1#1
  let main_v22 : IVec S_ 1 := (fun x v => Host.reduce IntOp.andi x v reducesTo_S8x8_S_d0_1 h_S_) main_v21 main_c_7
  let main_v23 : IVec S_ 1 := andi main_v18 main_v22
  let main_v24 : FVec F S16x8 .f32 := Host.absf main_arg8
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S32x48 .f32 := Host.absf main_arg9
  let main_cst_10 : FVec F S_ .f32 := constant S_ .f32 0x7F800000#32
  let main_v30 : FVec F S32x48 .f32 := broadcastInDim S32x48 ![] bcast_S_S32x48 main_cst_10
  let main_v31 : IVec S32x48 1 := cmpf .olt main_v29 main_v30
  let main_c_11 : IVec S_ 1 := constantI S_ 1 1#1
  let main_v32 : IVec S_ 1 := (fun x v => Host.reduce IntOp.andi x v reducesTo_S32x48_S_d0_1 h_S_) main_v31 main_c_11
  let main_v33 : IVec S_ 1 := andi main_v28 main_v32
  fn_part2 (F := F) main_arg1 main_arg2 main_arg3 main_arg10 main_arg11 main_arg12 main_v33

def fn {F : FTy → Type} [FloatOps F] (main_arg0 : FVec F S10000x5000 .f32) (main_arg1 : IVec S10000 32) (main_arg2 : IVec S10000 32) (main_arg3 : IVec S5000 32) (main_arg4 : FVec F S10000x32 .f32) (main_arg5 : FVec F S5000x32 .f32) (main_arg6 : FVec F S8x8 .f32) (main_arg7 : FVec F S8x8 .f32) (main_arg8 : FVec F S16x8 .f32) (main_arg9 : FVec F S32x48 .f32) (main_arg10 : FVec F S32 .f32) (main_arg11 : FVec F S32x40 .f32) (main_arg12 : FVec F S32 .f32) : IVec S_ 1 :=
  let main_v0 : FVec F S10000x5000 .f32 := Host.absf main_arg0
  let main_cst : FVec F S_ .f32 := constant S_ .f32 0x7F800000#32
  let main_v1 : FVec F S10000x5000 .f32 := broadcastInDim S10000x5000 ![] bcast_S_S10000x5000 main_cst
  let main_v2 : IVec S10000x5000 1 := cmpf .olt main_v0 main_v1
  let main_c : IVec S_ 1 := constantI S_ 1 1#1
  let main_v3 : IVec S_ 1 := (fun x v => Host.reduce IntOp.andi x v reducesTo_S10000x5000_S_d0_1 h_S_) main_v2 main_c
  let main_v4 : FVec F S10000x32 .f32 := Host.absf main_arg4
  let main_cst_0 : FVec F S_ .f32 := constant S_ .f32 0x7F800000#32
  let main_v5 : FVec F S10000x32 .f32 := broadcastInDim S10000x32 ![] bcast_S_S10000x32 main_cst_0
  let main_v6 : IVec S10000x32 1 := cmpf .olt main_v4 main_v5
  let main_c_1 : IVec S_ 1 := constantI S_ 1 1#1
  let main_v7 : IVec S_ 1 := (fun x v => Host.reduce IntOp.andi x v reducesTo_S10000x32_S_d0_1 h_S_) main_v6 main_c_1
  let main_v8 : IVec S_ 1 := andi main_v3 main_v7
  let main_v9 : FVec F S5000x32 .f32 := Host.absf main_arg5
  let main_cst_2 : FVec F S_ .f32 := constant S_ .f32 0x7F800000#32
  let main_v10 : FVec F S5000x32 .f32 := broadcastInDim S5000x32 ![] bcast_S_S5000x32 main_cst_2
  let main_v11 : IVec S5000x32 1 := cmpf .olt main_v9 main_v10
  let main_c_3 : IVec S_ 1 := constantI S_ 1 1#1
  let main_v12 : IVec S_ 1 := (fun x v => Host.reduce IntOp.andi x v reducesTo_S5000x32_S_d0_1 h_S_) main_v11 main_c_3
  let main_v13 : IVec S_ 1 := andi main_v8 main_v12
  let main_v14 : FVec F S8x8 .f32 := Host.absf main_arg6
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg1 main_arg2 main_arg3 main_arg7 main_arg8 main_arg9 main_arg10 main_arg11 main_arg12 main_v13 main_v16
-- ==== Kernel.lean ====
abbrev S10000x5000 : Shape := ⟨2, ![10000, 5000]⟩
abbrev S10000 : Shape := ⟨1, ![10000]⟩
abbrev S5000 : Shape := ⟨1, ![5000]⟩
abbrev S10000x32 : Shape := ⟨2, ![10000, 32]⟩
abbrev S5000x32 : Shape := ⟨2, ![5000, 32]⟩
abbrev S8x8 : Shape := ⟨2, ![8, 8]⟩
abbrev S16x8 : Shape := ⟨2, ![16, 8]⟩
abbrev S32x48 : Shape := ⟨2, ![32, 48]⟩
abbrev S32 : Shape := ⟨1, ![32]⟩
abbrev S32x40 : Shape := ⟨2, ![32, 40]⟩
abbrev S10000x1 : Shape := ⟨2, ![10000, 1]⟩
abbrev S5000x1 : Shape := ⟨2, ![5000, 1]⟩
abbrev S1x32 : Shape := ⟨2, ![1, 32]⟩
abbrev S10000x8 : Shape := ⟨2, ![10000, 8]⟩
abbrev S5000x16 : Shape := ⟨2, ![5000, 16]⟩
abbrev S5000x8 : Shape := ⟨2, ![5000, 8]⟩
abbrev S32x32 : Shape := ⟨2, ![32, 32]⟩
abbrev S32x8 : Shape := ⟨2, ![32, 8]⟩
abbrev S400x5000 : Shape := ⟨2, ![400, 5000]⟩
abbrev S400x32 : Shape := ⟨2, ![400, 32]⟩

abbrev nBuf : Space → Nat
  | .hbm => 22
  | .vmem => 24
  | .smem => 0
  | _ => 0

abbrev bufTy : (tb : Table) → Fin (tcTables nBuf tb) → BufTy
  | .hbm, ⟨0, _⟩ => ⟨S10000x5000, .f32⟩
  | .hbm, ⟨1, _⟩ => ⟨S10000, .i32⟩
  | .hbm, ⟨2, _⟩ => ⟨S10000, .i32⟩
  | .hbm, ⟨3, _⟩ => ⟨S5000, .i32⟩
  | .hbm, ⟨4, _⟩ => ⟨S10000x32, .f32⟩
  | .hbm, ⟨5, _⟩ => ⟨S5000x32, .f32⟩
  | .hbm, ⟨6, _⟩ => ⟨S8x8, .f32⟩
  | .hbm, ⟨7, _⟩ => ⟨S8x8, .f32⟩
  | .hbm, ⟨8, _⟩ => ⟨S16x8, .f32⟩
  | .hbm, ⟨9, _⟩ => ⟨S32x48, .f32⟩
  | .hbm, ⟨10, _⟩ => ⟨S32, .f32⟩
  | .hbm, ⟨11, _⟩ => ⟨S32x40, .f32⟩
  | .hbm, ⟨12, _⟩ => ⟨S32, .f32⟩
  | .hbm, ⟨13, _⟩ => ⟨S10000x1, .i32⟩
  | .hbm, ⟨14, _⟩ => ⟨S10000x1, .i32⟩
  | .hbm, ⟨15, _⟩ => ⟨S5000x1, .i32⟩
  | .hbm, ⟨16, _⟩ => ⟨S1x32, .f32⟩
  | .hbm, ⟨17, _⟩ => ⟨S1x32, .f32⟩
  | .hbm, ⟨18, _⟩ => ⟨S10000x32, .f32⟩
  | .hbm, ⟨19, _⟩ => ⟨S5000x32, .f32⟩
  | .hbm, ⟨20, _⟩ => ⟨S10000x32, .f32⟩
  | .hbm, ⟨21, _⟩ => ⟨S5000x32, .f32⟩
  | .local _ .vmem, ⟨0, _⟩ => ⟨S10000x1, .i32⟩
  | .local _ .vmem, ⟨1, _⟩ => ⟨S10000x1, .i32⟩
  | .local _ .vmem, ⟨2, _⟩ => ⟨S5000x1, .i32⟩
  | .local _ .vmem, ⟨3, _⟩ => ⟨S10000x32, .f32⟩
  | .local _ .vmem, ⟨4, _⟩ => ⟨S5000x32, .f32⟩
  | .local _ .vmem, ⟨5, _⟩ => ⟨S8x8, .f32⟩
  | .local _ .vmem, ⟨6, _⟩ => ⟨S8x8, .f32⟩
  | .local _ .vmem, ⟨7, _⟩ => ⟨S16x8, .f32⟩
  | .local _ .vmem, ⟨8, _⟩ => ⟨S32x48, .f32⟩
  | .local _ .vmem, ⟨9, _⟩ => ⟨S1x32, .f32⟩
  | .local _ .vmem, ⟨10, _⟩ => ⟨S32x40, .f32⟩
  | .local _ .vmem, ⟨11, _⟩ => ⟨S1x32, .f32⟩
  | .local _ .vmem, ⟨12, _⟩ => ⟨S10000x32, .f32⟩
  | .local _ .vmem, ⟨13, _⟩ => ⟨S5000x32, .f32⟩
  | .local _ .vmem, ⟨14, _⟩ => ⟨S10000x32, .f32⟩
  | .local _ .vmem, ⟨15, _⟩ => ⟨S5000x32, .f32⟩
  | .local _ .vmem, ⟨16, _⟩ => ⟨S400x5000, .f32⟩
  | .local _ .vmem, ⟨17, _⟩ => ⟨S400x5000, .f32⟩
  | .local _ .vmem, ⟨18, _⟩ => ⟨S10000x32, .f32⟩
  | .local _ .vmem, ⟨19, _⟩ => ⟨S5000x32, .f32⟩
  | .local _ .vmem, ⟨20, _⟩ => ⟨S10000x32, .f32⟩
  | .local _ .vmem, ⟨21, _⟩ => ⟨S5000x32, .f32⟩
  | .local _ .vmem, ⟨22, _⟩ => ⟨S10000x32, .f32⟩
  | .local _ .vmem, ⟨23, _⟩ => ⟨S5000x32, .f32⟩
  | _, _ => ⟨S10000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v6_0 : Ref sig .tc := ⟨.hbm, 20, rfl⟩
abbrev main_v6_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem4_0 : DmaSem sig := 19

abbrev nD : Nat := 1
abbrev τ : Topo := Topo.v7x

variable {F : FTy → Type} [FloatOps F]

abbrev grid0 : Pipeline.Grid := .none

abbrev stage0_0 : Fin 1 → Memref sig .tc .vmem S10000x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5000x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5000x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x40 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S10000x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5000x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev grid1 : Pipeline.Grid := ⟨2, ![3, 25], ![false, false]⟩

def k1_off1 (i : grid1.Coords) : Fin 2 → Nat :=
  let arg1 : BitVec 32 := BitVec.ofNat 32 (i 1).val
  let c400_i32 : BitVec 32 := 400#32
  let v6 : BitVec 32 := Scalar.muli arg1 c400_i32
  let v9 : Index := Scalar.indexCast v6
  let c0_5 : Index := 0#32
  ![v9.toNat, 0]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_cond4 (i : grid1.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_12 : BitVec 32 := 0#32
  let v24 : BitVec 1 := Scalar.cmpi .ne v23 c0_i32_12
  v24

def k1_cond5 (i : grid1.Coords) : BitVec 1 :=
  let arg0 : BitVec 32 := BitVec.ofNat 32 (i 0).val
  let c2_i32 : BitVec 32 := 2#32
  let v25 : BitVec 1 := Scalar.cmpi .eq arg0 c2_i32
  let arg1 : BitVec 32 := BitVec.ofNat 32 (i 1).val
  let c24_i32_13 : BitVec 32 := 24#32
  let v26 : BitVec 1 := Scalar.cmpi .eq arg1 c24_i32_13
  let v27 : BitVec 1 := Scalar.andi v25 v26
  let v28 : BitVec 32 := Scalar.extui v27
  let c0_i32_14 : BitVec 32 := 0#32
  let v29 : BitVec 1 := Scalar.cmpi .ne v28 c0_i32_14
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S5000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S400x5000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S10000x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S5000x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  shapeCasts_S10000_S10000x1 : S10000.ShapeCasts S10000x1
  shapeCasts_S5000_S5000x1 : S5000.ShapeCasts S5000x1
  shapeCasts_S32_S1x32 : S32.ShapeCasts S1x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x8_d1_w32 : S10000x8.Iotas .tc 32 [1]
  broadcasts_S10000x1_S10000x8 : S10000x1.Broadcasts S10000x8
  natLt_1_32 : 1 < 32
  inb_S8x8_S8x8_0_0 : ∀ a, (![0, 0] : Fin 2 → Nat) a + S8x8.size a ≤ S8x8.size a
  h_S8x8 : 0 < S8x8.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x16_d1_w32 : S5000x16.Iotas .tc 32 [1]
  broadcasts_S5000x1_S5000x16 : S5000x1.Broadcasts S5000x16
  inb_S16x8_S16x8_0_0 : ∀ a, (![0, 0] : Fin 2 → Nat) a + S16x8.size a ≤ S16x8.size a
  h_S16x8 : 0 < S16x8.numel
  inb_S32x48_S32x48_0_0 : ∀ a, (![0, 0] : Fin 2 → Nat) a + S32x48.size a ≤ S32x48.size a
  h_S32x48 : 0 < S32x48.numel
  inb_S10000x32_S10000x32_0_0 : ∀ a, (![0, 0] : Fin 2 → Nat) a + S10000x32.size a ≤ S10000x32.size a
  h_S10000x32 : 0 < S10000x32.numel
  slices_S32x48_o0_0_S32x32 : S32x48.Slices ![0, 0] S32x32
  slices_S32x48_o0_32_S32x8 : S32x48.Slices ![0, 32] S32x8
  slices_S32x48_o0_40_S32x8 : S32x48.Slices ![0, 40] S32x8
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x40_S32x40_0_0 : ∀ a, (![0, 0] : Fin 2 → Nat) a + S32x40.size a ≤ S32x40.size a
  h_S32x40 : 0 < S32x40.numel
  inb_S5000x32_S5000x32_0_0 : ∀ a, (![0, 0] : Fin 2 → Nat) a + S5000x32.size a ≤ S5000x32.size a
  h_S5000x32 : 0 < S5000x32.numel
  slices_S32x40_o0_0_S32x32 : S32x40.Slices ![0, 0] S32x32
  slices_S32x40_o0_32_S32x8 : S32x40.Slices ![0, 32] S32x8
  broadcasts_S1x32_S5000x32 : S1x32.Broadcasts S5000x32
  shapeCasts_S10000x32_S10000x32 : S10000x32.ShapeCasts S10000x32
  shapeCasts_S5000x32_S5000x32 : S5000x32.ShapeCasts S5000x32
  inb_S400x5000_S400x5000_0_0 : ∀ a, (![0, 0] : Fin 2 → Nat) a + S400x5000.size a ≤ S400x5000.size a
  h_S400x5000 : 0 < S400x5000.numel
  h_S400x32 : 0 < S400x32.numel
  shapeCasts_S400x32_S400x32 : S400x32.ShapeCasts S400x32
  dot_S10000x8_S8x8_S10000x8_1_0_0_1_n_n_wf : DotDims.WF S10000x8 S8x8 S10000x8 [1] [0] [0] [1] [] []
  dot_S5000x16_S16x8_S5000x8_1_0_0_1_n_n_wf : DotDims.WF S5000x16 S16x8 S5000x8 [1] [0] [0] [1] [] []
  dot_S10000x32_S32x32_S10000x32_1_1_0_0_n_n_wf : DotDims.WF S10000x32 S32x32 S10000x32 [1] [1] [0] [0] [] []
  dot_S10000x8_S32x8_S10000x32_1_1_0_0_n_n_wf : DotDims.WF S10000x8 S32x8 S10000x32 [1] [1] [0] [0] [] []
  dot_S5000x32_S32x32_S5000x32_1_1_0_0_n_n_wf : DotDims.WF S5000x32 S32x32 S5000x32 [1] [1] [0] [0] [] []
  dot_S5000x8_S32x8_S5000x32_1_1_0_0_n_n_wf : DotDims.WF S5000x8 S32x8 S5000x32 [1] [1] [0] [0] [] []
  dot_S400x5000_S5000x32_S400x32_1_0_0_1_n_n_wf : DotDims.WF S400x5000 S5000x32 S400x32 [1] [0] [0] [1] [] []
  dot_S400x5000_S400x32_S5000x32_0_0_1_1_n_n_wf : DotDims.WF S400x5000 S400x32 S5000x32 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hrank1 : 0 < grid1.rank
  k1_off1_inb : ∀ i : grid1.Coords, ∀ a, (k1_off1 i) a + S400x32.size a ≤ S10000x32.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S10000x32.size a
  hwx1_0 : ∀ i : grid1.Coords, EltTy.bits .f32 = 32 ∨ (Rect.block (s := S10000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S5000x32.size a
  hwx1_1 : ∀ i : grid1.Coords, EltTy.bits .f32 = 32 ∨ (Rect.block (s := S5000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x5000.size a ≤ S10000x5000.size a
  hwx1_2 : ∀ i : grid1.Coords, EltTy.bits .f32 = 32 ∨ (Rect.block (s := S10000x5000) S400x5000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S10000x32.size a
  hwx1_3 : ∀ i : grid1.Coords, EltTy.bits .f32 = 32 ∨ (Rect.block (s := S10000x32) S10000x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S5000x32.size a
  hwx1_4 : ∀ i : grid1.Coords, EltTy.bits .f32 = 32 ∨ (Rect.block (s := S5000x32) S5000x32.size (cc1_transform_4 i) (hinb1_4 i)).WholeWords (EltTy.packing .f32)

variable [Facts₀]

def dot_S10000x8_S8x8_S10000x8_1_0_0_1_n_n : DotDims S10000x8 S8x8 S10000x8 where
  lhsContracting := [1]
  rhsContracting := [0]
  lhsNonContracting := [0]
  rhsNonContracting := [1]
  lhsBatch := []
  rhsBatch := []
  wf := dot_S10000x8_S8x8_S10000x8_1_0_0_1_n_n_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def dot_S10000x32_S32x32_S10000x32_1_1_0_0_n_n : DotDims S10000x32 S32x32 S10000x32 where
  lhsContracting := [1]
  rhsContracting := [1]
  lhsNonContracting := [0]
  rhsNonContracting := [0]
  lhsBatch := []
  rhsBatch := []
  wf := dot_S10000x32_S32x32_S10000x32_1_1_0_0_n_n_wf
def dot_S10000x8_S32x8_S10000x32_1_1_0_0_n_n : DotDims S10000x8 S32x8 S10000x32 where
  lhsContracting := [1]
  rhsContracting := [1]
  lhsNonContracting := [0]
  rhsNonContracting := [0]
  lhsBatch := []
  rhsBatch := []
  wf := dot_S10000x8_S32x8_S10000x32_1_1_0_0_n_n_wf
def dot_S5000x32_S32x32_S5000x32_1_1_0_0_n_n : DotDims S5000x32 S32x32 S5000x32 where
  lhsContracting := [1]
  rhsContracting := [1]
  lhsNonContracting := [0]
  rhsNonContracting := [0]
  lhsBatch := []
  rhsBatch := []
  wf := dot_S5000x32_S32x32_S5000x32_1_1_0_0_n_n_wf
def dot_S5000x8_S32x8_S5000x32_1_1_0_0_n_n : DotDims S5000x8 S32x8 S5000x32 where
  lhsContracting := [1]
  rhsContracting := [1]
  lhsNonContracting := [0]
  rhsNonContracting := [0]
  lhsBatch := []
  rhsBatch := []
  wf := dot_S5000x8_S32x8_S5000x32_1_1_0_0_n_n_wf
def dot_S400x5000_S5000x32_S400x32_1_0_0_1_n_n : DotDims S400x5000 S5000x32 S400x32 where
  lhsContracting := [1]
  rhsContracting := [0]
  lhsNonContracting := [0]
  rhsNonContracting := [1]
  lhsBatch := []
  rhsBatch := []
  wf := dot_S400x5000_S5000x32_S400x32_1_0_0_1_n_n_wf
def dot_S400x5000_S400x32_S5000x32_0_0_1_1_n_n : DotDims S400x5000 S400x32 S5000x32 where
  lhsContracting := [0]
  rhsContracting := [0]
  lhsNonContracting := [1]
  rhsNonContracting := [1]
  lhsBatch := []
  rhsBatch := []
  wf := dot_S400x5000_S400x32_S5000x32_0_0_1_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_v1) false false (stage0_1 0) (sem0_1 0) (Memref.isWhole_whole _) (hstage0_1 0)

abbrev win0_2 : Pipeline.Window sig grid0 :=
  Pipeline.Window.whole (Memref.whole main_v2) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_arg5) false false (stage0_4 0) (sem0_4 0) (Memref.isWhole_whole _) (hstage0_4 0)

abbrev win0_5 : Pipeline.Window sig grid0 :=
  Pipeline.Window.whole (Memref.whole main_arg6) false false (stage0_5 0) (sem0_5 0) (Memref.isWhole_whole _) (hstage0_5 0)

abbrev win0_6 : Pipeline.Window sig grid0 :=
  Pipeline.Window.whole (Memref.whole main_arg7) false false (stage0_6 0) (sem0_6 0) (Memref.isWhole_whole _) (hstage0_6 0)

abbrev win0_7 : Pipeline.Window sig grid0 :=
  Pipeline.Window.whole (Memref.whole main_arg8) false false (stage0_7 0) (sem0_7 0) (Memref.isWhole_whole _) (hstage0_7 0)

abbrev win0_8 : Pipeline.Window sig grid0 :=
  Pipeline.Window.whole (Memref.whole main_arg9) false false (stage0_8 0) (sem0_8 0) (Memref.isWhole_whole _) (hstage0_8 0)

abbrev win0_9 : Pipeline.Window sig grid0 :=
  Pipeline.Window.whole (Memref.whole main_v3) false false (stage0_9 0) (sem0_9 0) (Memref.isWhole_whole _) (hstage0_9 0)

abbrev win0_10 : Pipeline.Window sig grid0 :=
  Pipeline.Window.whole (Memref.whole main_arg11) false false (stage0_10 0) (sem0_10 0) (Memref.isWhole_whole _) (hstage0_10 0)

abbrev win0_11 : Pipeline.Window sig grid0 :=
  Pipeline.Window.whole (Memref.whole main_v4) false false (stage0_11 0) (sem0_11 0) (Memref.isWhole_whole _) (hstage0_11 0)

abbrev win0_12 : Pipeline.Window sig grid0 :=
  Pipeline.Window.whole (Memref.whole main_v5_0) true false (stage0_12 0) (sem0_12 0) (Memref.isWhole_whole _) (hstage0_12 0)

abbrev win0_13 : Pipeline.Window sig grid0 :=
  Pipeline.Window.whole (Memref.whole main_v5_1) true false (stage0_13 0) (sem0_13 0) (Memref.isWhole_whole _) (hstage0_13 0)

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v5_0) S10000x32.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S5000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S400x5000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S10000x32.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S5000x32.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond1 i == 1#1) && !(k1_cond4 i == 1#1) && !(k1_cond5 i == 1#1) | 4 => fun i => !(k1_cond1 i == 1#1) && !(k1_cond4 i == 1#1) && !(k1_cond5 i == 1#1) | ⟨_ + 5, h⟩ => absurd h (Nat.not_lt.2 (Nat.le_add_left _ _))

class Facts : Prop extends Facts₀ where

variable [Facts]
-- ==== ReferenceIdeal.lean ====
abbrev S10000x5000 : Shape := ⟨2, ![10000, 5000]⟩
abbrev S10000 : Shape := ⟨1, ![10000]⟩
abbrev S5000 : Shape := ⟨1, ![5000]⟩
abbrev S10000x32 : Shape := ⟨2, ![10000, 32]⟩
abbrev S5000x32 : Shape := ⟨2, ![5000, 32]⟩
abbrev S8x8 : Shape := ⟨2, ![8, 8]⟩
abbrev S16x8 : Shape := ⟨2, ![16, 8]⟩
abbrev S32x48 : Shape := ⟨2, ![32, 48]⟩
abbrev S32 : Shape := ⟨1, ![32]⟩
abbrev S32x40 : Shape := ⟨2, ![32, 40]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x8 : Shape := ⟨2, ![10000, 8]⟩
abbrev S5000x1 : Shape := ⟨2, ![5000, 1]⟩
abbrev S5000x8 : Shape := ⟨2, ![5000, 8]⟩
abbrev S10000x48 : Shape := ⟨2, ![10000, 48]⟩
abbrev S48x32 : Shape := ⟨2, ![48, 32]⟩
abbrev S1x32 : Shape := ⟨2, ![1, 32]⟩
abbrev S5000x40 : Shape := ⟨2, ![5000, 40]⟩
abbrev S40x32 : Shape := ⟨2, ![40, 32]⟩
abbrev S5000x10000 : Shape := ⟨2, ![5000, 10000]⟩
abbrev S10000x1x32 : Shape := ⟨3, ![10000, 1, 32]⟩
abbrev S10000x4x32 : Shape := ⟨3, ![10000, 4, 32]⟩
abbrev S5000x1x32 : Shape := ⟨3, ![5000, 1, 32]⟩
abbrev S5000x4x32 : Shape := ⟨3, ![5000, 4, 32]⟩

abbrev nBuf : Space → Nat
  | .hbm => 123
  | .vmem => 0
  | .smem => 0
  | _ => 0

abbrev bufTy : (tb : Table) → Fin (tcTables nBuf tb) → BufTy
  | .hbm, ⟨0, _⟩ => ⟨S10000x5000, .f32⟩
  | .hbm, ⟨1, _⟩ => ⟨S10000, .i32⟩
  | .hbm, ⟨2, _⟩ => ⟨S10000, .i32⟩
  | .hbm, ⟨3, _⟩ => ⟨S5000, .i32⟩
  | .hbm, ⟨4, _⟩ => ⟨S10000x32, .f32⟩
  | .hbm, ⟨5, _⟩ => ⟨S5000x32, .f32⟩
  | .hbm, ⟨6, _⟩ => ⟨S8x8, .f32⟩
  | .hbm, ⟨7, _⟩ => ⟨S8x8, .f32⟩
  | .hbm, ⟨8, _⟩ => ⟨S16x8, .f32⟩
  | .hbm, ⟨9, _⟩ => ⟨S32x48, .f32⟩
  | .hbm, ⟨10, _⟩ => ⟨S32, .f32⟩
  | .hbm, ⟨11, _⟩ => ⟨S32x40, .f32⟩
  | .hbm, ⟨12, _⟩ => ⟨S32, .f32⟩
  | .hbm, ⟨13, _⟩ => ⟨S_, .i32⟩
  | .hbm, ⟨14, _⟩ => ⟨S10000, .i32⟩
  | .hbm, ⟨15, _⟩ => ⟨S10000, .i1⟩
  | .hbm, ⟨16, _⟩ => ⟨S_, .i32⟩
  | .hbm, ⟨17, _⟩ => ⟨S10000, .i32⟩
  | .hbm, ⟨18, _⟩ => ⟨S10000, .i32⟩
  | .hbm, ⟨19, _⟩ => ⟨S10000, .i32⟩
  | .hbm, ⟨20, _⟩ => ⟨S10000x1, .i32⟩
  | .hbm, ⟨21, _⟩ => ⟨S1, .i32⟩
  | .hbm, ⟨22, _⟩ => ⟨S_, .i32⟩
  | .hbm, ⟨23, _⟩ => ⟨S10000x1, .i32⟩
  | .hbm, ⟨24, _⟩ => ⟨S10000x1, .i1⟩
  | .hbm, ⟨25, _⟩ => ⟨S1x1, .i32⟩
  | .hbm, ⟨26, _⟩ => ⟨S10000x1, .i32⟩
  | .hbm, ⟨27, _⟩ => ⟨S10000x1, .i1⟩
  | .hbm, ⟨28, _⟩ => ⟨S10000x1, .i1⟩
  | .hbm, ⟨29, _⟩ => ⟨S_, .i1⟩
  | .hbm, ⟨30, _⟩ => ⟨S10000, .i1⟩
  | .hbm, ⟨31, _⟩ => ⟨S10000x8, .f32⟩
  | .hbm, ⟨32, _⟩ => ⟨S10000x8, .i1⟩
  | .hbm, ⟨33, _⟩ => ⟨S_, .f32⟩
  | .hbm, ⟨34, _⟩ => ⟨S10000x8, .f32⟩
  | .hbm, ⟨35, _⟩ => ⟨S10000x8, .f32⟩
  | .hbm, ⟨36, _⟩ => ⟨S_, .i32⟩
  | .hbm, ⟨37, _⟩ => ⟨S10000, .i32⟩
  | .hbm, ⟨38, _⟩ => ⟨S10000, .i1⟩
  | .hbm, ⟨39, _⟩ => ⟨S_, .i32⟩
  | .hbm, ⟨40, _⟩ => ⟨S10000, .i32⟩
  | .hbm, ⟨41, _⟩ => ⟨S10000, .i32⟩
  | .hbm, ⟨42, _⟩ => ⟨S10000, .i32⟩
  | .hbm, ⟨43, _⟩ => ⟨S10000x1, .i32⟩
  | .hbm, ⟨44, _⟩ => ⟨S1, .i32⟩
  | .hbm, ⟨45, _⟩ => ⟨S_, .i32⟩
  | .hbm, ⟨46, _⟩ => ⟨S10000x1, .i32⟩
  | .hbm, ⟨47, _⟩ => ⟨S10000x1, .i1⟩
  | .hbm, ⟨48, _⟩ => ⟨S1x1, .i32⟩
  | .hbm, ⟨49, _⟩ => ⟨S10000x1, .i32⟩
  | .hbm, ⟨50, _⟩ => ⟨S10000x1, .i1⟩
  | .hbm, ⟨51, _⟩ => ⟨S10000x1, .i1⟩
  | .hbm, ⟨52, _⟩ => ⟨S_, .i1⟩
  | .hbm, ⟨53, _⟩ => ⟨S10000, .i1⟩
  | .hbm, ⟨54, _⟩ => ⟨S10000x8, .f32⟩
  | .hbm, ⟨55, _⟩ => ⟨S10000x8, .i1⟩
  | .hbm, ⟨56, _⟩ => ⟨S_, .f32⟩
  | .hbm, ⟨57, _⟩ => ⟨S10000x8, .f32⟩
  | .hbm, ⟨58, _⟩ => ⟨S10000x8, .f32⟩
  | .hbm, ⟨59, _⟩ => ⟨S_, .i32⟩
  | .hbm, ⟨60, _⟩ => ⟨S5000, .i32⟩
  | .hbm, ⟨61, _⟩ => ⟨S5000, .i1⟩
  | .hbm, ⟨62, _⟩ => ⟨S_, .i32⟩
  | .hbm, ⟨63, _⟩ => ⟨S5000, .i32⟩
  | .hbm, ⟨64, _⟩ => ⟨S5000, .i32⟩
  | .hbm, ⟨65, _⟩ => ⟨S5000, .i32⟩
  | .hbm, ⟨66, _⟩ => ⟨S5000x1, .i32⟩
  | .hbm, ⟨67, _⟩ => ⟨S1, .i32⟩
  | .hbm, ⟨68, _⟩ => ⟨S_, .i32⟩
  | .hbm, ⟨69, _⟩ => ⟨S5000x1, .i32⟩
  | .hbm, ⟨70, _⟩ => ⟨S5000x1, .i1⟩
  | .hbm, ⟨71, _⟩ => ⟨S1x1, .i32⟩
  | .hbm, ⟨72, _⟩ => ⟨S5000x1, .i32⟩
  | .hbm, ⟨73, _⟩ => ⟨S5000x1, .i1⟩
  | .hbm, ⟨74, _⟩ => ⟨S5000x1, .i1⟩
  | .hbm, ⟨75, _⟩ => ⟨S_, .i1⟩
  | .hbm, ⟨76, _⟩ => ⟨S5000, .i1⟩
  | .hbm, ⟨77, _⟩ => ⟨S5000x8, .f32⟩
  | .hbm, ⟨78, _⟩ => ⟨S5000x8, .i1⟩
  | .hbm, ⟨79, _⟩ => ⟨S_, .f32⟩
  | .hbm, ⟨80, _⟩ => ⟨S5000x8, .f32⟩
  | .hbm, ⟨81, _⟩ => ⟨S5000x8, .f32⟩
  | .hbm, ⟨82, _⟩ => ⟨S10000x48, .f32⟩
  | .hbm, ⟨83, _⟩ => ⟨S48x32, .f32⟩
  | .hbm, ⟨84, _⟩ => ⟨S10000x32, .f32⟩
  | .hbm, ⟨85, _⟩ => ⟨S1x32, .f32⟩
  | .hbm, ⟨86, _⟩ => ⟨S10000x32, .f32⟩
  | .hbm, ⟨87, _⟩ => ⟨S10000x32, .f32⟩
  | .hbm, ⟨88, _⟩ => ⟨S5000x40, .f32⟩
  | .hbm, ⟨89, _⟩ => ⟨S40x32, .f32⟩
  | .hbm, ⟨90, _⟩ => ⟨S5000x32, .f32⟩
  | .hbm, ⟨91, _⟩ => ⟨S1x32, .f32⟩
  | .hbm, ⟨92, _⟩ => ⟨S5000x32, .f32⟩
  | .hbm, ⟨93, _⟩ => ⟨S5000x32, .f32⟩
  | .hbm, ⟨94, _⟩ => ⟨S10000x32, .f32⟩
  | .hbm, ⟨95, _⟩ => ⟨S5000x10000, .f32⟩
  | .hbm, ⟨96, _⟩ => ⟨S5000x32, .f32⟩
  | .hbm, ⟨97, _⟩ => ⟨S10000x32, .f32⟩
  | .hbm, ⟨98, _⟩ => ⟨S5000x10000, .f32⟩
  | .hbm, ⟨99, _⟩ => ⟨S5000x32, .f32⟩
  | .hbm, ⟨100, _⟩ => ⟨S10000x32, .f32⟩
  | .hbm, ⟨101, _⟩ => ⟨S5000x10000, .f32⟩
  | .hbm, ⟨102, _⟩ => ⟨S5000x32, .f32⟩
  | .hbm, ⟨103, _⟩ => ⟨S10000x1x32, .f32⟩
  | .hbm, ⟨104, _⟩ => ⟨S10000x1x32, .f32⟩
  | .hbm, ⟨105, _⟩ => ⟨S10000x1x32, .f32⟩
  | .hbm, ⟨106, _⟩ => ⟨S10000x1x32, .f32⟩
  | .hbm, ⟨107, _⟩ => ⟨S10000x4x32, .f32⟩
  | .hbm, ⟨108, _⟩ => ⟨S_, .f32⟩
  | .hbm, ⟨109, _⟩ => ⟨S10000x32, .f32⟩
  | .hbm, ⟨110, _⟩ => ⟨S_, .f32⟩
  | .hbm, ⟨111, _⟩ => ⟨S10000x32, .f32⟩
  | .hbm, ⟨112, _⟩ => ⟨S10000x32, .f32⟩
  | .hbm, ⟨113, _⟩ => ⟨S5000x1x32, .f32⟩
  | .hbm, ⟨114, _⟩ => ⟨S5000x1x32, .f32⟩
  | .hbm, ⟨115, _⟩ => ⟨S5000x1x32, .f32⟩
  | .hbm, ⟨116, _⟩ => ⟨S5000x1x32, .f32⟩
  | .hbm, ⟨117, _⟩ => ⟨S5000x4x32, .f32⟩
  | .hbm, ⟨118, _⟩ => ⟨S_, .f32⟩
  | .hbm, ⟨119, _⟩ => ⟨S5000x32, .f32⟩
  | .hbm, ⟨120, _⟩ => ⟨S_, .f32⟩
  | .hbm, ⟨121, _⟩ => ⟨S5000x32, .f32⟩
  | .hbm, ⟨122, _⟩ => ⟨S5000x32, .f32⟩
  | _, _ => ⟨S10000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v1 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v2 : Ref sig .tc := ⟨.hbm, 81, rfl⟩
abbrev main_v3 : Ref sig .tc := ⟨.hbm, 82, rfl⟩
abbrev main_v4 : Ref sig .tc := ⟨.hbm, 83, rfl⟩
abbrev main_v5 : Ref sig .tc := ⟨.hbm, 84, rfl⟩
abbrev main_v6 : Ref sig .tc := ⟨.hbm, 85, rfl⟩
abbrev main_v7 : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_cst : Ref sig .tc := ⟨.hbm, 108, rfl⟩
abbrev main_v29 : Ref sig .tc := ⟨.hbm, 109, rfl⟩
abbrev main_cst_0 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_cst_1 : Ref sig .tc := ⟨.hbm, 118, rfl⟩
abbrev main_v37 : Ref sig .tc := ⟨.hbm, 119, rfl⟩
abbrev main_cst_2 : Ref sig .tc := ⟨.hbm, 120, rfl⟩
abbrev main_v38 : Ref sig .tc := ⟨.hbm, 121, rfl⟩
abbrev main_v39 : Ref sig .tc := ⟨.hbm, 122, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S10000_S10000x8_0 : S10000.BroadcastsInDim S10000x8 (![0] : Fin 1 → Fin S10000x8.rank)
  bcast_S_S10000x8 : S_.BroadcastsInDim S10000x8 (![] : Fin 0 → Fin S10000x8.rank)
  bcast_S_S5000 : S_.BroadcastsInDim S5000 (![] : Fin 0 → Fin S5000.rank)
  bcast_S5000_S5000x1_0 : S5000.BroadcastsInDim S5000x1 (![0] : Fin 1 → Fin S5000x1.rank)
  bcast_S_S5000x1 : S_.BroadcastsInDim S5000x1 (![] : Fin 0 → Fin S5000x1.rank)
  bcast_S1x1_S5000x1_0_1 : S1x1.BroadcastsInDim S5000x1 (![0, 1] : Fin 2 → Fin S5000x1.rank)
  reducesTo_S5000x1_S5000_d1 : S5000x1.ReducesTo [1] S5000
  bcast_S5000_S5000x8_0 : S5000.BroadcastsInDim S5000x8 (![0] : Fin 1 → Fin S5000x8.rank)
  bcast_S_S5000x8 : S_.BroadcastsInDim S5000x8 (![] : Fin 0 → Fin S5000x8.rank)
  concatenates_S10000x32_S10000x8_S10000x8_S10000x48_d1 : Shape.Concatenates [S10000x32, S10000x8, S10000x8] S10000x48 1
  transposes_S32x48_S48x32_1_0 : S32x48.Transposes [1, 0] S48x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  concatenates_S5000x32_S5000x8_S5000x40_d1 : Shape.Concatenates [S5000x32, S5000x8] S5000x40 1
  transposes_S32x40_S40x32_1_0 : S32x40.Transposes [1, 0] S40x32
  bcast_S1x32_S5000x32_0_1 : S1x32.BroadcastsInDim S5000x32 (![0, 1] : Fin 2 → Fin S5000x32.rank)
  transposes_S10000x5000_S5000x10000_1_0 : S10000x5000.Transposes [1, 0] S5000x10000
  bcast_S10000x32_S10000x1x32_0_2 : S10000x32.BroadcastsInDim S10000x1x32 (![0, 2] : Fin 2 → Fin S10000x1x32.rank)
  concatenates_S10000x1x32_S10000x1x32_S10000x1x32_S10000x1x32_S10000x4x32_d1 : Shape.Concatenates [S10000x1x32, S10000x1x32, S10000x1x32, S10000x1x32] S10000x4x32 1
  reducesTo_S10000x4x32_S10000x32_d1 : S10000x4x32.ReducesTo [1] S10000x32
  bcast_S_S10000x32 : S_.BroadcastsInDim S10000x32 (![] : Fin 0 → Fin S10000x32.rank)
  bcast_S5000x32_S5000x1x32_0_2 : S5000x32.BroadcastsInDim S5000x1x32 (![0, 2] : Fin 2 → Fin S5000x1x32.rank)
  concatenates_S5000x1x32_S5000x1x32_S5000x1x32_S5000x1x32_S5000x4x32_d1 : Shape.Concatenates [S5000x1x32, S5000x1x32, S5000x1x32, S5000x1x32] S5000x4x32 1
  reducesTo_S5000x4x32_S5000x32_d1 : S5000x4x32.ReducesTo [1] S5000x32
  bcast_S_S5000x32 : S_.BroadcastsInDim S5000x32 (![] : Fin 0 → Fin S5000x32.rank)
  gather_S8x8_S10000x1_S10000x8_1_0_n_n_0_1_18_wf : GatherDims.WF S8x8 S10000x1 S10000x8 [1] [0] [] [0] [] 1 ![1, 8]
  gather_S16x8_S5000x1_S5000x8_1_0_n_n_0_1_18_wf : GatherDims.WF S16x8 S5000x1 S5000x8 [1] [0] [] [0] [] 1 ![1, 8]
  dot_S10000x48_S48x32_S10000x32_1_0_0_1_n_n_wf : DotDims.WF S10000x48 S48x32 S10000x32 [1] [0] [0] [1] [] []
  dot_S5000x40_S40x32_S5000x32_1_0_0_1_n_n_wf : DotDims.WF S5000x40 S40x32 S5000x32 [1] [0] [0] [1] [] []
  dot_S10000x5000_S5000x32_S10000x32_1_0_0_1_n_n_wf : DotDims.WF S10000x5000 S5000x32 S10000x32 [1] [0] [0] [1] [] []
  dot_S5000x10000_S10000x32_S5000x32_1_0_0_1_n_n_wf : DotDims.WF S5000x10000 S10000x32 S5000x32 [1] [0] [0] [1] [] []

variable [Facts₀]

def gather_S8x8_S10000x1_S10000x8_1_0_n_n_0_1_18 : GatherDims S8x8 S10000x1 S10000x8 where
  offsetDims := [1]
  collapsedSliceDims := [0]
  operandBatchingDims := []
  startIndicesBatchingDims := []
  startIndexMap := [0]
  indexVectorDim := 1
  sliceSizes := ![1, 8]
  wf := gather_S8x8_S10000x1_S10000x8_1_0_n_n_0_1_18_wf
def gather_S16x8_S5000x1_S5000x8_1_0_n_n_0_1_18 : GatherDims S16x8 S5000x1 S5000x8 where
  offsetDims := [1]
  collapsedSliceDims := [0]
  operandBatchingDims := []
  startIndicesBatchingDims := []
  startIndexMap := [0]
  indexVectorDim := 1
  sliceSizes := ![1, 8]
  wf := gather_S16x8_S5000x1_S5000x8_1_0_n_n_0_1_18_wf
def dot_S10000x48_S48x32_S10000x32_1_0_0_1_n_n : DotDims S10000x48 S48x32 S10000x32 where
  lhsContracting := [1]
  rhsContracting := [0]
  lhsNonContracting := [0]
  rhsNonContracting := [1]
  lhsBatch := []
  rhsBatch := []
  wf := dot_S10000x48_S48x32_S10000x32_1_0_0_1_n_n_wf
def dot_S5000x40_S40x32_S5000x32_1_0_0_1_n_n : DotDims S5000x40 S40x32 S5000x32 where
  lhsContracting := [1]
  rhsContracting := [0]
  lhsNonContracting := [0]
  rhsNonContracting := [1]
  lhsBatch := []
  rhsBatch := []
  wf := dot_S5000x40_S40x32_S5000x32_1_0_0_1_n_n_wf
def dot_S10000x5000_S5000x32_S10000x32_1_0_0_1_n_n : DotDims S10000x5000 S5000x32 S10000x32 where
  lhsContracting := [1]
  rhsContracting := [0]
  lhsNonContracting := [0]
  rhsNonContracting := [1]
  lhsBatch := []
  rhsBatch := []
  wf := dot_S10000x5000_S5000x32_S10000x32_1_0_0_1_n_n_wf
def dot_S5000x10000_S10000x32_S5000x32_1_0_0_1_n_n : DotDims S5000x10000 S10000x32 S5000x32 where
  lhsContracting := [1]
  rhsContracting := [0]
  lhsNonContracting := [0]
  rhsNonContracting := [1]
  lhsBatch := []
  rhsBatch := []
  wf := dot_S5000x10000_S10000x32_S5000x32_1_0_0_1_n_n_wf

class Facts : Prop extends Facts₀ where

variable [Facts]
-- ==== Proof.K.Region0.lean ====
/-
  The first launch of the program ("enrich"): one point, fourteen windows, every window's block the whole array.

  The body reads the three index columns, the two embedding arrays, the three feature tables, the two weight matrices
  and the two bias rows, and stores two arrays: the layer-0 user embeddings (window 12) and the layer-0 item embeddings
  (window 13). Here, for any float instance: what the body leaves in the two output buffers as a function of the twelve
  input buffers, the Hoare triple of the body, the proof data of the launch, and the body obligation the launch
  theorems ask for. Everything is stated at a parameter `V`, the buffer contents when the launch is entered.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the launch is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block whenever the body is called, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block whenever the body is called, for any proof data whose array is
    `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block whenever the body is called, for any proof data whose array is
    `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block whenever the body is called, for any proof data whose array is
    `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block whenever the body is called, for any proof data whose array is
    `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block whenever the body is called, for any proof data whose array is
    `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block whenever the body is called, for any proof data whose array is
    `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block whenever the body is called, for any proof data whose array is
    `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block whenever the body is called, for any proof data whose array is
    `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block whenever the body is called, for any proof data whose array is
    `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block whenever the body is called, for any proof data whose array is
    `V`'s and whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block whenever the body is called, for any proof data whose array is
    `V`'s and whose body leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev whole_S10000x1 : Rect S10000x1 := Rect.unit (s := S10000x1) ![0, 0] S10000x1.size Gen.inb_S10000x1_S10000x1_0_0
abbrev whole_S5000x1 : Rect S5000x1 := Rect.unit (s := S5000x1) ![0, 0] S5000x1.size Gen.inb_S5000x1_S5000x1_0_0
abbrev whole_S10000x32 : Rect S10000x32 := Rect.unit (s := S10000x32) ![0, 0] S10000x32.size Gen.inb_S10000x32_S10000x32_0_0
abbrev whole_S5000x32 : Rect S5000x32 := Rect.unit (s := S5000x32) ![0, 0] S5000x32.size Gen.inb_S5000x32_S5000x32_0_0
abbrev whole_S8x8 : Rect S8x8 := Rect.unit (s := S8x8) ![0, 0] S8x8.size Gen.inb_S8x8_S8x8_0_0
abbrev whole_S16x8 : Rect S16x8 := Rect.unit (s := S16x8) ![0, 0] S16x8.size Gen.inb_S16x8_S16x8_0_0
abbrev whole_S32x48 : Rect S32x48 := Rect.unit (s := S32x48) ![0, 0] S32x48.size Gen.inb_S32x48_S32x48_0_0
abbrev whole_S1x32 : Rect S1x32 := Rect.unit (s := S1x32) ![0, 0] S1x32.size Gen.inb_S1x32_S1x32_0_0
abbrev whole_S32x40 : Rect S32x40 := Rect.unit (s := S32x40) ![0, 0] S32x40.size Gen.inb_S32x40_S32x40_0_0

/-! ## What the body leaves in the two output buffers -/

/-- The user-side buffer (window 12) after the body, from the twelve input buffers: one store of the whole buffer, whose
    value is the bias row added to the sum of three projections (own embedding, first feature row, second feature row). -/
def out0_12 (x0 : Vec F S10000x1 .i32) (x1 : Vec F S10000x1 .i32) (x2 : Vec F S5000x1 .i32) (x3 : Vec F S10000x32 .f32) (x4 : Vec F S5000x32 .f32) (x5 : Vec F S8x8 .f32) (x6 : Vec F S8x8 .f32) (x7 : Vec F S16x8 .f32) (x8 : Vec F S32x48 .f32) (x9 : Vec F S1x32 .f32) (x10 : Vec F S32x40 .f32) (x11 : Vec F S1x32 .f32) : Vec F S10000x32 .f32 :=
  View.canon [⟨whole_S10000x32, k0_pay1 (k0_pay4 (View.ld x0 whole_S10000x1) (View.ld x5 whole_S8x8) (View.ld x1 whole_S10000x1) (View.ld x6 whole_S8x8) (View.ld x8 whole_S32x48) (View.ld x3 whole_S10000x32)) (View.ld x9 whole_S1x32)⟩]

/-- The one store covers the buffer. -/
theorem cover0_12 (p0 : Vec F S10000x32 .f32) (y : S10000x32.Idx) :
    ∃ pc ∈ ([⟨whole_S10000x32, p0⟩] : List (View.Piece (Elt F) S10000x32 .f32)), y ∈ pc.1.set :=
  View.cover_of_tiled [⟨whole_S10000x32, p0⟩] S10000x32.size (by rfl) y

/-- The item-side buffer (window 13) after the body: one store of the whole buffer, the bias row added to the sum of two
    projections (own embedding, feature row). -/
def out0_13 (x0 : Vec F S10000x1 .i32) (x1 : Vec F S10000x1 .i32) (x2 : Vec F S5000x1 .i32) (x3 : Vec F S10000x32 .f32) (x4 : Vec F S5000x32 .f32) (x5 : Vec F S8x8 .f32) (x6 : Vec F S8x8 .f32) (x7 : Vec F S16x8 .f32) (x8 : Vec F S32x48 .f32) (x9 : Vec F S1x32 .f32) (x10 : Vec F S32x40 .f32) (x11 : Vec F S1x32 .f32) : Vec F S5000x32 .f32 :=
  View.canon [⟨whole_S5000x32, k0_pay2 (k0_pay3 (View.ld x2 whole_S5000x1) (View.ld x7 whole_S16x8)) (View.ld x10 whole_S32x40) (View.ld x4 whole_S5000x32) (View.ld x11 whole_S1x32)⟩]

/-- The one store covers the buffer. -/
theorem cover0_13 (p0 : Vec F S5000x32 .f32) (y : S5000x32.Idx) :
    ∃ pc ∈ ([⟨whole_S5000x32, p0⟩] : List (View.Piece (Elt F) S5000x32 .f32)), y ∈ pc.1.set :=
  View.cover_of_tiled [⟨whole_S5000x32, p0⟩] S5000x32.size (by rfl) y

/-! ## The body's triple -/

set_option maxHeartbeats 1000000 in
/-- The body on whole staging buffers, the inputs' at contents `xW` and the outputs' at anything, runs to the continuation
    holding the inputs' as they were and the two outputs' at `out0_12`, `out0_13` of the inputs'. -/
theorem sound_kernel0 (c : Dev nD) (E : Set ℕ) (arg0 : Memref sig .tc .vmem S10000x1 .i32) (harg0 : arg0.IsWhole) (arg1 : Memref sig .tc .vmem S10000x1 .i32) (harg1 : arg1.IsWhole) (arg2 : Memref sig .tc .vmem S5000x1 .i32) (harg2 : arg2.IsWhole) (arg3 : Memref sig .tc .vmem S10000x32 .f32) (harg3 : arg3.IsWhole) (arg4 : Memref sig .tc .vmem S5000x32 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S16x8 .f32) (harg7 : arg7.IsWhole) (arg8 : Memref sig .tc .vmem S32x48 .f32) (harg8 : arg8.IsWhole) (arg9 : Memref sig .tc .vmem S1x32 .f32) (harg9 : arg9.IsWhole) (arg10 : Memref sig .tc .vmem S32x40 .f32) (harg10 : arg10.IsWhole) (arg11 : Memref sig .tc .vmem S1x32 .f32) (harg11 : arg11.IsWhole) (arg12 : Memref sig .tc .vmem S10000x32 .f32) (harg12 : arg12.IsWhole) (arg13 : Memref sig .tc .vmem S5000x32 .f32) (harg13 : arg13.IsWhole)
    (x0 : Vec F S10000x1 .i32) (x1 : Vec F S10000x1 .i32) (x2 : Vec F S5000x1 .i32) (x3 : Vec F S10000x32 .f32) (x4 : Vec F S5000x32 .f32) (x5 : Vec F S8x8 .f32) (x6 : Vec F S8x8 .f32) (x7 : Vec F S16x8 .f32) (x8 : Vec F S32x48 .f32) (x9 : Vec F S1x32 .f32) (x10 : Vec F S32x40 .f32) (x11 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out0_12 x0 x1 x2 x3 x4 x5 x6 x7 x8 x9 x10 x11) ∗ owns (c : Thread nD τ) arg13 fullShare (out0_13 x0 x1 x2 x3 x4 x5 x6 x7 x8 x9 x10 x11)) -∗ K ⟨⟩))
      ⊢ wp frame (wpE (defs₀ (F := F)) Variants.none c none) E (cc0__enrich_kernel arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__enrich_kernel_eq_skeleton]; unfold cc0__enrich_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The launch's proof data -/

/-- The proof data of the launch on core `c`: the arrays as the launch finds them; after the body each input's buffer at
    its block and the two outputs' at `out0_12`, `out0_13` of the input blocks; the invariant is the untouched rest;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-- Each input's staging buffer holds its block whenever the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The launch theorems' body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.LibWholeStoreColumnCast.lean ====
/-
  Two small general facts about laid-out data, used by this certificate and independent of any program.
-/
import Idealize.ShloMosaic.Lib.Pipeline.FrameBody
import Idealize.ShloMosaic.Lib.Pipeline.Value
import Idealize.ShloMosaic.Lib.ValueIdx

noncomputable section

namespace Cert.Lib

open Idealize.ShloMosaic Idealize.ShloMosaic.ValueIdx

/-- A store through the whole of a buffer, made LAST, reads back as its payload — whatever the earlier stores `L` through
    the same view were and whatever the buffer held before (`f`), and however the zero offsets are spelt (`h`). The
    read-back form of `View.canon_cons_unit_zero`: it needs no cover argument and no detour through `View.canon`, so it
    applies directly to what a symbolic run leaves for a buffer whose last store was a whole-block store. -/
theorem read_writes_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A length-`a` array cast to `[a, 1]` (a column) reads, at `(i, u)`, the operand at `i`, whatever the unit coordinate
    `u`: the companion of the library's `shapeCast_a_1a_apply` (the row form `[a] → [1, a]`). -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.K.R1Base.lean ====
/-
  Region 1 (the propagation kernel on its 3 × 25 grid), shared vocabulary: the five branch conditions of the body as
  propositions over the grid coordinates and in closed form over the 75 points (point t is layer t / 25, row block
  t % 25); the row block's offset; the four scratch buffers; and what a store through the whole of a buffer leaves.
-/
import proofs.«129974_g1760936592044_cont_8to1_853_2_alg».proof.Proof.LibWholeStoreColumnCast
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- first point of the whole grid: the carried buffers and the two results are initialised -/
abbrev c1 (i : grid1.Coords) : Prop := k1_cond1 i = 1#1
/-- first row block of a layer: the item-side accumulator is overwritten -/
abbrev c2 (i : grid1.Coords) : Prop := (Scalar.cmpi .ne (Scalar.extui (Scalar.cmpi .eq (BitVec.ofNat 32 (i 1).val) 0#32)) 0#32) = 1#1
/-- a later row block of a layer: the item-side accumulator is added to -/
abbrev c3 (i : grid1.Coords) : Prop := (Scalar.cmpi .ne (Scalar.extui (Scalar.cmpi .sgt (BitVec.ofNat 32 (i 1).val) 0#32)) 0#32) = 1#1
/-- last row block of a layer: the layer is added to the results and becomes the current one -/
abbrev c4 (i : grid1.Coords) : Prop := k1_cond4 i = 1#1
/-- last point of the whole grid: the results are scaled -/
abbrev c5 (i : grid1.Coords) : Prop := k1_cond5 i = 1#1

theorem hc1 : ∀ t : Fin cfg1.N, c1 (grid1.coords t) ↔ t.val = 0 :=
  (by decide +kernel : ∀ t : Fin grid1.N, c1 (grid1.coords t) ↔ t.val = 0)
theorem hc2 : ∀ t : Fin cfg1.N, c2 (grid1.coords t) ↔ t.val % 25 = 0 :=
  (by decide +kernel : ∀ t : Fin grid1.N, c2 (grid1.coords t) ↔ t.val % 25 = 0)
theorem hc3 : ∀ t : Fin cfg1.N, c3 (grid1.coords t) ↔ 1 ≤ t.val % 25 :=
  (by decide +kernel : ∀ t : Fin grid1.N, c3 (grid1.coords t) ↔ 1 ≤ t.val % 25)
theorem hc4 : ∀ t : Fin cfg1.N, c4 (grid1.coords t) ↔ t.val % 25 = 24 :=
  (by decide +kernel : ∀ t : Fin grid1.N, c4 (grid1.coords t) ↔ t.val % 25 = 24)
theorem hc5 : ∀ t : Fin cfg1.N, c5 (grid1.coords t) ↔ t.val = 74 :=
  (by decide +kernel : ∀ t : Fin grid1.N, c5 (grid1.coords t) ↔ t.val = 74)

/-- The row block of point t starts at row 400 · (t % 25). -/
theorem hoff : ∀ t : Fin cfg1.N, k1_off1 (grid1.coords t) = ![400 * (t.val % 25), 0] :=
  (by decide +kernel : ∀ t : Fin grid1.N, k1_off1 (grid1.coords t) = ![400 * (t.val % 25), 0])

/-! ## The scratch buffers, and the rows a point works on -/

/-- current users -/
abbrev sc7 : Memref sig .tc .vmem S10000x32 .f32 := Memref.whole cc1_scratch0
/-- current items -/
abbrev sc8 : Memref sig .tc .vmem S5000x32 .f32 := Memref.whole cc1_scratch1
/-- next users, filled a row block per point -/
abbrev sc9 : Memref sig .tc .vmem S10000x32 .f32 := Memref.whole cc1_scratch2
/-- next items, accumulated over the points of a layer -/
abbrev sc10 : Memref sig .tc .vmem S5000x32 .f32 := Memref.whole cc1_scratch3

theorem hsc7 : sc7.IsWhole := Memref.isWhole_whole _
theorem hsc8 : sc8.IsWhole := Memref.isWhole_whole _
theorem hsc9 : sc9.IsWhole := Memref.isWhole_whole _
theorem hsc10 : sc10.IsWhole := Memref.isWhole_whole _

/-- The 400 rows of the user-side buffers that the point at coordinates `i` reads and writes. -/
abbrev rowsRect (i : grid1.Coords) : Rect S10000x32 := Rect.unit (s := S10000x32) (k1_off1 i) S400x32.size (k1_off1_inb i)

/-- The next-users buffer after the point's store: the row block overwritten by `p`, every other row as in `x`. -/
def upd9 (i : grid1.Coords) (x : Vec F S10000x32 .f32) (p : Vec F S400x32 .f32) : Vec F S10000x32 .f32 :=
  sc9.view.read (Elt F) (sc9.view.writes (Elt F) (hsc9.unread x) [⟨rowsRect i, p⟩])

theorem hz2 : (![0, 0] : Fin 2 → Nat) = fun _ => 0 := by
  funext a; match a with | ⟨0, _⟩ => rfl | ⟨1, _⟩ => rfl

-- a last store through the whole of a buffer reads back as its payload: the general lemma, under this namespace's name
export Cert.Lib (read_writes_unit_zero)

/-- Reading back the whole of a scratch buffer whose contents are `x` gives `x` (stated at the buffer's own view). -/
theorem read_unread7 (x : Vec F S10000x32 .f32) : View.read (Elt F) (View.whole cc1_scratch0) (hsc7.unread x) = x := hsc7.read_unread x
theorem read_unread8 (x : Vec F S5000x32 .f32) : View.read (Elt F) (View.whole cc1_scratch1) (hsc8.unread x) = x := hsc8.read_unread x
theorem read_unread9 (x : Vec F S10000x32 .f32) : View.read (Elt F) (View.whole cc1_scratch2) (hsc9.unread x) = x := hsc9.read_unread x
theorem read_unread10 (x : Vec F S5000x32 .f32) : View.read (Elt F) (View.whole cc1_scratch3) (hsc10.unread x) = x := hsc10.read_unread x

end Cert.Kernel.Hand

end
-- ==== Proof.K.R1RunA.lean ====
/-
  Region 1, the body at a point of one control case. The first point of the grid: the current embeddings and both results are set to the layer-0 embeddings; the row block of the next users is computed from the current items; the next-items accumulator is overwritten with this block's contribution.
  The triple is stated over the contents of all nine buffers the body is handed (three input blocks, the two results'
  blocks, four scratch buffers) and names what each holds afterwards through the body's own arithmetic.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_A (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : c1 i) (hc2 : c2 i) (hc3 : ¬c3 i) (hc4 : ¬c4 i) (hc5 : ¬c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (k1_pay3 x2)
            ∗ owns (c : Thread nD τ) arg6 fullShare (k1_pay4 x3)
            ∗ owns (c : Thread nD τ) sc7 fullShare (k1_pay1 x2)
            ∗ owns (c : Thread nD τ) sc8 fullShare (k1_pay2 x3)
            ∗ owns (c : Thread nD τ) sc9 fullShare (upd9 i x9 (k1_pay5 x4 (k1_pay2 x3)))
            ∗ owns (c : Thread nD τ) sc10 fullShare (k1_pay7 x4 (View.ld (k1_pay1 (F := F) x2) (rowsRect i)))) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H6]
  · iexists _; isplitr; swap; · iexact H6
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H7]
  · iexists _; isplitr; swap; · iexact H7
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H8]
  · iexists _; isplitr; swap; · iexact H8
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H9]
  · iexists _; isplitr; swap; · iexact H9
    ipureintro
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  sl_unfold_run_names
  simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]

end Cert.Kernel.Hand

end
-- ==== Proof.K.R1RunB.lean ====
/-
  Region 1, the body at a point of one control case. The first row block of a later layer: the row block of the next users is computed; the next-items accumulator is overwritten with this block's contribution; the results are not touched.
  The triple is stated over the contents of all nine buffers the body is handed (three input blocks, the two results'
  blocks, four scratch buffers) and names what each holds afterwards through the body's own arithmetic.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_B (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : ¬c1 i) (hc2 : c2 i) (hc3 : ¬c3 i) (hc4 : ¬c4 i) (hc5 : ¬c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (x5)
            ∗ owns (c : Thread nD τ) arg6 fullShare (x6)
            ∗ owns (c : Thread nD τ) sc7 fullShare (x7)
            ∗ owns (c : Thread nD τ) sc8 fullShare (x8)
            ∗ owns (c : Thread nD τ) sc9 fullShare (upd9 i x9 (k1_pay5 x4 x8))
            ∗ owns (c : Thread nD τ) sc10 fullShare (k1_pay7 x4 (View.ld x7 (rowsRect i)))) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact hsc7.read_unread _
  isplitl [H8]
  · iexists _; isplitr; swap; · iexact H8
    ipureintro
    exact hsc8.read_unread _
  isplitl [H9]
  · iexists _; isplitr; swap; · iexact H9
    ipureintro
    simp only [upd9, rowsRect, View.readAt_eq_ld, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  simp only [upd9, rowsRect, View.readAt_eq_ld, read_unread7, read_unread8, read_unread9, read_unread10, Memref.IsWhole.read_unread, View.ld_unit_zero (S := S400x5000) hz2, View.ld_unit_zero (S := S5000x32) hz2, View.ld_unit_zero (S := S10000x32) hz2]

end Cert.Kernel.Hand

end
-- ==== Proof.K.R1RunC.lean ====
/-
  Region 1, the body at a point of one control case. A middle row block: the row block of the next users is computed; this block's contribution is added to the next-items accumulator; the results are not touched.
  The triple is stated over the contents of all nine buffers the body is handed (three input blocks, the two results'
  blocks, four scratch buffers) and names what each holds afterwards through the body's own arithmetic.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_C (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : ¬c1 i) (hc2 : ¬c2 i) (hc3 : c3 i) (hc4 : ¬c4 i) (hc5 : ¬c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (x5)
            ∗ owns (c : Thread nD τ) arg6 fullShare (x6)
            ∗ owns (c : Thread nD τ) sc7 fullShare (x7)
            ∗ owns (c : Thread nD τ) sc8 fullShare (x8)
            ∗ owns (c : Thread nD τ) sc9 fullShare (upd9 i x9 (k1_pay5 x4 x8))
            ∗ owns (c : Thread nD τ) sc10 fullShare (k1_pay8 x4 (View.ld x7 (rowsRect i)) x10)) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact hsc7.read_unread _
  isplitl [H8]
  · iexists _; isplitr; swap; · iexact H8
    ipureintro
    exact hsc8.read_unread _
  isplitl [H9]
  · iexists _; isplitr; swap; · iexact H9
    ipureintro
    simp only [upd9, rowsRect, View.readAt_eq_ld, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  simp only [upd9, rowsRect, View.readAt_eq_ld, read_unread7, read_unread8, read_unread9, read_unread10, Memref.IsWhole.read_unread, View.ld_unit_zero (S := S400x5000) hz2, View.ld_unit_zero (S := S5000x32) hz2, View.ld_unit_zero (S := S10000x32) hz2]

end Cert.Kernel.Hand

end
-- ==== Proof.K.R1RunD.lean ====
/-
  Region 1, the body at a point of one control case. The last row block of the first or second layer: after the block's two updates the finished layer is added to the results and becomes the current embeddings.
  The triple is stated over the contents of all nine buffers the body is handed (three input blocks, the two results'
  blocks, four scratch buffers) and names what each holds afterwards through the body's own arithmetic.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_D (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : ¬c1 i) (hc2 : ¬c2 i) (hc3 : c3 i) (hc4 : c4 i) (hc5 : ¬c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (k1_pay9 x5 (upd9 i x9 (k1_pay5 x4 x8)))
            ∗ owns (c : Thread nD τ) arg6 fullShare (k1_pay10 x6 (k1_pay8 x4 (View.ld x7 (rowsRect i)) x10))
            ∗ owns (c : Thread nD τ) sc7 fullShare (k1_pay11 (upd9 i x9 (k1_pay5 x4 x8)))
            ∗ owns (c : Thread nD τ) sc8 fullShare (k1_pay12 (k1_pay8 x4 (View.ld x7 (rowsRect i)) x10))
            ∗ owns (c : Thread nD τ) sc9 fullShare (upd9 i x9 (k1_pay5 x4 x8))
            ∗ owns (c : Thread nD τ) sc10 fullShare (k1_pay8 x4 (View.ld x7 (rowsRect i)) x10)) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H6]
  · iexists _; isplitr; swap; · iexact H6
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H7]
  · iexists _; isplitr; swap; · iexact H7
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H8]
  · iexists _; isplitr; swap; · iexact H8
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H9]
  · iexists _; isplitr; swap; · iexact H9
    ipureintro
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  sl_unfold_run_names
  simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]

end Cert.Kernel.Hand

end
-- ==== Proof.K.R1RunE.lean ====
/-
  Region 1, the body at a point of one control case. The last point of the grid: as at the end of any layer, and then both results are scaled.
  The triple is stated over the contents of all nine buffers the body is handed (three input blocks, the two results'
  blocks, four scratch buffers) and names what each holds afterwards through the body's own arithmetic.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_E (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : ¬c1 i) (hc2 : ¬c2 i) (hc3 : c3 i) (hc4 : c4 i) (hc5 : c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (k1_pay13 (k1_pay9 x5 (upd9 i x9 (k1_pay5 x4 x8))))
            ∗ owns (c : Thread nD τ) arg6 fullShare (k1_pay14 (k1_pay10 x6 (k1_pay8 x4 (View.ld x7 (rowsRect i)) x10)))
            ∗ owns (c : Thread nD τ) sc7 fullShare (k1_pay11 (upd9 i x9 (k1_pay5 x4 x8)))
            ∗ owns (c : Thread nD τ) sc8 fullShare (k1_pay12 (k1_pay8 x4 (View.ld x7 (rowsRect i)) x10))
            ∗ owns (c : Thread nD τ) sc9 fullShare (upd9 i x9 (k1_pay5 x4 x8))
            ∗ owns (c : Thread nD τ) sc10 fullShare (k1_pay8 x4 (View.ld x7 (rowsRect i)) x10)) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H6]
  · iexists _; isplitr; swap; · iexact H6
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H7]
  · iexists _; isplitr; swap; · iexact H7
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H8]
  · iexists _; isplitr; swap; · iexact H8
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H9]
  · iexists _; isplitr; swap; · iexact H9
    ipureintro
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  sl_unfold_run_names
  simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]

end Cert.Kernel.Hand

end
-- ==== Proof.K.R1State.lean ====
/-
  Region 1: what the buffers hold after each of the 75 points, as explicit functions of the two input arrays (the layer-0
  user and item embeddings the region is entered with) and the 75 row blocks of the adjacency matrix — written with the
  body's own arithmetic, for any float instance.

  Point n is row block n % 25 of layer n / 25. After point n:
    * the results, the current users and the current items are those of the layer in progress, replaced at the last row
      block of a layer by the layer just finished (and the results scaled at the very last point);
    * the next-items accumulator is the sum of the contributions of the row blocks 0 … n % 25 of the layer;
    * the next-users buffer holds, in the row blocks 0 … n % 25, the products of those adjacency blocks with the current
      items (its other rows are not described: they are overwritten before they are read).
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1Base
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Point number `n` of the grid (numbers from 75 on wrap around; only n < 75 is used). -/
def pt (n : ℕ) : Fin cfg1.N := ⟨n % 75, lt_of_lt_of_eq (Nat.mod_lt n (by decide)) N_1.symm⟩

theorem pt_val (t : Fin cfg1.N) : pt t.val = t :=
  Fin.ext (Nat.mod_eq_of_lt (lt_of_lt_of_eq t.isLt N_1))

/-- The grid coordinates of point number `n`. -/
def cd (n : ℕ) : grid1.Coords := grid1.coords (pt n)

theorem cd_val (t : Fin cfg1.N) : cd t.val = grid1.coords t := by unfold cd; rw [pt_val]

/-- The five buffers whose contents are named outright after each point. -/
structure PtState (F : FTy → Type) where
  /-- first result -/
  uo : Vec F S10000x32 .f32
  /-- second result -/
  io : Vec F S5000x32 .f32
  /-- current users -/
  uc : Vec F S10000x32 .f32
  /-- current items -/
  ic : Vec F S5000x32 .f32
  /-- next-items accumulator -/
  inx : Vec F S5000x32 .f32

section State

variable (eu : Vec F S10000x32 .f32) (ei : Vec F S5000x32 .f32) (A : ℕ → Vec F S400x5000 .f32)

/-- The next users of the layer that ends at point `m` (so m % 25 = 24): row r is computed by the point of row block
    r / 400 of that layer, from that block of the adjacency matrix and the layer's current items `ic`. -/
def unAt (m : ℕ) (ic : Vec F S5000x32 .f32) : Vec F S10000x32 .f32 :=
  fun y => k1_pay5 (A (m - 24 + (y 0).val / 400)) ic
    (ix2 (⟨(y 0).val % 400, Nat.mod_lt _ (by decide)⟩ : Fin 400) (⟨(y 1).val, idx2_lt1 y⟩ : Fin 32))

/-- The named buffers after point `n`. -/
def stateAt : ℕ → PtState F
  | 0 =>
    { uo := k1_pay3 eu, io := k1_pay4 ei, uc := k1_pay1 eu, ic := k1_pay2 ei,
      inx := k1_pay7 (A 0) (View.ld (k1_pay1 (F := F) eu) (rowsRect (cd 0))) }
  | n + 1 =>
    if (n + 1) % 25 = 0 then
      { uo := (stateAt n).uo, io := (stateAt n).io, uc := (stateAt n).uc, ic := (stateAt n).ic,
        inx := k1_pay7 (A (n + 1)) (View.ld (stateAt n).uc (rowsRect (cd (n + 1)))) }
    else if (n + 1) % 25 = 24 then
      if n + 1 = 74 then
        { uo := k1_pay13 (k1_pay9 (stateAt n).uo (unAt A (n + 1) (stateAt n).ic)),
          io := k1_pay14 (k1_pay10 (stateAt n).io (k1_pay8 (A (n + 1)) (View.ld (stateAt n).uc (rowsRect (cd (n + 1)))) (stateAt n).inx)),
          uc := k1_pay11 (unAt A (n + 1) (stateAt n).ic),
          ic := k1_pay12 (k1_pay8 (A (n + 1)) (View.ld (stateAt n).uc (rowsRect (cd (n + 1)))) (stateAt n).inx),
          inx := k1_pay8 (A (n + 1)) (View.ld (stateAt n).uc (rowsRect (cd (n + 1)))) (stateAt n).inx }
      else
        { uo := k1_pay9 (stateAt n).uo (unAt A (n + 1) (stateAt n).ic),
          io := k1_pay10 (stateAt n).io (k1_pay8 (A (n + 1)) (View.ld (stateAt n).uc (rowsRect (cd (n + 1)))) (stateAt n).inx),
          uc := k1_pay11 (unAt A (n + 1) (stateAt n).ic),
          ic := k1_pay12 (k1_pay8 (A (n + 1)) (View.ld (stateAt n).uc (rowsRect (cd (n + 1)))) (stateAt n).inx),
          inx := k1_pay8 (A (n + 1)) (View.ld (stateAt n).uc (rowsRect (cd (n + 1)))) (stateAt n).inx }
    else
      { uo := (stateAt n).uo, io := (stateAt n).io, uc := (stateAt n).uc, ic := (stateAt n).ic,
        inx := k1_pay8 (A (n + 1)) (View.ld (stateAt n).uc (rowsRect (cd (n + 1)))) (stateAt n).inx }

theorem stateAt_first (n : ℕ) (h : (n + 1) % 25 = 0) : stateAt eu ei A (n + 1) =
    { uo := (stateAt eu ei A n).uo, io := (stateAt eu ei A n).io, uc := (stateAt eu ei A n).uc, ic := (stateAt eu ei A n).ic,
      inx := k1_pay7 (A (n + 1)) (View.ld (stateAt eu ei A n).uc (rowsRect (cd (n + 1)))) } := by
  rw [stateAt, if_pos h]

theorem stateAt_mid (n : ℕ) (h0 : (n + 1) % 25 ≠ 0) (h24 : (n + 1) % 25 ≠ 24) : stateAt eu ei A (n + 1) =
    { uo := (stateAt eu ei A n).uo, io := (stateAt eu ei A n).io, uc := (stateAt eu ei A n).uc, ic := (stateAt eu ei A n).ic,
      inx := k1_pay8 (A (n + 1)) (View.ld (stateAt eu ei A n).uc (rowsRect (cd (n + 1)))) (stateAt eu ei A n).inx } := by
  rw [stateAt, if_neg h0, if_neg h24]

theorem stateAt_layerEnd (n : ℕ) (h24 : (n + 1) % 25 = 24) (hl : n + 1 ≠ 74) : stateAt eu ei A (n + 1) =
    { uo := k1_pay9 (stateAt eu ei A n).uo (unAt A (n + 1) (stateAt eu ei A n).ic),
      io := k1_pay10 (stateAt eu ei A n).io (k1_pay8 (A (n + 1)) (View.ld (stateAt eu ei A n).uc (rowsRect (cd (n + 1)))) (stateAt eu ei A n).inx),
      uc := k1_pay11 (unAt A (n + 1) (stateAt eu ei A n).ic),
      ic := k1_pay12 (k1_pay8 (A (n + 1)) (View.ld (stateAt eu ei A n).uc (rowsRect (cd (n + 1)))) (stateAt eu ei A n).inx),
      inx := k1_pay8 (A (n + 1)) (View.ld (stateAt eu ei A n).uc (rowsRect (cd (n + 1)))) (stateAt eu ei A n).inx } := by
  rw [stateAt, if_neg (by omega), if_pos h24, if_neg hl]

theorem stateAt_last (n : ℕ) (hl : n + 1 = 74) : stateAt eu ei A (n + 1) =
    { uo := k1_pay13 (k1_pay9 (stateAt eu ei A n).uo (unAt A (n + 1) (stateAt eu ei A n).ic)),
      io := k1_pay14 (k1_pay10 (stateAt eu ei A n).io (k1_pay8 (A (n + 1)) (View.ld (stateAt eu ei A n).uc (rowsRect (cd (n + 1)))) (stateAt eu ei A n).inx)),
      uc := k1_pay11 (unAt A (n + 1) (stateAt eu ei A n).ic),
      ic := k1_pay12 (k1_pay8 (A (n + 1)) (View.ld (stateAt eu ei A n).uc (rowsRect (cd (n + 1)))) (stateAt eu ei A n).inx),
      inx := k1_pay8 (A (n + 1)) (View.ld (stateAt eu ei A n).uc (rowsRect (cd (n + 1)))) (stateAt eu ei A n).inx } := by
  rw [stateAt, if_neg (by omega), if_pos (by omega), if_pos hl]

/-- The items the products of point `m` read: the current items as the point before left them (at the very first
    point the body sets them itself). -/
def icD (m : ℕ) : Vec F S5000x32 .f32 := if m = 0 then k1_pay2 ei else (stateAt eu ei A (m - 1)).ic

/-- Within a layer the current items do not change. -/
theorem icD_step (m : ℕ) (hm : m % 25 ≠ 0) : icD eu ei A m = icD eu ei A (m - 1) := by
  obtain ⟨k, rfl⟩ : ∃ k, m = k + 1 := ⟨m - 1, by omega⟩
  unfold icD
  rw [if_neg (by omega), Nat.add_sub_cancel]
  cases k with
  | zero => rw [if_pos rfl]; rfl
  | succ k =>
    rw [if_neg (by omega), Nat.add_sub_cancel]
    by_cases h0 : (k + 1) % 25 = 0
    · rw [stateAt_first eu ei A k h0]
    · rw [stateAt_mid eu ei A k h0 (by omega)]

/-- What is known of the next-users buffer after point `m`: each row block of the layer computed so far holds the
    product of its block of the adjacency matrix with the layer's current items. -/
def RowsDone (m : ℕ) (un : Vec F S10000x32 .f32) : Prop :=
  ∀ m', m' ≤ m → m' / 25 = m / 25 → ∀ x : S400x32.Idx,
    un ((rowsRect (cd m')).emb x) = k1_pay5 (A m') (icD eu ei A m) x

end State

end Cert.Kernel.Hand

end
-- ==== Proof.K.R1Rows.lean ====
/-
  Region 1, the next-users buffer: each point overwrites its own 400 rows and leaves the others alone, so after the
  point of row block b of a layer the blocks 0 … b hold that layer's products; after the last block (b = 24) the 25
  blocks are the whole 10000-row array, which is then a function of the adjacency blocks and the current items alone.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1State
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The row block of point `m` starts at row 400 · (m % 25) … -/
theorem off_rows (m : ℕ) (hm : m < 75) : k1_off1 (cd m) (0 : Fin 2) = 400 * (m % 25) := by
  unfold cd; rw [hoff]
  show 400 * ((pt m).val % 25) = 400 * (m % 25)
  unfold pt; simp only []; rw [Nat.mod_eq_of_lt hm]
/-- … and spans all 32 columns. -/
theorem off_cols (m : ℕ) : k1_off1 (cd m) (1 : Fin 2) = 0 := by
  unfold cd; rw [hoff]; rfl

section Rows

variable (eu : Vec F S10000x32 .f32) (ei : Vec F S5000x32 .f32) (A : ℕ → Vec F S400x5000 .f32)

/-- A point's store adds its row block to the blocks done, and keeps those done before it in the same layer. -/
theorem rowsDone_step (m : ℕ) (hm : m < 75) (un : Vec F S10000x32 .f32)
    (hprev : m % 25 ≠ 0 → RowsDone eu ei A (m - 1) un) :
    RowsDone eu ei A m (upd9 (cd m) un (k1_pay5 (A m) (icD eu ei A m))) := by
  intro m' hle hlay x
  by_cases hmm : m' = m
  · subst hmm
    unfold upd9
    exact View.read_writes_cons_emb _ _ (rowsRect (cd m')) _ [] x
  · have hlt : m' < m := by omega
    have hm0 : m % 25 ≠ 0 := by omega
    have h := hprev hm0 m' (by omega) (by omega) x
    rw [← icD_step eu ei A m hm0] at h
    unfold upd9
    rw [View.read_writes_apply_of_forall_not_mem _ _ _ _ (fun p hp => ?_), Memref.IsWhole.read_unread]
    · exact h
    · rw [List.mem_singleton] at hp; subst hp
      show (rowsRect (cd m')).emb x ∉ (rowsRect (cd m)).set
      rw [Rect.mem_set_unit]
      intro hmem
      have h0 := hmem (0 : Fin 2)
      rw [Rect.emb_apply, off_rows m hm] at h0
      have e' : (rowsRect (cd m')).off (0 : Fin 2) = 400 * (m' % 25) := off_rows m' (by omega)
      have es : (rowsRect (cd m')).stride (0 : Fin 2) = 1 := rfl
      rw [e', es] at h0
      have hx : (x (0 : Fin 2)).val < 400 := (x 0).isLt
      have hsz : S400x32.size (0 : Fin 2) = 400 := rfl
      rw [hsz] at h0
      omega

/-- After the last row block of a layer the next-users buffer is the full array of that layer's products. -/
theorem rowsDone_full (m : ℕ) (hm : m < 75) (h24 : m % 25 = 24) (un : Vec F S10000x32 .f32)
    (h : RowsDone eu ei A m un) : un = unAt A m (icD eu ei A m) := by
  funext y
  have hy0 : (y 0).val < 10000 := idx2_lt0 y
  have hy1 : (y 1).val < 32 := idx2_lt1 y
  have hb : (y 0).val / 400 < 25 := by omega
  have key := h (m - 24 + (y 0).val / 400) (by omega) (by omega)
    (ix2 (⟨(y 0).val % 400, Nat.mod_lt _ (by decide)⟩ : Fin 400) (⟨(y 1).val, hy1⟩ : Fin 32))
  have hy : (rowsRect (cd (m - 24 + (y 0).val / 400))).emb
      (ix2 (⟨(y 0).val % 400, Nat.mod_lt _ (by decide)⟩ : Fin 400) (⟨(y 1).val, hy1⟩ : Fin 32)) = y := by
    funext a
    apply Fin.ext
    rw [Rect.emb_apply]
    match a with
    | ⟨0, _⟩ =>
      have e' : (rowsRect (cd (m - 24 + (y 0).val / 400))).off (0 : Fin 2) = 400 * ((m - 24 + (y 0).val / 400) % 25) :=
        off_rows (m - 24 + (y 0).val / 400) (by omega)
      have es : (rowsRect (cd (m - 24 + (y 0).val / 400))).stride (0 : Fin 2) = 1 := rfl
      show (rowsRect (cd (m - 24 + (y 0).val / 400))).off (0 : Fin 2) + (rowsRect (cd (m - 24 + (y 0).val / 400))).stride (0 : Fin 2) * ((y 0).val % 400) = (y 0).val
      rw [e', es]; omega
    | ⟨1, _⟩ =>
      have e' : (rowsRect (cd (m - 24 + (y 0).val / 400))).off (1 : Fin 2) = 0 := off_cols (m - 24 + (y 0).val / 400)
      have es : (rowsRect (cd (m - 24 + (y 0).val / 400))).stride (1 : Fin 2) = 1 := rfl
      show (rowsRect (cd (m - 24 + (y 0).val / 400))).off (1 : Fin 2) + (rowsRect (cd (m - 24 + (y 0).val / 400))).stride (1 : Fin 2) * (y 1).val = (y 1).val
      rw [e', es]; omega
  rw [hy] at key
  rw [key]
  rfl

end Rows

end Cert.Kernel.Hand

end
-- ==== Proof.K.R1Dat.lean ====
/-
  Region 1: the proof data of the propagation kernel's pipeline, at the contents V the region is entered with.
  The three input windows hold their blocks at every point (the two embedding arrays whole, the adjacency matrix one
  400-row block per point); the two result windows hold the results named in the state after each point — they are
  stored at the first point and at the last row block of every layer, and handed back untouched elsewhere —; and the
  region's invariant carries the four scratch buffers at the state's contents from one point to the next.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Dat1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The layer-0 user embeddings the region is entered with. -/
abbrev euOf (c : Dev nD) : Vec F S10000x32 .f32 := iblk1 V c 0 (pt 0)
/-- The layer-0 item embeddings the region is entered with. -/
abbrev eiOf (c : Dev nD) : Vec F S5000x32 .f32 := iblk1 V c 1 (pt 0)
/-- The adjacency rows of point number `n`. -/
abbrev adjOf (c : Dev nD) (n : ℕ) : Vec F S400x5000 .f32 := iblk1 V c 2 (pt n)
/-- The named buffers after point number `n`. -/
abbrev st1 (c : Dev nD) (n : ℕ) : PtState F := stateAt (euOf V c) (eiOf V c) (adjOf V c) n
/-- What is known of the next-users buffer after point number `n`. -/
abbrev rowsOk (c : Dev nD) (n : ℕ) (un : Vec F S10000x32 .f32) : Prop := RowsDone (euOf V c) (eiOf V c) (adjOf V c) n un

/-- The scoped buffers the kernel never touches (the other kernel's staging buffers), each at some contents. -/
def rest14 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f))

/-- The invariant before the first point: every scoped buffer that is no staging buffer of this pipeline at some contents,
    the scratch buffers as memrefs. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d)) ∗ (∃ r, prngReg c r)) := by
  unfold Pipeline.ΦA; rw [scopedRest1_eq]; simp only [sc7, sc8, sc9, sc10, owns_whole]; try rfl

/-- The region invariant before position `n`: before the first point the launch's; afterwards the untouched buffers, the
    current users and items and the next-items accumulator at the state's contents, the next-users buffer at contents
    whose finished row blocks are known, and the generator register at some state. -/
def Phi1 (c : Dev nD) : (n : ℕ) → n ≤ cfg1.N → sProp 𝕄
  | 0, _ => Pipeline.ΦA spec1 c
  | n + 1, _ => iprop(iprop(rest14 c ∗ owns (c : Thread nD τ) sc7 fullShare (st1 V c n).uc ∗ owns (c : Thread nD τ) sc8 fullShare (st1 V c n).ic
      ∗ (∃ un, ⌜rowsOk V c n un⌝ ∗ owns (c : Thread nD τ) sc9 fullShare un) ∗ owns (c : Thread nD τ) sc10 fullShare (st1 V c n).inx) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(rest14 c ∗ owns (c : Thread nD τ) sc7 fullShare (st1 V c n).uc ∗ owns (c : Thread nD τ) sc8 fullShare (st1 V c n).ic
      ∗ (∃ un, ⌜rowsOk V c n un⌝ ∗ owns (c : Thread nD τ) sc9 fullShare un) ∗ owns (c : Thread nD τ) sc10 fullShare (st1 V c n).inx) ∗ (∃ r, prngReg c r)) := rfl

theorem Phi1_pos (c : Dev nD) (n : ℕ) (h : n ≤ cfg1.N) (hz : n ≠ 0) :
    Phi1 V c n h = iprop(iprop(rest14 c ∗ owns (c : Thread nD τ) sc7 fullShare (st1 V c (n - 1)).uc ∗ owns (c : Thread nD τ) sc8 fullShare (st1 V c (n - 1)).ic
      ∗ (∃ un, ⌜rowsOk V c (n - 1) un⌝ ∗ owns (c : Thread nD τ) sc9 fullShare un) ∗ owns (c : Thread nD τ) sc10 fullShare (st1 V c (n - 1)).inx) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (st1 V c t.val).uo
    | ⟨4, _⟩ => (st1 V c t.val).io
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (st1 V c t.val).uo := by dsimp only [dat1]
theorem after1_4 (c : Dev nD) (t : Fin cfg1.N) : (dat1 V c).after 4 t = (st1 V c t.val).io := by dsimp only [dat1]

/-! ## The input windows hold their blocks at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The two embedding arrays are staged whole, at block index 0 at every point: their block is the same at every point. -/
theorem iblk1_0_const (c : Dev nD) (t : Fin cfg1.N) : iblk1 V c 0 t = euOf V c := by
  have e : ∀ t t' : Fin cfg1.N, (dat1 V c).fetched 0 t (fun _ => Classical.arbitrary _) = (dat1 V c).fetched 0 t' (fun _ => Classical.arbitrary _) :=
    fun t t' => (dat1 V c).fetched_congr 0 ((by decide +kernel : ∀ t t' : Fin grid1.N, win1_0.index t = win1_0.index t') t t') rfl _
  have f : ∀ t : Fin cfg1.N, (dat1 V c).fetched 0 t (fun _ => Classical.arbitrary _) = iblk1 V c 0 t :=
    fun t => by unfold Dat.fetched Dat.blockOf iblk1; rw [A_eq1]; try rfl
  rw [← f t, e t (pt 0), f]
theorem iblk1_1_const (c : Dev nD) (t : Fin cfg1.N) : iblk1 V c 1 t = eiOf V c := by
  have e : ∀ t t' : Fin cfg1.N, (dat1 V c).fetched 1 t (fun _ => Classical.arbitrary _) = (dat1 V c).fetched 1 t' (fun _ => Classical.arbitrary _) :=
    fun t t' => (dat1 V c).fetched_congr 1 ((by decide +kernel : ∀ t t' : Fin grid1.N, win1_1.index t = win1_1.index t') t t') rfl _
  have f : ∀ t : Fin cfg1.N, (dat1 V c).fetched 1 t (fun _ => Classical.arbitrary _) = iblk1 V c 1 t :=
    fun t => by unfold Dat.fetched Dat.blockOf iblk1; rw [A_eq1]; try rfl
  rw [← f t, e t (pt 0), f]
theorem iblk1_2_pt (c : Dev nD) (t : Fin cfg1.N) : iblk1 V c 2 t = adjOf V c t.val := by
  unfold adjOf; rw [pt_val]

end Dat1

end Cert.Kernel.Hand

end
-- ==== Proof.K.R1Steps.lean ====
/-
  Region 1: the state after point n written over the state after point n - 1 (one equation per control case), and the two
  result windows' staging buffers between points: a result is stored at the very first point and at the last row block of
  each layer, handed back untouched at every other point, and written back to its array only after the last point, so
  before any point but the first its buffer holds the result named in the state after the point before.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Steps

variable (eu : Vec F S10000x32 .f32) (ei : Vec F S5000x32 .f32) (A : ℕ → Vec F S400x5000 .f32)

theorem stateAt_first' (n : ℕ) (hn0 : n ≠ 0) (h : n % 25 = 0) : stateAt eu ei A n =
    { uo := (stateAt eu ei A (n - 1)).uo, io := (stateAt eu ei A (n - 1)).io, uc := (stateAt eu ei A (n - 1)).uc, ic := (stateAt eu ei A (n - 1)).ic,
      inx := k1_pay7 (A n) (View.ld (stateAt eu ei A (n - 1)).uc (rowsRect (cd n))) } := by
  obtain ⟨k, rfl⟩ : ∃ k, n = k + 1 := ⟨n - 1, by omega⟩
  rw [Nat.add_sub_cancel]; exact stateAt_first eu ei A k h

theorem stateAt_mid' (n : ℕ) (hn0 : n ≠ 0) (h0 : n % 25 ≠ 0) (h24 : n % 25 ≠ 24) : stateAt eu ei A n =
    { uo := (stateAt eu ei A (n - 1)).uo, io := (stateAt eu ei A (n - 1)).io, uc := (stateAt eu ei A (n - 1)).uc, ic := (stateAt eu ei A (n - 1)).ic,
      inx := k1_pay8 (A n) (View.ld (stateAt eu ei A (n - 1)).uc (rowsRect (cd n))) (stateAt eu ei A (n - 1)).inx } := by
  obtain ⟨k, rfl⟩ : ∃ k, n = k + 1 := ⟨n - 1, by omega⟩
  rw [Nat.add_sub_cancel]; exact stateAt_mid eu ei A k h0 h24

theorem stateAt_layerEnd' (n : ℕ) (h24 : n % 25 = 24) (hl : n ≠ 74) : stateAt eu ei A n =
    { uo := k1_pay9 (stateAt eu ei A (n - 1)).uo (unAt A n (stateAt eu ei A (n - 1)).ic),
      io := k1_pay10 (stateAt eu ei A (n - 1)).io (k1_pay8 (A n) (View.ld (stateAt eu ei A (n - 1)).uc (rowsRect (cd n))) (stateAt eu ei A (n - 1)).inx),
      uc := k1_pay11 (unAt A n (stateAt eu ei A (n - 1)).ic),
      ic := k1_pay12 (k1_pay8 (A n) (View.ld (stateAt eu ei A (n - 1)).uc (rowsRect (cd n))) (stateAt eu ei A (n - 1)).inx),
      inx := k1_pay8 (A n) (View.ld (stateAt eu ei A (n - 1)).uc (rowsRect (cd n))) (stateAt eu ei A (n - 1)).inx } := by
  obtain ⟨k, rfl⟩ : ∃ k, n = k + 1 := ⟨n - 1, by omega⟩
  rw [Nat.add_sub_cancel]; exact stateAt_layerEnd eu ei A k h24 hl

theorem stateAt_last' (n : ℕ) (hl : n = 74) : stateAt eu ei A n =
    { uo := k1_pay13 (k1_pay9 (stateAt eu ei A (n - 1)).uo (unAt A n (stateAt eu ei A (n - 1)).ic)),
      io := k1_pay14 (k1_pay10 (stateAt eu ei A (n - 1)).io (k1_pay8 (A n) (View.ld (stateAt eu ei A (n - 1)).uc (rowsRect (cd n))) (stateAt eu ei A (n - 1)).inx)),
      uc := k1_pay11 (unAt A n (stateAt eu ei A (n - 1)).ic),
      ic := k1_pay12 (k1_pay8 (A n) (View.ld (stateAt eu ei A (n - 1)).uc (rowsRect (cd n))) (stateAt eu ei A (n - 1)).inx),
      inx := k1_pay8 (A n) (View.ld (stateAt eu ei A (n - 1)).uc (rowsRect (cd n))) (stateAt eu ei A (n - 1)).inx } := by
  obtain ⟨k, rfl⟩ : ∃ k, n = k + 1 := ⟨n - 1, by omega⟩
  rw [Nat.add_sub_cancel]; exact stateAt_last eu ei A k hl

theorem icD_zero : icD eu ei A 0 = k1_pay2 ei := by unfold icD; rw [if_pos rfl]
theorem icD_pos (m : ℕ) (h : m ≠ 0) : icD eu ei A m = (stateAt eu ei A (m - 1)).ic := by unfold icD; rw [if_neg h]

/-- At a point that is neither the first nor the last row block of a layer the results do not change. -/
theorem results_kept (n : ℕ) (hn0 : n ≠ 0) (h24 : n % 25 ≠ 24) :
    (stateAt eu ei A n).uo = (stateAt eu ei A (n - 1)).uo ∧ (stateAt eu ei A n).io = (stateAt eu ei A (n - 1)).io := by
  by_cases h0 : n % 25 = 0
  · rw [stateAt_first' eu ei A n hn0 h0]; exact ⟨rfl, rfl⟩
  · rw [stateAt_mid' eu ei A n hn0 h0 h24]; exact ⟨rfl, rfl⟩

end Steps

/-! ## Where the result windows are idle, live, written back -/

theorem liveAt1_3 : ∀ t : Fin cfg1.N, t.val = 0 ∨ t.val % 25 = 24 → cfg1.idle 3 (grid1.coords t) = false :=
  (by decide +kernel : ∀ t : Fin grid1.N, t.val = 0 ∨ t.val % 25 = 24 → cfg1.idle 3 (grid1.coords t) = false)
theorem liveAt1_4 : ∀ t : Fin cfg1.N, t.val = 0 ∨ t.val % 25 = 24 → cfg1.idle 4 (grid1.coords t) = false :=
  (by decide +kernel : ∀ t : Fin grid1.N, t.val = 0 ∨ t.val % 25 = 24 → cfg1.idle 4 (grid1.coords t) = false)
theorem idleAt1_3 : ∀ t : Fin cfg1.N, t.val ≠ 0 → t.val % 25 ≠ 24 → cfg1.idle 3 (grid1.coords t) = true :=
  (by decide +kernel : ∀ t : Fin grid1.N, t.val ≠ 0 → t.val % 25 ≠ 24 → cfg1.idle 3 (grid1.coords t) = true)
theorem idleAt1_4 : ∀ t : Fin cfg1.N, t.val ≠ 0 → t.val % 25 ≠ 24 → cfg1.idle 4 (grid1.coords t) = true :=
  (by decide +kernel : ∀ t : Fin grid1.N, t.val ≠ 0 → t.val % 25 ≠ 24 → cfg1.idle 4 (grid1.coords t) = true)
theorem noFlush1_3 : ∀ t : Fin cfg1.N, t.val ≠ 74 → (cfg1.win 3).flush t = false :=
  (by decide +kernel : ∀ t : Fin grid1.N, t.val ≠ 74 → win1_3.flush t = false)
theorem noFlush1_4 : ∀ t : Fin cfg1.N, t.val ≠ 74 → (cfg1.win 4).flush t = false :=
  (by decide +kernel : ∀ t : Fin grid1.N, t.val ≠ 74 → win1_4.flush t = false)
theorem noFetch1_3 : ∀ t : Fin cfg1.N, (cfg1.win 3).fetch t = false :=
  (by decide +kernel : ∀ t : Fin grid1.N, win1_3.fetch t = false)
theorem noFetch1_4 : ∀ t : Fin cfg1.N, (cfg1.win 4).fetch t = false :=
  (by decide +kernel : ∀ t : Fin grid1.N, win1_4.fetch t = false)

section Before

variable (V : (c : Dev nD) → (b : Ref sig .tc) → Buf (Elt F) ((c : Thread nD τ).loc b))

/-- Before any point but the first, the first result's staging buffer holds the result as the point before left it. -/
theorem before1_3 (c : Dev nD) : ∀ (n : ℕ) (hn : n < cfg1.N), n ≠ 0 → ∀ d, (dat1 V c).before 3 ⟨n, hn⟩ d = (st1 V c (n - 1)).uo
  | 0, _, h, _ => absurd rfl h
  | n + 1, hn, _, d => by
    have hN : n + 1 < 75 := lt_of_lt_of_eq hn N_1
    rw [(dat1 V c).before_of_pos 3 ⟨n + 1, hn⟩ (Nat.succ_ne_zero n) (noFetch1_3 _) d]
    simp only [Fin.val_mk, Nat.add_sub_cancel]
    rw [if_neg (by rw [noFlush1_3 ⟨n, _⟩ (by show n ≠ 74; omega)]; exact Bool.false_ne_true)]
    unfold Dat.left
    by_cases hlive : n = 0 ∨ n % 25 = 24
    · rw [liveAt1_3 ⟨n, _⟩ hlive]
      show (dat1 V c).kept 3 ⟨n, _⟩ d = _
      unfold Dat.kept
      rw [Pipeline.fill_of_clip_none 3 _ (fun _ => rfl) d ((dat1 V c).after 3 _), Window.fill_cut, after1_3]
    · have hn0 : n ≠ 0 := fun h => hlive (.inl h)
      have h24 : n % 25 ≠ 24 := fun h => hlive (.inr h)
      rw [idleAt1_3 ⟨n, _⟩ hn0 h24]
      show (dat1 V c).before 3 ⟨n, _⟩ d = _
      rw [before1_3 c n (Nat.lt_of_succ_lt hn) hn0 d]
      exact ((results_kept _ _ _ n hn0 h24).1).symm

/-- The same for the second result. -/
theorem before1_4 (c : Dev nD) : ∀ (n : ℕ) (hn : n < cfg1.N), n ≠ 0 → ∀ d, (dat1 V c).before 4 ⟨n, hn⟩ d = (st1 V c (n - 1)).io
  | 0, _, h, _ => absurd rfl h
  | n + 1, hn, _, d => by
    have hN : n + 1 < 75 := lt_of_lt_of_eq hn N_1
    rw [(dat1 V c).before_of_pos 4 ⟨n + 1, hn⟩ (Nat.succ_ne_zero n) (noFetch1_4 _) d]
    simp only [Fin.val_mk, Nat.add_sub_cancel]
    rw [if_neg (by rw [noFlush1_4 ⟨n, _⟩ (by show n ≠ 74; omega)]; exact Bool.false_ne_true)]
    unfold Dat.left
    by_cases hlive : n = 0 ∨ n % 25 = 24
    · rw [liveAt1_4 ⟨n, _⟩ hlive]
      show (dat1 V c).kept 4 ⟨n, _⟩ d = _
      unfold Dat.kept
      rw [Pipeline.fill_of_clip_none 4 _ (fun _ => rfl) d ((dat1 V c).after 4 _), Window.fill_cut, after1_4]
    · have hn0 : n ≠ 0 := fun h => hlive (.inl h)
      have h24 : n % 25 ≠ 24 := fun h => hlive (.inr h)
      rw [idleAt1_4 ⟨n, _⟩ hn0 h24]
      show (dat1 V c).before 4 ⟨n, _⟩ d = _
      rw [before1_4 c n (Nat.lt_of_succ_lt hn) hn0 d]
      exact ((results_kept _ _ _ n hn0 h24).2).symm

end Before

end Cert.Kernel.Hand

end
-- ==== Proof.K.R1Body.lean ====
/-
  Region 1: the body obligation. At every point the body, handed the invariant and the five windows' current staging
  buffers, runs to the invariant of the next position and the buffers at the contents the proof data names: the point's
  number decides which of the five control cases it is in, and that case's run applies.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.R1RunA
import proofs.«129974_g1760936592044_cont_8to1_853_2_alg».proof.Proof.K.R1RunB
import proofs.«129974_g1760936592044_cont_8to1_853_2_alg».proof.Proof.K.R1RunC
import proofs.«129974_g1760936592044_cont_8to1_853_2_alg».proof.Proof.K.R1RunD
import proofs.«129974_g1760936592044_cont_8to1_853_2_alg».proof.Proof.K.R1RunE
import proofs.«129974_g1760936592044_cont_8to1_853_2_alg».proof.Proof.K.R1Steps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

abbrev ms1_0 (t : Fin cfg1.N) : Memref sig .tc .vmem S10000x32 .f32 := win1_0.stage (cfg1.slots t 0)
abbrev ms1_1 (t : Fin cfg1.N) : Memref sig .tc .vmem S5000x32 .f32 := win1_1.stage (cfg1.slots t 1)
abbrev ms1_2 (t : Fin cfg1.N) : Memref sig .tc .vmem S400x5000 .f32 := win1_2.stage (cfg1.slots t 2)
abbrev ms1_3 (t : Fin cfg1.N) : Memref sig .tc .vmem S10000x32 .f32 := win1_3.stage (cfg1.slots t 3)
abbrev ms1_4 (t : Fin cfg1.N) : Memref sig .tc .vmem S5000x32 .f32 := win1_4.stage (cfg1.slots t 4)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
      unfold Dat.leavesExact; rfl, after1_0,
    show (dat1 V c).leavesExact 1 t = owns (c : Thread nD τ) (ms1_1 t) fullShare ((dat1 V c).after 1 t) from by
      unfold Dat.leavesExact; rfl, after1_1,
    show (dat1 V c).leavesExact 2 t = owns (c : Thread nD τ) (ms1_2 t) fullShare ((dat1 V c).after 2 t) from by
      unfold Dat.leavesExact; rfl, after1_2]
  rw [iblk1_0_const V c t, iblk1_1_const V c t, iblk1_2_pt V c t]
  have hN : t.val < 75 := lt_of_lt_of_eq t.isLt N_1
  by_cases h0 : t.val = 0
  · -- the first point of the grid
    have hcd : cd 0 = grid1.coords t := by rw [← h0]; exact cd_val t
    have hst : st1 V c t.val = { uo := k1_pay3 (euOf V c), io := k1_pay4 (eiOf V c), uc := k1_pay1 (euOf V c), ic := k1_pay2 (eiOf V c), inx := k1_pay7 (adjOf V c t.val) (View.ld (k1_pay1 (F := F) (euOf V c)) (rowsRect (grid1.coords t))) } := by
      rw [← hcd, h0]; rfl
    have hrows : ∀ un, rowsOk V c t.val (upd9 (grid1.coords t) un (k1_pay5 (adjOf V c t.val) (k1_pay2 (eiOf V c)))) := fun un => by
      have h1 := rowsDone_step (euOf V c) (eiOf V c) (adjOf V c) t.val hN un (fun h => absurd (by rw [h0]) h)
      rw [cd_val, h0, icD_zero] at h1; rw [h0]; exact h1
    rw [show (dat1 V c).leavesExact 3 t = owns (c : Thread nD τ) (ms1_3 t) fullShare ((dat1 V c).after 3 t) from by
        unfold Dat.leavesExact; rw [liveAt1_3 t (.inl h0)], after1_3,
      show (dat1 V c).leavesExact 4 t = owns (c : Thread nD τ) (ms1_4 t) fullShare ((dat1 V c).after 4 t) from by
        unfold Dat.leavesExact; rw [liveAt1_4 t (.inl h0)], after1_4]
    rw [Phi1_castSucc V c t, Phi1_zero V c _ _ h0, PhiA1_eq, hst]
    iintro ⟨⟨⟨R0, R1, R2, R3, R4, R5, R6, R7, R8, R9, R10, R11, R12, R13, ⟨%d7, H7⟩, ⟨%d8, H8⟩, ⟨%d9, H9⟩, ⟨%d10, H10⟩⟩, Hg⟩, Ho, ⟨%d0, H0⟩, ⟨%d1, H1⟩, ⟨%d2, H2⟩, ⟨%d3, H3⟩, ⟨%d4, H4⟩⟩
    iapply (run_A c (grid1.coords t) _ _ _ _ _ _ _ _ _ _ ((hc1 t).mpr h0) ((hc2 t).mpr (by omega)) (fun h => absurd ((hc3 t).mp h) (by omega)) (fun h => absurd ((hc4 t).mp h) (by omega)) (fun h => absurd ((hc5 t).mp h) (by omega)) (euOf V c) (eiOf V c) (adjOf V c t.val) _ _ d7 d8 d9 d10 Set.univ _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    iintro ⟨H0, H1, H2, H3, H4, H7, H8, H9, H10⟩
    isplitl [R0 R1 R2 R3 R4 R5 R6 R7 R8 R9 R10 R11 R12 R13 H7 H8 H9 H10 Hg]
    · isplitl [R0 R1 R2 R3 R4 R5 R6 R7 R8 R9 R10 R11 R12 R13 H7 H8 H9 H10]
      · isplitl [R0 R1 R2 R3 R4 R5 R6 R7 R8 R9 R10 R11 R12 R13]
        · unfold rest14
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          iexact R13
        isplitl [H7]; · iexact H7
        isplitl [H8]; · iexact H8
        isplitl [H9]
        · iexists _; isplitr; · ipureintro; exact hrows d9
          iexact H9
        iexact H10
      iexact Hg
    isplitl [Ho]; · iexact Ho
    isplitl [H0]; · iexact H0
    isplitl [H1]; · iexact H1
    isplitl [H2]; · iexact H2
    isplitl [H3]; · iexact H3
    iexact H4
  · by_cases hb0 : t.val % 25 = 0
    · -- the first row block of a later layer
      have hst : st1 V c t.val = { uo := (st1 V c (t.val - 1)).uo, io := (st1 V c (t.val - 1)).io, uc := (st1 V c (t.val - 1)).uc, ic := (st1 V c (t.val - 1)).ic, inx := k1_pay7 (adjOf V c t.val) (View.ld (st1 V c (t.val - 1)).uc (rowsRect (grid1.coords t))) } := by
        have h := stateAt_first' (euOf V c) (eiOf V c) (adjOf V c) t.val h0 hb0
        rw [cd_val] at h; exact h
      have hrows : ∀ un, True →
          rowsOk V c t.val (upd9 (grid1.coords t) un (k1_pay5 (adjOf V c t.val) (st1 V c (t.val - 1)).ic)) := fun un hun => by
        have h1 := rowsDone_step (euOf V c) (eiOf V c) (adjOf V c) t.val hN un (fun h => absurd hb0 h)
        rw [cd_val, icD_pos _ _ _ _ h0] at h1; exact h1
      rw [Dat.leavesExact_idle (dat1 V c) 3 t (idleAt1_3 t h0 (by omega)) (noFlush1_3 t (by omega)),
        Dat.leavesExact_idle (dat1 V c) 4 t (idleAt1_4 t h0 (by omega)) (noFlush1_4 t (by omega))]
      rw [Phi1_castSucc V c t, Phi1_pos V c _ _ h0, hst]
      iintro ⟨⟨⟨Hr, H7, H8, ⟨%un, %hun, H9⟩, H10⟩, Hg⟩, Ho, ⟨%d0, H0⟩, ⟨%d1, H1⟩, ⟨%d2, H2⟩, ⟨%d3, H3⟩, ⟨%d4, H4⟩⟩
      iapply (run_B c (grid1.coords t) _ _ _ _ _ _ _ _ _ _ (fun h => h0 ((hc1 t).mp h)) ((hc2 t).mpr hb0) (fun h => absurd ((hc3 t).mp h) (by omega)) (fun h => absurd ((hc4 t).mp h) (by omega)) (fun h => absurd ((hc5 t).mp h) (by omega)) (euOf V c) (eiOf V c) (adjOf V c t.val) _ _ (st1 V c (t.val - 1)).uc (st1 V c (t.val - 1)).ic un (st1 V c (t.val - 1)).inx Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      isplitl [H10]; · iexact H10
      iintro ⟨H0, H1, H2, H3, H4, H7, H8, H9, H10⟩
      isplitl [Hr H7 H8 H9 H10 Hg]
      · isplitl [Hr H7 H8 H9 H10]
        · isplitl [Hr]; · iexact Hr
          isplitl [H7]; · iexact H7
          isplitl [H8]; · iexact H8
          isplitl [H9]
          · iexists _; isplitr; · ipureintro; exact hrows un trivial
            iexact H9
          iexact H10
        iexact Hg
      isplitl [Ho]; · iexact Ho
      isplitl [H0]; · iexact H0
      isplitl [H1]; · iexact H1
      isplitl [H2]; · iexact H2
      isplitl [H3]; · iexists _; iexact H3
      iexists _; iexact H4
    · by_cases hb24 : t.val % 25 = 24
      · by_cases hl : t.val = 74
        · -- the last point of the grid
          have hst : st1 V c t.val = { uo := k1_pay13 (k1_pay9 (st1 V c (t.val - 1)).uo (unAt (adjOf V c) t.val (st1 V c (t.val - 1)).ic)), io := k1_pay14 (k1_pay10 (st1 V c (t.val - 1)).io (k1_pay8 (adjOf V c t.val) (View.ld (st1 V c (t.val - 1)).uc (rowsRect (grid1.coords t))) (st1 V c (t.val - 1)).inx)), uc := k1_pay11 (unAt (adjOf V c) t.val (st1 V c (t.val - 1)).ic), ic := k1_pay12 (k1_pay8 (adjOf V c t.val) (View.ld (st1 V c (t.val - 1)).uc (rowsRect (grid1.coords t))) (st1 V c (t.val - 1)).inx), inx := k1_pay8 (adjOf V c t.val) (View.ld (st1 V c (t.val - 1)).uc (rowsRect (grid1.coords t))) (st1 V c (t.val - 1)).inx } := by
            have h := stateAt_last' (euOf V c) (eiOf V c) (adjOf V c) t.val hl
            rw [cd_val] at h; exact h
          have hrows : ∀ un, rowsOk V c (t.val - 1) un →
              rowsOk V c t.val (upd9 (grid1.coords t) un (k1_pay5 (adjOf V c t.val) (st1 V c (t.val - 1)).ic)) := fun un hun => by
            have h1 := rowsDone_step (euOf V c) (eiOf V c) (adjOf V c) t.val hN un (fun _ => hun)
            rw [cd_val, icD_pos _ _ _ _ h0] at h1; exact h1
          have hfull : ∀ un, rowsOk V c (t.val - 1) un →
              upd9 (grid1.coords t) un (k1_pay5 (adjOf V c t.val) (st1 V c (t.val - 1)).ic) = unAt (adjOf V c) t.val (st1 V c (t.val - 1)).ic := fun un hun => by
            have h2 := rowsDone_full (euOf V c) (eiOf V c) (adjOf V c) t.val hN (by omega) _ (hrows un hun)
            rw [icD_pos _ _ _ _ h0] at h2; exact h2
          rw [show (dat1 V c).leavesExact 3 t = owns (c : Thread nD τ) (ms1_3 t) fullShare ((dat1 V c).after 3 t) from by
              unfold Dat.leavesExact; rw [liveAt1_3 t (.inr (by omega))], after1_3,
            show (dat1 V c).leavesExact 4 t = owns (c : Thread nD τ) (ms1_4 t) fullShare ((dat1 V c).after 4 t) from by
              unfold Dat.leavesExact; rw [liveAt1_4 t (.inr (by omega))], after1_4]
          simp only [show ∀ d, (dat1 V c).before 3 t d = (st1 V c (t.val - 1)).uo from fun d => before1_3 V c t.val t.isLt h0 d,
            show ∀ d, (dat1 V c).before 4 t d = (st1 V c (t.val - 1)).io from fun d => before1_4 V c t.val t.isLt h0 d]
          rw [Phi1_castSucc V c t, Phi1_pos V c _ _ h0, hst]
          iintro ⟨⟨⟨Hr, H7, H8, ⟨%un, %hun, H9⟩, H10⟩, Hg⟩, Ho, ⟨%d0, H0⟩, ⟨%d1, H1⟩, ⟨%d2, H2⟩, ⟨%d3, H3⟩, ⟨%d4, H4⟩⟩
          iapply (run_E c (grid1.coords t) _ _ _ _ _ _ _ _ _ _ (fun h => h0 ((hc1 t).mp h)) (fun h => absurd ((hc2 t).mp h) (by omega)) ((hc3 t).mpr (by omega)) ((hc4 t).mpr (by omega)) ((hc5 t).mpr hl) (euOf V c) (eiOf V c) (adjOf V c t.val) _ _ (st1 V c (t.val - 1)).uc (st1 V c (t.val - 1)).ic un (st1 V c (t.val - 1)).inx Set.univ _)
          isplitl [H0]; · iexact H0
          isplitl [H1]; · iexact H1
          isplitl [H2]; · iexact H2
          isplitl [H3]; · iexact H3
          isplitl [H4]; · iexact H4
          isplitl [H7]; · iexact H7
          isplitl [H8]; · iexact H8
          isplitl [H9]; · iexact H9
          isplitl [H10]; · iexact H10
          iintro ⟨H0, H1, H2, H3, H4, H7, H8, H9, H10⟩
          rw [hfull un hun]
          isplitl [Hr H7 H8 H9 H10 Hg]
          · isplitl [Hr H7 H8 H9 H10]
            · isplitl [Hr]; · iexact Hr
              isplitl [H7]; · iexact H7
              isplitl [H8]; · iexact H8
              isplitl [H9]
              · iexists _; isplitr; · ipureintro; exact hfull un hun ▸ hrows un hun
                iexact H9
              iexact H10
            iexact Hg
          isplitl [Ho]; · iexact Ho
          isplitl [H0]; · iexact H0
          isplitl [H1]; · iexact H1
          isplitl [H2]; · iexact H2
          isplitl [H3]; · iexact H3
          iexact H4
        · -- the last row block of the first or second layer
          have hst : st1 V c t.val = { uo := k1_pay9 (st1 V c (t.val - 1)).uo (unAt (adjOf V c) t.val (st1 V c (t.val - 1)).ic), io := k1_pay10 (st1 V c (t.val - 1)).io (k1_pay8 (adjOf V c t.val) (View.ld (st1 V c (t.val - 1)).uc (rowsRect (grid1.coords t))) (st1 V c (t.val - 1)).inx), uc := k1_pay11 (unAt (adjOf V c) t.val (st1 V c (t.val - 1)).ic), ic := k1_pay12 (k1_pay8 (adjOf V c t.val) (View.ld (st1 V c (t.val - 1)).uc (rowsRect (grid1.coords t))) (st1 V c (t.val - 1)).inx), inx := k1_pay8 (adjOf V c t.val) (View.ld (st1 V c (t.val - 1)).uc (rowsRect (grid1.coords t))) (st1 V c (t.val - 1)).inx } := by
            have h := stateAt_layerEnd' (euOf V c) (eiOf V c) (adjOf V c) t.val hb24 hl
            rw [cd_val] at h; exact h
          have hrows : ∀ un, rowsOk V c (t.val - 1) un →
              rowsOk V c t.val (upd9 (grid1.coords t) un (k1_pay5 (adjOf V c t.val) (st1 V c (t.val - 1)).ic)) := fun un hun => by
            have h1 := rowsDone_step (euOf V c) (eiOf V c) (adjOf V c) t.val hN un (fun _ => hun)
            rw [cd_val, icD_pos _ _ _ _ h0] at h1; exact h1
          have hfull : ∀ un, rowsOk V c (t.val - 1) un →
              upd9 (grid1.coords t) un (k1_pay5 (adjOf V c t.val) (st1 V c (t.val - 1)).ic) = unAt (adjOf V c) t.val (st1 V c (t.val - 1)).ic := fun un hun => by
            have h2 := rowsDone_full (euOf V c) (eiOf V c) (adjOf V c) t.val hN (by omega) _ (hrows un hun)
            rw [icD_pos _ _ _ _ h0] at h2; exact h2
          rw [show (dat1 V c).leavesExact 3 t = owns (c : Thread nD τ) (ms1_3 t) fullShare ((dat1 V c).after 3 t) from by
              unfold Dat.leavesExact; rw [liveAt1_3 t (.inr (by omega))], after1_3,
            show (dat1 V c).leavesExact 4 t = owns (c : Thread nD τ) (ms1_4 t) fullShare ((dat1 V c).after 4 t) from by
              unfold Dat.leavesExact; rw [liveAt1_4 t (.inr (by omega))], after1_4]
          simp only [show ∀ d, (dat1 V c).before 3 t d = (st1 V c (t.val - 1)).uo from fun d => before1_3 V c t.val t.isLt h0 d,
            show ∀ d, (dat1 V c).before 4 t d = (st1 V c (t.val - 1)).io from fun d => before1_4 V c t.val t.isLt h0 d]
          rw [Phi1_castSucc V c t, Phi1_pos V c _ _ h0, hst]
          iintro ⟨⟨⟨Hr, H7, H8, ⟨%un, %hun, H9⟩, H10⟩, Hg⟩, Ho, ⟨%d0, H0⟩, ⟨%d1, H1⟩, ⟨%d2, H2⟩, ⟨%d3, H3⟩, ⟨%d4, H4⟩⟩
          iapply (run_D c (grid1.coords t) _ _ _ _ _ _ _ _ _ _ (fun h => h0 ((hc1 t).mp h)) (fun h => absurd ((hc2 t).mp h) (by omega)) ((hc3 t).mpr (by omega)) ((hc4 t).mpr hb24) (fun h => hl ((hc5 t).mp h)) (euOf V c) (eiOf V c) (adjOf V c t.val) _ _ (st1 V c (t.val - 1)).uc (st1 V c (t.val - 1)).ic un (st1 V c (t.val - 1)).inx Set.univ _)
          isplitl [H0]; · iexact H0
          isplitl [H1]; · iexact H1
          isplitl [H2]; · iexact H2
          isplitl [H3]; · iexact H3
          isplitl [H4]; · iexact H4
          isplitl [H7]; · iexact H7
          isplitl [H8]; · iexact H8
          isplitl [H9]; · iexact H9
          isplitl [H10]; · iexact H10
          iintro ⟨H0, H1, H2, H3, H4, H7, H8, H9, H10⟩
          rw [hfull un hun]
          isplitl [Hr H7 H8 H9 H10 Hg]
          · isplitl [Hr H7 H8 H9 H10]
            · isplitl [Hr]; · iexact Hr
              isplitl [H7]; · iexact H7
              isplitl [H8]; · iexact H8
              isplitl [H9]
              · iexists _; isplitr; · ipureintro; exact hfull un hun ▸ hrows un hun
                iexact H9
              iexact H10
            iexact Hg
          isplitl [Ho]; · iexact Ho
          isplitl [H0]; · iexact H0
          isplitl [H1]; · iexact H1
          isplitl [H2]; · iexact H2
          isplitl [H3]; · iexact H3
          iexact H4
      · -- a middle row block
        have hst : st1 V c t.val = { uo := (st1 V c (t.val - 1)).uo, io := (st1 V c (t.val - 1)).io, uc := (st1 V c (t.val - 1)).uc, ic := (st1 V c (t.val - 1)).ic, inx := k1_pay8 (adjOf V c t.val) (View.ld (st1 V c (t.val - 1)).uc (rowsRect (grid1.coords t))) (st1 V c (t.val - 1)).inx } := by
          have h := stateAt_mid' (euOf V c) (eiOf V c) (adjOf V c) t.val h0 hb0 hb24
          rw [cd_val] at h; exact h
        have hrows : ∀ un, rowsOk V c (t.val - 1) un →
            rowsOk V c t.val (upd9 (grid1.coords t) un (k1_pay5 (adjOf V c t.val) (st1 V c (t.val - 1)).ic)) := fun un hun => by
          have h1 := rowsDone_step (euOf V c) (eiOf V c) (adjOf V c) t.val hN un (fun _ => hun)
          rw [cd_val, icD_pos _ _ _ _ h0] at h1; exact h1
        rw [Dat.leavesExact_idle (dat1 V c) 3 t (idleAt1_3 t h0 (by omega)) (noFlush1_3 t (by omega)),
          Dat.leavesExact_idle (dat1 V c) 4 t (idleAt1_4 t h0 (by omega)) (noFlush1_4 t (by omega))]
        rw [Phi1_castSucc V c t, Phi1_pos V c _ _ h0, hst]
        iintro ⟨⟨⟨Hr, H7, H8, ⟨%un, %hun, H9⟩, H10⟩, Hg⟩, Ho, ⟨%d0, H0⟩, ⟨%d1, H1⟩, ⟨%d2, H2⟩, ⟨%d3, H3⟩, ⟨%d4, H4⟩⟩
        iapply (run_C c (grid1.coords t) _ _ _ _ _ _ _ _ _ _ (fun h => h0 ((hc1 t).mp h)) (fun h => hb0 ((hc2 t).mp h)) ((hc3 t).mpr (by omega)) (fun h => hb24 ((hc4 t).mp h)) (fun h => absurd ((hc5 t).mp h) (by omega)) (euOf V c) (eiOf V c) (adjOf V c t.val) _ _ (st1 V c (t.val - 1)).uc (st1 V c (t.val - 1)).ic un (st1 V c (t.val - 1)).inx Set.univ _)
        isplitl [H0]; · iexact H0
        isplitl [H1]; · iexact H1
        isplitl [H2]; · iexact H2
        isplitl [H3]; · iexact H3
        isplitl [H4]; · iexact H4
        isplitl [H7]; · iexact H7
        isplitl [H8]; · iexact H8
        isplitl [H9]; · iexact H9
        isplitl [H10]; · iexact H10
        iintro ⟨H0, H1, H2, H3, H4, H7, H8, H9, H10⟩
        isplitl [Hr H7 H8 H9 H10 Hg]
        · isplitl [Hr H7 H8 H9 H10]
          · isplitl [Hr]; · iexact Hr
            isplitl [H7]; · iexact H7
            isplitl [H8]; · iexact H8
            isplitl [H9]
            · iexists _; isplitr; · ipureintro; exact hrows un hun
              iexact H9
            iexact H10
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the launch's back: the scratch buffers' named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 75 := N_1; omega), PhiA1_eq]
  unfold rest14
  iintro ⟨⟨⟨R0, R1, R2, R3, R4, R5, R6, R7, R8, R9, R10, R11, R12, R13⟩, H7, H8, ⟨%un, -, H9⟩, H10⟩, Hg⟩
  isplitr [Hg]; swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [H7]; · iexists _; iexact H7
  isplitl [H8]; · iexists _; iexact H8
  isplitl [H9]; · iexists _; iexact H9
  iexists _; iexact H10

end Body

end Cert.Kernel.Hand

end
-- ==== Proof.K.Run.lean ====
/-
  The whole program's run: @main is a stretch of five host reshapes, the first kernel region and the second. The buffer
  contents at each boundary are a fold from the launch memory — a host stretch applies its operations, a region leaves its
  arrays at what its write-backs made of them and everything else as it was —; each region is entered from the thread state
  "every unscoped buffer at the boundary's contents, the generator register at some state, nothing owed"; and at the end
  every unscoped buffer is read off the last boundary's contents.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.Gen.Kernel.Regions
import proofs.«129974_g1760936592044_cont_8to1_853_2_alg».proof.Proof.K.Region0
import proofs.«129974_g1760936592044_cont_8to1_853_2_alg».proof.Proof.K.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- at launch -/
abbrev W0 : Dev nD → Valuation τ sig (Elt F) := fun c b => (s₀ m ρ).mem ((c : Dev nD), b)
/-- after the host reshapes (the first region's entry) -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- after the first region (the second region's entry): its arrays at what the pipeline leaves, every other buffer as entered -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- after the second region (the end) -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with it only when unification may unfold plain definitions in a
-- metavariable's type
set_option backward.isDefEq.respectTransparency.types false in
/-- Region 0 over the thread state: entered from every unscoped buffer at the contents before it, left at the contents after
    it. Its arrays are split out of the unscoped buffers at entry and put back at their final contents at exit; the
    generator register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain definitions in a
-- metavariable's type
set_option backward.isDefEq.respectTransparency.types false in
/-- Region 1 over the thread state: entered from every unscoped buffer at the contents before it, left at the contents after
    it. Its arrays are split out of the unscoped buffers at entry and put back at their final contents at exit; the
    generator register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

-- the launch theorem's implicit arguments are found by unifying its conclusion with this one
set_option backward.isDefEq.respectTransparency.types false in
/-- From any memory with zero counters every weakly fair execution of @main terminates, nothing faulting, and in every final
    state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Hand

end
-- ==== Proof.K.RunArgs.lean ====
/-
  No host operation and no region writes an argument array (a region reads it through an input window or passes it by), so
  the contents of an argument's buffer at the last boundary walk back to the launch memory.
-/
import proofs.«129974_g1760936592044_cont_8to1_853_2_alg».proof.Proof.Gen.Kernel.Launch
import proofs.«129974_g1760936592044_cont_8to1_853_2_alg».proof.Proof.Gen.Kernel.Skeleton
import proofs.«129974_g1760936592044_cont_8to1_853_2_alg».proof.Proof.Gen.Kernel.Points
import proofs.«129974_g1760936592044_cont_8to1_853_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := W2_of_ne m ρ c main_arg0 (by decide)
    _ = m ((c : Thread nD τ).loc main_arg0) := V1_of m c main_arg0 (by decide)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := V1_of m c main_arg1 (by decide)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := V1_of m c main_arg2 (by decide)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := V1_of m c main_arg3 (by decide)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = m ((c : Thread nD τ).loc main_arg4) := V1_of m c main_arg4 (by decide)

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 4).trans (((dat0 (V1 m ρ) c).arrAt_in 4 rfl _).trans (A_eq0 (V1 m ρ) c 4))
    _ = m ((c : Thread nD τ).loc main_arg5) := V1_of m c main_arg5 (by decide)

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 5).trans (((dat0 (V1 m ρ) c).arrAt_in 5 rfl _).trans (A_eq0 (V1 m ρ) c 5))
    _ = m ((c : Thread nD τ).loc main_arg6) := V1_of m c main_arg6 (by decide)

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 6).trans (((dat0 (V1 m ρ) c).arrAt_in 6 rfl _).trans (A_eq0 (V1 m ρ) c 6))
    _ = m ((c : Thread nD τ).loc main_arg7) := V1_of m c main_arg7 (by decide)

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 7).trans (((dat0 (V1 m ρ) c).arrAt_in 7 rfl _).trans (A_eq0 (V1 m ρ) c 7))
    _ = m ((c : Thread nD τ).loc main_arg8) := V1_of m c main_arg8 (by decide)

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := (W2_arr m ρ c 8).trans (((dat0 (V1 m ρ) c).arrAt_in 8 rfl _).trans (A_eq0 (V1 m ρ) c 8))
    _ = m ((c : Thread nD τ).loc main_arg9) := V1_of m c main_arg9 (by decide)

theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = m ((c : Thread nD τ).loc main_arg10) := V1_of m c main_arg10 (by decide)

theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := (W2_arr m ρ c 10).trans (((dat0 (V1 m ρ) c).arrAt_in 10 rfl _).trans (A_eq0 (V1 m ρ) c 10))
    _ = m ((c : Thread nD τ).loc main_arg11) := V1_of m c main_arg11 (by decide)

theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = m ((c : Thread nD τ).loc main_arg12) := V1_of m c main_arg12 (by decide)

end Cert.Kernel.Hand

end
-- ==== Proof.KI.Region0.lean ====
/-
  The first launch of the program ("enrich"): one point, fourteen windows, every window's block the whole array.

  The body reads the three index columns, the two embedding arrays, the three feature tables, the two weight matrices
  and the two bias rows, and stores two arrays: the layer-0 user embeddings (window 12) and the layer-0 item embeddings
  (window 13). Here, for any float instance: what the body leaves in the two output buffers as a function of the twelve
  input buffers, the Hoare triple of the body, the proof data of the launch, and the body obligation the launch
  theorems ask for. Everything is stated at a parameter `V`, the buffer contents when the launch is entered.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the launch is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block whenever the body is called, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block whenever the body is called, for any proof data whose array is
    `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block whenever the body is called, for any proof data whose array is
    `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block whenever the body is called, for any proof data whose array is
    `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block whenever the body is called, for any proof data whose array is
    `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block whenever the body is called, for any proof data whose array is
    `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block whenever the body is called, for any proof data whose array is
    `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block whenever the body is called, for any proof data whose array is
    `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block whenever the body is called, for any proof data whose array is
    `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block whenever the body is called, for any proof data whose array is
    `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block whenever the body is called, for any proof data whose array is
    `V`'s and whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block whenever the body is called, for any proof data whose array is
    `V`'s and whose body leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev whole_S10000x1 : Rect S10000x1 := Rect.unit (s := S10000x1) ![0, 0] S10000x1.size Gen.inb_S10000x1_S10000x1_0_0
abbrev whole_S5000x1 : Rect S5000x1 := Rect.unit (s := S5000x1) ![0, 0] S5000x1.size Gen.inb_S5000x1_S5000x1_0_0
abbrev whole_S10000x32 : Rect S10000x32 := Rect.unit (s := S10000x32) ![0, 0] S10000x32.size Gen.inb_S10000x32_S10000x32_0_0
abbrev whole_S5000x32 : Rect S5000x32 := Rect.unit (s := S5000x32) ![0, 0] S5000x32.size Gen.inb_S5000x32_S5000x32_0_0
abbrev whole_S8x8 : Rect S8x8 := Rect.unit (s := S8x8) ![0, 0] S8x8.size Gen.inb_S8x8_S8x8_0_0
abbrev whole_S16x8 : Rect S16x8 := Rect.unit (s := S16x8) ![0, 0] S16x8.size Gen.inb_S16x8_S16x8_0_0
abbrev whole_S32x48 : Rect S32x48 := Rect.unit (s := S32x48) ![0, 0] S32x48.size Gen.inb_S32x48_S32x48_0_0
abbrev whole_S1x32 : Rect S1x32 := Rect.unit (s := S1x32) ![0, 0] S1x32.size Gen.inb_S1x32_S1x32_0_0
abbrev whole_S32x40 : Rect S32x40 := Rect.unit (s := S32x40) ![0, 0] S32x40.size Gen.inb_S32x40_S32x40_0_0

/-! ## What the body leaves in the two output buffers -/

/-- The user-side buffer (window 12) after the body, from the twelve input buffers: one store of the whole buffer, whose
    value is the bias row added to the sum of three projections (own embedding, first feature row, second feature row). -/
def out0_12 (x0 : Vec F S10000x1 .i32) (x1 : Vec F S10000x1 .i32) (x2 : Vec F S5000x1 .i32) (x3 : Vec F S10000x32 .f32) (x4 : Vec F S5000x32 .f32) (x5 : Vec F S8x8 .f32) (x6 : Vec F S8x8 .f32) (x7 : Vec F S16x8 .f32) (x8 : Vec F S32x48 .f32) (x9 : Vec F S1x32 .f32) (x10 : Vec F S32x40 .f32) (x11 : Vec F S1x32 .f32) : Vec F S10000x32 .f32 :=
  View.canon [⟨whole_S10000x32, k0_pay1 (k0_pay4 (View.ld x0 whole_S10000x1) (View.ld x5 whole_S8x8) (View.ld x1 whole_S10000x1) (View.ld x6 whole_S8x8) (View.ld x8 whole_S32x48) (View.ld x3 whole_S10000x32)) (View.ld x9 whole_S1x32)⟩]

/-- The one store covers the buffer. -/
theorem cover0_12 (p0 : Vec F S10000x32 .f32) (y : S10000x32.Idx) :
    ∃ pc ∈ ([⟨whole_S10000x32, p0⟩] : List (View.Piece (Elt F) S10000x32 .f32)), y ∈ pc.1.set :=
  View.cover_of_tiled [⟨whole_S10000x32, p0⟩] S10000x32.size (by rfl) y

/-- The item-side buffer (window 13) after the body: one store of the whole buffer, the bias row added to the sum of two
    projections (own embedding, feature row). -/
def out0_13 (x0 : Vec F S10000x1 .i32) (x1 : Vec F S10000x1 .i32) (x2 : Vec F S5000x1 .i32) (x3 : Vec F S10000x32 .f32) (x4 : Vec F S5000x32 .f32) (x5 : Vec F S8x8 .f32) (x6 : Vec F S8x8 .f32) (x7 : Vec F S16x8 .f32) (x8 : Vec F S32x48 .f32) (x9 : Vec F S1x32 .f32) (x10 : Vec F S32x40 .f32) (x11 : Vec F S1x32 .f32) : Vec F S5000x32 .f32 :=
  View.canon [⟨whole_S5000x32, k0_pay2 (k0_pay3 (View.ld x2 whole_S5000x1) (View.ld x7 whole_S16x8)) (View.ld x10 whole_S32x40) (View.ld x4 whole_S5000x32) (View.ld x11 whole_S1x32)⟩]

/-- The one store covers the buffer. -/
theorem cover0_13 (p0 : Vec F S5000x32 .f32) (y : S5000x32.Idx) :
    ∃ pc ∈ ([⟨whole_S5000x32, p0⟩] : List (View.Piece (Elt F) S5000x32 .f32)), y ∈ pc.1.set :=
  View.cover_of_tiled [⟨whole_S5000x32, p0⟩] S5000x32.size (by rfl) y

/-! ## The body's triple -/

set_option maxHeartbeats 1000000 in
/-- The body on whole staging buffers, the inputs' at contents `xW` and the outputs' at anything, runs to the continuation
    holding the inputs' as they were and the two outputs' at `out0_12`, `out0_13` of the inputs'. -/
theorem sound_kernel0 (c : Dev nD) (E : Set ℕ) (arg0 : Memref sig .tc .vmem S10000x1 .i32) (harg0 : arg0.IsWhole) (arg1 : Memref sig .tc .vmem S10000x1 .i32) (harg1 : arg1.IsWhole) (arg2 : Memref sig .tc .vmem S5000x1 .i32) (harg2 : arg2.IsWhole) (arg3 : Memref sig .tc .vmem S10000x32 .f32) (harg3 : arg3.IsWhole) (arg4 : Memref sig .tc .vmem S5000x32 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S16x8 .f32) (harg7 : arg7.IsWhole) (arg8 : Memref sig .tc .vmem S32x48 .f32) (harg8 : arg8.IsWhole) (arg9 : Memref sig .tc .vmem S1x32 .f32) (harg9 : arg9.IsWhole) (arg10 : Memref sig .tc .vmem S32x40 .f32) (harg10 : arg10.IsWhole) (arg11 : Memref sig .tc .vmem S1x32 .f32) (harg11 : arg11.IsWhole) (arg12 : Memref sig .tc .vmem S10000x32 .f32) (harg12 : arg12.IsWhole) (arg13 : Memref sig .tc .vmem S5000x32 .f32) (harg13 : arg13.IsWhole)
    (x0 : Vec F S10000x1 .i32) (x1 : Vec F S10000x1 .i32) (x2 : Vec F S5000x1 .i32) (x3 : Vec F S10000x32 .f32) (x4 : Vec F S5000x32 .f32) (x5 : Vec F S8x8 .f32) (x6 : Vec F S8x8 .f32) (x7 : Vec F S16x8 .f32) (x8 : Vec F S32x48 .f32) (x9 : Vec F S1x32 .f32) (x10 : Vec F S32x40 .f32) (x11 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out0_12 x0 x1 x2 x3 x4 x5 x6 x7 x8 x9 x10 x11) ∗ owns (c : Thread nD τ) arg13 fullShare (out0_13 x0 x1 x2 x3 x4 x5 x6 x7 x8 x9 x10 x11)) -∗ K ⟨⟩))
      ⊢ wp frame (wpE (defs₀ (F := F)) Variants.none c none) E (cc0__enrich_kernel arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__enrich_kernel_eq_skeleton]; unfold cc0__enrich_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The launch's proof data -/

/-- The proof data of the launch on core `c`: the arrays as the launch finds them; after the body each input's buffer at
    its block and the two outputs' at `out0_12`, `out0_13` of the input blocks; the invariant is the untouched rest;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-- Each input's staging buffer holds its block whenever the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The launch theorems' body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Base.lean ====
/-
  Region 1 (the propagation kernel on its 3 × 25 grid), shared vocabulary: the five branch conditions of the body as
  propositions over the grid coordinates and in closed form over the 75 points (point t is layer t / 25, row block
  t % 25); the row block's offset; the four scratch buffers; and what a store through the whole of a buffer leaves.
-/
import proofs.«129974_g1760936592044_cont_8to1_853_2_alg».proof.Proof.LibWholeStoreColumnCast
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- first point of the whole grid: the carried buffers and the two results are initialised -/
abbrev c1 (i : grid1.Coords) : Prop := k1_cond1 i = 1#1
/-- first row block of a layer: the item-side accumulator is overwritten -/
abbrev c2 (i : grid1.Coords) : Prop := (Scalar.cmpi .ne (Scalar.extui (Scalar.cmpi .eq (BitVec.ofNat 32 (i 1).val) 0#32)) 0#32) = 1#1
/-- a later row block of a layer: the item-side accumulator is added to -/
abbrev c3 (i : grid1.Coords) : Prop := (Scalar.cmpi .ne (Scalar.extui (Scalar.cmpi .sgt (BitVec.ofNat 32 (i 1).val) 0#32)) 0#32) = 1#1
/-- last row block of a layer: the layer is added to the results and becomes the current one -/
abbrev c4 (i : grid1.Coords) : Prop := k1_cond4 i = 1#1
/-- last point of the whole grid: the results are scaled -/
abbrev c5 (i : grid1.Coords) : Prop := k1_cond5 i = 1#1

theorem hc1 : ∀ t : Fin cfg1.N, c1 (grid1.coords t) ↔ t.val = 0 :=
  (by decide +kernel : ∀ t : Fin grid1.N, c1 (grid1.coords t) ↔ t.val = 0)
theorem hc2 : ∀ t : Fin cfg1.N, c2 (grid1.coords t) ↔ t.val % 25 = 0 :=
  (by decide +kernel : ∀ t : Fin grid1.N, c2 (grid1.coords t) ↔ t.val % 25 = 0)
theorem hc3 : ∀ t : Fin cfg1.N, c3 (grid1.coords t) ↔ 1 ≤ t.val % 25 :=
  (by decide +kernel : ∀ t : Fin grid1.N, c3 (grid1.coords t) ↔ 1 ≤ t.val % 25)
theorem hc4 : ∀ t : Fin cfg1.N, c4 (grid1.coords t) ↔ t.val % 25 = 24 :=
  (by decide +kernel : ∀ t : Fin grid1.N, c4 (grid1.coords t) ↔ t.val % 25 = 24)
theorem hc5 : ∀ t : Fin cfg1.N, c5 (grid1.coords t) ↔ t.val = 74 :=
  (by decide +kernel : ∀ t : Fin grid1.N, c5 (grid1.coords t) ↔ t.val = 74)

/-- The row block of point t starts at row 400 · (t % 25). -/
theorem hoff : ∀ t : Fin cfg1.N, k1_off1 (grid1.coords t) = ![400 * (t.val % 25), 0] :=
  (by decide +kernel : ∀ t : Fin grid1.N, k1_off1 (grid1.coords t) = ![400 * (t.val % 25), 0])

/-! ## The scratch buffers, and the rows a point works on -/

/-- current users -/
abbrev sc7 : Memref sig .tc .vmem S10000x32 .f32 := Memref.whole cc1_scratch0
/-- current items -/
abbrev sc8 : Memref sig .tc .vmem S5000x32 .f32 := Memref.whole cc1_scratch1
/-- next users, filled a row block per point -/
abbrev sc9 : Memref sig .tc .vmem S10000x32 .f32 := Memref.whole cc1_scratch2
/-- next items, accumulated over the points of a layer -/
abbrev sc10 : Memref sig .tc .vmem S5000x32 .f32 := Memref.whole cc1_scratch3

theorem hsc7 : sc7.IsWhole := Memref.isWhole_whole _
theorem hsc8 : sc8.IsWhole := Memref.isWhole_whole _
theorem hsc9 : sc9.IsWhole := Memref.isWhole_whole _
theorem hsc10 : sc10.IsWhole := Memref.isWhole_whole _

/-- The 400 rows of the user-side buffers that the point at coordinates `i` reads and writes. -/
abbrev rowsRect (i : grid1.Coords) : Rect S10000x32 := Rect.unit (s := S10000x32) (k1_off1 i) S400x32.size (k1_off1_inb i)

/-- The next-users buffer after the point's store: the row block overwritten by `p`, every other row as in `x`. -/
def upd9 (i : grid1.Coords) (x : Vec F S10000x32 .f32) (p : Vec F S400x32 .f32) : Vec F S10000x32 .f32 :=
  sc9.view.read (Elt F) (sc9.view.writes (Elt F) (hsc9.unread x) [⟨rowsRect i, p⟩])

theorem hz2 : (![0, 0] : Fin 2 → Nat) = fun _ => 0 := by
  funext a; match a with | ⟨0, _⟩ => rfl | ⟨1, _⟩ => rfl

-- a last store through the whole of a buffer reads back as its payload: the general lemma, under this namespace's name
export Cert.Lib (read_writes_unit_zero)

/-- Reading back the whole of a scratch buffer whose contents are `x` gives `x` (stated at the buffer's own view). -/
theorem read_unread7 (x : Vec F S10000x32 .f32) : View.read (Elt F) (View.whole cc1_scratch0) (hsc7.unread x) = x := hsc7.read_unread x
theorem read_unread8 (x : Vec F S5000x32 .f32) : View.read (Elt F) (View.whole cc1_scratch1) (hsc8.unread x) = x := hsc8.read_unread x
theorem read_unread9 (x : Vec F S10000x32 .f32) : View.read (Elt F) (View.whole cc1_scratch2) (hsc9.unread x) = x := hsc9.read_unread x
theorem read_unread10 (x : Vec F S5000x32 .f32) : View.read (Elt F) (View.whole cc1_scratch3) (hsc10.unread x) = x := hsc10.read_unread x

end Cert.KernelIdeal.Hand

end
-- ==== Proof.KI.R1RunA.lean ====
/-
  Region 1, the body at a point of one control case. The first point of the grid: the current embeddings and both results are set to the layer-0 embeddings; the row block of the next users is computed from the current items; the next-items accumulator is overwritten with this block's contribution.
  The triple is stated over the contents of all nine buffers the body is handed (three input blocks, the two results'
  blocks, four scratch buffers) and names what each holds afterwards through the body's own arithmetic.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_A (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : c1 i) (hc2 : c2 i) (hc3 : ¬c3 i) (hc4 : ¬c4 i) (hc5 : ¬c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (k1_pay3 x2)
            ∗ owns (c : Thread nD τ) arg6 fullShare (k1_pay4 x3)
            ∗ owns (c : Thread nD τ) sc7 fullShare (k1_pay1 x2)
            ∗ owns (c : Thread nD τ) sc8 fullShare (k1_pay2 x3)
            ∗ owns (c : Thread nD τ) sc9 fullShare (upd9 i x9 (k1_pay5 x4 (k1_pay2 x3)))
            ∗ owns (c : Thread nD τ) sc10 fullShare (k1_pay7 x4 (View.ld (k1_pay1 (F := F) x2) (rowsRect i)))) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H6]
  · iexists _; isplitr; swap; · iexact H6
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H7]
  · iexists _; isplitr; swap; · iexact H7
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H8]
  · iexists _; isplitr; swap; · iexact H8
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H9]
  · iexists _; isplitr; swap; · iexact H9
    ipureintro
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  sl_unfold_run_names
  simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]

end Cert.KernelIdeal.Hand

end
-- ==== Proof.KI.R1RunB.lean ====
/-
  Region 1, the body at a point of one control case. The first row block of a later layer: the row block of the next users is computed; the next-items accumulator is overwritten with this block's contribution; the results are not touched.
  The triple is stated over the contents of all nine buffers the body is handed (three input blocks, the two results'
  blocks, four scratch buffers) and names what each holds afterwards through the body's own arithmetic.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_B (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : ¬c1 i) (hc2 : c2 i) (hc3 : ¬c3 i) (hc4 : ¬c4 i) (hc5 : ¬c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (x5)
            ∗ owns (c : Thread nD τ) arg6 fullShare (x6)
            ∗ owns (c : Thread nD τ) sc7 fullShare (x7)
            ∗ owns (c : Thread nD τ) sc8 fullShare (x8)
            ∗ owns (c : Thread nD τ) sc9 fullShare (upd9 i x9 (k1_pay5 x4 x8))
            ∗ owns (c : Thread nD τ) sc10 fullShare (k1_pay7 x4 (View.ld x7 (rowsRect i)))) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact hsc7.read_unread _
  isplitl [H8]
  · iexists _; isplitr; swap; · iexact H8
    ipureintro
    exact hsc8.read_unread _
  isplitl [H9]
  · iexists _; isplitr; swap; · iexact H9
    ipureintro
    simp only [upd9, rowsRect, View.readAt_eq_ld, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  simp only [upd9, rowsRect, View.readAt_eq_ld, read_unread7, read_unread8, read_unread9, read_unread10, Memref.IsWhole.read_unread, View.ld_unit_zero (S := S400x5000) hz2, View.ld_unit_zero (S := S5000x32) hz2, View.ld_unit_zero (S := S10000x32) hz2]

end Cert.KernelIdeal.Hand

end
-- ==== Proof.KI.R1RunC.lean ====
/-
  Region 1, the body at a point of one control case. A middle row block: the row block of the next users is computed; this block's contribution is added to the next-items accumulator; the results are not touched.
  The triple is stated over the contents of all nine buffers the body is handed (three input blocks, the two results'
  blocks, four scratch buffers) and names what each holds afterwards through the body's own arithmetic.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_C (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : ¬c1 i) (hc2 : ¬c2 i) (hc3 : c3 i) (hc4 : ¬c4 i) (hc5 : ¬c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (x5)
            ∗ owns (c : Thread nD τ) arg6 fullShare (x6)
            ∗ owns (c : Thread nD τ) sc7 fullShare (x7)
            ∗ owns (c : Thread nD τ) sc8 fullShare (x8)
            ∗ owns (c : Thread nD τ) sc9 fullShare (upd9 i x9 (k1_pay5 x4 x8))
            ∗ owns (c : Thread nD τ) sc10 fullShare (k1_pay8 x4 (View.ld x7 (rowsRect i)) x10)) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact hsc7.read_unread _
  isplitl [H8]
  · iexists _; isplitr; swap; · iexact H8
    ipureintro
    exact hsc8.read_unread _
  isplitl [H9]
  · iexists _; isplitr; swap; · iexact H9
    ipureintro
    simp only [upd9, rowsRect, View.readAt_eq_ld, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  simp only [upd9, rowsRect, View.readAt_eq_ld, read_unread7, read_unread8, read_unread9, read_unread10, Memref.IsWhole.read_unread, View.ld_unit_zero (S := S400x5000) hz2, View.ld_unit_zero (S := S5000x32) hz2, View.ld_unit_zero (S := S10000x32) hz2]

end Cert.KernelIdeal.Hand

end
-- ==== Proof.KI.R1RunD.lean ====
/-
  Region 1, the body at a point of one control case. The last row block of the first or second layer: after the block's two updates the finished layer is added to the results and becomes the current embeddings.
  The triple is stated over the contents of all nine buffers the body is handed (three input blocks, the two results'
  blocks, four scratch buffers) and names what each holds afterwards through the body's own arithmetic.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_D (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : ¬c1 i) (hc2 : ¬c2 i) (hc3 : c3 i) (hc4 : c4 i) (hc5 : ¬c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (k1_pay9 x5 (upd9 i x9 (k1_pay5 x4 x8)))
            ∗ owns (c : Thread nD τ) arg6 fullShare (k1_pay10 x6 (k1_pay8 x4 (View.ld x7 (rowsRect i)) x10))
            ∗ owns (c : Thread nD τ) sc7 fullShare (k1_pay11 (upd9 i x9 (k1_pay5 x4 x8)))
            ∗ owns (c : Thread nD τ) sc8 fullShare (k1_pay12 (k1_pay8 x4 (View.ld x7 (rowsRect i)) x10))
            ∗ owns (c : Thread nD τ) sc9 fullShare (upd9 i x9 (k1_pay5 x4 x8))
            ∗ owns (c : Thread nD τ) sc10 fullShare (k1_pay8 x4 (View.ld x7 (rowsRect i)) x10)) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H6]
  · iexists _; isplitr; swap; · iexact H6
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H7]
  · iexists _; isplitr; swap; · iexact H7
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H8]
  · iexists _; isplitr; swap; · iexact H8
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H9]
  · iexists _; isplitr; swap; · iexact H9
    ipureintro
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  sl_unfold_run_names
  simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]

end Cert.KernelIdeal.Hand

end
-- ==== Proof.KI.R1RunE.lean ====
/-
  Region 1, the body at a point of one control case. The last point of the grid: as at the end of any layer, and then both results are scaled.
  The triple is stated over the contents of all nine buffers the body is handed (three input blocks, the two results'
  blocks, four scratch buffers) and names what each holds afterwards through the body's own arithmetic.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_E (c : Dev nD) (i : grid1.Coords)
    (arg2 : Memref sig .tc .vmem S10000x32 .f32) (harg2 : arg2.IsWhole) (arg3 : Memref sig .tc .vmem S5000x32 .f32) (harg3 : arg3.IsWhole)
    (arg4 : Memref sig .tc .vmem S400x5000 .f32) (harg4 : arg4.IsWhole) (arg5 : Memref sig .tc .vmem S10000x32 .f32) (harg5 : arg5.IsWhole)
    (arg6 : Memref sig .tc .vmem S5000x32 .f32) (harg6 : arg6.IsWhole)
    (hc1 : ¬c1 i) (hc2 : ¬c2 i) (hc3 : c3 i) (hc4 : c4 i) (hc5 : c5 i)
    (x2 : Vec F S10000x32 .f32) (x3 : Vec F S5000x32 .f32) (x4 : Vec F S400x5000 .f32) (x5 : Vec F S10000x32 .f32) (x6 : Vec F S5000x32 .f32)
    (x7 : Vec F S10000x32 .f32) (x8 : Vec F S5000x32 .f32) (x9 : Vec F S10000x32 .f32) (x10 : Vec F S5000x32 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) sc7 fullShare x7 ∗ owns (c : Thread nD τ) sc8 fullShare x8 ∗ owns (c : Thread nD τ) sc9 fullShare x9 ∗ owns (c : Thread nD τ) sc10 fullShare x10
        ∗ (iprop(owns (c : Thread nD τ) arg2 fullShare (x2)
            ∗ owns (c : Thread nD τ) arg3 fullShare (x3)
            ∗ owns (c : Thread nD τ) arg4 fullShare (x4)
            ∗ owns (c : Thread nD τ) arg5 fullShare (k1_pay13 (k1_pay9 x5 (upd9 i x9 (k1_pay5 x4 x8))))
            ∗ owns (c : Thread nD τ) arg6 fullShare (k1_pay14 (k1_pay10 x6 (k1_pay8 x4 (View.ld x7 (rowsRect i)) x10)))
            ∗ owns (c : Thread nD τ) sc7 fullShare (k1_pay11 (upd9 i x9 (k1_pay5 x4 x8)))
            ∗ owns (c : Thread nD τ) sc8 fullShare (k1_pay12 (k1_pay8 x4 (View.ld x7 (rowsRect i)) x10))
            ∗ owns (c : Thread nD τ) sc9 fullShare (upd9 i x9 (k1_pay5 x4 x8))
            ∗ owns (c : Thread nD τ) sc10 fullShare (k1_pay8 x4 (View.ld x7 (rowsRect i)) x10)) -∗ K ⟨⟩))
      ⊢ wp frame (wpE (defs₀ (F := F)) Variants.none c none) E (cc1__prop_kernel i arg2 harg2 arg3 harg3 arg4 harg4 arg5 harg5 arg6 harg6 sc7 hsc7 sc8 hsc8 sc9 hsc9 sc10 hsc10) K := by
  simp only [cc1__prop_kernel_eq_skeleton]; unfold cc1__prop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := hsc7.eq_unread hf7; obtain rfl := hsc8.eq_unread hf8
  obtain rfl := hsc9.eq_unread hf9; obtain rfl := hsc10.eq_unread hf10
  sl_exec (disch := first | exact hc1 | exact hc2 | exact hc3 | exact hc4 | exact hc5)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H6]
  · iexists _; isplitr; swap; · iexact H6
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H7]
  · iexists _; isplitr; swap; · iexact H7
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H8]
  · iexists _; isplitr; swap; · iexact H8
    ipureintro
    refine (read_writes_unit_zero _ _ hz2 _ _ _).trans ?_
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  isplitl [H9]
  · iexists _; isplitr; swap; · iexact H9
    ipureintro
    sl_unfold_run_names
    simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]
  iexists _; isplitr; swap; · iexact H10
  ipureintro
  refine (read_writes_unit_zero _ _ hz2 _ _ _).trans ?_
  sl_unfold_run_names
  simp only [upd9, read_writes_unit_zero (S := S10000x32) _ _ hz2, read_writes_unit_zero (S := S5000x32) _ _ hz2, rowsRect, View.readAt_eq_ld, View.readCov_unit_zero (S := S10000x32) _ hz2, View.readCov_unit_zero (S := S5000x32) _ hz2, read_unread7, read_unread8, read_unread9, read_unread10, Memref.IsWhole.read_unread, View.ld_unit_zero (S := S400x5000) hz2, View.ld_unit_zero (S := S5000x32) hz2, View.ld_unit_zero (S := S10000x32) hz2]

end Cert.KernelIdeal.Hand

end
-- ==== Proof.KI.R1State.lean ====
/-
  Region 1: what the buffers hold after each of the 75 points, as explicit functions of the two input arrays (the layer-0
  user and item embeddings the region is entered with) and the 75 row blocks of the adjacency matrix — written with the
  body's own arithmetic, for any float instance.

  Point n is row block n % 25 of layer n / 25. After point n:
    * the results, the current users and the current items are those of the layer in progress, replaced at the last row
      block of a layer by the layer just finished (and the results scaled at the very last point);
    * the next-items accumulator is the sum of the contributions of the row blocks 0 … n % 25 of the layer;
    * the next-users buffer holds, in the row blocks 0 … n % 25, the products of those adjacency blocks with the current
      items (its other rows are not described: they are overwritten before they are read).
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1Base
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Point number `n` of the grid (numbers from 75 on wrap around; only n < 75 is used). -/
def pt (n : ℕ) : Fin cfg1.N := ⟨n % 75, lt_of_lt_of_eq (Nat.mod_lt n (by decide)) N_1.symm⟩

theorem pt_val (t : Fin cfg1.N) : pt t.val = t :=
  Fin.ext (Nat.mod_eq_of_lt (lt_of_lt_of_eq t.isLt N_1))

/-- The grid coordinates of point number `n`. -/
def cd (n : ℕ) : grid1.Coords := grid1.coords (pt n)

theorem cd_val (t : Fin cfg1.N) : cd t.val = grid1.coords t := by unfold cd; rw [pt_val]

/-- The five buffers whose contents are named outright after each point. -/
structure PtState (F : FTy → Type) where
  /-- first result -/
  uo : Vec F S10000x32 .f32
  /-- second result -/
  io : Vec F S5000x32 .f32
  /-- current users -/
  uc : Vec F S10000x32 .f32
  /-- current items -/
  ic : Vec F S5000x32 .f32
  /-- next-items accumulator -/
  inx : Vec F S5000x32 .f32

section State

variable (eu : Vec F S10000x32 .f32) (ei : Vec F S5000x32 .f32) (A : ℕ → Vec F S400x5000 .f32)

/-- The next users of the layer that ends at point `m` (so m % 25 = 24): row r is computed by the point of row block
    r / 400 of that layer, from that block of the adjacency matrix and the layer's current items `ic`. -/
def unAt (m : ℕ) (ic : Vec F S5000x32 .f32) : Vec F S10000x32 .f32 :=
  fun y => k1_pay5 (A (m - 24 + (y 0).val / 400)) ic
    (ix2 (⟨(y 0).val % 400, Nat.mod_lt _ (by decide)⟩ : Fin 400) (⟨(y 1).val, idx2_lt1 y⟩ : Fin 32))

/-- The named buffers after point `n`. -/
def stateAt : ℕ → PtState F
  | 0 =>
    { uo := k1_pay3 eu, io := k1_pay4 ei, uc := k1_pay1 eu, ic := k1_pay2 ei,
      inx := k1_pay7 (A 0) (View.ld (k1_pay1 (F := F) eu) (rowsRect (cd 0))) }
  | n + 1 =>
    if (n + 1) % 25 = 0 then
      { uo := (stateAt n).uo, io := (stateAt n).io, uc := (stateAt n).uc, ic := (stateAt n).ic,
        inx := k1_pay7 (A (n + 1)) (View.ld (stateAt n).uc (rowsRect (cd (n + 1)))) }
    else if (n + 1) % 25 = 24 then
      if n + 1 = 74 then
        { uo := k1_pay13 (k1_pay9 (stateAt n).uo (unAt A (n + 1) (stateAt n).ic)),
          io := k1_pay14 (k1_pay10 (stateAt n).io (k1_pay8 (A (n + 1)) (View.ld (stateAt n).uc (rowsRect (cd (n + 1)))) (stateAt n).inx)),
          uc := k1_pay11 (unAt A (n + 1) (stateAt n).ic),
          ic := k1_pay12 (k1_pay8 (A (n + 1)) (View.ld (stateAt n).uc (rowsRect (cd (n + 1)))) (stateAt n).inx),
          inx := k1_pay8 (A (n + 1)) (View.ld (stateAt n).uc (rowsRect (cd (n + 1)))) (stateAt n).inx }
      else
        { uo := k1_pay9 (stateAt n).uo (unAt A (n + 1) (stateAt n).ic),
          io := k1_pay10 (stateAt n).io (k1_pay8 (A (n + 1)) (View.ld (stateAt n).uc (rowsRect (cd (n + 1)))) (stateAt n).inx),
          uc := k1_pay11 (unAt A (n + 1) (stateAt n).ic),
          ic := k1_pay12 (k1_pay8 (A (n + 1)) (View.ld (stateAt n).uc (rowsRect (cd (n + 1)))) (stateAt n).inx),
          inx := k1_pay8 (A (n + 1)) (View.ld (stateAt n).uc (rowsRect (cd (n + 1)))) (stateAt n).inx }
    else
      { uo := (stateAt n).uo, io := (stateAt n).io, uc := (stateAt n).uc, ic := (stateAt n).ic,
        inx := k1_pay8 (A (n + 1)) (View.ld (stateAt n).uc (rowsRect (cd (n + 1)))) (stateAt n).inx }

theorem stateAt_first (n : ℕ) (h : (n + 1) % 25 = 0) : stateAt eu ei A (n + 1) =
    { uo := (stateAt eu ei A n).uo, io := (stateAt eu ei A n).io, uc := (stateAt eu ei A n).uc, ic := (stateAt eu ei A n).ic,
      inx := k1_pay7 (A (n + 1)) (View.ld (stateAt eu ei A n).uc (rowsRect (cd (n + 1)))) } := by
  rw [stateAt, if_pos h]

theorem stateAt_mid (n : ℕ) (h0 : (n + 1) % 25 ≠ 0) (h24 : (n + 1) % 25 ≠ 24) : stateAt eu ei A (n + 1) =
    { uo := (stateAt eu ei A n).uo, io := (stateAt eu ei A n).io, uc := (stateAt eu ei A n).uc, ic := (stateAt eu ei A n).ic,
      inx := k1_pay8 (A (n + 1)) (View.ld (stateAt eu ei A n).uc (rowsRect (cd (n + 1)))) (stateAt eu ei A n).inx } := by
  rw [stateAt, if_neg h0, if_neg h24]

theorem stateAt_layerEnd (n : ℕ) (h24 : (n + 1) % 25 = 24) (hl : n + 1 ≠ 74) : stateAt eu ei A (n + 1) =
    { uo := k1_pay9 (stateAt eu ei A n).uo (unAt A (n + 1) (stateAt eu ei A n).ic),
      io := k1_pay10 (stateAt eu ei A n).io (k1_pay8 (A (n + 1)) (View.ld (stateAt eu ei A n).uc (rowsRect (cd (n + 1)))) (stateAt eu ei A n).inx),
      uc := k1_pay11 (unAt A (n + 1) (stateAt eu ei A n).ic),
      ic := k1_pay12 (k1_pay8 (A (n + 1)) (View.ld (stateAt eu ei A n).uc (rowsRect (cd (n + 1)))) (stateAt eu ei A n).inx),
      inx := k1_pay8 (A (n + 1)) (View.ld (stateAt eu ei A n).uc (rowsRect (cd (n + 1)))) (stateAt eu ei A n).inx } := by
  rw [stateAt, if_neg (by omega), if_pos h24, if_neg hl]

theorem stateAt_last (n : ℕ) (hl : n + 1 = 74) : stateAt eu ei A (n + 1) =
    { uo := k1_pay13 (k1_pay9 (stateAt eu ei A n).uo (unAt A (n + 1) (stateAt eu ei A n).ic)),
      io := k1_pay14 (k1_pay10 (stateAt eu ei A n).io (k1_pay8 (A (n + 1)) (View.ld (stateAt eu ei A n).uc (rowsRect (cd (n + 1)))) (stateAt eu ei A n).inx)),
      uc := k1_pay11 (unAt A (n + 1) (stateAt eu ei A n).ic),
      ic := k1_pay12 (k1_pay8 (A (n + 1)) (View.ld (stateAt eu ei A n).uc (rowsRect (cd (n + 1)))) (stateAt eu ei A n).inx),
      inx := k1_pay8 (A (n + 1)) (View.ld (stateAt eu ei A n).uc (rowsRect (cd (n + 1)))) (stateAt eu ei A n).inx } := by
  rw [stateAt, if_neg (by omega), if_pos (by omega), if_pos hl]

/-- The items the products of point `m` read: the current items as the point before left them (at the very first
    point the body sets them itself). -/
def icD (m : ℕ) : Vec F S5000x32 .f32 := if m = 0 then k1_pay2 ei else (stateAt eu ei A (m - 1)).ic

/-- Within a layer the current items do not change. -/
theorem icD_step (m : ℕ) (hm : m % 25 ≠ 0) : icD eu ei A m = icD eu ei A (m - 1) := by
  obtain ⟨k, rfl⟩ : ∃ k, m = k + 1 := ⟨m - 1, by omega⟩
  unfold icD
  rw [if_neg (by omega), Nat.add_sub_cancel]
  cases k with
  | zero => rw [if_pos rfl]; rfl
  | succ k =>
    rw [if_neg (by omega), Nat.add_sub_cancel]
    by_cases h0 : (k + 1) % 25 = 0
    · rw [stateAt_first eu ei A k h0]
    · rw [stateAt_mid eu ei A k h0 (by omega)]

/-- What is known of the next-users buffer after point `m`: each row block of the layer computed so far holds the
    product of its block of the adjacency matrix with the layer's current items. -/
def RowsDone (m : ℕ) (un : Vec F S10000x32 .f32) : Prop :=
  ∀ m', m' ≤ m → m' / 25 = m / 25 → ∀ x : S400x32.Idx,
    un ((rowsRect (cd m')).emb x) = k1_pay5 (A m') (icD eu ei A m) x

end State

end Cert.KernelIdeal.Hand

end
-- ==== Proof.KI.R1Rows.lean ====
/-
  Region 1, the next-users buffer: each point overwrites its own 400 rows and leaves the others alone, so after the
  point of row block b of a layer the blocks 0 … b hold that layer's products; after the last block (b = 24) the 25
  blocks are the whole 10000-row array, which is then a function of the adjacency blocks and the current items alone.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1State
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The row block of point `m` starts at row 400 · (m % 25) … -/
theorem off_rows (m : ℕ) (hm : m < 75) : k1_off1 (cd m) (0 : Fin 2) = 400 * (m % 25) := by
  unfold cd; rw [hoff]
  show 400 * ((pt m).val % 25) = 400 * (m % 25)
  unfold pt; simp only []; rw [Nat.mod_eq_of_lt hm]
/-- … and spans all 32 columns. -/
theorem off_cols (m : ℕ) : k1_off1 (cd m) (1 : Fin 2) = 0 := by
  unfold cd; rw [hoff]; rfl

section Rows

variable (eu : Vec F S10000x32 .f32) (ei : Vec F S5000x32 .f32) (A : ℕ → Vec F S400x5000 .f32)

/-- A point's store adds its row block to the blocks done, and keeps those done before it in the same layer. -/
theorem rowsDone_step (m : ℕ) (hm : m < 75) (un : Vec F S10000x32 .f32)
    (hprev : m % 25 ≠ 0 → RowsDone eu ei A (m - 1) un) :
    RowsDone eu ei A m (upd9 (cd m) un (k1_pay5 (A m) (icD eu ei A m))) := by
  intro m' hle hlay x
  by_cases hmm : m' = m
  · subst hmm
    unfold upd9
    exact View.read_writes_cons_emb _ _ (rowsRect (cd m')) _ [] x
  · have hlt : m' < m := by omega
    have hm0 : m % 25 ≠ 0 := by omega
    have h := hprev hm0 m' (by omega) (by omega) x
    rw [← icD_step eu ei A m hm0] at h
    unfold upd9
    rw [View.read_writes_apply_of_forall_not_mem _ _ _ _ (fun p hp => ?_), Memref.IsWhole.read_unread]
    · exact h
    · rw [List.mem_singleton] at hp; subst hp
      show (rowsRect (cd m')).emb x ∉ (rowsRect (cd m)).set
      rw [Rect.mem_set_unit]
      intro hmem
      have h0 := hmem (0 : Fin 2)
      rw [Rect.emb_apply, off_rows m hm] at h0
      have e' : (rowsRect (cd m')).off (0 : Fin 2) = 400 * (m' % 25) := off_rows m' (by omega)
      have es : (rowsRect (cd m')).stride (0 : Fin 2) = 1 := rfl
      rw [e', es] at h0
      have hx : (x (0 : Fin 2)).val < 400 := (x 0).isLt
      have hsz : S400x32.size (0 : Fin 2) = 400 := rfl
      rw [hsz] at h0
      omega

/-- After the last row block of a layer the next-users buffer is the full array of that layer's products. -/
theorem rowsDone_full (m : ℕ) (hm : m < 75) (h24 : m % 25 = 24) (un : Vec F S10000x32 .f32)
    (h : RowsDone eu ei A m un) : un = unAt A m (icD eu ei A m) := by
  funext y
  have hy0 : (y 0).val < 10000 := idx2_lt0 y
  have hy1 : (y 1).val < 32 := idx2_lt1 y
  have hb : (y 0).val / 400 < 25 := by omega
  have key := h (m - 24 + (y 0).val / 400) (by omega) (by omega)
    (ix2 (⟨(y 0).val % 400, Nat.mod_lt _ (by decide)⟩ : Fin 400) (⟨(y 1).val, hy1⟩ : Fin 32))
  have hy : (rowsRect (cd (m - 24 + (y 0).val / 400))).emb
      (ix2 (⟨(y 0).val % 400, Nat.mod_lt _ (by decide)⟩ : Fin 400) (⟨(y 1).val, hy1⟩ : Fin 32)) = y := by
    funext a
    apply Fin.ext
    rw [Rect.emb_apply]
    match a with
    | ⟨0, _⟩ =>
      have e' : (rowsRect (cd (m - 24 + (y 0).val / 400))).off (0 : Fin 2) = 400 * ((m - 24 + (y 0).val / 400) % 25) :=
        off_rows (m - 24 + (y 0).val / 400) (by omega)
      have es : (rowsRect (cd (m - 24 + (y 0).val / 400))).stride (0 : Fin 2) = 1 := rfl
      show (rowsRect (cd (m - 24 + (y 0).val / 400))).off (0 : Fin 2) + (rowsRect (cd (m - 24 + (y 0).val / 400))).stride (0 : Fin 2) * ((y 0).val % 400) = (y 0).val
      rw [e', es]; omega
    | ⟨1, _⟩ =>
      have e' : (rowsRect (cd (m - 24 + (y 0).val / 400))).off (1 : Fin 2) = 0 := off_cols (m - 24 + (y 0).val / 400)
      have es : (rowsRect (cd (m - 24 + (y 0).val / 400))).stride (1 : Fin 2) = 1 := rfl
      show (rowsRect (cd (m - 24 + (y 0).val / 400))).off (1 : Fin 2) + (rowsRect (cd (m - 24 + (y 0).val / 400))).stride (1 : Fin 2) * (y 1).val = (y 1).val
      rw [e', es]; omega
  rw [hy] at key
  rw [key]
  rfl

end Rows

end Cert.KernelIdeal.Hand

end
-- ==== Proof.KI.R1Dat.lean ====
/-
  Region 1: the proof data of the propagation kernel's pipeline, at the contents V the region is entered with.
  The three input windows hold their blocks at every point (the two embedding arrays whole, the adjacency matrix one
  400-row block per point); the two result windows hold the results named in the state after each point — they are
  stored at the first point and at the last row block of every layer, and handed back untouched elsewhere —; and the
  region's invariant carries the four scratch buffers at the state's contents from one point to the next.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Dat1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The layer-0 user embeddings the region is entered with. -/
abbrev euOf (c : Dev nD) : Vec F S10000x32 .f32 := iblk1 V c 0 (pt 0)
/-- The layer-0 item embeddings the region is entered with. -/
abbrev eiOf (c : Dev nD) : Vec F S5000x32 .f32 := iblk1 V c 1 (pt 0)
/-- The adjacency rows of point number `n`. -/
abbrev adjOf (c : Dev nD) (n : ℕ) : Vec F S400x5000 .f32 := iblk1 V c 2 (pt n)
/-- The named buffers after point number `n`. -/
abbrev st1 (c : Dev nD) (n : ℕ) : PtState F := stateAt (euOf V c) (eiOf V c) (adjOf V c) n
/-- What is known of the next-users buffer after point number `n`. -/
abbrev rowsOk (c : Dev nD) (n : ℕ) (un : Vec F S10000x32 .f32) : Prop := RowsDone (euOf V c) (eiOf V c) (adjOf V c) n un

/-- The scoped buffers the kernel never touches (the other kernel's staging buffers), each at some contents. -/
def rest14 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f))

/-- The invariant before the first point: every scoped buffer that is no staging buffer of this pipeline at some contents,
    the scratch buffers as memrefs. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d)) ∗ (∃ r, prngReg c r)) := by
  unfold Pipeline.ΦA; rw [scopedRest1_eq]; simp only [sc7, sc8, sc9, sc10, owns_whole]; try rfl

/-- The region invariant before position `n`: before the first point the launch's; afterwards the untouched buffers, the
    current users and items and the next-items accumulator at the state's contents, the next-users buffer at contents
    whose finished row blocks are known, and the generator register at some state. -/
def Phi1 (c : Dev nD) : (n : ℕ) → n ≤ cfg1.N → sProp 𝕄
  | 0, _ => Pipeline.ΦA spec1 c
  | n + 1, _ => iprop(iprop(rest14 c ∗ owns (c : Thread nD τ) sc7 fullShare (st1 V c n).uc ∗ owns (c : Thread nD τ) sc8 fullShare (st1 V c n).ic
      ∗ (∃ un, ⌜rowsOk V c n un⌝ ∗ owns (c : Thread nD τ) sc9 fullShare un) ∗ owns (c : Thread nD τ) sc10 fullShare (st1 V c n).inx) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(rest14 c ∗ owns (c : Thread nD τ) sc7 fullShare (st1 V c n).uc ∗ owns (c : Thread nD τ) sc8 fullShare (st1 V c n).ic
      ∗ (∃ un, ⌜rowsOk V c n un⌝ ∗ owns (c : Thread nD τ) sc9 fullShare un) ∗ owns (c : Thread nD τ) sc10 fullShare (st1 V c n).inx) ∗ (∃ r, prngReg c r)) := rfl

theorem Phi1_pos (c : Dev nD) (n : ℕ) (h : n ≤ cfg1.N) (hz : n ≠ 0) :
    Phi1 V c n h = iprop(iprop(rest14 c ∗ owns (c : Thread nD τ) sc7 fullShare (st1 V c (n - 1)).uc ∗ owns (c : Thread nD τ) sc8 fullShare (st1 V c (n - 1)).ic
      ∗ (∃ un, ⌜rowsOk V c (n - 1) un⌝ ∗ owns (c : Thread nD τ) sc9 fullShare un) ∗ owns (c : Thread nD τ) sc10 fullShare (st1 V c (n - 1)).inx) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (st1 V c t.val).uo
    | ⟨4, _⟩ => (st1 V c t.val).io
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (st1 V c t.val).uo := by dsimp only [dat1]
theorem after1_4 (c : Dev nD) (t : Fin cfg1.N) : (dat1 V c).after 4 t = (st1 V c t.val).io := by dsimp only [dat1]

/-! ## The input windows hold their blocks at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The two embedding arrays are staged whole, at block index 0 at every point: their block is the same at every point. -/
theorem iblk1_0_const (c : Dev nD) (t : Fin cfg1.N) : iblk1 V c 0 t = euOf V c := by
  have e : ∀ t t' : Fin cfg1.N, (dat1 V c).fetched 0 t (fun _ => Classical.arbitrary _) = (dat1 V c).fetched 0 t' (fun _ => Classical.arbitrary _) :=
    fun t t' => (dat1 V c).fetched_congr 0 ((by decide +kernel : ∀ t t' : Fin grid1.N, win1_0.index t = win1_0.index t') t t') rfl _
  have f : ∀ t : Fin cfg1.N, (dat1 V c).fetched 0 t (fun _ => Classical.arbitrary _) = iblk1 V c 0 t :=
    fun t => by unfold Dat.fetched Dat.blockOf iblk1; rw [A_eq1]; try rfl
  rw [← f t, e t (pt 0), f]
theorem iblk1_1_const (c : Dev nD) (t : Fin cfg1.N) : iblk1 V c 1 t = eiOf V c := by
  have e : ∀ t t' : Fin cfg1.N, (dat1 V c).fetched 1 t (fun _ => Classical.arbitrary _) = (dat1 V c).fetched 1 t' (fun _ => Classical.arbitrary _) :=
    fun t t' => (dat1 V c).fetched_congr 1 ((by decide +kernel : ∀ t t' : Fin grid1.N, win1_1.index t = win1_1.index t') t t') rfl _
  have f : ∀ t : Fin cfg1.N, (dat1 V c).fetched 1 t (fun _ => Classical.arbitrary _) = iblk1 V c 1 t :=
    fun t => by unfold Dat.fetched Dat.blockOf iblk1; rw [A_eq1]; try rfl
  rw [← f t, e t (pt 0), f]
theorem iblk1_2_pt (c : Dev nD) (t : Fin cfg1.N) : iblk1 V c 2 t = adjOf V c t.val := by
  unfold adjOf; rw [pt_val]

end Dat1

end Cert.KernelIdeal.Hand

end
-- ==== Proof.KI.R1Steps.lean ====
/-
  Region 1: the state after point n written over the state after point n - 1 (one equation per control case), and the two
  result windows' staging buffers between points: a result is stored at the very first point and at the last row block of
  each layer, handed back untouched at every other point, and written back to its array only after the last point, so
  before any point but the first its buffer holds the result named in the state after the point before.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Steps

variable (eu : Vec F S10000x32 .f32) (ei : Vec F S5000x32 .f32) (A : ℕ → Vec F S400x5000 .f32)

theorem stateAt_first' (n : ℕ) (hn0 : n ≠ 0) (h : n % 25 = 0) : stateAt eu ei A n =
    { uo := (stateAt eu ei A (n - 1)).uo, io := (stateAt eu ei A (n - 1)).io, uc := (stateAt eu ei A (n - 1)).uc, ic := (stateAt eu ei A (n - 1)).ic,
      inx := k1_pay7 (A n) (View.ld (stateAt eu ei A (n - 1)).uc (rowsRect (cd n))) } := by
  obtain ⟨k, rfl⟩ : ∃ k, n = k + 1 := ⟨n - 1, by omega⟩
  rw [Nat.add_sub_cancel]; exact stateAt_first eu ei A k h

theorem stateAt_mid' (n : ℕ) (hn0 : n ≠ 0) (h0 : n % 25 ≠ 0) (h24 : n % 25 ≠ 24) : stateAt eu ei A n =
    { uo := (stateAt eu ei A (n - 1)).uo, io := (stateAt eu ei A (n - 1)).io, uc := (stateAt eu ei A (n - 1)).uc, ic := (stateAt eu ei A (n - 1)).ic,
      inx := k1_pay8 (A n) (View.ld (stateAt eu ei A (n - 1)).uc (rowsRect (cd n))) (stateAt eu ei A (n - 1)).inx } := by
  obtain ⟨k, rfl⟩ : ∃ k, n = k + 1 := ⟨n - 1, by omega⟩
  rw [Nat.add_sub_cancel]; exact stateAt_mid eu ei A k h0 h24

theorem stateAt_layerEnd' (n : ℕ) (h24 : n % 25 = 24) (hl : n ≠ 74) : stateAt eu ei A n =
    { uo := k1_pay9 (stateAt eu ei A (n - 1)).uo (unAt A n (stateAt eu ei A (n - 1)).ic),
      io := k1_pay10 (stateAt eu ei A (n - 1)).io (k1_pay8 (A n) (View.ld (stateAt eu ei A (n - 1)).uc (rowsRect (cd n))) (stateAt eu ei A (n - 1)).inx),
      uc := k1_pay11 (unAt A n (stateAt eu ei A (n - 1)).ic),
      ic := k1_pay12 (k1_pay8 (A n) (View.ld (stateAt eu ei A (n - 1)).uc (rowsRect (cd n))) (stateAt eu ei A (n - 1)).inx),
      inx := k1_pay8 (A n) (View.ld (stateAt eu ei A (n - 1)).uc (rowsRect (cd n))) (stateAt eu ei A (n - 1)).inx } := by
  obtain ⟨k, rfl⟩ : ∃ k, n = k + 1 := ⟨n - 1, by omega⟩
  rw [Nat.add_sub_cancel]; exact stateAt_layerEnd eu ei A k h24 hl

theorem stateAt_last' (n : ℕ) (hl : n = 74) : stateAt eu ei A n =
    { uo := k1_pay13 (k1_pay9 (stateAt eu ei A (n - 1)).uo (unAt A n (stateAt eu ei A (n - 1)).ic)),
      io := k1_pay14 (k1_pay10 (stateAt eu ei A (n - 1)).io (k1_pay8 (A n) (View.ld (stateAt eu ei A (n - 1)).uc (rowsRect (cd n))) (stateAt eu ei A (n - 1)).inx)),
      uc := k1_pay11 (unAt A n (stateAt eu ei A (n - 1)).ic),
      ic := k1_pay12 (k1_pay8 (A n) (View.ld (stateAt eu ei A (n - 1)).uc (rowsRect (cd n))) (stateAt eu ei A (n - 1)).inx),
      inx := k1_pay8 (A n) (View.ld (stateAt eu ei A (n - 1)).uc (rowsRect (cd n))) (stateAt eu ei A (n - 1)).inx } := by
  obtain ⟨k, rfl⟩ : ∃ k, n = k + 1 := ⟨n - 1, by omega⟩
  rw [Nat.add_sub_cancel]; exact stateAt_last eu ei A k hl

theorem icD_zero : icD eu ei A 0 = k1_pay2 ei := by unfold icD; rw [if_pos rfl]
theorem icD_pos (m : ℕ) (h : m ≠ 0) : icD eu ei A m = (stateAt eu ei A (m - 1)).ic := by unfold icD; rw [if_neg h]

/-- At a point that is neither the first nor the last row block of a layer the results do not change. -/
theorem results_kept (n : ℕ) (hn0 : n ≠ 0) (h24 : n % 25 ≠ 24) :
    (stateAt eu ei A n).uo = (stateAt eu ei A (n - 1)).uo ∧ (stateAt eu ei A n).io = (stateAt eu ei A (n - 1)).io := by
  by_cases h0 : n % 25 = 0
  · rw [stateAt_first' eu ei A n hn0 h0]; exact ⟨rfl, rfl⟩
  · rw [stateAt_mid' eu ei A n hn0 h0 h24]; exact ⟨rfl, rfl⟩

end Steps

/-! ## Where the result windows are idle, live, written back -/

theorem liveAt1_3 : ∀ t : Fin cfg1.N, t.val = 0 ∨ t.val % 25 = 24 → cfg1.idle 3 (grid1.coords t) = false :=
  (by decide +kernel : ∀ t : Fin grid1.N, t.val = 0 ∨ t.val % 25 = 24 → cfg1.idle 3 (grid1.coords t) = false)
theorem liveAt1_4 : ∀ t : Fin cfg1.N, t.val = 0 ∨ t.val % 25 = 24 → cfg1.idle 4 (grid1.coords t) = false :=
  (by decide +kernel : ∀ t : Fin grid1.N, t.val = 0 ∨ t.val % 25 = 24 → cfg1.idle 4 (grid1.coords t) = false)
theorem idleAt1_3 : ∀ t : Fin cfg1.N, t.val ≠ 0 → t.val % 25 ≠ 24 → cfg1.idle 3 (grid1.coords t) = true :=
  (by decide +kernel : ∀ t : Fin grid1.N, t.val ≠ 0 → t.val % 25 ≠ 24 → cfg1.idle 3 (grid1.coords t) = true)
theorem idleAt1_4 : ∀ t : Fin cfg1.N, t.val ≠ 0 → t.val % 25 ≠ 24 → cfg1.idle 4 (grid1.coords t) = true :=
  (by decide +kernel : ∀ t : Fin grid1.N, t.val ≠ 0 → t.val % 25 ≠ 24 → cfg1.idle 4 (grid1.coords t) = true)
theorem noFlush1_3 : ∀ t : Fin cfg1.N, t.val ≠ 74 → (cfg1.win 3).flush t = false :=
  (by decide +kernel : ∀ t : Fin grid1.N, t.val ≠ 74 → win1_3.flush t = false)
theorem noFlush1_4 : ∀ t : Fin cfg1.N, t.val ≠ 74 → (cfg1.win 4).flush t = false :=
  (by decide +kernel : ∀ t : Fin grid1.N, t.val ≠ 74 → win1_4.flush t = false)
theorem noFetch1_3 : ∀ t : Fin cfg1.N, (cfg1.win 3).fetch t = false :=
  (by decide +kernel : ∀ t : Fin grid1.N, win1_3.fetch t = false)
theorem noFetch1_4 : ∀ t : Fin cfg1.N, (cfg1.win 4).fetch t = false :=
  (by decide +kernel : ∀ t : Fin grid1.N, win1_4.fetch t = false)

section Before

variable (V : (c : Dev nD) → (b : Ref sig .tc) → Buf (Elt F) ((c : Thread nD τ).loc b))

/-- Before any point but the first, the first result's staging buffer holds the result as the point before left it. -/
theorem before1_3 (c : Dev nD) : ∀ (n : ℕ) (hn : n < cfg1.N), n ≠ 0 → ∀ d, (dat1 V c).before 3 ⟨n, hn⟩ d = (st1 V c (n - 1)).uo
  | 0, _, h, _ => absurd rfl h
  | n + 1, hn, _, d => by
    have hN : n + 1 < 75 := lt_of_lt_of_eq hn N_1
    rw [(dat1 V c).before_of_pos 3 ⟨n + 1, hn⟩ (Nat.succ_ne_zero n) (noFetch1_3 _) d]
    simp only [Fin.val_mk, Nat.add_sub_cancel]
    rw [if_neg (by rw [noFlush1_3 ⟨n, _⟩ (by show n ≠ 74; omega)]; exact Bool.false_ne_true)]
    unfold Dat.left
    by_cases hlive : n = 0 ∨ n % 25 = 24
    · rw [liveAt1_3 ⟨n, _⟩ hlive]
      show (dat1 V c).kept 3 ⟨n, _⟩ d = _
      unfold Dat.kept
      rw [Pipeline.fill_of_clip_none 3 _ (fun _ => rfl) d ((dat1 V c).after 3 _), Window.fill_cut, after1_3]
    · have hn0 : n ≠ 0 := fun h => hlive (.inl h)
      have h24 : n % 25 ≠ 24 := fun h => hlive (.inr h)
      rw [idleAt1_3 ⟨n, _⟩ hn0 h24]
      show (dat1 V c).before 3 ⟨n, _⟩ d = _
      rw [before1_3 c n (Nat.lt_of_succ_lt hn) hn0 d]
      exact ((results_kept _ _ _ n hn0 h24).1).symm

/-- The same for the second result. -/
theorem before1_4 (c : Dev nD) : ∀ (n : ℕ) (hn : n < cfg1.N), n ≠ 0 → ∀ d, (dat1 V c).before 4 ⟨n, hn⟩ d = (st1 V c (n - 1)).io
  | 0, _, h, _ => absurd rfl h
  | n + 1, hn, _, d => by
    have hN : n + 1 < 75 := lt_of_lt_of_eq hn N_1
    rw [(dat1 V c).before_of_pos 4 ⟨n + 1, hn⟩ (Nat.succ_ne_zero n) (noFetch1_4 _) d]
    simp only [Fin.val_mk, Nat.add_sub_cancel]
    rw [if_neg (by rw [noFlush1_4 ⟨n, _⟩ (by show n ≠ 74; omega)]; exact Bool.false_ne_true)]
    unfold Dat.left
    by_cases hlive : n = 0 ∨ n % 25 = 24
    · rw [liveAt1_4 ⟨n, _⟩ hlive]
      show (dat1 V c).kept 4 ⟨n, _⟩ d = _
      unfold Dat.kept
      rw [Pipeline.fill_of_clip_none 4 _ (fun _ => rfl) d ((dat1 V c).after 4 _), Window.fill_cut, after1_4]
    · have hn0 : n ≠ 0 := fun h => hlive (.inl h)
      have h24 : n % 25 ≠ 24 := fun h => hlive (.inr h)
      rw [idleAt1_4 ⟨n, _⟩ hn0 h24]
      show (dat1 V c).before 4 ⟨n, _⟩ d = _
      rw [before1_4 c n (Nat.lt_of_succ_lt hn) hn0 d]
      exact ((results_kept _ _ _ n hn0 h24).2).symm

end Before

end Cert.KernelIdeal.Hand

end
-- ==== Proof.KI.R1Body.lean ====
/-
  Region 1: the body obligation. At every point the body, handed the invariant and the five windows' current staging
  buffers, runs to the invariant of the next position and the buffers at the contents the proof data names: the point's
  number decides which of the five control cases it is in, and that case's run applies.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.R1RunA
import proofs.«129974_g1760936592044_cont_8to1_853_2_alg».proof.Proof.KI.R1RunB
import proofs.«129974_g1760936592044_cont_8to1_853_2_alg».proof.Proof.KI.R1RunC
import proofs.«129974_g1760936592044_cont_8to1_853_2_alg».proof.Proof.KI.R1RunD
import proofs.«129974_g1760936592044_cont_8to1_853_2_alg».proof.Proof.KI.R1RunE
import proofs.«129974_g1760936592044_cont_8to1_853_2_alg».proof.Proof.KI.R1Steps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

abbrev ms1_0 (t : Fin cfg1.N) : Memref sig .tc .vmem S10000x32 .f32 := win1_0.stage (cfg1.slots t 0)
abbrev ms1_1 (t : Fin cfg1.N) : Memref sig .tc .vmem S5000x32 .f32 := win1_1.stage (cfg1.slots t 1)
abbrev ms1_2 (t : Fin cfg1.N) : Memref sig .tc .vmem S400x5000 .f32 := win1_2.stage (cfg1.slots t 2)
abbrev ms1_3 (t : Fin cfg1.N) : Memref sig .tc .vmem S10000x32 .f32 := win1_3.stage (cfg1.slots t 3)
abbrev ms1_4 (t : Fin cfg1.N) : Memref sig .tc .vmem S5000x32 .f32 := win1_4.stage (cfg1.slots t 4)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
      unfold Dat.leavesExact; rfl, after1_0,
    show (dat1 V c).leavesExact 1 t = owns (c : Thread nD τ) (ms1_1 t) fullShare ((dat1 V c).after 1 t) from by
      unfold Dat.leavesExact; rfl, after1_1,
    show (dat1 V c).leavesExact 2 t = owns (c : Thread nD τ) (ms1_2 t) fullShare ((dat1 V c).after 2 t) from by
      unfold Dat.leavesExact; rfl, after1_2]
  rw [iblk1_0_const V c t, iblk1_1_const V c t, iblk1_2_pt V c t]
  have hN : t.val < 75 := lt_of_lt_of_eq t.isLt N_1
  by_cases h0 : t.val = 0
  · -- the first point of the grid
    have hcd : cd 0 = grid1.coords t := by rw [← h0]; exact cd_val t
    have hst : st1 V c t.val = { uo := k1_pay3 (euOf V c), io := k1_pay4 (eiOf V c), uc := k1_pay1 (euOf V c), ic := k1_pay2 (eiOf V c), inx := k1_pay7 (adjOf V c t.val) (View.ld (k1_pay1 (F := F) (euOf V c)) (rowsRect (grid1.coords t))) } := by
      rw [← hcd, h0]; rfl
    have hrows : ∀ un, rowsOk V c t.val (upd9 (grid1.coords t) un (k1_pay5 (adjOf V c t.val) (k1_pay2 (eiOf V c)))) := fun un => by
      have h1 := rowsDone_step (euOf V c) (eiOf V c) (adjOf V c) t.val hN un (fun h => absurd (by rw [h0]) h)
      rw [cd_val, h0, icD_zero] at h1; rw [h0]; exact h1
    rw [show (dat1 V c).leavesExact 3 t = owns (c : Thread nD τ) (ms1_3 t) fullShare ((dat1 V c).after 3 t) from by
        unfold Dat.leavesExact; rw [liveAt1_3 t (.inl h0)], after1_3,
      show (dat1 V c).leavesExact 4 t = owns (c : Thread nD τ) (ms1_4 t) fullShare ((dat1 V c).after 4 t) from by
        unfold Dat.leavesExact; rw [liveAt1_4 t (.inl h0)], after1_4]
    rw [Phi1_castSucc V c t, Phi1_zero V c _ _ h0, PhiA1_eq, hst]
    iintro ⟨⟨⟨R0, R1, R2, R3, R4, R5, R6, R7, R8, R9, R10, R11, R12, R13, ⟨%d7, H7⟩, ⟨%d8, H8⟩, ⟨%d9, H9⟩, ⟨%d10, H10⟩⟩, Hg⟩, Ho, ⟨%d0, H0⟩, ⟨%d1, H1⟩, ⟨%d2, H2⟩, ⟨%d3, H3⟩, ⟨%d4, H4⟩⟩
    iapply (run_A c (grid1.coords t) _ _ _ _ _ _ _ _ _ _ ((hc1 t).mpr h0) ((hc2 t).mpr (by omega)) (fun h => absurd ((hc3 t).mp h) (by omega)) (fun h => absurd ((hc4 t).mp h) (by omega)) (fun h => absurd ((hc5 t).mp h) (by omega)) (euOf V c) (eiOf V c) (adjOf V c t.val) _ _ d7 d8 d9 d10 Set.univ _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    iintro ⟨H0, H1, H2, H3, H4, H7, H8, H9, H10⟩
    isplitl [R0 R1 R2 R3 R4 R5 R6 R7 R8 R9 R10 R11 R12 R13 H7 H8 H9 H10 Hg]
    · isplitl [R0 R1 R2 R3 R4 R5 R6 R7 R8 R9 R10 R11 R12 R13 H7 H8 H9 H10]
      · isplitl [R0 R1 R2 R3 R4 R5 R6 R7 R8 R9 R10 R11 R12 R13]
        · unfold rest14
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          iexact R13
        isplitl [H7]; · iexact H7
        isplitl [H8]; · iexact H8
        isplitl [H9]
        · iexists _; isplitr; · ipureintro; exact hrows d9
          iexact H9
        iexact H10
      iexact Hg
    isplitl [Ho]; · iexact Ho
    isplitl [H0]; · iexact H0
    isplitl [H1]; · iexact H1
    isplitl [H2]; · iexact H2
    isplitl [H3]; · iexact H3
    iexact H4
  · by_cases hb0 : t.val % 25 = 0
    · -- the first row block of a later layer
      have hst : st1 V c t.val = { uo := (st1 V c (t.val - 1)).uo, io := (st1 V c (t.val - 1)).io, uc := (st1 V c (t.val - 1)).uc, ic := (st1 V c (t.val - 1)).ic, inx := k1_pay7 (adjOf V c t.val) (View.ld (st1 V c (t.val - 1)).uc (rowsRect (grid1.coords t))) } := by
        have h := stateAt_first' (euOf V c) (eiOf V c) (adjOf V c) t.val h0 hb0
        rw [cd_val] at h; exact h
      have hrows : ∀ un, True →
          rowsOk V c t.val (upd9 (grid1.coords t) un (k1_pay5 (adjOf V c t.val) (st1 V c (t.val - 1)).ic)) := fun un hun => by
        have h1 := rowsDone_step (euOf V c) (eiOf V c) (adjOf V c) t.val hN un (fun h => absurd hb0 h)
        rw [cd_val, icD_pos _ _ _ _ h0] at h1; exact h1
      rw [Dat.leavesExact_idle (dat1 V c) 3 t (idleAt1_3 t h0 (by omega)) (noFlush1_3 t (by omega)),
        Dat.leavesExact_idle (dat1 V c) 4 t (idleAt1_4 t h0 (by omega)) (noFlush1_4 t (by omega))]
      rw [Phi1_castSucc V c t, Phi1_pos V c _ _ h0, hst]
      iintro ⟨⟨⟨Hr, H7, H8, ⟨%un, %hun, H9⟩, H10⟩, Hg⟩, Ho, ⟨%d0, H0⟩, ⟨%d1, H1⟩, ⟨%d2, H2⟩, ⟨%d3, H3⟩, ⟨%d4, H4⟩⟩
      iapply (run_B c (grid1.coords t) _ _ _ _ _ _ _ _ _ _ (fun h => h0 ((hc1 t).mp h)) ((hc2 t).mpr hb0) (fun h => absurd ((hc3 t).mp h) (by omega)) (fun h => absurd ((hc4 t).mp h) (by omega)) (fun h => absurd ((hc5 t).mp h) (by omega)) (euOf V c) (eiOf V c) (adjOf V c t.val) _ _ (st1 V c (t.val - 1)).uc (st1 V c (t.val - 1)).ic un (st1 V c (t.val - 1)).inx Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      isplitl [H10]; · iexact H10
      iintro ⟨H0, H1, H2, H3, H4, H7, H8, H9, H10⟩
      isplitl [Hr H7 H8 H9 H10 Hg]
      · isplitl [Hr H7 H8 H9 H10]
        · isplitl [Hr]; · iexact Hr
          isplitl [H7]; · iexact H7
          isplitl [H8]; · iexact H8
          isplitl [H9]
          · iexists _; isplitr; · ipureintro; exact hrows un trivial
            iexact H9
          iexact H10
        iexact Hg
      isplitl [Ho]; · iexact Ho
      isplitl [H0]; · iexact H0
      isplitl [H1]; · iexact H1
      isplitl [H2]; · iexact H2
      isplitl [H3]; · iexists _; iexact H3
      iexists _; iexact H4
    · by_cases hb24 : t.val % 25 = 24
      · by_cases hl : t.val = 74
        · -- the last point of the grid
          have hst : st1 V c t.val = { uo := k1_pay13 (k1_pay9 (st1 V c (t.val - 1)).uo (unAt (adjOf V c) t.val (st1 V c (t.val - 1)).ic)), io := k1_pay14 (k1_pay10 (st1 V c (t.val - 1)).io (k1_pay8 (adjOf V c t.val) (View.ld (st1 V c (t.val - 1)).uc (rowsRect (grid1.coords t))) (st1 V c (t.val - 1)).inx)), uc := k1_pay11 (unAt (adjOf V c) t.val (st1 V c (t.val - 1)).ic), ic := k1_pay12 (k1_pay8 (adjOf V c t.val) (View.ld (st1 V c (t.val - 1)).uc (rowsRect (grid1.coords t))) (st1 V c (t.val - 1)).inx), inx := k1_pay8 (adjOf V c t.val) (View.ld (st1 V c (t.val - 1)).uc (rowsRect (grid1.coords t))) (st1 V c (t.val - 1)).inx } := by
            have h := stateAt_last' (euOf V c) (eiOf V c) (adjOf V c) t.val hl
            rw [cd_val] at h; exact h
          have hrows : ∀ un, rowsOk V c (t.val - 1) un →
              rowsOk V c t.val (upd9 (grid1.coords t) un (k1_pay5 (adjOf V c t.val) (st1 V c (t.val - 1)).ic)) := fun un hun => by
            have h1 := rowsDone_step (euOf V c) (eiOf V c) (adjOf V c) t.val hN un (fun _ => hun)
            rw [cd_val, icD_pos _ _ _ _ h0] at h1; exact h1
          have hfull : ∀ un, rowsOk V c (t.val - 1) un →
              upd9 (grid1.coords t) un (k1_pay5 (adjOf V c t.val) (st1 V c (t.val - 1)).ic) = unAt (adjOf V c) t.val (st1 V c (t.val - 1)).ic := fun un hun => by
            have h2 := rowsDone_full (euOf V c) (eiOf V c) (adjOf V c) t.val hN (by omega) _ (hrows un hun)
            rw [icD_pos _ _ _ _ h0] at h2; exact h2
          rw [show (dat1 V c).leavesExact 3 t = owns (c : Thread nD τ) (ms1_3 t) fullShare ((dat1 V c).after 3 t) from by
              unfold Dat.leavesExact; rw [liveAt1_3 t (.inr (by omega))], after1_3,
            show (dat1 V c).leavesExact 4 t = owns (c : Thread nD τ) (ms1_4 t) fullShare ((dat1 V c).after 4 t) from by
              unfold Dat.leavesExact; rw [liveAt1_4 t (.inr (by omega))], after1_4]
          simp only [show ∀ d, (dat1 V c).before 3 t d = (st1 V c (t.val - 1)).uo from fun d => before1_3 V c t.val t.isLt h0 d,
            show ∀ d, (dat1 V c).before 4 t d = (st1 V c (t.val - 1)).io from fun d => before1_4 V c t.val t.isLt h0 d]
          rw [Phi1_castSucc V c t, Phi1_pos V c _ _ h0, hst]
          iintro ⟨⟨⟨Hr, H7, H8, ⟨%un, %hun, H9⟩, H10⟩, Hg⟩, Ho, ⟨%d0, H0⟩, ⟨%d1, H1⟩, ⟨%d2, H2⟩, ⟨%d3, H3⟩, ⟨%d4, H4⟩⟩
          iapply (run_E c (grid1.coords t) _ _ _ _ _ _ _ _ _ _ (fun h => h0 ((hc1 t).mp h)) (fun h => absurd ((hc2 t).mp h) (by omega)) ((hc3 t).mpr (by omega)) ((hc4 t).mpr (by omega)) ((hc5 t).mpr hl) (euOf V c) (eiOf V c) (adjOf V c t.val) _ _ (st1 V c (t.val - 1)).uc (st1 V c (t.val - 1)).ic un (st1 V c (t.val - 1)).inx Set.univ _)
          isplitl [H0]; · iexact H0
          isplitl [H1]; · iexact H1
          isplitl [H2]; · iexact H2
          isplitl [H3]; · iexact H3
          isplitl [H4]; · iexact H4
          isplitl [H7]; · iexact H7
          isplitl [H8]; · iexact H8
          isplitl [H9]; · iexact H9
          isplitl [H10]; · iexact H10
          iintro ⟨H0, H1, H2, H3, H4, H7, H8, H9, H10⟩
          rw [hfull un hun]
          isplitl [Hr H7 H8 H9 H10 Hg]
          · isplitl [Hr H7 H8 H9 H10]
            · isplitl [Hr]; · iexact Hr
              isplitl [H7]; · iexact H7
              isplitl [H8]; · iexact H8
              isplitl [H9]
              · iexists _; isplitr; · ipureintro; exact hfull un hun ▸ hrows un hun
                iexact H9
              iexact H10
            iexact Hg
          isplitl [Ho]; · iexact Ho
          isplitl [H0]; · iexact H0
          isplitl [H1]; · iexact H1
          isplitl [H2]; · iexact H2
          isplitl [H3]; · iexact H3
          iexact H4
        · -- the last row block of the first or second layer
          have hst : st1 V c t.val = { uo := k1_pay9 (st1 V c (t.val - 1)).uo (unAt (adjOf V c) t.val (st1 V c (t.val - 1)).ic), io := k1_pay10 (st1 V c (t.val - 1)).io (k1_pay8 (adjOf V c t.val) (View.ld (st1 V c (t.val - 1)).uc (rowsRect (grid1.coords t))) (st1 V c (t.val - 1)).inx), uc := k1_pay11 (unAt (adjOf V c) t.val (st1 V c (t.val - 1)).ic), ic := k1_pay12 (k1_pay8 (adjOf V c t.val) (View.ld (st1 V c (t.val - 1)).uc (rowsRect (grid1.coords t))) (st1 V c (t.val - 1)).inx), inx := k1_pay8 (adjOf V c t.val) (View.ld (st1 V c (t.val - 1)).uc (rowsRect (grid1.coords t))) (st1 V c (t.val - 1)).inx } := by
            have h := stateAt_layerEnd' (euOf V c) (eiOf V c) (adjOf V c) t.val hb24 hl
            rw [cd_val] at h; exact h
          have hrows : ∀ un, rowsOk V c (t.val - 1) un →
              rowsOk V c t.val (upd9 (grid1.coords t) un (k1_pay5 (adjOf V c t.val) (st1 V c (t.val - 1)).ic)) := fun un hun => by
            have h1 := rowsDone_step (euOf V c) (eiOf V c) (adjOf V c) t.val hN un (fun _ => hun)
            rw [cd_val, icD_pos _ _ _ _ h0] at h1; exact h1
          have hfull : ∀ un, rowsOk V c (t.val - 1) un →
              upd9 (grid1.coords t) un (k1_pay5 (adjOf V c t.val) (st1 V c (t.val - 1)).ic) = unAt (adjOf V c) t.val (st1 V c (t.val - 1)).ic := fun un hun => by
            have h2 := rowsDone_full (euOf V c) (eiOf V c) (adjOf V c) t.val hN (by omega) _ (hrows un hun)
            rw [icD_pos _ _ _ _ h0] at h2; exact h2
          rw [show (dat1 V c).leavesExact 3 t = owns (c : Thread nD τ) (ms1_3 t) fullShare ((dat1 V c).after 3 t) from by
              unfold Dat.leavesExact; rw [liveAt1_3 t (.inr (by omega))], after1_3,
            show (dat1 V c).leavesExact 4 t = owns (c : Thread nD τ) (ms1_4 t) fullShare ((dat1 V c).after 4 t) from by
              unfold Dat.leavesExact; rw [liveAt1_4 t (.inr (by omega))], after1_4]
          simp only [show ∀ d, (dat1 V c).before 3 t d = (st1 V c (t.val - 1)).uo from fun d => before1_3 V c t.val t.isLt h0 d,
            show ∀ d, (dat1 V c).before 4 t d = (st1 V c (t.val - 1)).io from fun d => before1_4 V c t.val t.isLt h0 d]
          rw [Phi1_castSucc V c t, Phi1_pos V c _ _ h0, hst]
          iintro ⟨⟨⟨Hr, H7, H8, ⟨%un, %hun, H9⟩, H10⟩, Hg⟩, Ho, ⟨%d0, H0⟩, ⟨%d1, H1⟩, ⟨%d2, H2⟩, ⟨%d3, H3⟩, ⟨%d4, H4⟩⟩
          iapply (run_D c (grid1.coords t) _ _ _ _ _ _ _ _ _ _ (fun h => h0 ((hc1 t).mp h)) (fun h => absurd ((hc2 t).mp h) (by omega)) ((hc3 t).mpr (by omega)) ((hc4 t).mpr hb24) (fun h => hl ((hc5 t).mp h)) (euOf V c) (eiOf V c) (adjOf V c t.val) _ _ (st1 V c (t.val - 1)).uc (st1 V c (t.val - 1)).ic un (st1 V c (t.val - 1)).inx Set.univ _)
          isplitl [H0]; · iexact H0
          isplitl [H1]; · iexact H1
          isplitl [H2]; · iexact H2
          isplitl [H3]; · iexact H3
          isplitl [H4]; · iexact H4
          isplitl [H7]; · iexact H7
          isplitl [H8]; · iexact H8
          isplitl [H9]; · iexact H9
          isplitl [H10]; · iexact H10
          iintro ⟨H0, H1, H2, H3, H4, H7, H8, H9, H10⟩
          rw [hfull un hun]
          isplitl [Hr H7 H8 H9 H10 Hg]
          · isplitl [Hr H7 H8 H9 H10]
            · isplitl [Hr]; · iexact Hr
              isplitl [H7]; · iexact H7
              isplitl [H8]; · iexact H8
              isplitl [H9]
              · iexists _; isplitr; · ipureintro; exact hfull un hun ▸ hrows un hun
                iexact H9
              iexact H10
            iexact Hg
          isplitl [Ho]; · iexact Ho
          isplitl [H0]; · iexact H0
          isplitl [H1]; · iexact H1
          isplitl [H2]; · iexact H2
          isplitl [H3]; · iexact H3
          iexact H4
      · -- a middle row block
        have hst : st1 V c t.val = { uo := (st1 V c (t.val - 1)).uo, io := (st1 V c (t.val - 1)).io, uc := (st1 V c (t.val - 1)).uc, ic := (st1 V c (t.val - 1)).ic, inx := k1_pay8 (adjOf V c t.val) (View.ld (st1 V c (t.val - 1)).uc (rowsRect (grid1.coords t))) (st1 V c (t.val - 1)).inx } := by
          have h := stateAt_mid' (euOf V c) (eiOf V c) (adjOf V c) t.val h0 hb0 hb24
          rw [cd_val] at h; exact h
        have hrows : ∀ un, rowsOk V c (t.val - 1) un →
            rowsOk V c t.val (upd9 (grid1.coords t) un (k1_pay5 (adjOf V c t.val) (st1 V c (t.val - 1)).ic)) := fun un hun => by
          have h1 := rowsDone_step (euOf V c) (eiOf V c) (adjOf V c) t.val hN un (fun _ => hun)
          rw [cd_val, icD_pos _ _ _ _ h0] at h1; exact h1
        rw [Dat.leavesExact_idle (dat1 V c) 3 t (idleAt1_3 t h0 (by omega)) (noFlush1_3 t (by omega)),
          Dat.leavesExact_idle (dat1 V c) 4 t (idleAt1_4 t h0 (by omega)) (noFlush1_4 t (by omega))]
        rw [Phi1_castSucc V c t, Phi1_pos V c _ _ h0, hst]
        iintro ⟨⟨⟨Hr, H7, H8, ⟨%un, %hun, H9⟩, H10⟩, Hg⟩, Ho, ⟨%d0, H0⟩, ⟨%d1, H1⟩, ⟨%d2, H2⟩, ⟨%d3, H3⟩, ⟨%d4, H4⟩⟩
        iapply (run_C c (grid1.coords t) _ _ _ _ _ _ _ _ _ _ (fun h => h0 ((hc1 t).mp h)) (fun h => hb0 ((hc2 t).mp h)) ((hc3 t).mpr (by omega)) (fun h => hb24 ((hc4 t).mp h)) (fun h => absurd ((hc5 t).mp h) (by omega)) (euOf V c) (eiOf V c) (adjOf V c t.val) _ _ (st1 V c (t.val - 1)).uc (st1 V c (t.val - 1)).ic un (st1 V c (t.val - 1)).inx Set.univ _)
        isplitl [H0]; · iexact H0
        isplitl [H1]; · iexact H1
        isplitl [H2]; · iexact H2
        isplitl [H3]; · iexact H3
        isplitl [H4]; · iexact H4
        isplitl [H7]; · iexact H7
        isplitl [H8]; · iexact H8
        isplitl [H9]; · iexact H9
        isplitl [H10]; · iexact H10
        iintro ⟨H0, H1, H2, H3, H4, H7, H8, H9, H10⟩
        isplitl [Hr H7 H8 H9 H10 Hg]
        · isplitl [Hr H7 H8 H9 H10]
          · isplitl [Hr]; · iexact Hr
            isplitl [H7]; · iexact H7
            isplitl [H8]; · iexact H8
            isplitl [H9]
            · iexists _; isplitr; · ipureintro; exact hrows un hun
              iexact H9
            iexact H10
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the launch's back: the scratch buffers' named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 75 := N_1; omega), PhiA1_eq]
  unfold rest14
  iintro ⟨⟨⟨R0, R1, R2, R3, R4, R5, R6, R7, R8, R9, R10, R11, R12, R13⟩, H7, H8, ⟨%un, -, H9⟩, H10⟩, Hg⟩
  isplitr [Hg]; swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [H7]; · iexists _; iexact H7
  isplitl [H8]; · iexists _; iexact H8
  isplitl [H9]; · iexists _; iexact H9
  iexists _; iexact H10

end Body

end Cert.KernelIdeal.Hand

end
-- ==== Proof.KI.Run.lean ====
/-
  The whole program's run: @main is a stretch of five host reshapes, the first kernel region and the second. The buffer
  contents at each boundary are a fold from the launch memory — a host stretch applies its operations, a region leaves its
  arrays at what its write-backs made of them and everything else as it was —; each region is entered from the thread state
  "every unscoped buffer at the boundary's contents, the generator register at some state, nothing owed"; and at the end
  every unscoped buffer is read off the last boundary's contents.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.Gen.KernelIdeal.Regions
import proofs.«129974_g1760936592044_cont_8to1_853_2_alg».proof.Proof.KI.Region0
import proofs.«129974_g1760936592044_cont_8to1_853_2_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- at launch -/
abbrev W0 : Dev nD → Valuation τ sig (Elt F) := fun c b => (s₀ m ρ).mem ((c : Dev nD), b)
/-- after the host reshapes (the first region's entry) -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- after the first region (the second region's entry): its arrays at what the pipeline leaves, every other buffer as entered -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- after the second region (the end) -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with it only when unification may unfold plain definitions in a
-- metavariable's type
set_option backward.isDefEq.respectTransparency.types false in
/-- Region 0 over the thread state: entered from every unscoped buffer at the contents before it, left at the contents after
    it. Its arrays are split out of the unscoped buffers at entry and put back at their final contents at exit; the
    generator register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain definitions in a
-- metavariable's type
set_option backward.isDefEq.respectTransparency.types false in
/-- Region 1 over the thread state: entered from every unscoped buffer at the contents before it, left at the contents after
    it. Its arrays are split out of the unscoped buffers at entry and put back at their final contents at exit; the
    generator register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

-- the launch theorem's implicit arguments are found by unifying its conclusion with this one
set_option backward.isDefEq.respectTransparency.types false in
/-- From any memory with zero counters every weakly fair execution of @main terminates, nothing faulting, and in every final
    state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Hand

end
-- ==== Proof.KI.RunArgs.lean ====
/-
  No host operation and no region writes an argument array (a region reads it through an input window or passes it by), so
  the contents of an argument's buffer at the last boundary walk back to the launch memory.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := W2_of_ne m ρ c main_arg0 (by decide)
    _ = m ((c : Thread nD τ).loc main_arg0) := V1_of m c main_arg0 (by decide)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := V1_of m c main_arg1 (by decide)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := V1_of m c main_arg2 (by decide)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := V1_of m c main_arg3 (by decide)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = m ((c : Thread nD τ).loc main_arg4) := V1_of m c main_arg4 (by decide)

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 4).trans (((dat0 (V1 m ρ) c).arrAt_in 4 rfl _).trans (A_eq0 (V1 m ρ) c 4))
    _ = m ((c : Thread nD τ).loc main_arg5) := V1_of m c main_arg5 (by decide)

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 5).trans (((dat0 (V1 m ρ) c).arrAt_in 5 rfl _).trans (A_eq0 (V1 m ρ) c 5))
    _ = m ((c : Thread nD τ).loc main_arg6) := V1_of m c main_arg6 (by decide)

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 6).trans (((dat0 (V1 m ρ) c).arrAt_in 6 rfl _).trans (A_eq0 (V1 m ρ) c 6))
    _ = m ((c : Thread nD τ).loc main_arg7) := V1_of m c main_arg7 (by decide)

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 7).trans (((dat0 (V1 m ρ) c).arrAt_in 7 rfl _).trans (A_eq0 (V1 m ρ) c 7))
    _ = m ((c : Thread nD τ).loc main_arg8) := V1_of m c main_arg8 (by decide)

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := (W2_arr m ρ c 8).trans (((dat0 (V1 m ρ) c).arrAt_in 8 rfl _).trans (A_eq0 (V1 m ρ) c 8))
    _ = m ((c : Thread nD τ).loc main_arg9) := V1_of m c main_arg9 (by decide)

theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = m ((c : Thread nD τ).loc main_arg10) := V1_of m c main_arg10 (by decide)

theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := (W2_arr m ρ c 10).trans (((dat0 (V1 m ρ) c).arrAt_in 10 rfl _).trans (A_eq0 (V1 m ρ) c 10))
    _ = m ((c : Thread nD τ).loc main_arg11) := V1_of m c main_arg11 (by decide)

theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = m ((c : Thread nD τ).loc main_arg12) := V1_of m c main_arg12 (by decide)

end Cert.KernelIdeal.Hand

end
-- ==== Proof.Spec.lean ====
/-
  The mathematics both programs compute, as one function of the argument arrays, over the extended reals.

  A bipartite graph with 10000 user nodes and 5000 item nodes is given by a weight matrix `adj`. Every user carries a
  32-wide embedding and two category indices into 8-row tables of 8-wide feature embeddings; every item carries a 32-wide
  embedding and one category index into a 16-row table. The layer-0 embedding of a user is the affine image, under a
  32×48 weight matrix and a bias, of its own embedding followed by its two looked-up feature rows (for an item: 32×40,
  its embedding followed by one feature row). A propagation layer sends item embeddings to users along `adj` and user
  embeddings to items along its transpose. The result is the mean over layers 0…3 of the user embeddings and of the
  item embeddings.

  Everything is stated entry by entry over literal index types; sums are finite sums in the extended reals, where
  addition and multiplication are commutative and associative (no cancellation or distributivity is used).
-/
import Idealize.ShloMosaic.PureOps.Ideal
import Idealize.ShloMosaic.Lib.ValueIdx

noncomputable section

open scoped BigOperators

namespace Cert.Spec

open Idealize.ShloMosaic Idealize.ShloMosaic.ValueIdx

/-- An `n × m` array of extended reals, indexed as the programs index it. -/
abbrev Mat (n m : Nat) : Type := (⟨2, ![n, m]⟩ : Shape).Idx → EReal
/-- A length-`n` array of extended reals. -/
abbrev Row (n : Nat) : Type := (⟨1, ![n]⟩ : Shape).Idx → EReal
/-- A length-`n` array of 32-bit words (the category indices). -/
abbrev Words (n : Nat) : Type := (⟨1, ![n]⟩ : Shape).Idx → BitVec 32

/-- Row `idx u` of a `V`-row table, entry `f`: the table's entry when the word, read as a natural number, is a row
    of the table, and zero otherwise (a one-hot row against the table has exactly this value: the one-hot row of a word
    that names no row is all zeros). -/
def pick {V n : Nat} (tbl : Mat V 8) (idx : Words n) (u : Fin n) (f : Fin 8) : EReal :=
  if h : (idx (ix1 u)).toNat < V then tbl (ix2 (⟨(idx (ix1 u)).toNat, h⟩ : Fin V) f) else 0

/-- Layer-0 user embedding, entry `(u, d)`: own embedding against columns 0…31 of the weights, the first feature row
    against columns 32…39, the second against columns 40…47, plus the bias — summed in this grouping. -/
def user0 (ue : Mat 10000 32) (recI typI : Words 10000) (recW typW : Mat 8 8) (W : Mat 32 48) (b : Row 32)
    (u : Fin 10000) (d : Fin 32) : EReal :=
  (((∑ k : Fin 32, ue (ix2 u k) * W (ix2 d (⟨k.val, by omega⟩ : Fin 48)))
      + ∑ f : Fin 8, pick recW recI u f * W (ix2 d (⟨32 + f.val, by omega⟩ : Fin 48)))
      + ∑ f : Fin 8, pick typW typI u f * W (ix2 d (⟨40 + f.val, by omega⟩ : Fin 48)))
    + b (ix1 d)

/-- Layer-0 item embedding, entry `(j, d)`: own embedding against columns 0…31, the feature row against columns
    32…39, plus the bias. -/
def item0 (ie : Mat 5000 32) (resI : Words 5000) (resW : Mat 16 8) (W : Mat 32 40) (b : Row 32)
    (j : Fin 5000) (d : Fin 32) : EReal :=
  ((∑ k : Fin 32, ie (ix2 j k) * W (ix2 d (⟨k.val, by omega⟩ : Fin 40)))
      + ∑ f : Fin 8, pick resW resI j f * W (ix2 d (⟨32 + f.val, by omega⟩ : Fin 40)))
    + b (ix1 d)

/-- One propagation step towards the users: `adj` times the item embeddings. -/
def toUsers (adj : Mat 10000 5000) (I : Fin 5000 → Fin 32 → EReal) (u : Fin 10000) (d : Fin 32) : EReal :=
  ∑ j : Fin 5000, adj (ix2 u j) * I j d

/-- One propagation step towards the items: the transpose of `adj` times the user embeddings. -/
def toItems (adj : Mat 10000 5000) (U : Fin 10000 → Fin 32 → EReal) (j : Fin 5000) (d : Fin 32) : EReal :=
  ∑ u : Fin 10000, adj (ix2 u j) * U u d

/-- The embeddings after `l` propagation layers, users and items together: each layer is computed from the
    previous layer's other side. -/
def layer (adj : Mat 10000 5000) (U0 : Fin 10000 → Fin 32 → EReal) (I0 : Fin 5000 → Fin 32 → EReal) :
    Nat → (Fin 10000 → Fin 32 → EReal) × (Fin 5000 → Fin 32 → EReal)
  | 0 => (U0, I0)
  | l + 1 => (toUsers adj (layer adj U0 I0 l).2, toItems adj (layer adj U0 I0 l).1)

/-- The weight of each of the four layers in the mean: one quarter, as the 32-bit float word of 0.25. -/
def quarter : EReal := Ideal.ofBits .f32 0x3E800000#32

/-- The arguments of both programs, in the order the programs take them. -/
structure Args where
  adj : Mat 10000 5000
  recI : Words 10000
  typI : Words 10000
  resI : Words 5000
  ue : Mat 10000 32
  ie : Mat 5000 32
  recW : Mat 8 8
  typW : Mat 8 8
  resW : Mat 16 8
  upw : Mat 32 48
  upb : Row 32
  ipw : Mat 32 40
  ipb : Row 32

/-- Layer-0 user embeddings of the arguments. -/
def Args.U0 (a : Args) : Fin 10000 → Fin 32 → EReal := user0 a.ue a.recI a.typI a.recW a.typW a.upw a.upb
/-- Layer-0 item embeddings of the arguments. -/
def Args.I0 (a : Args) : Fin 5000 → Fin 32 → EReal := item0 a.ie a.resI a.resW a.ipw a.ipb
/-- User embeddings after `l` layers. -/
def Args.U (a : Args) (l : Nat) : Fin 10000 → Fin 32 → EReal := (layer a.adj a.U0 a.I0 l).1
/-- Item embeddings after `l` layers. -/
def Args.I (a : Args) (l : Nat) : Fin 5000 → Fin 32 → EReal := (layer a.adj a.U0 a.I0 l).2

/-- The first result: the mean over layers 0…3 of the user embeddings, summed in layer order and then weighted. -/
def Args.userOut (a : Args) : Mat 10000 32 :=
  fun i => (((a.U 0 (i 0) (i 1) + a.U 1 (i 0) (i 1)) + a.U 2 (i 0) (i 1)) + a.U 3 (i 0) (i 1)) * quarter

/-- The second result: the same mean of the item embeddings. -/
def Args.itemOut (a : Args) : Mat 5000 32 :=
  fun i => (((a.I 0 (i 0) (i 1) + a.I 1 (i 0) (i 1)) + a.I 2 (i 0) (i 1)) + a.I 3 (i 0) (i 1)) * quarter

end Cert.Spec

end
-- ==== Proof.KI.Region0Sums.lean ====
/-
  The arithmetic of the first launch's two stored values, read entry by entry over the extended reals.

  Each stored value is built from three kinds of step. A comparison of an index column against the column numbers,
  turned into a float, is a one-hot row: one where the index names the column and zero elsewhere. A matrix product into
  a zero accumulator is, at an entry, the finite sum over the contracted coordinate of the products of the entries; the
  product of a one-hot row with a table is therefore the table's row the index names (every other term is zero times an
  entry), or zero when the index names no row. A slice of the weight matrix at column offset 32 or 40 shifts the column
  index, and the bias row is repeated down the rows. Only `0 * x = 0` and `1 * x = x` are used.
-/
import proofs.«129974_g1760936592044_cont_8to1_853_2_alg».proof.Proof.Gen.KernelIdeal.Skeleton
import proofs.«129974_g1760936592044_cont_8to1_853_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal.Gen
open Idealize.ShloMosaic Idealize.ShloMosaic.ValueIdx

/-! ## The one-hot word, and a one-hot row against a table -/

/-- The comparison bit of two words, widened and read as a float: one where they agree, zero where they differ. -/
theorem onehot_word (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · rw [if_pos h]; subst h
    have e : (IntOp.cmpi .eq x x).setWidth 32 = 1#32 := by simp [IntOp.cmpi]
    rw [e]; norm_num
  · rw [if_neg h]
    have hb : (x == y) = false := by simpa using h
    have e : (IntOp.cmpi .eq x y).setWidth 32 = 0#32 := by simp [IntOp.cmpi, hb]
    rw [e]; simp

/-- The sum, over the rows `k` of a table, of "the word is `k`" times the table's entry (k, f) is the looked-up entry:
    exactly one term survives when the word names a row, none otherwise. -/
theorem sum_onehot_eq_pick {V n : Nat} (hV : V ≤ 2 ^ 32) (tbl : Cert.Spec.Mat V 8) (idx : Cert.Spec.Words n) (u : Fin n) (f : Fin 8) :
    ∑ k : Fin V, (if idx (ix1 u) = BitVec.ofNat 32 k.val then (1 : EReal) else 0) * tbl (ix2 k f) = Cert.Spec.pick tbl idx u f := by
  unfold Cert.Spec.pick
  by_cases h : (idx (ix1 u)).toNat < V
  · rw [dif_pos h, Finset.sum_eq_single (⟨(idx (ix1 u)).toNat, h⟩ : Fin V)]
    · rw [if_pos (by simp)]
      exact one_mul _
    · intro k _ hk
      rw [if_neg, zero_mul]
      intro e
      apply hk
      apply Fin.ext
      show k.val = (idx (ix1 u)).toNat
      rw [e, BitVec.toNat_ofNat, Nat.mod_eq_of_lt (by have := k.isLt; omega)]
    · intro hn; exact absurd (Finset.mem_univ _) hn
  · rw [dif_neg h]
    refine Finset.sum_eq_zero fun k _ => ?_
    rw [if_neg, zero_mul]
    intro e
    apply h
    rw [e, BitVec.toNat_ofNat, Nat.mod_eq_of_lt (by have := k.isLt; omega)]
    exact k.isLt

/-- The rows of 10000 index words compared with the column numbers 0…7 and turned into floats. -/
def onehotUsers (x : Vec Ideal S10000x1 .i32) : FVec Ideal S10000x8 .f32 :=
  sitofp .f32 (extui 32 (cmpi .eq (broadcastTo S10000x8 (shapeCast S10000x1 x Gen.shapeCasts_S10000x1_S10000x1) Gen.broadcasts_S10000x1_S10000x8)
    (iota .tc S10000x8 32 [1] Gen.iota_S10000x8_d1_w32)) Gen.natLt_1_32)

/-- Entry (u, k) is one when row `u`'s word is `k`, zero otherwise. -/
theorem onehotUsers_apply (x : Vec Ideal S10000x1 .i32) (u : Fin 10000) (k : Fin 8) :
    onehotUsers x (ix2 u k) = if x (ix2 u (0 : Fin 1)) = BitVec.ofNat 32 k.val then 1 else 0 := by
  unfold onehotUsers
  rw [shapeCast_self]
  show FloatOps.sitofp (F := Ideal) .f32 ((IntOp.cmpi .eq (broadcastTo S10000x8 x Gen.broadcasts_S10000x1_S10000x8 (ix2 u k))
    (iota .tc S10000x8 32 [1] Gen.iota_S10000x8_d1_w32 (ix2 u k))).setWidth 32) = _
  rw [broadcastTo_apply x Gen.broadcasts_S10000x1_S10000x8 (ix2 u k) (ix2 u (0 : Fin 1))
    (by intro a; match a with | ⟨0, _⟩ => rfl | ⟨1, _⟩ => rfl), iota_single_apply]
  exact onehot_word _ _

/-- The rows of 5000 index words compared with the column numbers 0…15 and turned into floats. -/
def onehotItems (x : Vec Ideal S5000x1 .i32) : FVec Ideal S5000x16 .f32 :=
  sitofp .f32 (extui 32 (cmpi .eq (broadcastTo S5000x16 (shapeCast S5000x1 x Gen.shapeCasts_S5000x1_S5000x1) Gen.broadcasts_S5000x1_S5000x16)
    (iota .tc S5000x16 32 [1] Gen.iota_S5000x16_d1_w32)) Gen.natLt_1_32)

/-- Entry (u, k) is one when row `u`'s word is `k`, zero otherwise. -/
theorem onehotItems_apply (x : Vec Ideal S5000x1 .i32) (u : Fin 5000) (k : Fin 16) :
    onehotItems x (ix2 u k) = if x (ix2 u (0 : Fin 1)) = BitVec.ofNat 32 k.val then 1 else 0 := by
  unfold onehotItems
  rw [shapeCast_self]
  show FloatOps.sitofp (F := Ideal) .f32 ((IntOp.cmpi .eq (broadcastTo S5000x16 x Gen.broadcasts_S5000x1_S5000x16 (ix2 u k))
    (iota .tc S5000x16 32 [1] Gen.iota_S5000x16_d1_w32 (ix2 u k))).setWidth 32) = _
  rw [broadcastTo_apply x Gen.broadcasts_S5000x1_S5000x16 (ix2 u k) (ix2 u (0 : Fin 1))
    (by intro a; match a with | ⟨0, _⟩ => rfl | ⟨1, _⟩ => rfl), iota_single_apply]
  exact onehot_word _ _

/-! ## The six matrix products of the body, each into a zero accumulator -/

/-! ### The contraction `dot_S10000x8_S8x8_S10000x8_1_0_0_1_n_n`: entry (a, b) is the sum over c of left (a, c) times right (c, b) -/

theorem rows_by_table8_lhs0 (i : S10000x8.Idx) (q : dot_S10000x8_S8x8_S10000x8_1_0_0_1_n_n.contr.Idx) : (dot_S10000x8_S8x8_S10000x8_1_0_0_1_n_n.lhsIdx i q 0).val = (i 0).val := by
  unfold DotDims.lhsIdx
  rw [dif_neg (show ¬(0 : Fin S10000x8.rank) ∈ dot_S10000x8_S8x8_S10000x8_1_0_0_1_n_n.lhsBatch by decide), dif_pos (show (0 : Fin S10000x8.rank) ∈ dot_S10000x8_S8x8_S10000x8_1_0_0_1_n_n.lhsNonContracting by decide)]
  rfl
theorem rows_by_table8_lhs1 (i : S10000x8.Idx) (q : dot_S10000x8_S8x8_S10000x8_1_0_0_1_n_n.contr.Idx) : (dot_S10000x8_S8x8_S10000x8_1_0_0_1_n_n.lhsIdx i q 1).val = (q ⟨0, by decide⟩).val :=
  dot_S10000x8_S8x8_S10000x8_1_0_0_1_n_n.lhsIdx_val_of_single rfl i q
theorem rows_by_table8_rhs1 (i : S10000x8.Idx) (q : dot_S10000x8_S8x8_S10000x8_1_0_0_1_n_n.contr.Idx) : (dot_S10000x8_S8x8_S10000x8_1_0_0_1_n_n.rhsIdx i q 1).val = (i 1).val := by
  unfold DotDims.rhsIdx
  rw [dif_neg (show ¬(1 : Fin S8x8.rank) ∈ dot_S10000x8_S8x8_S10000x8_1_0_0_1_n_n.rhsBatch by decide), dif_pos (show (1 : Fin S8x8.rank) ∈ dot_S10000x8_S8x8_S10000x8_1_0_0_1_n_n.rhsNonContracting by decide)]
  rfl
theorem rows_by_table8_rhs0 (i : S10000x8.Idx) (q : dot_S10000x8_S8x8_S10000x8_1_0_0_1_n_n.contr.Idx) : (dot_S10000x8_S8x8_S10000x8_1_0_0_1_n_n.rhsIdx i q 0).val = (q ⟨0, by decide⟩).val :=
  dot_S10000x8_S8x8_S10000x8_1_0_0_1_n_n.rhsIdx_val_of_single rfl i q

/-- The product into a zero accumulator, read at an entry, is the finite sum over the contracted coordinate. -/
theorem rows_by_table8_apply (A : FVec Ideal S10000x8 .f32) (B : FVec Ideal S8x8 .f32) (a : Fin 10000) (b : Fin 8) :
    matmul dot_S10000x8_S8x8_S10000x8_1_0_0_1_n_n none A B (constant S10000x8 .f32 0x00000000#32) (ix2 a b) = ∑ c : Fin 8, A (ix2 a c) * B (ix2 c b) := by
  show FloatOps.matmul dot_S10000x8_S8x8_S10000x8_1_0_0_1_n_n none A B (constant S10000x8 .f32 0x00000000#32) (ix2 a b) = _
  rw [Ideal.matmul_constant_zero_apply, ← Equiv.sum_comp (contrEquiv1 dot_S10000x8_S8x8_S10000x8_1_0_0_1_n_n 8 rfl rfl).symm]
  refine Finset.sum_congr rfl fun c _ => ?_
  have hk := contrEquiv1_symm_val dot_S10000x8_S8x8_S10000x8_1_0_0_1_n_n 8 rfl rfl c
  have el : dot_S10000x8_S8x8_S10000x8_1_0_0_1_n_n.lhsIdx (ix2 a b) ((contrEquiv1 dot_S10000x8_S8x8_S10000x8_1_0_0_1_n_n 8 rfl rfl).symm c) = ix2 a c := funext fun ax => Fin.ext (by
    match ax with
    | ⟨0, _⟩ => exact rows_by_table8_lhs0 _ _
    | ⟨1, _⟩ => exact (rows_by_table8_lhs1 _ _).trans hk)
  have er : dot_S10000x8_S8x8_S10000x8_1_0_0_1_n_n.rhsIdx (ix2 a b) ((contrEquiv1 dot_S10000x8_S8x8_S10000x8_1_0_0_1_n_n 8 rfl rfl).symm c) = ix2 c b := funext fun ax => Fin.ext (by
    match ax with
    | ⟨1, _⟩ => exact rows_by_table8_rhs1 _ _
    | ⟨0, _⟩ => exact (rows_by_table8_rhs0 _ _).trans hk)
  rw [el, er]

/-! ### The contraction `dot_S5000x16_S16x8_S5000x8_1_0_0_1_n_n`: entry (a, b) is the sum over c of left (a, c) times right (c, b) -/

theorem rows_by_table16_lhs0 (i : S5000x8.Idx) (q : dot_S5000x16_S16x8_S5000x8_1_0_0_1_n_n.contr.Idx) : (dot_S5000x16_S16x8_S5000x8_1_0_0_1_n_n.lhsIdx i q 0).val = (i 0).val := by
  unfold DotDims.lhsIdx
  rw [dif_neg (show ¬(0 : Fin S5000x16.rank) ∈ dot_S5000x16_S16x8_S5000x8_1_0_0_1_n_n.lhsBatch by decide), dif_pos (show (0 : Fin S5000x16.rank) ∈ dot_S5000x16_S16x8_S5000x8_1_0_0_1_n_n.lhsNonContracting by decide)]
  rfl
theorem rows_by_table16_lhs1 (i : S5000x8.Idx) (q : dot_S5000x16_S16x8_S5000x8_1_0_0_1_n_n.contr.Idx) : (dot_S5000x16_S16x8_S5000x8_1_0_0_1_n_n.lhsIdx i q 1).val = (q ⟨0, by decide⟩).val :=
  dot_S5000x16_S16x8_S5000x8_1_0_0_1_n_n.lhsIdx_val_of_single rfl i q
theorem rows_by_table16_rhs1 (i : S5000x8.Idx) (q : dot_S5000x16_S16x8_S5000x8_1_0_0_1_n_n.contr.Idx) : (dot_S5000x16_S16x8_S5000x8_1_0_0_1_n_n.rhsIdx i q 1).val = (i 1).val := by
  unfold DotDims.rhsIdx
  rw [dif_neg (show ¬(1 : Fin S16x8.rank) ∈ dot_S5000x16_S16x8_S5000x8_1_0_0_1_n_n.rhsBatch by decide), dif_pos (show (1 : Fin S16x8.rank) ∈ dot_S5000x16_S16x8_S5000x8_1_0_0_1_n_n.rhsNonContracting by decide)]
  rfl
theorem rows_by_table16_rhs0 (i : S5000x8.Idx) (q : dot_S5000x16_S16x8_S5000x8_1_0_0_1_n_n.contr.Idx) : (dot_S5000x16_S16x8_S5000x8_1_0_0_1_n_n.rhsIdx i q 0).val = (q ⟨0, by decide⟩).val :=
  dot_S5000x16_S16x8_S5000x8_1_0_0_1_n_n.rhsIdx_val_of_single rfl i q

/-- The product into a zero accumulator, read at an entry, is the finite sum over the contracted coordinate. -/
theorem rows_by_table16_apply (A : FVec Ideal S5000x16 .f32) (B : FVec Ideal S16x8 .f32) (a : Fin 5000) (b : Fin 8) :
    matmul dot_S5000x16_S16x8_S5000x8_1_0_0_1_n_n none A B (constant S5000x8 .f32 0x00000000#32) (ix2 a b) = ∑ c : Fin 16, A (ix2 a c) * B (ix2 c b) := by
  show FloatOps.matmul dot_S5000x16_S16x8_S5000x8_1_0_0_1_n_n none A B (constant S5000x8 .f32 0x00000000#32) (ix2 a b) = _
  rw [Ideal.matmul_constant_zero_apply, ← Equiv.sum_comp (contrEquiv1 dot_S5000x16_S16x8_S5000x8_1_0_0_1_n_n 16 rfl rfl).symm]
  refine Finset.sum_congr rfl fun c _ => ?_
  have hk := contrEquiv1_symm_val dot_S5000x16_S16x8_S5000x8_1_0_0_1_n_n 16 rfl rfl c
  have el : dot_S5000x16_S16x8_S5000x8_1_0_0_1_n_n.lhsIdx (ix2 a b) ((contrEquiv1 dot_S5000x16_S16x8_S5000x8_1_0_0_1_n_n 16 rfl rfl).symm c) = ix2 a c := funext fun ax => Fin.ext (by
    match ax with
    | ⟨0, _⟩ => exact rows_by_table16_lhs0 _ _
    | ⟨1, _⟩ => exact (rows_by_table16_lhs1 _ _).trans hk)
  have er : dot_S5000x16_S16x8_S5000x8_1_0_0_1_n_n.rhsIdx (ix2 a b) ((contrEquiv1 dot_S5000x16_S16x8_S5000x8_1_0_0_1_n_n 16 rfl rfl).symm c) = ix2 c b := funext fun ax => Fin.ext (by
    match ax with
    | ⟨1, _⟩ => exact rows_by_table16_rhs1 _ _
    | ⟨0, _⟩ => exact (rows_by_table16_rhs0 _ _).trans hk)
  rw [el, er]

/-! ### The contraction `dot_S10000x32_S32x32_S10000x32_1_1_0_0_n_n`: entry (a, b) is the sum over c of left (a, c) times right (b, c) -/

theorem users_by_weights32_lhs0 (i : S10000x32.Idx) (q : dot_S10000x32_S32x32_S10000x32_1_1_0_0_n_n.contr.Idx) : (dot_S10000x32_S32x32_S10000x32_1_1_0_0_n_n.lhsIdx i q 0).val = (i 0).val := by
  unfold DotDims.lhsIdx
  rw [dif_neg (show ¬(0 : Fin S10000x32.rank) ∈ dot_S10000x32_S32x32_S10000x32_1_1_0_0_n_n.lhsBatch by decide), dif_pos (show (0 : Fin S10000x32.rank) ∈ dot_S10000x32_S32x32_S10000x32_1_1_0_0_n_n.lhsNonContracting by decide)]
  rfl
theorem users_by_weights32_lhs1 (i : S10000x32.Idx) (q : dot_S10000x32_S32x32_S10000x32_1_1_0_0_n_n.contr.Idx) : (dot_S10000x32_S32x32_S10000x32_1_1_0_0_n_n.lhsIdx i q 1).val = (q ⟨0, by decide⟩).val :=
  dot_S10000x32_S32x32_S10000x32_1_1_0_0_n_n.lhsIdx_val_of_single rfl i q
theorem users_by_weights32_rhs0 (i : S10000x32.Idx) (q : dot_S10000x32_S32x32_S10000x32_1_1_0_0_n_n.contr.Idx) : (dot_S10000x32_S32x32_S10000x32_1_1_0_0_n_n.rhsIdx i q 0).val = (i 1).val := by
  unfold DotDims.rhsIdx
  rw [dif_neg (show ¬(0 : Fin S32x32.rank) ∈ dot_S10000x32_S32x32_S10000x32_1_1_0_0_n_n.rhsBatch by decide), dif_pos (show (0 : Fin S32x32.rank) ∈ dot_S10000x32_S32x32_S10000x32_1_1_0_0_n_n.rhsNonContracting by decide)]
  rfl
theorem users_by_weights32_rhs1 (i : S10000x32.Idx) (q : dot_S10000x32_S32x32_S10000x32_1_1_0_0_n_n.contr.Idx) : (dot_S10000x32_S32x32_S10000x32_1_1_0_0_n_n.rhsIdx i q 1).val = (q ⟨0, by decide⟩).val :=
  dot_S10000x32_S32x32_S10000x32_1_1_0_0_n_n.rhsIdx_val_of_single rfl i q

/-- The product into a zero accumulator, read at an entry, is the finite sum over the contracted coordinate. -/
theorem users_by_weights32_apply (A : FVec Ideal S10000x32 .f32) (B : FVec Ideal S32x32 .f32) (a : Fin 10000) (b : Fin 32) :
    matmul dot_S10000x32_S32x32_S10000x32_1_1_0_0_n_n none A B (constant S10000x32 .f32 0x00000000#32) (ix2 a b) = ∑ c : Fin 32, A (ix2 a c) * B (ix2 b c) := by
  show FloatOps.matmul dot_S10000x32_S32x32_S10000x32_1_1_0_0_n_n none A B (constant S10000x32 .f32 0x00000000#32) (ix2 a b) = _
  rw [Ideal.matmul_constant_zero_apply, ← Equiv.sum_comp (contrEquiv1 dot_S10000x32_S32x32_S10000x32_1_1_0_0_n_n 32 rfl rfl).symm]
  refine Finset.sum_congr rfl fun c _ => ?_
  have hk := contrEquiv1_symm_val dot_S10000x32_S32x32_S10000x32_1_1_0_0_n_n 32 rfl rfl c
  have el : dot_S10000x32_S32x32_S10000x32_1_1_0_0_n_n.lhsIdx (ix2 a b) ((contrEquiv1 dot_S10000x32_S32x32_S10000x32_1_1_0_0_n_n 32 rfl rfl).symm c) = ix2 a c := funext fun ax => Fin.ext (by
    match ax with
    | ⟨0, _⟩ => exact users_by_weights32_lhs0 _ _
    | ⟨1, _⟩ => exact (users_by_weights32_lhs1 _ _).trans hk)
  have er : dot_S10000x32_S32x32_S10000x32_1_1_0_0_n_n.rhsIdx (ix2 a b) ((contrEquiv1 dot_S10000x32_S32x32_S10000x32_1_1_0_0_n_n 32 rfl rfl).symm c) = ix2 b c := funext fun ax => Fin.ext (by
    match ax with
    | ⟨0, _⟩ => exact users_by_weights32_rhs0 _ _
    | ⟨1, _⟩ => exact (users_by_weights32_rhs1 _ _).trans hk)
  rw [el, er]

/-! ### The contraction `dot_S10000x8_S32x8_S10000x32_1_1_0_0_n_n`: entry (a, b) is the sum over c of left (a, c) times right (b, c) -/

theorem users_by_weights8_lhs0 (i : S10000x32.Idx) (q : dot_S10000x8_S32x8_S10000x32_1_1_0_0_n_n.contr.Idx) : (dot_S10000x8_S32x8_S10000x32_1_1_0_0_n_n.lhsIdx i q 0).val = (i 0).val := by
  unfold DotDims.lhsIdx
  rw [dif_neg (show ¬(0 : Fin S10000x8.rank) ∈ dot_S10000x8_S32x8_S10000x32_1_1_0_0_n_n.lhsBatch by decide), dif_pos (show (0 : Fin S10000x8.rank) ∈ dot_S10000x8_S32x8_S10000x32_1_1_0_0_n_n.lhsNonContracting by decide)]
  rfl
theorem users_by_weights8_lhs1 (i : S10000x32.Idx) (q : dot_S10000x8_S32x8_S10000x32_1_1_0_0_n_n.contr.Idx) : (dot_S10000x8_S32x8_S10000x32_1_1_0_0_n_n.lhsIdx i q 1).val = (q ⟨0, by decide⟩).val :=
  dot_S10000x8_S32x8_S10000x32_1_1_0_0_n_n.lhsIdx_val_of_single rfl i q
theorem users_by_weights8_rhs0 (i : S10000x32.Idx) (q : dot_S10000x8_S32x8_S10000x32_1_1_0_0_n_n.contr.Idx) : (dot_S10000x8_S32x8_S10000x32_1_1_0_0_n_n.rhsIdx i q 0).val = (i 1).val := by
  unfold DotDims.rhsIdx
  rw [dif_neg (show ¬(0 : Fin S32x8.rank) ∈ dot_S10000x8_S32x8_S10000x32_1_1_0_0_n_n.rhsBatch by decide), dif_pos (show (0 : Fin S32x8.rank) ∈ dot_S10000x8_S32x8_S10000x32_1_1_0_0_n_n.rhsNonContracting by decide)]
  rfl
theorem users_by_weights8_rhs1 (i : S10000x32.Idx) (q : dot_S10000x8_S32x8_S10000x32_1_1_0_0_n_n.contr.Idx) : (dot_S10000x8_S32x8_S10000x32_1_1_0_0_n_n.rhsIdx i q 1).val = (q ⟨0, by decide⟩).val :=
  dot_S10000x8_S32x8_S10000x32_1_1_0_0_n_n.rhsIdx_val_of_single rfl i q

/-- The product into a zero accumulator, read at an entry, is the finite sum over the contracted coordinate. -/
theorem users_by_weights8_apply (A : FVec Ideal S10000x8 .f32) (B : FVec Ideal S32x8 .f32) (a : Fin 10000) (b : Fin 32) :
    matmul dot_S10000x8_S32x8_S10000x32_1_1_0_0_n_n none A B (constant S10000x32 .f32 0x00000000#32) (ix2 a b) = ∑ c : Fin 8, A (ix2 a c) * B (ix2 b c) := by
  show FloatOps.matmul dot_S10000x8_S32x8_S10000x32_1_1_0_0_n_n none A B (constant S10000x32 .f32 0x00000000#32) (ix2 a b) = _
  rw [Ideal.matmul_constant_zero_apply, ← Equiv.sum_comp (contrEquiv1 dot_S10000x8_S32x8_S10000x32_1_1_0_0_n_n 8 rfl rfl).symm]
  refine Finset.sum_congr rfl fun c _ => ?_
  have hk := contrEquiv1_symm_val dot_S10000x8_S32x8_S10000x32_1_1_0_0_n_n 8 rfl rfl c
  have el : dot_S10000x8_S32x8_S10000x32_1_1_0_0_n_n.lhsIdx (ix2 a b) ((contrEquiv1 dot_S10000x8_S32x8_S10000x32_1_1_0_0_n_n 8 rfl rfl).symm c) = ix2 a c := funext fun ax => Fin.ext (by
    match ax with
    | ⟨0, _⟩ => exact users_by_weights8_lhs0 _ _
    | ⟨1, _⟩ => exact (users_by_weights8_lhs1 _ _).trans hk)
  have er : dot_S10000x8_S32x8_S10000x32_1_1_0_0_n_n.rhsIdx (ix2 a b) ((contrEquiv1 dot_S10000x8_S32x8_S10000x32_1_1_0_0_n_n 8 rfl rfl).symm c) = ix2 b c := funext fun ax => Fin.ext (by
    match ax with
    | ⟨0, _⟩ => exact users_by_weights8_rhs0 _ _
    | ⟨1, _⟩ => exact (users_by_weights8_rhs1 _ _).trans hk)
  rw [el, er]

/-! ### The contraction `dot_S5000x32_S32x32_S5000x32_1_1_0_0_n_n`: entry (a, b) is the sum over c of left (a, c) times right (b, c) -/

theorem items_by_weights32_lhs0 (i : S5000x32.Idx) (q : dot_S5000x32_S32x32_S5000x32_1_1_0_0_n_n.contr.Idx) : (dot_S5000x32_S32x32_S5000x32_1_1_0_0_n_n.lhsIdx i q 0).val = (i 0).val := by
  unfold DotDims.lhsIdx
  rw [dif_neg (show ¬(0 : Fin S5000x32.rank) ∈ dot_S5000x32_S32x32_S5000x32_1_1_0_0_n_n.lhsBatch by decide), dif_pos (show (0 : Fin S5000x32.rank) ∈ dot_S5000x32_S32x32_S5000x32_1_1_0_0_n_n.lhsNonContracting by decide)]
  rfl
theorem items_by_weights32_lhs1 (i : S5000x32.Idx) (q : dot_S5000x32_S32x32_S5000x32_1_1_0_0_n_n.contr.Idx) : (dot_S5000x32_S32x32_S5000x32_1_1_0_0_n_n.lhsIdx i q 1).val = (q ⟨0, by decide⟩).val :=
  dot_S5000x32_S32x32_S5000x32_1_1_0_0_n_n.lhsIdx_val_of_single rfl i q
theorem items_by_weights32_rhs0 (i : S5000x32.Idx) (q : dot_S5000x32_S32x32_S5000x32_1_1_0_0_n_n.contr.Idx) : (dot_S5000x32_S32x32_S5000x32_1_1_0_0_n_n.rhsIdx i q 0).val = (i 1).val := by
  unfold DotDims.rhsIdx
  rw [dif_neg (show ¬(0 : Fin S32x32.rank) ∈ dot_S5000x32_S32x32_S5000x32_1_1_0_0_n_n.rhsBatch by decide), dif_pos (show (0 : Fin S32x32.rank) ∈ dot_S5000x32_S32x32_S5000x32_1_1_0_0_n_n.rhsNonContracting by decide)]
  rfl
theorem items_by_weights32_rhs1 (i : S5000x32.Idx) (q : dot_S5000x32_S32x32_S5000x32_1_1_0_0_n_n.contr.Idx) : (dot_S5000x32_S32x32_S5000x32_1_1_0_0_n_n.rhsIdx i q 1).val = (q ⟨0, by decide⟩).val :=
  dot_S5000x32_S32x32_S5000x32_1_1_0_0_n_n.rhsIdx_val_of_single rfl i q

/-- The product into a zero accumulator, read at an entry, is the finite sum over the contracted coordinate. -/
theorem items_by_weights32_apply (A : FVec Ideal S5000x32 .f32) (B : FVec Ideal S32x32 .f32) (a : Fin 5000) (b : Fin 32) :
    matmul dot_S5000x32_S32x32_S5000x32_1_1_0_0_n_n none A B (constant S5000x32 .f32 0x00000000#32) (ix2 a b) = ∑ c : Fin 32, A (ix2 a c) * B (ix2 b c) := by
  show FloatOps.matmul dot_S5000x32_S32x32_S5000x32_1_1_0_0_n_n none A B (constant S5000x32 .f32 0x00000000#32) (ix2 a b) = _
  rw [Ideal.matmul_constant_zero_apply, ← Equiv.sum_comp (contrEquiv1 dot_S5000x32_S32x32_S5000x32_1_1_0_0_n_n 32 rfl rfl).symm]
  refine Finset.sum_congr rfl fun c _ => ?_
  have hk := contrEquiv1_symm_val dot_S5000x32_S32x32_S5000x32_1_1_0_0_n_n 32 rfl rfl c
  have el : dot_S5000x32_S32x32_S5000x32_1_1_0_0_n_n.lhsIdx (ix2 a b) ((contrEquiv1 dot_S5000x32_S32x32_S5000x32_1_1_0_0_n_n 32 rfl rfl).symm c) = ix2 a c := funext fun ax => Fin.ext (by
    match ax with
    | ⟨0, _⟩ => exact items_by_weights32_lhs0 _ _
    | ⟨1, _⟩ => exact (items_by_weights32_lhs1 _ _).trans hk)
  have er : dot_S5000x32_S32x32_S5000x32_1_1_0_0_n_n.rhsIdx (ix2 a b) ((contrEquiv1 dot_S5000x32_S32x32_S5000x32_1_1_0_0_n_n 32 rfl rfl).symm c) = ix2 b c := funext fun ax => Fin.ext (by
    match ax with
    | ⟨0, _⟩ => exact items_by_weights32_rhs0 _ _
    | ⟨1, _⟩ => exact (items_by_weights32_rhs1 _ _).trans hk)
  rw [el, er]

/-! ### The contraction `dot_S5000x8_S32x8_S5000x32_1_1_0_0_n_n`: entry (a, b) is the sum over c of left (a, c) times right (b, c) -/

theorem items_by_weights8_lhs0 (i : S5000x32.Idx) (q : dot_S5000x8_S32x8_S5000x32_1_1_0_0_n_n.contr.Idx) : (dot_S5000x8_S32x8_S5000x32_1_1_0_0_n_n.lhsIdx i q 0).val = (i 0).val := by
  unfold DotDims.lhsIdx
  rw [dif_neg (show ¬(0 : Fin S5000x8.rank) ∈ dot_S5000x8_S32x8_S5000x32_1_1_0_0_n_n.lhsBatch by decide), dif_pos (show (0 : Fin S5000x8.rank) ∈ dot_S5000x8_S32x8_S5000x32_1_1_0_0_n_n.lhsNonContracting by decide)]
  rfl
theorem items_by_weights8_lhs1 (i : S5000x32.Idx) (q : dot_S5000x8_S32x8_S5000x32_1_1_0_0_n_n.contr.Idx) : (dot_S5000x8_S32x8_S5000x32_1_1_0_0_n_n.lhsIdx i q 1).val = (q ⟨0, by decide⟩).val :=
  dot_S5000x8_S32x8_S5000x32_1_1_0_0_n_n.lhsIdx_val_of_single rfl i q
theorem items_by_weights8_rhs0 (i : S5000x32.Idx) (q : dot_S5000x8_S32x8_S5000x32_1_1_0_0_n_n.contr.Idx) : (dot_S5000x8_S32x8_S5000x32_1_1_0_0_n_n.rhsIdx i q 0).val = (i 1).val := by
  unfold DotDims.rhsIdx
  rw [dif_neg (show ¬(0 : Fin S32x8.rank) ∈ dot_S5000x8_S32x8_S5000x32_1_1_0_0_n_n.rhsBatch by decide), dif_pos (show (0 : Fin S32x8.rank) ∈ dot_S5000x8_S32x8_S5000x32_1_1_0_0_n_n.rhsNonContracting by decide)]
  rfl
theorem items_by_weights8_rhs1 (i : S5000x32.Idx) (q : dot_S5000x8_S32x8_S5000x32_1_1_0_0_n_n.contr.Idx) : (dot_S5000x8_S32x8_S5000x32_1_1_0_0_n_n.rhsIdx i q 1).val = (q ⟨0, by decide⟩).val :=
  dot_S5000x8_S32x8_S5000x32_1_1_0_0_n_n.rhsIdx_val_of_single rfl i q

/-- The product into a zero accumulator, read at an entry, is the finite sum over the contracted coordinate. -/
theorem items_by_weights8_apply (A : FVec Ideal S5000x8 .f32) (B : FVec Ideal S32x8 .f32) (a : Fin 5000) (b : Fin 32) :
    matmul dot_S5000x8_S32x8_S5000x32_1_1_0_0_n_n none A B (constant S5000x32 .f32 0x00000000#32) (ix2 a b) = ∑ c : Fin 8, A (ix2 a c) * B (ix2 b c) := by
  show FloatOps.matmul dot_S5000x8_S32x8_S5000x32_1_1_0_0_n_n none A B (constant S5000x32 .f32 0x00000000#32) (ix2 a b) = _
  rw [Ideal.matmul_constant_zero_apply, ← Equiv.sum_comp (contrEquiv1 dot_S5000x8_S32x8_S5000x32_1_1_0_0_n_n 8 rfl rfl).symm]
  refine Finset.sum_congr rfl fun c _ => ?_
  have hk := contrEquiv1_symm_val dot_S5000x8_S32x8_S5000x32_1_1_0_0_n_n 8 rfl rfl c
  have el : dot_S5000x8_S32x8_S5000x32_1_1_0_0_n_n.lhsIdx (ix2 a b) ((contrEquiv1 dot_S5000x8_S32x8_S5000x32_1_1_0_0_n_n 8 rfl rfl).symm c) = ix2 a c := funext fun ax => Fin.ext (by
    match ax with
    | ⟨0, _⟩ => exact items_by_weights8_lhs0 _ _
    | ⟨1, _⟩ => exact (items_by_weights8_lhs1 _ _).trans hk)
  have er : dot_S5000x8_S32x8_S5000x32_1_1_0_0_n_n.rhsIdx (ix2 a b) ((contrEquiv1 dot_S5000x8_S32x8_S5000x32_1_1_0_0_n_n 8 rfl rfl).symm c) = ix2 b c := funext fun ax => Fin.ext (by
    match ax with
    | ⟨0, _⟩ => exact items_by_weights8_rhs0 _ _
    | ⟨1, _⟩ => exact (items_by_weights8_rhs1 _ _).trans hk)
  rw [el, er]

end Cert.KernelIdeal.Hand

end
-- ==== Proof.KI.Region0Payload.lean ====
/-
  The two values the first launch's body stores, at an entry, as the specification's layer-0 embeddings of the loaded
  buffers: the sum of the projections (own embedding against weight columns 0…31, each looked-up feature row against its
  block of eight columns) plus the bias, grouped exactly as the body adds them.
-/
import proofs.«129974_g1760936592044_cont_8to1_853_2_alg».proof.Proof.Gen.KernelIdeal.Skeleton
import proofs.«129974_g1760936592044_cont_8to1_853_2_alg».proof.Proof.Spec
import Idealize.ShloMosaic.Lib.ValueIdx
import Idealize.ShloMosaic.Lib.Pipeline.Value
import proofs.«129974_g1760936592044_cont_8to1_853_2_alg».proof.Proof.KI.Region0Sums

noncomputable section

open scoped BigOperators

namespace Cert.KernelIdeal.Hand

open Cert.KernelIdeal.Gen
open Idealize.ShloMosaic Idealize.ShloMosaic.ValueIdx

/-! ## The looked-up feature rows -/

/-- The users' one-hot rows against an 8-row table: entry (u, f) is the table's entry in the row the word names. -/
theorem lookupUsers_apply (x : Vec Ideal S10000x1 .i32) (tbl : FVec Ideal S8x8 .f32) (u : Fin 10000) (f : Fin 8) :
    matmul dot_S10000x8_S8x8_S10000x8_1_0_0_1_n_n none (onehotUsers x) tbl (constant S10000x8 .f32 0x00000000#32) (ix2 u f)
      = Cert.Spec.pick (n := 10000) tbl (fun j => x (ix2 (j 0) (0 : Fin 1))) u f := by
  rw [rows_by_table8_apply]
  simp only [onehotUsers_apply]
  exact sum_onehot_eq_pick (n := 10000) (by norm_num) tbl (fun j => x (ix2 (j 0) (0 : Fin 1))) u f

/-- The items' one-hot rows against the 16-row table. -/
theorem lookupItems_apply (x : Vec Ideal S5000x1 .i32) (tbl : FVec Ideal S16x8 .f32) (u : Fin 5000) (f : Fin 8) :
    matmul dot_S5000x16_S16x8_S5000x8_1_0_0_1_n_n none (onehotItems x) tbl (constant S5000x8 .f32 0x00000000#32) (ix2 u f)
      = Cert.Spec.pick (n := 5000) tbl (fun j => x (ix2 (j 0) (0 : Fin 1))) u f := by
  rw [rows_by_table16_apply]
  simp only [onehotItems_apply]
  exact sum_onehot_eq_pick (n := 5000) (by norm_num) tbl (fun j => x (ix2 (j 0) (0 : Fin 1))) u f

/-! ## The projections: a block of columns of the weight matrix against the matching features -/

/-- Users, own embedding against weight columns 0…31. -/
theorem ownUsers_apply (E : FVec Ideal S10000x32 .f32) (W : FVec Ideal S32x48 .f32) (u : Fin 10000) (d : Fin 32) :
    matmul dot_S10000x32_S32x32_S10000x32_1_1_0_0_n_n none E (extractStridedSlice S32x32 ![0, 0] W Gen.slices_S32x48_o0_0_S32x32) (constant S10000x32 .f32 0x00000000#32) (ix2 u d)
      = ∑ k : Fin 32, E (ix2 u k) * W (ix2 d (⟨k.val, by omega⟩ : Fin 48)) := by
  rw [users_by_weights32_apply]
  refine Finset.sum_congr rfl fun k _ => ?_
  rw [extractStridedSlice_apply ![0, 0] W Gen.slices_S32x48_o0_0_S32x32 (ix2 d k) (ix2 d (⟨k.val, by omega⟩ : Fin 48))
    (by intro a; match a with | ⟨0, _⟩ => exact (Nat.zero_add _).symm | ⟨1, _⟩ => exact (Nat.zero_add _).symm)]

/-- Users, a feature row against weight columns 32…39. -/
theorem featUsers32_apply (P : FVec Ideal S10000x8 .f32) (W : FVec Ideal S32x48 .f32) (u : Fin 10000) (d : Fin 32) :
    matmul dot_S10000x8_S32x8_S10000x32_1_1_0_0_n_n none P (extractStridedSlice S32x8 ![0, 32] W Gen.slices_S32x48_o0_32_S32x8) (constant S10000x32 .f32 0x00000000#32) (ix2 u d)
      = ∑ f : Fin 8, P (ix2 u f) * W (ix2 d (⟨32 + f.val, by omega⟩ : Fin 48)) := by
  rw [users_by_weights8_apply]
  refine Finset.sum_congr rfl fun f _ => ?_
  rw [extractStridedSlice_apply ![0, 32] W Gen.slices_S32x48_o0_32_S32x8 (ix2 d f) (ix2 d (⟨32 + f.val, by omega⟩ : Fin 48))
    (by intro a; match a with | ⟨0, _⟩ => exact (Nat.zero_add _).symm | ⟨1, _⟩ => rfl)]

/-- Users, a feature row against weight columns 40…47. -/
theorem featUsers40_apply (P : FVec Ideal S10000x8 .f32) (W : FVec Ideal S32x48 .f32) (u : Fin 10000) (d : Fin 32) :
    matmul dot_S10000x8_S32x8_S10000x32_1_1_0_0_n_n none P (extractStridedSlice S32x8 ![0, 40] W Gen.slices_S32x48_o0_40_S32x8) (constant S10000x32 .f32 0x00000000#32) (ix2 u d)
      = ∑ f : Fin 8, P (ix2 u f) * W (ix2 d (⟨40 + f.val, by omega⟩ : Fin 48)) := by
  rw [users_by_weights8_apply]
  refine Finset.sum_congr rfl fun f _ => ?_
  rw [extractStridedSlice_apply ![0, 40] W Gen.slices_S32x48_o0_40_S32x8 (ix2 d f) (ix2 d (⟨40 + f.val, by omega⟩ : Fin 48))
    (by intro a; match a with | ⟨0, _⟩ => exact (Nat.zero_add _).symm | ⟨1, _⟩ => rfl)]

/-- Items, own embedding against weight columns 0…31. -/
theorem ownItems_apply (E : FVec Ideal S5000x32 .f32) (W : FVec Ideal S32x40 .f32) (u : Fin 5000) (d : Fin 32) :
    matmul dot_S5000x32_S32x32_S5000x32_1_1_0_0_n_n none E (extractStridedSlice S32x32 ![0, 0] W Gen.slices_S32x40_o0_0_S32x32) (constant S5000x32 .f32 0x00000000#32) (ix2 u d)
      = ∑ k : Fin 32, E (ix2 u k) * W (ix2 d (⟨k.val, by omega⟩ : Fin 40)) := by
  rw [items_by_weights32_apply]
  refine Finset.sum_congr rfl fun k _ => ?_
  rw [extractStridedSlice_apply ![0, 0] W Gen.slices_S32x40_o0_0_S32x32 (ix2 d k) (ix2 d (⟨k.val, by omega⟩ : Fin 40))
    (by intro a; match a with | ⟨0, _⟩ => exact (Nat.zero_add _).symm | ⟨1, _⟩ => exact (Nat.zero_add _).symm)]

/-- Items, the feature row against weight columns 32…39. -/
theorem featItems32_apply (P : FVec Ideal S5000x8 .f32) (W : FVec Ideal S32x40 .f32) (u : Fin 5000) (d : Fin 32) :
    matmul dot_S5000x8_S32x8_S5000x32_1_1_0_0_n_n none P (extractStridedSlice S32x8 ![0, 32] W Gen.slices_S32x40_o0_32_S32x8) (constant S5000x32 .f32 0x00000000#32) (ix2 u d)
      = ∑ f : Fin 8, P (ix2 u f) * W (ix2 d (⟨32 + f.val, by omega⟩ : Fin 40)) := by
  rw [items_by_weights8_apply]
  refine Finset.sum_congr rfl fun f _ => ?_
  rw [extractStridedSlice_apply ![0, 32] W Gen.slices_S32x40_o0_32_S32x8 (ix2 d f) (ix2 d (⟨32 + f.val, by omega⟩ : Fin 40))
    (by intro a; match a with | ⟨0, _⟩ => exact (Nat.zero_add _).symm | ⟨1, _⟩ => rfl)]

/-! ## The bias row repeated down the rows -/

theorem biasUsers_apply (b : Vec Ideal S1x32 .f32) (u : Fin 10000) (d : Fin 32) :
    broadcastTo S10000x32 (shapeCast S1x32 b Gen.shapeCasts_S1x32_S1x32) Gen.broadcasts_S1x32_S10000x32 (ix2 u d) = b (ix2 (0 : Fin 1) d) := by
  rw [shapeCast_self]
  exact broadcastTo_apply b Gen.broadcasts_S1x32_S10000x32 (ix2 u d) (ix2 (0 : Fin 1) d)
    (by intro a; match a with | ⟨0, _⟩ => rfl | ⟨1, _⟩ => rfl)

theorem biasItems_apply (b : Vec Ideal S1x32 .f32) (u : Fin 5000) (d : Fin 32) :
    broadcastTo S5000x32 (shapeCast S1x32 b Gen.shapeCasts_S1x32_S1x32) Gen.broadcasts_S1x32_S5000x32 (ix2 u d) = b (ix2 (0 : Fin 1) d) := by
  rw [shapeCast_self]
  exact broadcastTo_apply b Gen.broadcasts_S1x32_S5000x32 (ix2 u d) (ix2 (0 : Fin 1) d)
    (by intro a; match a with | ⟨0, _⟩ => rfl | ⟨1, _⟩ => rfl)

/-! ## The two stored values at an entry -/

/-- The value stored to the user side at entry (u, d), from the loaded buffers: the layer-0 user embedding. -/
theorem user_payload (x0 x1 : Vec Ideal S10000x1 .i32) (x3 : Vec Ideal S10000x32 .f32) (x5 x6 : Vec Ideal S8x8 .f32)
    (x8 : Vec Ideal S32x48 .f32) (x9 : Vec Ideal S1x32 .f32) (u : Fin 10000) (d : Fin 32) :
    k0_pay1 (k0_pay4 x0 x5 x1 x6 x8 x3) x9 (ix2 u d)
      = Cert.Spec.user0 x3 (fun j => x0 (ix2 (j 0) (0 : Fin 1))) (fun j => x1 (ix2 (j 0) (0 : Fin 1))) x5 x6 x8
          (fun j => x9 (ix2 (0 : Fin 1) (j 0))) u d := by
  have e : k0_pay1 (k0_pay4 x0 x5 x1 x6 x8 x3) x9 (ix2 u d)
      = ((matmul dot_S10000x32_S32x32_S10000x32_1_1_0_0_n_n none x3 (extractStridedSlice S32x32 ![0, 0] x8 Gen.slices_S32x48_o0_0_S32x32) (constant S10000x32 .f32 0x00000000#32) (ix2 u d)
          + matmul dot_S10000x8_S32x8_S10000x32_1_1_0_0_n_n none
              (matmul dot_S10000x8_S8x8_S10000x8_1_0_0_1_n_n none (onehotUsers x0) x5 (constant S10000x8 .f32 0x00000000#32))
              (extractStridedSlice S32x8 ![0, 32] x8 Gen.slices_S32x48_o0_32_S32x8) (constant S10000x32 .f32 0x00000000#32) (ix2 u d))
          + matmul dot_S10000x8_S32x8_S10000x32_1_1_0_0_n_n none
              (matmul dot_S10000x8_S8x8_S10000x8_1_0_0_1_n_n none (onehotUsers x1) x6 (constant S10000x8 .f32 0x00000000#32))
              (extractStridedSlice S32x8 ![0, 40] x8 Gen.slices_S32x48_o0_40_S32x8) (constant S10000x32 .f32 0x00000000#32) (ix2 u d))
        + broadcastTo S10000x32 (shapeCast S1x32 x9 Gen.shapeCasts_S1x32_S1x32) Gen.broadcasts_S1x32_S10000x32 (ix2 u d) := rfl
  rw [e, ownUsers_apply, featUsers32_apply, featUsers40_apply, biasUsers_apply]
  simp only [lookupUsers_apply]
  rfl

/-- The value stored to the item side at entry (j, d): the layer-0 item embedding. -/
theorem item_payload (x2 : Vec Ideal S5000x1 .i32) (x4 : Vec Ideal S5000x32 .f32) (x7 : Vec Ideal S16x8 .f32)
    (x10 : Vec Ideal S32x40 .f32) (x11 : Vec Ideal S1x32 .f32) (u : Fin 5000) (d : Fin 32) :
    k0_pay2 (k0_pay3 x2 x7) x10 x4 x11 (ix2 u d)
      = Cert.Spec.item0 x4 (fun j => x2 (ix2 (j 0) (0 : Fin 1))) x7 x10 (fun j => x11 (ix2 (0 : Fin 1) (j 0))) u d := by
  have e : k0_pay2 (k0_pay3 x2 x7) x10 x4 x11 (ix2 u d)
      = (matmul dot_S5000x32_S32x32_S5000x32_1_1_0_0_n_n none x4 (extractStridedSlice S32x32 ![0, 0] x10 Gen.slices_S32x40_o0_0_S32x32) (constant S5000x32 .f32 0x00000000#32) (ix2 u d)
          + matmul dot_S5000x8_S32x8_S5000x32_1_1_0_0_n_n none
              (matmul dot_S5000x16_S16x8_S5000x8_1_0_0_1_n_n none (onehotItems x2) x7 (constant S5000x8 .f32 0x00000000#32))
              (extractStridedSlice S32x8 ![0, 32] x10 Gen.slices_S32x40_o0_32_S32x8) (constant S5000x32 .f32 0x00000000#32) (ix2 u d))
        + broadcastTo S5000x32 (shapeCast S1x32 x11 Gen.shapeCasts_S1x32_S1x32) Gen.broadcasts_S1x32_S5000x32 (ix2 u d) := rfl
  rw [e, ownItems_apply, featItems32_apply, biasItems_apply]
  simp only [lookupItems_apply]
  rfl

end Cert.KernelIdeal.Hand

end
-- ==== Proof.KI.Region0Value.lean ====
/-
  What the first launch leaves in its two output arrays, at the extended reals.

  The launch has one point and every window's block is the whole array, so each input buffer holds its whole array when
  the body runs, and each output array ends as the one block the body stored, written back over the whole array. With
  the body's two stored values read entry by entry, the user-side array ends holding the layer-0 user embeddings and the
  item-side array the layer-0 item embeddings of the arrays the launch found.
-/
import proofs.«129974_g1760936592044_cont_8to1_853_2_alg».proof.Proof.KI.Region0
import proofs.«129974_g1760936592044_cont_8to1_853_2_alg».proof.Proof.KI.Region0Payload
import Idealize.ShloMosaic.Lib.Pipeline.Value

set_option maxRecDepth 16384

noncomputable section

open scoped BigOperators

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

section Blocks
variable {F : FTy → Type} [FloatOps F]
variable (V : (c : Dev nD) → (b : Ref sig .tc) → Buf (Elt F) ((c : Thread nD τ).loc b))

/-! ## Every input block is its whole array -/

/-- Window 0's block is the array `main_v0` itself: the block index is zero on both axes. -/
theorem iblk0_0 (c : Dev nD) (t : Fin cfg0.N) : (iblk0 V c 0 t : Vec F S10000x1 .i32) = V c main_v0 := by
  funext y
  show V c main_v0 (((cfg0.win 0).blk t).view.emb y) = V c main_v0 y
  refine congrArg (V c main_v0) (funext fun a => Fin.ext ?_)
  match a with
  | ⟨0, _⟩ => show 0 * 10000 + 1 * (y 0).val = (y 0).val; omega
  | ⟨1, _⟩ => show 0 * 1 + 1 * (y 1).val = (y 1).val; omega

/-- Window 1's block is the array `main_v1` itself: the block index is zero on both axes. -/
theorem iblk0_1 (c : Dev nD) (t : Fin cfg0.N) : (iblk0 V c 1 t : Vec F S10000x1 .i32) = V c main_v1 := by
  funext y
  show V c main_v1 (((cfg0.win 1).blk t).view.emb y) = V c main_v1 y
  refine congrArg (V c main_v1) (funext fun a => Fin.ext ?_)
  match a with
  | ⟨0, _⟩ => show 0 * 10000 + 1 * (y 0).val = (y 0).val; omega
  | ⟨1, _⟩ => show 0 * 1 + 1 * (y 1).val = (y 1).val; omega

/-- Window 2's block is the array `main_v2` itself: the block index is zero on both axes. -/
theorem iblk0_2 (c : Dev nD) (t : Fin cfg0.N) : (iblk0 V c 2 t : Vec F S5000x1 .i32) = V c main_v2 := by
  funext y
  show V c main_v2 (((cfg0.win 2).blk t).view.emb y) = V c main_v2 y
  refine congrArg (V c main_v2) (funext fun a => Fin.ext ?_)
  match a with
  | ⟨0, _⟩ => show 0 * 5000 + 1 * (y 0).val = (y 0).val; omega
  | ⟨1, _⟩ => show 0 * 1 + 1 * (y 1).val = (y 1).val; omega

/-- Window 3's block is the array `main_arg4` itself: the block index is zero on both axes. -/
theorem iblk0_3 (c : Dev nD) (t : Fin cfg0.N) : (iblk0 V c 3 t : Vec F S10000x32 .f32) = V c main_arg4 := by
  funext y
  show V c main_arg4 (((cfg0.win 3).blk t).view.emb y) = V c main_arg4 y
  refine congrArg (V c main_arg4) (funext fun a => Fin.ext ?_)
  match a with
  | ⟨0, _⟩ => show 0 * 10000 + 1 * (y 0).val = (y 0).val; omega
  | ⟨1, _⟩ => show 0 * 32 + 1 * (y 1).val = (y 1).val; omega

/-- Window 4's block is the array `main_arg5` itself: the block index is zero on both axes. -/
theorem iblk0_4 (c : Dev nD) (t : Fin cfg0.N) : (iblk0 V c 4 t : Vec F S5000x32 .f32) = V c main_arg5 := by
  funext y
  show V c main_arg5 (((cfg0.win 4).blk t).view.emb y) = V c main_arg5 y
  refine congrArg (V c main_arg5) (funext fun a => Fin.ext ?_)
  match a with
  | ⟨0, _⟩ => show 0 * 5000 + 1 * (y 0).val = (y 0).val; omega
  | ⟨1, _⟩ => show 0 * 32 + 1 * (y 1).val = (y 1).val; omega

/-- Window 5's block is the array `main_arg6` itself: the block index is zero on both axes. -/
theorem iblk0_5 (c : Dev nD) (t : Fin cfg0.N) : (iblk0 V c 5 t : Vec F S8x8 .f32) = V c main_arg6 := by
  funext y
  show V c main_arg6 (((cfg0.win 5).blk t).view.emb y) = V c main_arg6 y
  refine congrArg (V c main_arg6) (funext fun a => Fin.ext ?_)
  match a with
  | ⟨0, _⟩ => show 0 * 8 + 1 * (y 0).val = (y 0).val; omega
  | ⟨1, _⟩ => show 0 * 8 + 1 * (y 1).val = (y 1).val; omega

/-- Window 6's block is the array `main_arg7` itself: the block index is zero on both axes. -/
theorem iblk0_6 (c : Dev nD) (t : Fin cfg0.N) : (iblk0 V c 6 t : Vec F S8x8 .f32) = V c main_arg7 := by
  funext y
  show V c main_arg7 (((cfg0.win 6).blk t).view.emb y) = V c main_arg7 y
  refine congrArg (V c main_arg7) (funext fun a => Fin.ext ?_)
  match a with
  | ⟨0, _⟩ => show 0 * 8 + 1 * (y 0).val = (y 0).val; omega
  | ⟨1, _⟩ => show 0 * 8 + 1 * (y 1).val = (y 1).val; omega

/-- Window 7's block is the array `main_arg8` itself: the block index is zero on both axes. -/
theorem iblk0_7 (c : Dev nD) (t : Fin cfg0.N) : (iblk0 V c 7 t : Vec F S16x8 .f32) = V c main_arg8 := by
  funext y
  show V c main_arg8 (((cfg0.win 7).blk t).view.emb y) = V c main_arg8 y
  refine congrArg (V c main_arg8) (funext fun a => Fin.ext ?_)
  match a with
  | ⟨0, _⟩ => show 0 * 16 + 1 * (y 0).val = (y 0).val; omega
  | ⟨1, _⟩ => show 0 * 8 + 1 * (y 1).val = (y 1).val; omega

/-- Window 8's block is the array `main_arg9` itself: the block index is zero on both axes. -/
theorem iblk0_8 (c : Dev nD) (t : Fin cfg0.N) : (iblk0 V c 8 t : Vec F S32x48 .f32) = V c main_arg9 := by
  funext y
  show V c main_arg9 (((cfg0.win 8).blk t).view.emb y) = V c main_arg9 y
  refine congrArg (V c main_arg9) (funext fun a => Fin.ext ?_)
  match a with
  | ⟨0, _⟩ => show 0 * 32 + 1 * (y 0).val = (y 0).val; omega
  | ⟨1, _⟩ => show 0 * 48 + 1 * (y 1).val = (y 1).val; omega

/-- Window 9's block is the array `main_v3` itself: the block index is zero on both axes. -/
theorem iblk0_9 (c : Dev nD) (t : Fin cfg0.N) : (iblk0 V c 9 t : Vec F S1x32 .f32) = V c main_v3 := by
  funext y
  show V c main_v3 (((cfg0.win 9).blk t).view.emb y) = V c main_v3 y
  refine congrArg (V c main_v3) (funext fun a => Fin.ext ?_)
  match a with
  | ⟨0, _⟩ => show 0 * 1 + 1 * (y 0).val = (y 0).val; omega
  | ⟨1, _⟩ => show 0 * 32 + 1 * (y 1).val = (y 1).val; omega

/-- Window 10's block is the array `main_arg11` itself: the block index is zero on both axes. -/
theorem iblk0_10 (c : Dev nD) (t : Fin cfg0.N) : (iblk0 V c 10 t : Vec F S32x40 .f32) = V c main_arg11 := by
  funext y
  show V c main_arg11 (((cfg0.win 10).blk t).view.emb y) = V c main_arg11 y
  refine congrArg (V c main_arg11) (funext fun a => Fin.ext ?_)
  match a with
  | ⟨0, _⟩ => show 0 * 32 + 1 * (y 0).val = (y 0).val; omega
  | ⟨1, _⟩ => show 0 * 40 + 1 * (y 1).val = (y 1).val; omega

/-- Window 11's block is the array `main_v4` itself: the block index is zero on both axes. -/
theorem iblk0_11 (c : Dev nD) (t : Fin cfg0.N) : (iblk0 V c 11 t : Vec F S1x32 .f32) = V c main_v4 := by
  funext y
  show V c main_v4 (((cfg0.win 11).blk t).view.emb y) = V c main_v4 y
  refine congrArg (V c main_v4) (funext fun a => Fin.ext ?_)
  match a with
  | ⟨0, _⟩ => show 0 * 1 + 1 * (y 0).val = (y 0).val; omega
  | ⟨1, _⟩ => show 0 * 32 + 1 * (y 1).val = (y 1).val; omega

end Blocks

section Values
variable (V : (c : Dev nD) → (b : Ref sig .tc) → Buf (Elt Ideal) ((c : Thread nD τ).loc b))

theorem offsets_zero : (![0, 0] : Fin 2 → Nat) = fun _ => 0 := funext fun a => by fin_cases a <;> rfl

/-! ## The user side -/

/-- An entry of the one block of window 12 sits at the same coordinates in the array. -/
theorem emb0_12 (t : Fin cfg0.N) (u : Fin 10000) (d : Fin 32) : ((cfg0.win 12).blk t).view.emb (ix2 u d) = ix2 u d := by
  funext a; apply Fin.ext
  match a with
  | ⟨0, _⟩ => show 0 * 10000 + 1 * u.val = u.val; omega
  | ⟨1, _⟩ => show 0 * 32 + 1 * d.val = d.val; omega

/-- The one block of window 12 is the whole array. -/
theorem mem_blk0_12 (t : Fin cfg0.N) (i : S10000x32.Idx) : i ∈ ((cfg0.win 12).blk t).view.set := by
  show i ∈ ((View.whole main_v5_0).slice (win0_12.rect t)).set
  rw [View.set_slice_whole, Rect.mem_set_unit]
  intro a
  match a with
  | ⟨0, _⟩ => show 0 * 10000 ≤ (i 0).val ∧ (i 0).val < 0 * 10000 + 10000; have := idx2_lt0 i; omega
  | ⟨1, _⟩ => show 0 * 32 ≤ (i 1).val ∧ (i 1).val < 0 * 32 + 32; have := idx2_lt1 i; omega

/-- What the point writes back to window 12 is the layer-0 user embeddings of the arrays the launch found. -/
theorem flushed0_12 (c : Dev nD) (t : Fin cfg0.N) :
    (dat0 V c).flushed 12 t = ((cfg0.win 12).blk t).view.read (Elt Ideal)
      (fun i => Cert.Spec.user0 (V c main_arg4) (fun j => V c main_v0 (ix2 (j 0) (0 : Fin 1))) (fun j => V c main_v1 (ix2 (j 0) (0 : Fin 1)))
        (V c main_arg6) (V c main_arg7) (V c main_arg9) (fun j => V c main_v3 (ix2 (0 : Fin 1) (j 0))) (i 0) (i 1)) := by
  show (cfg0.win 12).cut (grid0.coords t) ((dat0 V c).after 12 t) = _
  rw [after0_12]
  unfold out0_12
  rw [View.canon_unit_zero offsets_zero]
  simp only [View.ld_unit_zero (S := S10000x1) offsets_zero, View.ld_unit_zero (S := S8x8) offsets_zero,
    View.ld_unit_zero (S := S32x48) offsets_zero, View.ld_unit_zero (S := S10000x32) offsets_zero,
    View.ld_unit_zero (S := S1x32) offsets_zero]
  funext j
  obtain ⟨u, d, rfl⟩ : ∃ (u : Fin 10000) (d : Fin 32), j = ix2 u d := ⟨j 0, j 1, eq_ix2 j⟩
  show k0_pay1 (k0_pay4 (iblk0 V c 0 t) (iblk0 V c 5 t) (iblk0 V c 1 t) (iblk0 V c 6 t) (iblk0 V c 8 t) (iblk0 V c 3 t)) (iblk0 V c 9 t) (ix2 u d)
    = (fun i : S10000x32.Idx => Cert.Spec.user0 (V c main_arg4) (fun j => V c main_v0 (ix2 (j 0) (0 : Fin 1))) (fun j => V c main_v1 (ix2 (j 0) (0 : Fin 1)))
        (V c main_arg6) (V c main_arg7) (V c main_arg9) (fun j => V c main_v3 (ix2 (0 : Fin 1) (j 0))) (i 0) (i 1)) (((cfg0.win 12).blk t).view.emb (ix2 u d))
  rw [emb0_12 t u d]
  refine (user_payload (iblk0 V c 0 t) (iblk0 V c 1 t) (iblk0 V c 3 t) (iblk0 V c 5 t) (iblk0 V c 6 t) (iblk0 V c 8 t) (iblk0 V c 9 t) u d).trans ?_
  rw [iblk0_0, iblk0_1, iblk0_3, iblk0_5, iblk0_6, iblk0_8, iblk0_9]

/-- The user-side array after the launch: the layer-0 user embeddings. -/
theorem users0 (c : Dev nD) : ((dat0 V c).arrAt 12 cfg0.N : Cert.Spec.Mat 10000 32)
    = fun i => Cert.Spec.user0 (V c main_arg4) (fun j => V c main_v0 (ix2 (j 0) (0 : Fin 1))) (fun j => V c main_v1 (ix2 (j 0) (0 : Fin 1)))
        (V c main_arg6) (V c main_arg7) (V c main_arg9) (fun j => V c main_v3 (ix2 (0 : Fin 1) (j 0))) (i 0) (i 1) :=
  (dat0 V c).arrAt_eq_of_cover 12 _ (fun t _ => flushed0_12 V c t) (fun i => ⟨t0_0, flush0_12 t0_0, mem_blk0_12 t0_0 i⟩)

/-! ## The item side -/

/-- An entry of the one block of window 13 sits at the same coordinates in the array. -/
theorem emb0_13 (t : Fin cfg0.N) (u : Fin 5000) (d : Fin 32) : ((cfg0.win 13).blk t).view.emb (ix2 u d) = ix2 u d := by
  funext a; apply Fin.ext
  match a with
  | ⟨0, _⟩ => show 0 * 5000 + 1 * u.val = u.val; omega
  | ⟨1, _⟩ => show 0 * 32 + 1 * d.val = d.val; omega

/-- The one block of window 13 is the whole array. -/
theorem mem_blk0_13 (t : Fin cfg0.N) (i : S5000x32.Idx) : i ∈ ((cfg0.win 13).blk t).view.set := by
  show i ∈ ((View.whole main_v5_1).slice (win0_13.rect t)).set
  rw [View.set_slice_whole, Rect.mem_set_unit]
  intro a
  match a with
  | ⟨0, _⟩ => show 0 * 5000 ≤ (i 0).val ∧ (i 0).val < 0 * 5000 + 5000; have := idx2_lt0 i; omega
  | ⟨1, _⟩ => show 0 * 32 ≤ (i 1).val ∧ (i 1).val < 0 * 32 + 32; have := idx2_lt1 i; omega

/-- What the point writes back to window 13 is the layer-0 item embeddings of the arrays the launch found. -/
theorem flushed0_13 (c : Dev nD) (t : Fin cfg0.N) :
    (dat0 V c).flushed 13 t = ((cfg0.win 13).blk t).view.read (Elt Ideal)
      (fun i => Cert.Spec.item0 (V c main_arg5) (fun j => V c main_v2 (ix2 (j 0) (0 : Fin 1))) (V c main_arg8) (V c main_arg11)
        (fun j => V c main_v4 (ix2 (0 : Fin 1) (j 0))) (i 0) (i 1)) := by
  show (cfg0.win 13).cut (grid0.coords t) ((dat0 V c).after 13 t) = _
  rw [after0_13]
  unfold out0_13
  rw [View.canon_unit_zero offsets_zero]
  simp only [View.ld_unit_zero (S := S5000x1) offsets_zero, View.ld_unit_zero (S := S16x8) offsets_zero,
    View.ld_unit_zero (S := S32x40) offsets_zero, View.ld_unit_zero (S := S5000x32) offsets_zero,
    View.ld_unit_zero (S := S1x32) offsets_zero]
  funext j
  obtain ⟨u, d, rfl⟩ : ∃ (u : Fin 5000) (d : Fin 32), j = ix2 u d := ⟨j 0, j 1, eq_ix2 j⟩
  show k0_pay2 (k0_pay3 (iblk0 V c 2 t) (iblk0 V c 7 t)) (iblk0 V c 10 t) (iblk0 V c 4 t) (iblk0 V c 11 t) (ix2 u d)
    = (fun i : S5000x32.Idx => Cert.Spec.item0 (V c main_arg5) (fun j => V c main_v2 (ix2 (j 0) (0 : Fin 1))) (V c main_arg8) (V c main_arg11)
        (fun j => V c main_v4 (ix2 (0 : Fin 1) (j 0))) (i 0) (i 1)) (((cfg0.win 13).blk t).view.emb (ix2 u d))
  rw [emb0_13 t u d]
  refine (item_payload (iblk0 V c 2 t) (iblk0 V c 4 t) (iblk0 V c 7 t) (iblk0 V c 10 t) (iblk0 V c 11 t) u d).trans ?_
  rw [iblk0_2, iblk0_4, iblk0_7, iblk0_10, iblk0_11]

/-- The item-side array after the launch: the layer-0 item embeddings. -/
theorem items0 (c : Dev nD) : ((dat0 V c).arrAt 13 cfg0.N : Cert.Spec.Mat 5000 32)
    = fun i => Cert.Spec.item0 (V c main_arg5) (fun j => V c main_v2 (ix2 (j 0) (0 : Fin 1))) (V c main_arg8) (V c main_arg11)
        (fun j => V c main_v4 (ix2 (0 : Fin 1) (j 0))) (i 0) (i 1) :=
  (dat0 V c).arrAt_eq_of_cover 13 _ (fun t _ => flushed0_13 V c t) (fun i => ⟨t0_0, flush0_13 t0_0, mem_blk0_13 t0_0 i⟩)

end Values

end Cert.KernelIdeal.Hand

end
-- ==== Proof.KI.R1ValueOps.lean ====
/-
  The propagation kernel's stored values, read entry by entry over the extended reals.

  A cast to the same shape is the identity. The product of a 400-row block of the adjacency matrix with the items is,
  at an entry, the sum over the 5000 items; the transposed product of the block with 400 rows of the users is the sum
  over those 400 rows. The 400 rows a point loads from a 10000-row buffer are the rows 400·b … 400·b + 399 of its row
  block b. The final scaling multiplies every entry by one quarter, kept as the float word it is written with.
-/
import proofs.«129974_g1760936592044_cont_8to1_853_2_alg».proof.Proof.KI.R1Rows
import proofs.«129974_g1760936592044_cont_8to1_853_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal.Gen
open Idealize.ShloMosaic Idealize.ShloMosaic.ValueIdx

/-! ## The two matrix products of the body, each into a zero accumulator -/

/-! ### The contraction `dot_S400x5000_S5000x32_S400x32_1_0_0_1_n_n`: entry (a, b) is the sum over c of left (a, c) times right (c, b) -/

theorem block_by_items_lhs0 (i : S400x32.Idx) (q : dot_S400x5000_S5000x32_S400x32_1_0_0_1_n_n.contr.Idx) : (dot_S400x5000_S5000x32_S400x32_1_0_0_1_n_n.lhsIdx i q 0).val = (i 0).val := by
  unfold DotDims.lhsIdx
  rw [dif_neg (show ¬(0 : Fin S400x5000.rank) ∈ dot_S400x5000_S5000x32_S400x32_1_0_0_1_n_n.lhsBatch by decide), dif_pos (show (0 : Fin S400x5000.rank) ∈ dot_S400x5000_S5000x32_S400x32_1_0_0_1_n_n.lhsNonContracting by decide)]
  rfl
theorem block_by_items_lhs1 (i : S400x32.Idx) (q : dot_S400x5000_S5000x32_S400x32_1_0_0_1_n_n.contr.Idx) : (dot_S400x5000_S5000x32_S400x32_1_0_0_1_n_n.lhsIdx i q 1).val = (q ⟨0, by decide⟩).val :=
  dot_S400x5000_S5000x32_S400x32_1_0_0_1_n_n.lhsIdx_val_of_single rfl i q
theorem block_by_items_rhs1 (i : S400x32.Idx) (q : dot_S400x5000_S5000x32_S400x32_1_0_0_1_n_n.contr.Idx) : (dot_S400x5000_S5000x32_S400x32_1_0_0_1_n_n.rhsIdx i q 1).val = (i 1).val := by
  unfold DotDims.rhsIdx
  rw [dif_neg (show ¬(1 : Fin S5000x32.rank) ∈ dot_S400x5000_S5000x32_S400x32_1_0_0_1_n_n.rhsBatch by decide), dif_pos (show (1 : Fin S5000x32.rank) ∈ dot_S400x5000_S5000x32_S400x32_1_0_0_1_n_n.rhsNonContracting by decide)]
  rfl
theorem block_by_items_rhs0 (i : S400x32.Idx) (q : dot_S400x5000_S5000x32_S400x32_1_0_0_1_n_n.contr.Idx) : (dot_S400x5000_S5000x32_S400x32_1_0_0_1_n_n.rhsIdx i q 0).val = (q ⟨0, by decide⟩).val :=
  dot_S400x5000_S5000x32_S400x32_1_0_0_1_n_n.rhsIdx_val_of_single rfl i q

/-- The product into a zero accumulator, read at an entry, is the finite sum over the contracted coordinate. -/
theorem block_by_items_apply (A : FVec Ideal S400x5000 .f32) (B : FVec Ideal S5000x32 .f32) (a : Fin 400) (b : Fin 32) :
    matmul dot_S400x5000_S5000x32_S400x32_1_0_0_1_n_n none A B (constant S400x32 .f32 0x00000000#32) (ix2 a b) = ∑ c : Fin 5000, A (ix2 a c) * B (ix2 c b) := by
  show FloatOps.matmul dot_S400x5000_S5000x32_S400x32_1_0_0_1_n_n none A B (constant S400x32 .f32 0x00000000#32) (ix2 a b) = _
  rw [Ideal.matmul_constant_zero_apply, ← Equiv.sum_comp (contrEquiv1 dot_S400x5000_S5000x32_S400x32_1_0_0_1_n_n 5000 rfl rfl).symm]
  refine Finset.sum_congr rfl fun c _ => ?_
  have hk := contrEquiv1_symm_val dot_S400x5000_S5000x32_S400x32_1_0_0_1_n_n 5000 rfl rfl c
  have el : dot_S400x5000_S5000x32_S400x32_1_0_0_1_n_n.lhsIdx (ix2 a b) ((contrEquiv1 dot_S400x5000_S5000x32_S400x32_1_0_0_1_n_n 5000 rfl rfl).symm c) = ix2 a c := funext fun ax => Fin.ext (by
    match ax with
    | ⟨0, _⟩ => exact block_by_items_lhs0 _ _
    | ⟨1, _⟩ => exact (block_by_items_lhs1 _ _).trans hk)
  have er : dot_S400x5000_S5000x32_S400x32_1_0_0_1_n_n.rhsIdx (ix2 a b) ((contrEquiv1 dot_S400x5000_S5000x32_S400x32_1_0_0_1_n_n 5000 rfl rfl).symm c) = ix2 c b := funext fun ax => Fin.ext (by
    match ax with
    | ⟨1, _⟩ => exact block_by_items_rhs1 _ _
    | ⟨0, _⟩ => exact (block_by_items_rhs0 _ _).trans hk)
  rw [el, er]

/-! ### The contraction `dot_S400x5000_S400x32_S5000x32_0_0_1_1_n_n`: entry (a, b) is the sum over the rows c of left (c, a) times right (c, b) -/

theorem blockT_by_users_lhs1 (i : S5000x32.Idx) (q : dot_S400x5000_S400x32_S5000x32_0_0_1_1_n_n.contr.Idx) : (dot_S400x5000_S400x32_S5000x32_0_0_1_1_n_n.lhsIdx i q 1).val = (i 0).val := by
  unfold DotDims.lhsIdx
  rw [dif_neg (show ¬(1 : Fin S400x5000.rank) ∈ dot_S400x5000_S400x32_S5000x32_0_0_1_1_n_n.lhsBatch by decide), dif_pos (show (1 : Fin S400x5000.rank) ∈ dot_S400x5000_S400x32_S5000x32_0_0_1_1_n_n.lhsNonContracting by decide)]
  rfl
theorem blockT_by_users_lhs0 (i : S5000x32.Idx) (q : dot_S400x5000_S400x32_S5000x32_0_0_1_1_n_n.contr.Idx) : (dot_S400x5000_S400x32_S5000x32_0_0_1_1_n_n.lhsIdx i q 0).val = (q ⟨0, by decide⟩).val :=
  dot_S400x5000_S400x32_S5000x32_0_0_1_1_n_n.lhsIdx_val_of_single rfl i q
theorem blockT_by_users_rhs1 (i : S5000x32.Idx) (q : dot_S400x5000_S400x32_S5000x32_0_0_1_1_n_n.contr.Idx) : (dot_S400x5000_S400x32_S5000x32_0_0_1_1_n_n.rhsIdx i q 1).val = (i 1).val := by
  unfold DotDims.rhsIdx
  rw [dif_neg (show ¬(1 : Fin S400x32.rank) ∈ dot_S400x5000_S400x32_S5000x32_0_0_1_1_n_n.rhsBatch by decide), dif_pos (show (1 : Fin S400x32.rank) ∈ dot_S400x5000_S400x32_S5000x32_0_0_1_1_n_n.rhsNonContracting by decide)]
  rfl
theorem blockT_by_users_rhs0 (i : S5000x32.Idx) (q : dot_S400x5000_S400x32_S5000x32_0_0_1_1_n_n.contr.Idx) : (dot_S400x5000_S400x32_S5000x32_0_0_1_1_n_n.rhsIdx i q 0).val = (q ⟨0, by decide⟩).val :=
  dot_S400x5000_S400x32_S5000x32_0_0_1_1_n_n.rhsIdx_val_of_single rfl i q

/-- The transposed product into a zero accumulator, read at an entry, is the finite sum over the contracted rows. -/
theorem blockT_by_users_apply (A : FVec Ideal S400x5000 .f32) (B : FVec Ideal S400x32 .f32) (a : Fin 5000) (b : Fin 32) :
    matmul dot_S400x5000_S400x32_S5000x32_0_0_1_1_n_n none A B (constant S5000x32 .f32 0x00000000#32) (ix2 a b) = ∑ c : Fin 400, A (ix2 c a) * B (ix2 c b) := by
  show FloatOps.matmul dot_S400x5000_S400x32_S5000x32_0_0_1_1_n_n none A B (constant S5000x32 .f32 0x00000000#32) (ix2 a b) = _
  rw [Ideal.matmul_constant_zero_apply, ← Equiv.sum_comp (contrEquiv1 dot_S400x5000_S400x32_S5000x32_0_0_1_1_n_n 400 rfl rfl).symm]
  refine Finset.sum_congr rfl fun c _ => ?_
  have hk := contrEquiv1_symm_val dot_S400x5000_S400x32_S5000x32_0_0_1_1_n_n 400 rfl rfl c
  have el : dot_S400x5000_S400x32_S5000x32_0_0_1_1_n_n.lhsIdx (ix2 a b) ((contrEquiv1 dot_S400x5000_S400x32_S5000x32_0_0_1_1_n_n 400 rfl rfl).symm c) = ix2 c a := funext fun ax => Fin.ext (by
    match ax with
    | ⟨0, _⟩ => exact (blockT_by_users_lhs0 _ _).trans hk
    | ⟨1, _⟩ => exact blockT_by_users_lhs1 _ _)
  have er : dot_S400x5000_S400x32_S5000x32_0_0_1_1_n_n.rhsIdx (ix2 a b) ((contrEquiv1 dot_S400x5000_S400x32_S5000x32_0_0_1_1_n_n 400 rfl rfl).symm c) = ix2 c b := funext fun ax => Fin.ext (by
    match ax with
    | ⟨0, _⟩ => exact (blockT_by_users_rhs0 _ _).trans hk
    | ⟨1, _⟩ => exact blockT_by_users_rhs1 _ _)
  rw [el, er]

/-! ## The stored values -/

section AnyInstance
variable {F : FTy → Type} [FloatOps F]

theorem k1_pay1_eq (x : Vec F S10000x32 .f32) : k1_pay1 x = x := by
  simp only [k1_pay1, shapeCast_self]
theorem k1_pay2_eq (x : Vec F S5000x32 .f32) : k1_pay2 x = x := by
  simp only [k1_pay2, shapeCast_self]
theorem k1_pay3_eq (x : Vec F S10000x32 .f32) : k1_pay3 x = x := by
  unfold k1_pay3; rw [shapeCast_self]
theorem k1_pay4_eq (x : Vec F S5000x32 .f32) : k1_pay4 x = x := by
  unfold k1_pay4; rw [shapeCast_self]
theorem k1_pay11_eq (x : Vec F S10000x32 .f32) : k1_pay11 x = x := by
  unfold k1_pay11; rw [shapeCast_self]
theorem k1_pay12_eq (x : Vec F S5000x32 .f32) : k1_pay12 x = x := by
  unfold k1_pay12; rw [shapeCast_self]
theorem k1_pay7_eq (a : Vec F S400x5000 .f32) (x : Vec F S400x32 .f32) : k1_pay7 a x = k1_pay6 a x := by
  unfold k1_pay7; rw [shapeCast_self]

end AnyInstance

/-- A block of the adjacency matrix times the items, at entry (r, d): the sum over the items. -/
theorem k1_pay5_apply (a : Vec Ideal S400x5000 .f32) (ic : Vec Ideal S5000x32 .f32) (r : Fin 400) (d : Fin 32) :
    k1_pay5 a ic (ix2 r d) = ∑ j : Fin 5000, a (ix2 r j) * ic (ix2 j d) := by
  unfold k1_pay5; rw [shapeCast_self]
  exact block_by_items_apply a ic r d

/-- The transposed block times 400 rows of the users, at entry (j, d): the sum over the 400 rows. -/
theorem k1_pay6_apply (a : Vec Ideal S400x5000 .f32) (x : Vec Ideal S400x32 .f32) (j : Fin 5000) (d : Fin 32) :
    k1_pay6 a x (ix2 j d) = ∑ r : Fin 400, a (ix2 r j) * x (ix2 r d) :=
  blockT_by_users_apply a x j d

/-- Adding that product to the accumulator. -/
theorem k1_pay8_apply (a : Vec Ideal S400x5000 .f32) (x : Vec Ideal S400x32 .f32) (acc : Vec Ideal S5000x32 .f32) (j : Fin 5000) (d : Fin 32) :
    k1_pay8 a x acc (ix2 j d) = acc (ix2 j d) + ∑ r : Fin 400, a (ix2 r j) * x (ix2 r d) := by
  unfold k1_pay8; rw [shapeCast_self]
  exact congrArg (acc (ix2 j d) + ·) (k1_pay6_apply a x j d)

/-- Adding a layer to a result. -/
theorem k1_pay9_apply (v w : Vec Ideal S10000x32 .f32) (i : S10000x32.Idx) : k1_pay9 v w i = v i + w i := by
  unfold k1_pay9; rw [shapeCast_self]; rfl
theorem k1_pay10_apply (v w : Vec Ideal S5000x32 .f32) (i : S5000x32.Idx) : k1_pay10 v w i = v i + w i := by
  unfold k1_pay10; rw [shapeCast_self]; rfl

/-- The final scaling by one quarter. -/
theorem k1_pay13_apply (v : Vec Ideal S10000x32 .f32) (i : S10000x32.Idx) : k1_pay13 v i = v i * Cert.Spec.quarter := by
  unfold k1_pay13; rw [shapeCast_self]; rfl
theorem k1_pay14_apply (v : Vec Ideal S5000x32 .f32) (i : S5000x32.Idx) : k1_pay14 v i = v i * Cert.Spec.quarter := by
  unfold k1_pay14; rw [shapeCast_self]; rfl

/-! ## The 400 rows a point loads -/

/-- Row `r` of the rows point `n` loads from a 10000-row buffer is row 400 · (n % 25) + r of the buffer. -/
theorem ld_rows_apply {F : FTy → Type} [FloatOps F] (x : Vec F S10000x32 .f32) (n : ℕ) (hn : n < 75) (r : Fin 400) (d : Fin 32) :
    View.ld x (rowsRect (cd n)) (ix2 r d)
      = x (ix2 (⟨400 * (n % 25) + r.val, by have := r.isLt; omega⟩ : Fin 10000) d) := by
  show x ((rowsRect (cd n)).idx (ix2 r d)) = _
  refine congrArg x (funext fun a => Fin.ext ?_)
  match a with
  | ⟨0, _⟩ =>
    have e' : (rowsRect (cd n)).off (0 : Fin 2) = 400 * (n % 25) := off_rows n hn
    have es : (rowsRect (cd n)).stride (0 : Fin 2) = 1 := rfl
    show (rowsRect (cd n)).off (0 : Fin 2) + (rowsRect (cd n)).stride (0 : Fin 2) * r.val = 400 * (n % 25) + r.val
    rw [e', es]; omega
  | ⟨1, _⟩ =>
    have e' : (rowsRect (cd n)).off (1 : Fin 2) = 0 := off_cols n
    have es : (rowsRect (cd n)).stride (1 : Fin 2) = 1 := rfl
    show (rowsRect (cd n)).off (1 : Fin 2) + (rowsRect (cd n)).stride (1 : Fin 2) * d.val = d.val
    rw [e', es]; omega

end Cert.KernelIdeal.Hand

end
-- ==== Proof.KI.R1Value.lean ====
/-
  The propagation kernel's buffers after each of its 75 points are the specification's layers.

  Point n is row block b = n % 25 of layer l = n / 25. By induction on n: the current users and items are those of
  layer l, replaced by layer l + 1 at the last row block of the layer; the two results are the sums of the layers so
  far, in layer order, and at the very last point that sum times one quarter; the next-items accumulator at entry
  (j, d) is the sum over the rows u below 400 · (b + 1) of adj(u, j) · U_l(u, d). A row block's contribution to that
  sum is the transposed product the point computes; after the last block the sum runs over all 10000 rows and is the
  next layer's items. The next users, read row by row from the products of the 25 blocks with the current items, are
  the next layer's users. Only the definitions of the layers and the splitting of a finite sum at a row are used.
-/
import proofs.«129974_g1760936592044_cont_8to1_853_2_alg».proof.Proof.KI.R1ValueOps

noncomputable section

open scoped BigOperators

namespace Cert.KernelIdeal.Hand

open Cert.KernelIdeal.Gen
open Idealize.ShloMosaic Idealize.ShloMosaic.ValueIdx

/-! ## The layers, their running sums, and the item-side sum split at a row -/

section Layers
variable (adj : Cert.Spec.Mat 10000 5000) (U0 : Fin 10000 → Fin 32 → EReal) (I0 : Fin 5000 → Fin 32 → EReal)

/-- The users of layer `l`. -/
abbrev usersL (l : ℕ) : Fin 10000 → Fin 32 → EReal := (Cert.Spec.layer adj U0 I0 l).1
/-- The items of layer `l`. -/
abbrev itemsL (l : ℕ) : Fin 5000 → Fin 32 → EReal := (Cert.Spec.layer adj U0 I0 l).2

theorem usersL_succ (l : ℕ) (u : Fin 10000) (d : Fin 32) :
    usersL adj U0 I0 (l + 1) u d = ∑ j : Fin 5000, adj (ix2 u j) * itemsL adj U0 I0 l j d := by
  show (Cert.Spec.layer adj U0 I0 (l + 1)).1 u d = _
  rw [Cert.Spec.layer]
  show Cert.Spec.toUsers adj (Cert.Spec.layer adj U0 I0 l).2 u d = _
  unfold Cert.Spec.toUsers
  rfl
theorem itemsL_succ (l : ℕ) (j : Fin 5000) (d : Fin 32) :
    itemsL adj U0 I0 (l + 1) j d = ∑ u : Fin 10000, adj (ix2 u j) * usersL adj U0 I0 l u d := by
  show (Cert.Spec.layer adj U0 I0 (l + 1)).2 j d = _
  rw [Cert.Spec.layer]
  show Cert.Spec.toItems adj (Cert.Spec.layer adj U0 I0 l).1 j d = _
  unfold Cert.Spec.toItems
  rfl

/-- The users of layers 0 … k summed in layer order. -/
def sumUsers : ℕ → Fin 10000 → Fin 32 → EReal
  | 0 => usersL adj U0 I0 0
  | k + 1 => fun u d => sumUsers k u d + usersL adj U0 I0 (k + 1) u d
/-- The items of layers 0 … k summed in layer order. -/
def sumItems : ℕ → Fin 5000 → Fin 32 → EReal
  | 0 => itemsL adj U0 I0 0
  | k + 1 => fun j d => sumItems k j d + itemsL adj U0 I0 (k + 1) j d

/-- Row `i`'s term of entry (j, d) of the items of layer l + 1 (zero from row 10000 on). -/
def rowTerm (l : ℕ) (j : Fin 5000) (d : Fin 32) (i : ℕ) : EReal :=
  if h : i < 10000 then adj (ix2 (⟨i, h⟩ : Fin 10000) j) * usersL adj U0 I0 l ⟨i, h⟩ d else 0

/-- Over all 10000 rows the terms sum to the next layer's items. -/
theorem rowTerm_all (l : ℕ) (j : Fin 5000) (d : Fin 32) :
    ∑ i ∈ Finset.range 10000, rowTerm adj U0 I0 l j d i = itemsL adj U0 I0 (l + 1) j d := by
  rw [Finset.sum_range, itemsL_succ]
  refine Finset.sum_congr rfl fun u _ => ?_
  unfold rowTerm; rw [dif_pos u.isLt]

/-- The rows below 400 · (b + 1) are the rows below 400 · b and the 400 rows of block b. -/
theorem rowTerm_block (l : ℕ) (j : Fin 5000) (d : Fin 32) (b : ℕ) (hb : b < 25) :
    ∑ i ∈ Finset.range (400 * (b + 1)), rowTerm adj U0 I0 l j d i
      = ∑ i ∈ Finset.range (400 * b), rowTerm adj U0 I0 l j d i
        + ∑ r : Fin 400, adj (ix2 (⟨400 * b + r.val, by have := r.isLt; omega⟩ : Fin 10000) j)
            * usersL adj U0 I0 l ⟨400 * b + r.val, by have := r.isLt; omega⟩ d := by
  rw [show 400 * (b + 1) = 400 * b + 400 by ring, Finset.sum_range_add,
    Finset.sum_range (fun x => rowTerm adj U0 I0 l j d (400 * b + x))]
  refine congrArg (_ + ·) (Finset.sum_congr rfl fun r _ => ?_)
  unfold rowTerm; rw [dif_pos (by have := r.isLt; omega)]

end Layers

/-! ## What a point computes, in the specification's terms -/

/-- The transposed product of point `m`: block m % 25's rows of adj(·, j) · U(·, d), when the buffer holds `U`. -/
theorem block_term (adj : Cert.Spec.Mat 10000 5000) (U0 : Fin 10000 → Fin 32 → EReal) (I0 : Fin 5000 → Fin 32 → EReal)
    (eu : Vec Ideal S10000x32 .f32) (ei : Vec Ideal S5000x32 .f32) (A : ℕ → Vec Ideal S400x5000 .f32)
    (hA : ∀ n, n < 75 → ∀ (r : Fin 400) (j : Fin 5000), A n (ix2 r j) = adj (ix2 (⟨400 * (n % 25) + r.val, by have := r.isLt; omega⟩ : Fin 10000) j))
    (m : ℕ) (hm : m < 75) (uc : Vec Ideal S10000x32 .f32) (U : Fin 10000 → Fin 32 → EReal)
    (huc : ∀ (u : Fin 10000) (d : Fin 32), uc (ix2 u d) = U u d) (j : Fin 5000) (d : Fin 32) :
    ∑ r : Fin 400, A m (ix2 r j) * View.ld uc (rowsRect (cd m)) (ix2 r d)
      = ∑ r : Fin 400, adj (ix2 (⟨400 * (m % 25) + r.val, by have := r.isLt; omega⟩ : Fin 10000) j)
          * U ⟨400 * (m % 25) + r.val, by have := r.isLt; omega⟩ d := by
  refine Finset.sum_congr rfl fun r _ => ?_
  rw [hA m hm r j, ld_rows_apply uc m hm r d, huc]

/-- The next users after the last row block of a layer: adj times the items the buffer held. -/
theorem unAt_apply (adj : Cert.Spec.Mat 10000 5000) (U0 : Fin 10000 → Fin 32 → EReal) (I0 : Fin 5000 → Fin 32 → EReal)
    (eu : Vec Ideal S10000x32 .f32) (ei : Vec Ideal S5000x32 .f32) (A : ℕ → Vec Ideal S400x5000 .f32)
    (hA : ∀ n, n < 75 → ∀ (r : Fin 400) (j : Fin 5000), A n (ix2 r j) = adj (ix2 (⟨400 * (n % 25) + r.val, by have := r.isLt; omega⟩ : Fin 10000) j))
    (m : ℕ) (hm : m < 75) (h24 : m % 25 = 24) (ic : Vec Ideal S5000x32 .f32) (u : Fin 10000) (d : Fin 32) :
    unAt A m ic (ix2 u d) = ∑ j : Fin 5000, adj (ix2 u j) * ic (ix2 j d) := by
  have hu : u.val < 10000 := u.isLt
  show k1_pay5 (A (m - 24 + u.val / 400)) ic (ix2 (⟨u.val % 400, Nat.mod_lt _ (by decide)⟩ : Fin 400) (⟨d.val, d.isLt⟩ : Fin 32)) = _
  rw [k1_pay5_apply]
  refine Finset.sum_congr rfl fun j _ => ?_
  rw [hA (m - 24 + u.val / 400) (by omega) ⟨u.val % 400, Nat.mod_lt _ (by decide)⟩ j]
  refine congrArg (fun v => adj (ix2 v j) * ic (ix2 j d)) (Fin.ext ?_)
  show 400 * ((m - 24 + u.val / 400) % 25) + u.val % 400 = u.val
  omega

/-! ## The invariant -/

section Invariant
variable (adj : Cert.Spec.Mat 10000 5000) (U0 : Fin 10000 → Fin 32 → EReal) (I0 : Fin 5000 → Fin 32 → EReal)
variable (eu : Vec Ideal S10000x32 .f32) (ei : Vec Ideal S5000x32 .f32) (A : ℕ → Vec Ideal S400x5000 .f32)

/-- What the named buffers hold after point `n`. -/
structure Inv (n : ℕ) : Prop where
  uc : ∀ (u : Fin 10000) (d : Fin 32), (stateAt eu ei A n).uc (ix2 u d) = usersL adj U0 I0 ((n + 1) / 25) u d
  ic : ∀ (j : Fin 5000) (d : Fin 32), (stateAt eu ei A n).ic (ix2 j d) = itemsL adj U0 I0 ((n + 1) / 25) j d
  uo : ∀ (u : Fin 10000) (d : Fin 32), (stateAt eu ei A n).uo (ix2 u d)
        = if n = 74 then sumUsers adj U0 I0 3 u d * Cert.Spec.quarter else sumUsers adj U0 I0 ((n + 1) / 25) u d
  io : ∀ (j : Fin 5000) (d : Fin 32), (stateAt eu ei A n).io (ix2 j d)
        = if n = 74 then sumItems adj U0 I0 3 j d * Cert.Spec.quarter else sumItems adj U0 I0 ((n + 1) / 25) j d
  inx : ∀ (j : Fin 5000) (d : Fin 32), (stateAt eu ei A n).inx (ix2 j d)
        = ∑ i ∈ Finset.range (400 * (n % 25 + 1)), rowTerm adj U0 I0 (n / 25) j d i

end Invariant

/-- The accumulator after a point that adds its block to it (any row block but the first of a layer). -/
theorem inx_step (adj : Cert.Spec.Mat 10000 5000) (U0 : Fin 10000 → Fin 32 → EReal) (I0 : Fin 5000 → Fin 32 → EReal)
    (eu : Vec Ideal S10000x32 .f32) (ei : Vec Ideal S5000x32 .f32) (A : ℕ → Vec Ideal S400x5000 .f32)
    (heu : ∀ (u : Fin 10000) (d : Fin 32), eu (ix2 u d) = U0 u d) (hei : ∀ (j : Fin 5000) (d : Fin 32), ei (ix2 j d) = I0 j d)
    (hA : ∀ n, n < 75 → ∀ (r : Fin 400) (j : Fin 5000), A n (ix2 r j) = adj (ix2 (⟨400 * (n % 25) + r.val, by have := r.isLt; omega⟩ : Fin 10000) j))
    (n : ℕ) (hm : n + 1 < 75) (h0 : (n + 1) % 25 ≠ 0) (ih : Inv adj U0 I0 eu ei A n) (j : Fin 5000) (d : Fin 32) :
    k1_pay8 (A (n + 1)) (View.ld (stateAt eu ei A n).uc (rowsRect (cd (n + 1)))) (stateAt eu ei A n).inx (ix2 j d)
      = ∑ i ∈ Finset.range (400 * ((n + 1) % 25 + 1)), rowTerm adj U0 I0 ((n + 1) / 25) j d i := by
  have e1 : n % 25 + 1 = (n + 1) % 25 := by omega
  have e2 : n / 25 = (n + 1) / 25 := by omega
  have e3 : (n + 1) / 25 = (n + 1) / 25 := rfl
  rw [k1_pay8_apply, ih.inx j d, e1, e2,
    block_term adj U0 I0 eu ei A hA (n + 1) hm (stateAt eu ei A n).uc (usersL adj U0 I0 ((n + 1) / 25)) ih.uc j d,
    rowTerm_block adj U0 I0 ((n + 1) / 25) j d ((n + 1) % 25) (Nat.mod_lt _ (by decide))]

/-- The accumulator after the first row block of a layer, which overwrites it. -/
theorem inx_first (adj : Cert.Spec.Mat 10000 5000) (U0 : Fin 10000 → Fin 32 → EReal) (I0 : Fin 5000 → Fin 32 → EReal)
    (eu : Vec Ideal S10000x32 .f32) (ei : Vec Ideal S5000x32 .f32) (A : ℕ → Vec Ideal S400x5000 .f32)
    (heu : ∀ (u : Fin 10000) (d : Fin 32), eu (ix2 u d) = U0 u d) (hei : ∀ (j : Fin 5000) (d : Fin 32), ei (ix2 j d) = I0 j d)
    (hA : ∀ n, n < 75 → ∀ (r : Fin 400) (j : Fin 5000), A n (ix2 r j) = adj (ix2 (⟨400 * (n % 25) + r.val, by have := r.isLt; omega⟩ : Fin 10000) j))
    (n : ℕ) (hm : n + 1 < 75) (h0 : (n + 1) % 25 = 0) (ih : Inv adj U0 I0 eu ei A n) (j : Fin 5000) (d : Fin 32) :
    k1_pay7 (A (n + 1)) (View.ld (stateAt eu ei A n).uc (rowsRect (cd (n + 1)))) (ix2 j d)
      = ∑ i ∈ Finset.range (400 * ((n + 1) % 25 + 1)), rowTerm adj U0 I0 ((n + 1) / 25) j d i := by
  have hz : ∑ i ∈ Finset.range (400 * ((n + 1) % 25)), rowTerm adj U0 I0 ((n + 1) / 25) j d i = 0 := by
    rw [h0]; exact Finset.sum_empty
  rw [k1_pay7_eq, k1_pay6_apply,
    block_term adj U0 I0 eu ei A hA (n + 1) hm (stateAt eu ei A n).uc (usersL adj U0 I0 ((n + 1) / 25)) ih.uc j d,
    rowTerm_block adj U0 I0 ((n + 1) / 25) j d ((n + 1) % 25) (Nat.mod_lt _ (by decide)), hz, zero_add]

/-- The invariant holds after every point. -/
theorem inv_all (adj : Cert.Spec.Mat 10000 5000) (U0 : Fin 10000 → Fin 32 → EReal) (I0 : Fin 5000 → Fin 32 → EReal)
    (eu : Vec Ideal S10000x32 .f32) (ei : Vec Ideal S5000x32 .f32) (A : ℕ → Vec Ideal S400x5000 .f32)
    (heu : ∀ (u : Fin 10000) (d : Fin 32), eu (ix2 u d) = U0 u d) (hei : ∀ (j : Fin 5000) (d : Fin 32), ei (ix2 j d) = I0 j d)
    (hA : ∀ n, n < 75 → ∀ (r : Fin 400) (j : Fin 5000), A n (ix2 r j) = adj (ix2 (⟨400 * (n % 25) + r.val, by have := r.isLt; omega⟩ : Fin 10000) j)) :
    ∀ n, n < 75 → Inv adj U0 I0 eu ei A n := by
  intro n
  induction n with
  | zero =>
    intro _
    refine ⟨fun u d => ?_, fun j d => ?_, fun u d => ?_, fun j d => ?_, fun j d => ?_⟩
    · show k1_pay1 eu (ix2 u d) = U0 u d
      rw [k1_pay1_eq]; exact heu u d
    · show k1_pay2 ei (ix2 j d) = I0 j d
      rw [k1_pay2_eq]; exact hei j d
    · show k1_pay3 eu (ix2 u d) = U0 u d
      rw [k1_pay3_eq]; exact heu u d
    · show k1_pay4 ei (ix2 j d) = I0 j d
      rw [k1_pay4_eq]; exact hei j d
    · show k1_pay7 (A 0) (View.ld (k1_pay1 eu) (rowsRect (cd 0))) (ix2 j d) = ∑ i ∈ Finset.range (400 * (0 % 25 + 1)), rowTerm adj U0 I0 (0 / 25) j d i
      rw [k1_pay7_eq, k1_pay6_apply, k1_pay1_eq,
        block_term adj U0 I0 eu ei A hA 0 (by norm_num) eu U0 heu j d,
        rowTerm_block adj U0 I0 0 j d (0 % 25) (by norm_num)]
      exact (zero_add _).symm
  | succ n ih =>
    intro hm
    have ih := ih (by omega)
    by_cases h0 : (n + 1) % 25 = 0
    · -- the first row block of a layer: only the accumulator changes
      have eL : (n + 1 + 1) / 25 = (n + 1) / 25 := by omega
      have hn74 : n ≠ 74 := by omega
      have hm74 : n + 1 ≠ 74 := by omega
      refine ⟨fun u d => ?_, fun j d => ?_, fun u d => ?_, fun j d => ?_, fun j d => ?_⟩
      · rw [stateAt_first eu ei A n h0, eL]; exact ih.uc u d
      · rw [stateAt_first eu ei A n h0, eL]; exact ih.ic j d
      · rw [stateAt_first eu ei A n h0, eL, if_neg hm74]; exact (ih.uo u d).trans (if_neg hn74)
      · rw [stateAt_first eu ei A n h0, eL, if_neg hm74]; exact (ih.io j d).trans (if_neg hn74)
      · rw [stateAt_first eu ei A n h0]
        exact inx_first adj U0 I0 eu ei A heu hei hA n hm h0 ih j d
    · by_cases h24 : (n + 1) % 25 = 24
      · -- the last row block of a layer: the layer ends
        have eL : (n + 1 + 1) / 25 = (n + 1) / 25 + 1 := by omega
        have hn74 : n ≠ 74 := by omega
        have hfull : 400 * ((n + 1) % 25 + 1) = 10000 := by omega
        have hinx : ∀ (j : Fin 5000) (d : Fin 32),
            k1_pay8 (A (n + 1)) (View.ld (stateAt eu ei A n).uc (rowsRect (cd (n + 1)))) (stateAt eu ei A n).inx (ix2 j d)
              = itemsL adj U0 I0 ((n + 1) / 25 + 1) j d := fun j d => by
          rw [inx_step adj U0 I0 eu ei A heu hei hA n hm h0 ih j d, hfull, rowTerm_all]
        have hun : ∀ (u : Fin 10000) (d : Fin 32),
            unAt A (n + 1) (stateAt eu ei A n).ic (ix2 u d) = usersL adj U0 I0 ((n + 1) / 25 + 1) u d := fun u d => by
          rw [unAt_apply adj U0 I0 eu ei A hA (n + 1) hm h24, usersL_succ]
          exact Finset.sum_congr rfl fun j _ => by rw [ih.ic j d]
        by_cases hl : n + 1 = 74
        · -- the very last point: the results are scaled
          have e3 : (n + 1) / 25 + 1 = 3 := by omega
          have e2 : (n + 1) / 25 = 2 := by omega
          refine ⟨fun u d => ?_, fun j d => ?_, fun u d => ?_, fun j d => ?_, fun j d => ?_⟩
          · rw [stateAt_last eu ei A n hl, eL]
            show k1_pay11 (unAt A (n + 1) (stateAt eu ei A n).ic) (ix2 u d) = _
            rw [k1_pay11_eq]; exact hun u d
          · rw [stateAt_last eu ei A n hl, eL]
            show k1_pay12 (k1_pay8 (A (n + 1)) (View.ld (stateAt eu ei A n).uc (rowsRect (cd (n + 1)))) (stateAt eu ei A n).inx) (ix2 j d) = _
            rw [k1_pay12_eq]; exact hinx j d
          · rw [stateAt_last eu ei A n hl, if_pos hl]
            show k1_pay13 (k1_pay9 (stateAt eu ei A n).uo (unAt A (n + 1) (stateAt eu ei A n).ic)) (ix2 u d) = _
            rw [k1_pay13_apply, k1_pay9_apply, hun u d, (ih.uo u d).trans (if_neg hn74), e2]
            rfl
          · rw [stateAt_last eu ei A n hl, if_pos hl]
            show k1_pay14 (k1_pay10 (stateAt eu ei A n).io (k1_pay8 (A (n + 1)) (View.ld (stateAt eu ei A n).uc (rowsRect (cd (n + 1)))) (stateAt eu ei A n).inx)) (ix2 j d) = _
            rw [k1_pay14_apply, k1_pay10_apply, hinx j d, (ih.io j d).trans (if_neg hn74), e2]
            rfl
          · rw [stateAt_last eu ei A n hl]
            exact inx_step adj U0 I0 eu ei A heu hei hA n hm h0 ih j d
        · refine ⟨fun u d => ?_, fun j d => ?_, fun u d => ?_, fun j d => ?_, fun j d => ?_⟩
          · rw [stateAt_layerEnd eu ei A n h24 hl, eL]
            show k1_pay11 (unAt A (n + 1) (stateAt eu ei A n).ic) (ix2 u d) = _
            rw [k1_pay11_eq]; exact hun u d
          · rw [stateAt_layerEnd eu ei A n h24 hl, eL]
            show k1_pay12 (k1_pay8 (A (n + 1)) (View.ld (stateAt eu ei A n).uc (rowsRect (cd (n + 1)))) (stateAt eu ei A n).inx) (ix2 j d) = _
            rw [k1_pay12_eq]; exact hinx j d
          · rw [stateAt_layerEnd eu ei A n h24 hl, if_neg hl, eL]
            show k1_pay9 (stateAt eu ei A n).uo (unAt A (n + 1) (stateAt eu ei A n).ic) (ix2 u d) = _
            rw [k1_pay9_apply, hun u d, (ih.uo u d).trans (if_neg hn74)]
            rfl
          · rw [stateAt_layerEnd eu ei A n h24 hl, if_neg hl, eL]
            show k1_pay10 (stateAt eu ei A n).io (k1_pay8 (A (n + 1)) (View.ld (stateAt eu ei A n).uc (rowsRect (cd (n + 1)))) (stateAt eu ei A n).inx) (ix2 j d) = _
            rw [k1_pay10_apply, hinx j d, (ih.io j d).trans (if_neg hn74)]
            rfl
          · rw [stateAt_layerEnd eu ei A n h24 hl]
            exact inx_step adj U0 I0 eu ei A heu hei hA n hm h0 ih j d
      · -- a row block in the middle of a layer: only the accumulator changes
        have eL : (n + 1 + 1) / 25 = (n + 1) / 25 := by omega
        have hn74 : n ≠ 74 := by omega
        have hm74 : n + 1 ≠ 74 := by omega
        refine ⟨fun u d => ?_, fun j d => ?_, fun u d => ?_, fun j d => ?_, fun j d => ?_⟩
        · rw [stateAt_mid eu ei A n h0 h24, eL]; exact ih.uc u d
        · rw [stateAt_mid eu ei A n h0 h24, eL]; exact ih.ic j d
        · rw [stateAt_mid eu ei A n h0 h24, eL, if_neg hm74]; exact (ih.uo u d).trans (if_neg hn74)
        · rw [stateAt_mid eu ei A n h0 h24, eL, if_neg hm74]; exact (ih.io j d).trans (if_neg hn74)
        · rw [stateAt_mid eu ei A n h0 h24]
          exact inx_step adj U0 I0 eu ei A heu hei hA n hm h0 ih j d

/-! ## The two results after the last point -/

/-- The first result after the last point: the mean of the users of layers 0 … 3. -/
theorem state_final_users (adj : Cert.Spec.Mat 10000 5000) (U0 : Fin 10000 → Fin 32 → EReal) (I0 : Fin 5000 → Fin 32 → EReal)
    (eu : Vec Ideal S10000x32 .f32) (ei : Vec Ideal S5000x32 .f32) (A : ℕ → Vec Ideal S400x5000 .f32)
    (heu : ∀ (u : Fin 10000) (d : Fin 32), eu (ix2 u d) = U0 u d) (hei : ∀ (j : Fin 5000) (d : Fin 32), ei (ix2 j d) = I0 j d)
    (hA : ∀ n, n < 75 → ∀ (r : Fin 400) (j : Fin 5000), A n (ix2 r j) = adj (ix2 (⟨400 * (n % 25) + r.val, by have := r.isLt; omega⟩ : Fin 10000) j)) :
    (stateAt eu ei A 74).uo = fun i => ((((Cert.Spec.layer adj U0 I0 0).1 (i 0) (i 1) + (Cert.Spec.layer adj U0 I0 1).1 (i 0) (i 1)) + (Cert.Spec.layer adj U0 I0 2).1 (i 0) (i 1)) + (Cert.Spec.layer adj U0 I0 3).1 (i 0) (i 1)) * Cert.Spec.quarter := by
  funext i
  obtain ⟨u, d, rfl⟩ : ∃ (u : Fin 10000) (d : Fin 32), i = ix2 u d := ⟨i 0, i 1, eq_ix2 i⟩
  exact ((inv_all adj U0 I0 eu ei A heu hei hA 74 (by norm_num)).uo u d).trans (if_pos rfl)

/-- The second result after the last point: the mean of the items of layers 0 … 3. -/
theorem state_final_items (adj : Cert.Spec.Mat 10000 5000) (U0 : Fin 10000 → Fin 32 → EReal) (I0 : Fin 5000 → Fin 32 → EReal)
    (eu : Vec Ideal S10000x32 .f32) (ei : Vec Ideal S5000x32 .f32) (A : ℕ → Vec Ideal S400x5000 .f32)
    (heu : ∀ (u : Fin 10000) (d : Fin 32), eu (ix2 u d) = U0 u d) (hei : ∀ (j : Fin 5000) (d : Fin 32), ei (ix2 j d) = I0 j d)
    (hA : ∀ n, n < 75 → ∀ (r : Fin 400) (j : Fin 5000), A n (ix2 r j) = adj (ix2 (⟨400 * (n % 25) + r.val, by have := r.isLt; omega⟩ : Fin 10000) j)) :
    (stateAt eu ei A 74).io = fun i => ((((Cert.Spec.layer adj U0 I0 0).2 (i 0) (i 1) + (Cert.Spec.layer adj U0 I0 1).2 (i 0) (i 1)) + (Cert.Spec.layer adj U0 I0 2).2 (i 0) (i 1)) + (Cert.Spec.layer adj U0 I0 3).2 (i 0) (i 1)) * Cert.Spec.quarter := by
  funext i
  obtain ⟨j, d, rfl⟩ : ∃ (j : Fin 5000) (d : Fin 32), i = ix2 j d := ⟨i 0, i 1, eq_ix2 i⟩
  exact ((inv_all adj U0 I0 eu ei A heu hei hA 74 (by norm_num)).io j d).trans (if_pos rfl)

end Cert.KernelIdeal.Hand

end
-- ==== Proof.KI.R1Arrays.lean ====
/-
  The propagation kernel's launch: its arrays and blocks.

  The two embedding arrays are staged whole, so the block the first point reads is the array itself. The adjacency
  matrix is staged 400 rows at a time: row r of the block of point n is row 400 · (n % 25) + r of the matrix. The two
  result arrays are written back only after the last point, whole, so each ends holding what the last point left in
  its staging buffer.
-/
import proofs.«129974_g1760936592044_cont_8to1_853_2_alg».proof.Proof.KI.R1Steps
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block index of each window at each point -/

theorem idx1_0 : ∀ t : Fin cfg1.N, win1_0.index t = ![0, 0] :=
  (by decide +kernel : ∀ t : Fin grid1.N, win1_0.index t = ![0, 0])
theorem idx1_1 : ∀ t : Fin cfg1.N, win1_1.index t = ![0, 0] :=
  (by decide +kernel : ∀ t : Fin grid1.N, win1_1.index t = ![0, 0])
theorem idx1_2 : ∀ t : Fin cfg1.N, win1_2.index t = ![t.val % 25, 0] :=
  (by decide +kernel : ∀ t : Fin grid1.N, win1_2.index t = ![t.val % 25, 0])
theorem idx1_3 : ∀ t : Fin cfg1.N, win1_3.index t = ![0, 0] :=
  (by decide +kernel : ∀ t : Fin grid1.N, win1_3.index t = ![0, 0])
theorem idx1_4 : ∀ t : Fin cfg1.N, win1_4.index t = ![0, 0] :=
  (by decide +kernel : ∀ t : Fin grid1.N, win1_4.index t = ![0, 0])

section Arrays
variable {F : FTy → Type} [FloatOps F]
variable (V : (c : Dev nD) → (b : Ref sig .tc) → Buf (Elt F) ((c : Thread nD τ).loc b))

/-! ## The input blocks -/

/-- The users the launch is entered with are the whole first array. -/
theorem euOf_eq (c : Dev nD) : (euOf V c : Vec F S10000x32 .f32) = V c main_v5_0 := by
  funext y
  show V c main_v5_0 (((cfg1.win 0).blk (pt 0)).view.emb y) = V c main_v5_0 y
  refine congrArg (V c main_v5_0) (funext fun a => Fin.ext ?_)
  match a with
  | ⟨0, _⟩ =>
    show win1_0.index (pt 0) (0 : Fin 2) * 10000 + 1 * (y 0).val = (y 0).val
    rw [idx1_0 (pt 0)]; show 0 * 10000 + 1 * (y 0).val = (y 0).val; omega
  | ⟨1, _⟩ =>
    show win1_0.index (pt 0) (1 : Fin 2) * 32 + 1 * (y 1).val = (y 1).val
    rw [idx1_0 (pt 0)]; show 0 * 32 + 1 * (y 1).val = (y 1).val; omega

/-- The items the launch is entered with are the whole second array. -/
theorem eiOf_eq (c : Dev nD) : (eiOf V c : Vec F S5000x32 .f32) = V c main_v5_1 := by
  funext y
  show V c main_v5_1 (((cfg1.win 1).blk (pt 0)).view.emb y) = V c main_v5_1 y
  refine congrArg (V c main_v5_1) (funext fun a => Fin.ext ?_)
  match a with
  | ⟨0, _⟩ =>
    show win1_1.index (pt 0) (0 : Fin 2) * 5000 + 1 * (y 0).val = (y 0).val
    rw [idx1_1 (pt 0)]; show 0 * 5000 + 1 * (y 0).val = (y 0).val; omega
  | ⟨1, _⟩ =>
    show win1_1.index (pt 0) (1 : Fin 2) * 32 + 1 * (y 1).val = (y 1).val
    rw [idx1_1 (pt 0)]; show 0 * 32 + 1 * (y 1).val = (y 1).val; omega

/-- Row `r` of the adjacency block of point `n` is row 400 · (n % 25) + r of the matrix. -/
theorem adjOf_apply (c : Dev nD) (n : ℕ) (hn : n < 75) (r : Fin 400) (j : Fin 5000) :
    adjOf V c n (ix2 r j)
      = (V c main_arg0 : Vec F S10000x5000 .f32) (ix2 (⟨400 * (n % 25) + r.val, by have := r.isLt; omega⟩ : Fin 10000) j) := by
  show V c main_arg0 (((cfg1.win 2).blk (pt n)).view.emb (ix2 r j)) = _
  refine congrArg (V c main_arg0) (funext fun a => Fin.ext ?_)
  have hp : (pt n).val = n := Nat.mod_eq_of_lt hn
  match a with
  | ⟨0, _⟩ =>
    show win1_2.index (pt n) (0 : Fin 2) * 400 + 1 * r.val = 400 * (n % 25) + r.val
    rw [idx1_2 (pt n)]; show (pt n).val % 25 * 400 + 1 * r.val = 400 * (n % 25) + r.val; rw [hp]; omega
  | ⟨1, _⟩ =>
    show win1_2.index (pt n) (1 : Fin 2) * 5000 + 1 * j.val = j.val
    rw [idx1_2 (pt n)]; show 0 * 5000 + 1 * j.val = j.val; omega

/-! ## The result arrays after the launch -/

/-- Only the last point writes a result back. -/
theorem last_of_flush (t : Fin cfg1.N) (h : t.val % 75 = 74) : t.val = 74 := by
  have hlt : t.val < 75 := lt_of_lt_of_eq t.isLt N_1
  omega

/-- The first result array ends holding the first result as the last point left it. -/
theorem arr1_users (c : Dev nD) : (dat1 V c).arrAt 3 cfg1.N = (st1 V c 74).uo := by
  refine (dat1 V c).arrAt_eq_of_cover 3 _ (fun t hf => ?_) (fun i => ⟨pt 74, (flush1_3 (pt 74)).mpr rfl, ?_⟩)
  · have ht : t.val = 74 := last_of_flush t ((flush1_3 t).mp hf)
    show (cfg1.win 3).cut (grid1.coords t) ((dat1 V c).after 3 t) = _
    rw [after1_3, ht]
    funext y
    show (st1 V c 74).uo y = (st1 V c 74).uo (((cfg1.win 3).blk t).view.emb y)
    refine congrArg (st1 V c 74).uo (funext fun a => Fin.ext ?_)
    match a with
    | ⟨0, _⟩ =>
      show (y 0).val = win1_3.index t (0 : Fin 2) * 10000 + 1 * (y 0).val
      rw [idx1_3 t]; show (y 0).val = 0 * 10000 + 1 * (y 0).val; omega
    | ⟨1, _⟩ =>
      show (y 1).val = win1_3.index t (1 : Fin 2) * 32 + 1 * (y 1).val
      rw [idx1_3 t]; show (y 1).val = 0 * 32 + 1 * (y 1).val; omega
  · show i ∈ ((View.whole main_v6_0).slice (win1_3.rect (pt 74))).set
    rw [View.set_slice_whole, Rect.mem_set_unit]
    intro a
    match a with
    | ⟨0, _⟩ =>
      show win1_3.index (pt 74) (0 : Fin 2) * 10000 ≤ (i 0).val ∧ (i 0).val < win1_3.index (pt 74) (0 : Fin 2) * 10000 + 10000
      rw [idx1_3 (pt 74)]
      show 0 * 10000 ≤ (i 0).val ∧ (i 0).val < 0 * 10000 + 10000
      have := idx2_lt0 (i : S10000x32.Idx); omega
    | ⟨1, _⟩ =>
      show win1_3.index (pt 74) (1 : Fin 2) * 32 ≤ (i 1).val ∧ (i 1).val < win1_3.index (pt 74) (1 : Fin 2) * 32 + 32
      rw [idx1_3 (pt 74)]
      show 0 * 32 ≤ (i 1).val ∧ (i 1).val < 0 * 32 + 32
      have := idx2_lt1 (i : S10000x32.Idx); omega

/-- The second result array ends holding the second result as the last point left it. -/
theorem arr1_items (c : Dev nD) : (dat1 V c).arrAt 4 cfg1.N = (st1 V c 74).io := by
  refine (dat1 V c).arrAt_eq_of_cover 4 _ (fun t hf => ?_) (fun i => ⟨pt 74, (flush1_4 (pt 74)).mpr rfl, ?_⟩)
  · have ht : t.val = 74 := last_of_flush t ((flush1_4 t).mp hf)
    show (cfg1.win 4).cut (grid1.coords t) ((dat1 V c).after 4 t) = _
    rw [after1_4, ht]
    funext y
    show (st1 V c 74).io y = (st1 V c 74).io (((cfg1.win 4).blk t).view.emb y)
    refine congrArg (st1 V c 74).io (funext fun a => Fin.ext ?_)
    match a with
    | ⟨0, _⟩ =>
      show (y 0).val = win1_4.index t (0 : Fin 2) * 5000 + 1 * (y 0).val
      rw [idx1_4 t]; show (y 0).val = 0 * 5000 + 1 * (y 0).val; omega
    | ⟨1, _⟩ =>
      show (y 1).val = win1_4.index t (1 : Fin 2) * 32 + 1 * (y 1).val
      rw [idx1_4 t]; show (y 1).val = 0 * 32 + 1 * (y 1).val; omega
  · show i ∈ ((View.whole main_v6_1).slice (win1_4.rect (pt 74))).set
    rw [View.set_slice_whole, Rect.mem_set_unit]
    intro a
    match a with
    | ⟨0, _⟩ =>
      show win1_4.index (pt 74) (0 : Fin 2) * 5000 ≤ (i 0).val ∧ (i 0).val < win1_4.index (pt 74) (0 : Fin 2) * 5000 + 5000
      rw [idx1_4 (pt 74)]
      show 0 * 5000 ≤ (i 0).val ∧ (i 0).val < 0 * 5000 + 5000
      have := idx2_lt0 (i : S5000x32.Idx); omega
    | ⟨1, _⟩ =>
      show win1_4.index (pt 74) (1 : Fin 2) * 32 ≤ (i 1).val ∧ (i 1).val < win1_4.index (pt 74) (1 : Fin 2) * 32 + 32
      rw [idx1_4 (pt 74)]
      show 0 * 32 ≤ (i 1).val ∧ (i 1).val < 0 * 32 + 32
      have := idx2_lt1 (i : S5000x32.Idx); omega

end Arrays

end Cert.KernelIdeal.Hand

end
-- ==== Proof.KI.Final.lean ====
/-
  The kernel's results at the Ideal instance. The run ends with every unscoped buffer at the last boundary's contents; the two
  results' arrays there are what the second region's last write-back made of them, which is the state after the last
  point; that state is computed from the first region's two outputs — the layer-0 embeddings of the arguments — and the
  row blocks of the adjacency argument; so the results are the specification's two means, as functions of the arguments.
-/
import proofs.«129974_g1760936592044_cont_8to1_853_2_alg».proof.Proof.Gen.KernelIdeal.Launch
import proofs.«129974_g1760936592044_cont_8to1_853_2_alg».proof.Proof.Gen.KernelIdeal.Skeleton
import proofs.«129974_g1760936592044_cont_8to1_853_2_alg».proof.Proof.Gen.KernelIdeal.Points
import proofs.«129974_g1760936592044_cont_8to1_853_2_alg».proof.Proof.LibWholeStoreColumnCast
import proofs.«129974_g1760936592044_cont_8to1_853_2_alg».proof.Proof.KI.RunArgs
import proofs.«129974_g1760936592044_cont_8to1_853_2_alg».proof.Proof.KI.Region0Value
import proofs.«129974_g1760936592044_cont_8to1_853_2_alg».proof.Proof.KI.R1Value
import proofs.«129974_g1760936592044_cont_8to1_853_2_alg».proof.Proof.KI.R1Arrays
import proofs.«129974_g1760936592044_cont_8to1_853_2_alg».proof.Proof.Spec
import Idealize.ShloMosaic.Lib.ValueLayout
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.Lib (shapeCast_a_a1_apply)

variable (m : (ℓ : Loc nD τ sig) → Buf (Elt Ideal) ℓ) (ρ : Dev nD → PrngReg)

/-- The kernel's argument arrays on core `c`. -/
def argsK (c : Dev nD) : Cert.Spec.Args where
  adj := m ((c.tc : Thread nD τ).loc main_arg0)
  recI := m ((c.tc : Thread nD τ).loc main_arg1)
  typI := m ((c.tc : Thread nD τ).loc main_arg2)
  resI := m ((c.tc : Thread nD τ).loc main_arg3)
  ue := m ((c.tc : Thread nD τ).loc main_arg4)
  ie := m ((c.tc : Thread nD τ).loc main_arg5)
  recW := m ((c.tc : Thread nD τ).loc main_arg6)
  typW := m ((c.tc : Thread nD τ).loc main_arg7)
  resW := m ((c.tc : Thread nD τ).loc main_arg8)
  upw := m ((c.tc : Thread nD τ).loc main_arg9)
  upb := m ((c.tc : Thread nD τ).loc main_arg10)
  ipw := m ((c.tc : Thread nD τ).loc main_arg11)
  ipb := m ((c.tc : Thread nD τ).loc main_arg12)

/-! ## The first region's entry: the reshaped index and bias arrays read at an entry -/

theorem V1_v0 (c : Dev nD) (u : Fin 10000) : (V1 m ρ c main_v0 : Vec Ideal S10000x1 .i32) (ix2 u (0 : Fin 1)) = (argsK m c).recI (ix1 u) := by
  show StableHlo.after hostOps0 (fun b => m (c, b)) (Proc.devRef .tc main_v0) (ix2 u (0 : Fin 1)) = _
  after_results
  exact shapeCast_a_a1_apply _ _ u 0
theorem V1_v1 (c : Dev nD) (u : Fin 10000) : (V1 m ρ c main_v1 : Vec Ideal S10000x1 .i32) (ix2 u (0 : Fin 1)) = (argsK m c).typI (ix1 u) := by
  show StableHlo.after hostOps0 (fun b => m (c, b)) (Proc.devRef .tc main_v1) (ix2 u (0 : Fin 1)) = _
  after_results
  exact shapeCast_a_a1_apply _ _ u 0
theorem V1_v2 (c : Dev nD) (u : Fin 5000) : (V1 m ρ c main_v2 : Vec Ideal S5000x1 .i32) (ix2 u (0 : Fin 1)) = (argsK m c).resI (ix1 u) := by
  show StableHlo.after hostOps0 (fun b => m (c, b)) (Proc.devRef .tc main_v2) (ix2 u (0 : Fin 1)) = _
  after_results
  exact shapeCast_a_a1_apply _ _ u 0
theorem V1_v3 (c : Dev nD) (d : Fin 32) : (V1 m ρ c main_v3 : Vec Ideal S1x32 .f32) (ix2 (0 : Fin 1) d) = (argsK m c).upb (ix1 d) := by
  show StableHlo.after hostOps0 (fun b => m (c, b)) (Proc.devRef .tc main_v3) (ix2 (0 : Fin 1) d) = _
  after_results
  exact shapeCast_a_1a_apply _ _ 0 d
theorem V1_v4 (c : Dev nD) (d : Fin 32) : (V1 m ρ c main_v4 : Vec Ideal S1x32 .f32) (ix2 (0 : Fin 1) d) = (argsK m c).ipb (ix1 d) := by
  show StableHlo.after hostOps0 (fun b => m (c, b)) (Proc.devRef .tc main_v4) (ix2 (0 : Fin 1) d) = _
  after_results
  exact shapeCast_a_1a_apply _ _ 0 d

/-! ## The first region's outputs are the layer-0 embeddings of the arguments -/

theorem users_entry (c : Dev nD) : (V2 m ρ c main_v5_0 : Cert.Spec.Mat 10000 32) = fun i => (argsK m c).U0 (i 0) (i 1) := by
  refine (W2_arr m ρ c 12).trans ((users0 (V1 m ρ) c).trans (funext fun i => ?_))
  unfold Cert.Spec.Args.U0
  have e0 : (fun j : (⟨1, ![10000]⟩ : Shape).Idx => (V1 m ρ c main_v0 : Vec Ideal S10000x1 .i32) (ix2 (j 0) (0 : Fin 1))) = (argsK m c).recI :=
    funext fun j => (V1_v0 m ρ c (j 0)).trans (congrArg _ (eq_ix1 j).symm)
  have e1 : (fun j : (⟨1, ![10000]⟩ : Shape).Idx => (V1 m ρ c main_v1 : Vec Ideal S10000x1 .i32) (ix2 (j 0) (0 : Fin 1))) = (argsK m c).typI :=
    funext fun j => (V1_v1 m ρ c (j 0)).trans (congrArg _ (eq_ix1 j).symm)
  have e3 : (fun j : (⟨1, ![32]⟩ : Shape).Idx => (V1 m ρ c main_v3 : Vec Ideal S1x32 .f32) (ix2 (0 : Fin 1) (j 0))) = (argsK m c).upb :=
    funext fun j => (V1_v3 m ρ c (j 0)).trans (congrArg _ (eq_ix1 j).symm)
  rw [e0, e1, e3, show V1 m ρ c main_arg4 = (argsK m c).ue from V1_of m c main_arg4 (by decide),
    show V1 m ρ c main_arg6 = (argsK m c).recW from V1_of m c main_arg6 (by decide),
    show V1 m ρ c main_arg7 = (argsK m c).typW from V1_of m c main_arg7 (by decide),
    show V1 m ρ c main_arg9 = (argsK m c).upw from V1_of m c main_arg9 (by decide)]

theorem items_entry (c : Dev nD) : (V2 m ρ c main_v5_1 : Cert.Spec.Mat 5000 32) = fun i => (argsK m c).I0 (i 0) (i 1) := by
  refine (W2_arr m ρ c 13).trans ((items0 (V1 m ρ) c).trans (funext fun i => ?_))
  unfold Cert.Spec.Args.I0
  have e2 : (fun j : (⟨1, ![5000]⟩ : Shape).Idx => (V1 m ρ c main_v2 : Vec Ideal S5000x1 .i32) (ix2 (j 0) (0 : Fin 1))) = (argsK m c).resI :=
    funext fun j => (V1_v2 m ρ c (j 0)).trans (congrArg _ (eq_ix1 j).symm)
  have e4 : (fun j : (⟨1, ![32]⟩ : Shape).Idx => (V1 m ρ c main_v4 : Vec Ideal S1x32 .f32) (ix2 (0 : Fin 1) (j 0))) = (argsK m c).ipb :=
    funext fun j => (V1_v4 m ρ c (j 0)).trans (congrArg _ (eq_ix1 j).symm)
  rw [e2, e4, show V1 m ρ c main_arg5 = (argsK m c).ie from V1_of m c main_arg5 (by decide),
    show V1 m ρ c main_arg8 = (argsK m c).resW from V1_of m c main_arg8 (by decide),
    show V1 m ρ c main_arg11 = (argsK m c).ipw from V1_of m c main_arg11 (by decide)]

/-- The adjacency argument reaches the second region as launched. -/
theorem adj_entry (c : Dev nD) : V2 m ρ c main_arg0 = (argsK m c).adj :=
  (W2_of_ne m ρ c main_arg0 (by decide)).trans (V1_of m c main_arg0 (by decide))

/-! ## The results -/

theorem kernel_users (c : Dev nD) : (W3 m ρ c (Proc.devRef .tc main_v6_0) : Cert.Spec.Mat 10000 32) = (argsK m c).userOut := by
  refine (W3_arr m ρ c 3).trans ((arr1_users (V2 m ρ) c).trans ?_)
  refine (state_final_users (argsK m c).adj (argsK m c).U0 (argsK m c).I0 _ _ _ (fun u d => ?_) (fun j d => ?_) (fun n hn r j => ?_)).trans ?_
  · rw [euOf_eq, users_entry]; rfl
  · rw [eiOf_eq, items_entry]; rfl
  · rw [adjOf_apply (V2 m ρ) c n hn r j, adj_entry]
  · unfold Cert.Spec.Args.userOut Cert.Spec.Args.U; rfl

theorem kernel_items (c : Dev nD) : (W3 m ρ c (Proc.devRef .tc main_v6_1) : Cert.Spec.Mat 5000 32) = (argsK m c).itemOut := by
  refine (W3_arr m ρ c 4).trans ((arr1_items (V2 m ρ) c).trans ?_)
  refine (state_final_items (argsK m c).adj (argsK m c).U0 (argsK m c).I0 _ _ _ (fun u d => ?_) (fun j d => ?_) (fun n hn r j => ?_)).trans ?_
  · rw [euOf_eq, users_entry]; rfl
  · rw [eiOf_eq, items_entry]; rfl
  · rw [adjOf_apply (V2 m ρ) c n hn r j, adj_entry]
  · unfold Cert.Spec.Args.itemOut Cert.Spec.Args.I; rfl

/-- Every weakly fair execution of the idealized kernel's @main terminates, nothing faulting, with the two results at the
    specification's means of the arguments and every argument array as launched. -/
theorem kernel_run : θ_run (defs (F := Ideal)) (onTc (τ := τ) (main (F := Ideal))) ⟨m, fun _ => 0, ρ⟩ (fun r => ∀ c : Dev nD,
      r.2.mem ((c.tc : Thread nD τ).loc main_v6_0) = (argsK m c).userOut
      ∧ r.2.mem ((c.tc : Thread nD τ).loc main_v6_1) = (argsK m c).itemOut
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v6_0 (by decide))).trans (kernel_users m ρ c),
     (h c _ (mem_uc main_v6_1 (by decide))).trans (kernel_items m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩)
    (run_all m ρ)

end Cert.KernelIdeal.Hand

end
-- ==== Proof.RefRun.lean ====
/-
  The reference program as a straight line of host operations, and its run.

  The program looks three category indices up in three small tables (each lookup is an outlined function: it wraps
  a negative index, tests the index against the table's rows, gathers the row, and selects the row or a
  not-a-number filler by the test), joins each node's embedding with its looked-up rows, applies an affine map,
  propagates three times along the weight matrix and its transpose, and averages the four layers. Here the three
  lookups are listed in place, over the buffers each call owns, followed by the program's own forty-one operations:
  one hundred and ten operations in order. Every weakly fair execution terminates with each buffer at the fold of
  these operations over the memory the run starts from.
-/
import proofs.«129974_g1760936592044_cont_8to1_853_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order: the first lookup's twenty-three (wrap a negative index, range test, gather,
    select), the second's, the third's, then the forty-one of the program itself. -/
abbrev ops : List (HloOp τ sig (Elt F)) :=
  [ TRef.nullary main_call0.c (constantI S_ 32 0#32),
    TRef.unary main_call0.c main_call0.v0 (broadcastInDim S10000 ![] bcast_S_S10000),
    TRef.binary (.of main_arg1) main_call0.v0 main_call0.v1 (cmpi .slt),
    TRef.nullary main_call0.c_0 (constantI S_ 32 8#32),
    TRef.unary main_call0.c_0 main_call0.v2 (broadcastInDim S10000 ![] bcast_S_S10000),
    TRef.binary (.of main_arg1) main_call0.v2 main_call0.v3 addi,
    TRef.ternary main_call0.v1 main_call0.v3 (.of main_arg1) main_call0.call0.v0 select,
    TRef.unary main_call0.call0.v0 main_call0.v5 (broadcastInDim S10000x1 ![0] bcast_S10000_S10000x1_0),
    TRef.nullary main_call0.c_1 (constantI S1 32 7#32),
    TRef.nullary main_call0.c_2 (constantI S_ 32 0#32),
    TRef.unary main_call0.c_2 main_call0.v6 (broadcastInDim S10000x1 ![] bcast_S_S10000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S10000x1 ![0, 1] bcast_S1x1_S10000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x1_S10000_d1 h_S_),
    TRef.binary (.of main_arg6) main_call0.v5 main_call0.v13 (fun x i => Host.gather gather_S8x8_S10000x1_S10000x8_1_0_n_n_0_1_18 x i),
    TRef.unary main_call0.v12 main_call0.v14 (broadcastInDim S10000x8 ![0] bcast_S10000_S10000x8_0),
    TRef.nullary main_call0.cst (constant S_ .f32 0x7FC00000#32),
    TRef.unary main_call0.cst main_call0.v15 (broadcastInDim S10000x8 ![] bcast_S_S10000x8),
    TRef.ternary main_call0.v14 main_call0.v13 main_call0.v15 main_call0.v16 select,
    TRef.nullary main_call1.c (constantI S_ 32 0#32),
    TRef.unary main_call1.c main_call1.v0 (broadcastInDim S10000 ![] bcast_S_S10000),
    TRef.binary (.of main_arg2) main_call1.v0 main_call1.v1 (cmpi .slt),
    TRef.nullary main_call1.c_0 (constantI S_ 32 8#32),
    TRef.unary main_call1.c_0 main_call1.v2 (broadcastInDim S10000 ![] bcast_S_S10000),
    TRef.binary (.of main_arg2) main_call1.v2 main_call1.v3 addi,
    TRef.ternary main_call1.v1 main_call1.v3 (.of main_arg2) main_call1.call0.v0 select,
    TRef.unary main_call1.call0.v0 main_call1.v5 (broadcastInDim S10000x1 ![0] bcast_S10000_S10000x1_0),
    TRef.nullary main_call1.c_1 (constantI S1 32 7#32),
    TRef.nullary main_call1.c_2 (constantI S_ 32 0#32),
    TRef.unary main_call1.c_2 main_call1.v6 (broadcastInDim S10000x1 ![] bcast_S_S10000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S10000x1 ![0, 1] bcast_S1x1_S10000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S10000x1_S10000_d1 h_S_),
    TRef.binary (.of main_arg7) main_call1.v5 main_call1.v13 (fun x i => Host.gather gather_S8x8_S10000x1_S10000x8_1_0_n_n_0_1_18 x i),
    TRef.unary main_call1.v12 main_call1.v14 (broadcastInDim S10000x8 ![0] bcast_S10000_S10000x8_0),
    TRef.nullary main_call1.cst (constant S_ .f32 0x7FC00000#32),
    TRef.unary main_call1.cst main_call1.v15 (broadcastInDim S10000x8 ![] bcast_S_S10000x8),
    TRef.ternary main_call1.v14 main_call1.v13 main_call1.v15 main_call1.v16 select,
    TRef.nullary main_call2.c (constantI S_ 32 0#32),
    TRef.unary main_call2.c main_call2.v0 (broadcastInDim S5000 ![] bcast_S_S5000),
    TRef.binary (.of main_arg3) main_call2.v0 main_call2.v1 (cmpi .slt),
    TRef.nullary main_call2.c_0 (constantI S_ 32 16#32),
    TRef.unary main_call2.c_0 main_call2.v2 (broadcastInDim S5000 ![] bcast_S_S5000),
    TRef.binary (.of main_arg3) main_call2.v2 main_call2.v3 addi,
    TRef.ternary main_call2.v1 main_call2.v3 (.of main_arg3) main_call2.call0.v0 select,
    TRef.unary main_call2.call0.v0 main_call2.v5 (broadcastInDim S5000x1 ![0] bcast_S5000_S5000x1_0),
    TRef.nullary main_call2.c_1 (constantI S1 32 15#32),
    TRef.nullary main_call2.c_2 (constantI S_ 32 0#32),
    TRef.unary main_call2.c_2 main_call2.v6 (broadcastInDim S5000x1 ![] bcast_S_S5000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S5000x1 ![0, 1] bcast_S1x1_S5000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S5000x1_S5000_d1 h_S_),
    TRef.binary (.of main_arg8) main_call2.v5 main_call2.v13 (fun x i => Host.gather gather_S16x8_S5000x1_S5000x8_1_0_n_n_0_1_18 x i),
    TRef.unary main_call2.v12 main_call2.v14 (broadcastInDim S5000x8 ![0] bcast_S5000_S5000x8_0),
    TRef.nullary main_call2.cst (constant S_ .f32 0x7FC00000#32),
    TRef.unary main_call2.cst main_call2.v15 (broadcastInDim S5000x8 ![] bcast_S_S5000x8),
    TRef.ternary main_call2.v14 main_call2.v13 main_call2.v15 main_call2.v16 select,
    StableHlo.nary ![main_arg4, main_v0, main_v1] main_v3 (fun u => concatenate S10000x48 1 [⟨S10000x32, u 0⟩, ⟨S10000x8, u 1⟩, ⟨S10000x8, u 2⟩] concatenates_S10000x32_S10000x8_S10000x8_S10000x48_d1),
    StableHlo.unary main_arg9 main_v4 ((transpose S48x32 [1, 0] · transposes_S32x48_S48x32_1_0) : (⟨S32x48, .f32⟩ : BufTy).Contents (Elt F) → (⟨S48x32, .f32⟩ : BufTy).Contents (Elt F)),
    StableHlo.binary main_v3 main_v4 main_v5 ((fun l r => Host.dotGeneral dot_S10000x48_S48x32_S10000x32_1_0_0_1_n_n none l r) : (⟨S10000x48, .f32⟩ : BufTy).Contents (Elt F) → (⟨S48x32, .f32⟩ : BufTy).Contents (Elt F) → (⟨S10000x32, .f32⟩ : BufTy).Contents (Elt F)),
    StableHlo.unary main_arg10 main_v6 (broadcastInDim S1x32 ![1] bcast_S32_S1x32_1 : (⟨S32, .f32⟩ : BufTy).Contents (Elt F) → (⟨S1x32, .f32⟩ : BufTy).Contents (Elt F)),
    StableHlo.unary main_v6 main_v7 (broadcastInDim S10000x32 ![0, 1] bcast_S1x32_S10000x32_0_1 : (⟨S1x32, .f32⟩ : BufTy).Contents (Elt F) → (⟨S10000x32, .f32⟩ : BufTy).Contents (Elt F)),
    StableHlo.binary main_v5 main_v7 main_v8 (addf : (⟨S10000x32, .f32⟩ : BufTy).Contents (Elt F) → (⟨S10000x32, .f32⟩ : BufTy).Contents (Elt F) → (⟨S10000x32, .f32⟩ : BufTy).Contents (Elt F)),
    StableHlo.binary main_arg5 main_v2 main_v9 ((fun a b => concatenate S5000x40 1 [⟨S5000x32, a⟩, ⟨S5000x8, b⟩] concatenates_S5000x32_S5000x8_S5000x40_d1) : (⟨S5000x32, .f32⟩ : BufTy).Contents (Elt F) → (⟨S5000x8, .f32⟩ : BufTy).Contents (Elt F) → (⟨S5000x40, .f32⟩ : BufTy).Contents (Elt F)),
    StableHlo.unary main_arg11 main_v10 ((transpose S40x32 [1, 0] · transposes_S32x40_S40x32_1_0) : (⟨S32x40, .f32⟩ : BufTy).Contents (Elt F) → (⟨S40x32, .f32⟩ : BufTy).Contents (Elt F)),
    StableHlo.binary main_v9 main_v10 main_v11 ((fun l r => Host.dotGeneral dot_S5000x40_S40x32_S5000x32_1_0_0_1_n_n none l r) : (⟨S5000x40, .f32⟩ : BufTy).Contents (Elt F) → (⟨S40x32, .f32⟩ : BufTy).Contents (Elt F) → (⟨S5000x32, .f32⟩ : BufTy).Contents (Elt F)),
    StableHlo.unary main_arg12 main_v12 (broadcastInDim S1x32 ![1] bcast_S32_S1x32_1 : (⟨S32, .f32⟩ : BufTy).Contents (Elt F) → (⟨S1x32, .f32⟩ : BufTy).Contents (Elt F)),
    StableHlo.unary main_v12 main_v13 (broadcastInDim S5000x32 ![0, 1] bcast_S1x32_S5000x32_0_1 : (⟨S1x32, .f32⟩ : BufTy).Contents (Elt F) → (⟨S5000x32, .f32⟩ : BufTy).Contents (Elt F)),
    StableHlo.binary main_v11 main_v13 main_v14 (addf : (⟨S5000x32, .f32⟩ : BufTy).Contents (Elt F) → (⟨S5000x32, .f32⟩ : BufTy).Contents (Elt F) → (⟨S5000x32, .f32⟩ : BufTy).Contents (Elt F)),
    StableHlo.binary main_arg0 main_v14 main_v15 ((fun l r => Host.dotGeneral dot_S10000x5000_S5000x32_S10000x32_1_0_0_1_n_n none l r) : (⟨S10000x5000, .f32⟩ : BufTy).Contents (Elt F) → (⟨S5000x32, .f32⟩ : BufTy).Contents (Elt F) → (⟨S10000x32, .f32⟩ : BufTy).Contents (Elt F)),
    StableHlo.unary main_arg0 main_v16 ((transpose S5000x10000 [1, 0] · transposes_S10000x5000_S5000x10000_1_0) : (⟨S10000x5000, .f32⟩ : BufTy).Contents (Elt F) → (⟨S5000x10000, .f32⟩ : BufTy).Contents (Elt F)),
    StableHlo.binary main_v16 main_v8 main_v17 ((fun l r => Host.dotGeneral dot_S5000x10000_S10000x32_S5000x32_1_0_0_1_n_n none l r) : (⟨S5000x10000, .f32⟩ : BufTy).Contents (Elt F) → (⟨S10000x32, .f32⟩ : BufTy).Contents (Elt F) → (⟨S5000x32, .f32⟩ : BufTy).Contents (Elt F)),
    StableHlo.binary main_arg0 main_v17 main_v18 ((fun l r => Host.dotGeneral dot_S10000x5000_S5000x32_S10000x32_1_0_0_1_n_n none l r) : (⟨S10000x5000, .f32⟩ : BufTy).Contents (Elt F) → (⟨S5000x32, .f32⟩ : BufTy).Contents (Elt F) → (⟨S10000x32, .f32⟩ : BufTy).Contents (Elt F)),
    StableHlo.unary main_arg0 main_v19 ((transpose S5000x10000 [1, 0] · transposes_S10000x5000_S5000x10000_1_0) : (⟨S10000x5000, .f32⟩ : BufTy).Contents (Elt F) → (⟨S5000x10000, .f32⟩ : BufTy).Contents (Elt F)),
    StableHlo.binary main_v19 main_v15 main_v20 ((fun l r => Host.dotGeneral dot_S5000x10000_S10000x32_S5000x32_1_0_0_1_n_n none l r) : (⟨S5000x10000, .f32⟩ : BufTy).Contents (Elt F) → (⟨S10000x32, .f32⟩ : BufTy).Contents (Elt F) → (⟨S5000x32, .f32⟩ : BufTy).Contents (Elt F)),
    StableHlo.binary main_arg0 main_v20 main_v21 ((fun l r => Host.dotGeneral dot_S10000x5000_S5000x32_S10000x32_1_0_0_1_n_n none l r) : (⟨S10000x5000, .f32⟩ : BufTy).Contents (Elt F) → (⟨S5000x32, .f32⟩ : BufTy).Contents (Elt F) → (⟨S10000x32, .f32⟩ : BufTy).Contents (Elt F)),
    StableHlo.unary main_arg0 main_v22 ((transpose S5000x10000 [1, 0] · transposes_S10000x5000_S5000x10000_1_0) : (⟨S10000x5000, .f32⟩ : BufTy).Contents (Elt F) → (⟨S5000x10000, .f32⟩ : BufTy).Contents (Elt F)),
    StableHlo.binary main_v22 main_v18 main_v23 ((fun l r => Host.dotGeneral dot_S5000x10000_S10000x32_S5000x32_1_0_0_1_n_n none l r) : (⟨S5000x10000, .f32⟩ : BufTy).Contents (Elt F) → (⟨S10000x32, .f32⟩ : BufTy).Contents (Elt F) → (⟨S5000x32, .f32⟩ : BufTy).Contents (Elt F)),
    StableHlo.unary main_v8 main_v24 (broadcastInDim S10000x1x32 ![0, 2] bcast_S10000x32_S10000x1x32_0_2 : (⟨S10000x32, .f32⟩ : BufTy).Contents (Elt F) → (⟨S10000x1x32, .f32⟩ : BufTy).Contents (Elt F)),
    StableHlo.unary main_v15 main_v25 (broadcastInDim S10000x1x32 ![0, 2] bcast_S10000x32_S10000x1x32_0_2 : (⟨S10000x32, .f32⟩ : BufTy).Contents (Elt F) → (⟨S10000x1x32, .f32⟩ : BufTy).Contents (Elt F)),
    StableHlo.unary main_v18 main_v26 (broadcastInDim S10000x1x32 ![0, 2] bcast_S10000x32_S10000x1x32_0_2 : (⟨S10000x32, .f32⟩ : BufTy).Contents (Elt F) → (⟨S10000x1x32, .f32⟩ : BufTy).Contents (Elt F)),
    StableHlo.unary main_v21 main_v27 (broadcastInDim S10000x1x32 ![0, 2] bcast_S10000x32_S10000x1x32_0_2 : (⟨S10000x32, .f32⟩ : BufTy).Contents (Elt F) → (⟨S10000x1x32, .f32⟩ : BufTy).Contents (Elt F)),
    StableHlo.nary ![main_v24, main_v25, main_v26, main_v27] main_v28 (fun u => concatenate S10000x4x32 1 [⟨S10000x1x32, u 0⟩, ⟨S10000x1x32, u 1⟩, ⟨S10000x1x32, u 2⟩, ⟨S10000x1x32, u 3⟩] concatenates_S10000x1x32_S10000x1x32_S10000x1x32_S10000x1x32_S10000x4x32_d1),
    StableHlo.nullary main_cst (constant S_ .f32 0x00000000#32),
    StableHlo.binary main_v28 main_cst main_v29 ((fun x v => Host.reduceAdd x v reducesTo_S10000x4x32_S10000x32_d1 h_S_) : (⟨S10000x4x32, .f32⟩ : BufTy).Contents (Elt F) → (⟨S_, .f32⟩ : BufTy).Contents (Elt F) → (⟨S10000x32, .f32⟩ : BufTy).Contents (Elt F)),
    StableHlo.nullary main_cst_0 (constant S_ .f32 0x40800000#32),
    StableHlo.unary main_cst_0 main_v30 (broadcastInDim S10000x32 ![] bcast_S_S10000x32 : (⟨S_, .f32⟩ : BufTy).Contents (Elt F) → (⟨S10000x32, .f32⟩ : BufTy).Contents (Elt F)),
    StableHlo.binary main_v29 main_v30 main_v31 (Host.divf : (⟨S10000x32, .f32⟩ : BufTy).Contents (Elt F) → (⟨S10000x32, .f32⟩ : BufTy).Contents (Elt F) → (⟨S10000x32, .f32⟩ : BufTy).Contents (Elt F)),
    StableHlo.unary main_v14 main_v32 (broadcastInDim S5000x1x32 ![0, 2] bcast_S5000x32_S5000x1x32_0_2 : (⟨S5000x32, .f32⟩ : BufTy).Contents (Elt F) → (⟨S5000x1x32, .f32⟩ : BufTy).Contents (Elt F)),
    StableHlo.unary main_v17 main_v33 (broadcastInDim S5000x1x32 ![0, 2] bcast_S5000x32_S5000x1x32_0_2 : (⟨S5000x32, .f32⟩ : BufTy).Contents (Elt F) → (⟨S5000x1x32, .f32⟩ : BufTy).Contents (Elt F)),
    StableHlo.unary main_v20 main_v34 (broadcastInDim S5000x1x32 ![0, 2] bcast_S5000x32_S5000x1x32_0_2 : (⟨S5000x32, .f32⟩ : BufTy).Contents (Elt F) → (⟨S5000x1x32, .f32⟩ : BufTy).Contents (Elt F)),
    StableHlo.unary main_v23 main_v35 (broadcastInDim S5000x1x32 ![0, 2] bcast_S5000x32_S5000x1x32_0_2 : (⟨S5000x32, .f32⟩ : BufTy).Contents (Elt F) → (⟨S5000x1x32, .f32⟩ : BufTy).Contents (Elt F)),
    StableHlo.nary ![main_v32, main_v33, main_v34, main_v35] main_v36 (fun u => concatenate S5000x4x32 1 [⟨S5000x1x32, u 0⟩, ⟨S5000x1x32, u 1⟩, ⟨S5000x1x32, u 2⟩, ⟨S5000x1x32, u 3⟩] concatenates_S5000x1x32_S5000x1x32_S5000x1x32_S5000x1x32_S5000x4x32_d1),
    StableHlo.nullary main_cst_1 (constant S_ .f32 0x00000000#32),
    StableHlo.binary main_v36 main_cst_1 main_v37 ((fun x v => Host.reduceAdd x v reducesTo_S5000x4x32_S5000x32_d1 h_S_) : (⟨S5000x4x32, .f32⟩ : BufTy).Contents (Elt F) → (⟨S_, .f32⟩ : BufTy).Contents (Elt F) → (⟨S5000x32, .f32⟩ : BufTy).Contents (Elt F)),
    StableHlo.nullary main_cst_2 (constant S_ .f32 0x40800000#32),
    StableHlo.unary main_cst_2 main_v38 (broadcastInDim S5000x32 ![] bcast_S_S5000x32 : (⟨S_, .f32⟩ : BufTy).Contents (Elt F) → (⟨S5000x32, .f32⟩ : BufTy).Contents (Elt F)),
    StableHlo.binary main_v37 main_v38 main_v39 (Host.divf : (⟨S5000x32, .f32⟩ : BufTy).Contents (Elt F) → (⟨S5000x32, .f32⟩ : BufTy).Contents (Elt F) → (⟨S5000x32, .f32⟩ : BufTy).Contents (Elt F)) ]

set_option maxRecDepth 8192 in
set_option maxHeartbeats 4000000 in
/-- The program is that straight line: the outlined functions opened at their calls, sequencing reassociated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nary_bufs_sub .., unary_bufs_sub .., binary_bufs_sub ..,
    unary_bufs_sub .., unary_bufs_sub .., binary_bufs_sub .., binary_bufs_sub .., unary_bufs_sub .., binary_bufs_sub ..,
    unary_bufs_sub .., unary_bufs_sub .., binary_bufs_sub .., binary_bufs_sub .., unary_bufs_sub .., binary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., nary_bufs_sub .., nullary_bufs_sub ..,
    binary_bufs_sub .., nullary_bufs_sub .., unary_bufs_sub .., binary_bufs_sub .., unary_bufs_sub .., unary_bufs_sub ..,
    unary_bufs_sub .., unary_bufs_sub .., nary_bufs_sub .., nullary_bufs_sub .., binary_bufs_sub .., nullary_bufs_sub ..,
    unary_bufs_sub .., binary_bufs_sub ..⟩

/-- From any memory with zero counters, every weakly fair execution of the program terminates, and every buffer ends
    at the fold of the operations over the starting memory. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStage.lean ====
/-
  The reference program's stretches, each as one function of its operands over the extended reals: the two table
  lookups, the affine map of a node's joined features, one propagation step in each direction, and the mean over
  four layers; and the two results as these functions composed over the argument arrays.
-/
import proofs.«129974_g1760936592044_cont_8to1_853_2_alg».proof.Proof.Gen.ReferenceIdeal
import proofs.«129974_g1760936592044_cont_8to1_853_2_alg».proof.Proof.Spec
import Idealize.ShloMosaic.PureOps.Ideal

noncomputable section

namespace Cert.ReferenceIdeal.RefValue

open Cert.ReferenceIdeal Cert.ReferenceIdeal.Gen Idealize.ShloMosaic Cert.Spec

/-- The lookup of 10000 words in a 8-row table, as the program computes it: a negative word is wrapped by 8; the
    row is fetched at the word clamped into the table's rows; and the row is kept where the wrapped word lies in
    0…7, replaced by a not-a-number filler elsewhere. -/
def take8 (tbl : FVec Ideal S8x8 .f32) (idx : IVec S10000 32) : FVec Ideal S10000x8 .f32 :=
  let w : IVec S10000 32 :=
    select (cmpi .slt idx (broadcastInDim S10000 ![] bcast_S_S10000 (constantI S_ 32 0#32)))
      (addi idx (broadcastInDim S10000 ![] bcast_S_S10000 (constantI S_ 32 8#32))) idx
  let q : IVec S10000x1 32 := broadcastInDim S10000x1 ![0] bcast_S10000_S10000x1_0 w
  let ok : IVec S10000 1 :=
    Host.reduce IntOp.andi
      (andi (cmpi .sge q (broadcastInDim S10000x1 ![] bcast_S_S10000x1 (constantI S_ 32 0#32)))
        (cmpi .sle q (broadcastInDim S10000x1 ![0, 1] bcast_S1x1_S10000x1_0_1 (broadcastInDim S1x1 ![1] bcast_S1_S1x1_1 (constantI S1 32 7#32)))))
      (constantI S_ 1 1#1) reducesTo_S10000x1_S10000_d1 h_S_
  select (broadcastInDim S10000x8 ![0] bcast_S10000_S10000x8_0 ok) (Host.gather gather_S8x8_S10000x1_S10000x8_1_0_n_n_0_1_18 tbl q)
    (broadcastInDim S10000x8 ![] bcast_S_S10000x8 (constant (F := Ideal) S_ .f32 0x7FC00000#32))

/-- The lookup of 5000 words in a 16-row table, as the program computes it: a negative word is wrapped by 16; the
    row is fetched at the word clamped into the table's rows; and the row is kept where the wrapped word lies in
    0…15, replaced by a not-a-number filler elsewhere. -/
def take16 (tbl : FVec Ideal S16x8 .f32) (idx : IVec S5000 32) : FVec Ideal S5000x8 .f32 :=
  let w : IVec S5000 32 :=
    select (cmpi .slt idx (broadcastInDim S5000 ![] bcast_S_S5000 (constantI S_ 32 0#32)))
      (addi idx (broadcastInDim S5000 ![] bcast_S_S5000 (constantI S_ 32 16#32))) idx
  let q : IVec S5000x1 32 := broadcastInDim S5000x1 ![0] bcast_S5000_S5000x1_0 w
  let ok : IVec S5000 1 :=
    Host.reduce IntOp.andi
      (andi (cmpi .sge q (broadcastInDim S5000x1 ![] bcast_S_S5000x1 (constantI S_ 32 0#32)))
        (cmpi .sle q (broadcastInDim S5000x1 ![0, 1] bcast_S1x1_S5000x1_0_1 (broadcastInDim S1x1 ![1] bcast_S1_S1x1_1 (constantI S1 32 15#32)))))
      (constantI S_ 1 1#1) reducesTo_S5000x1_S5000_d1 h_S_
  select (broadcastInDim S5000x8 ![0] bcast_S5000_S5000x8_0 ok) (Host.gather gather_S16x8_S5000x1_S5000x8_1_0_n_n_0_1_18 tbl q)
    (broadcastInDim S5000x8 ![] bcast_S_S5000x8 (constant (F := Ideal) S_ .f32 0x7FC00000#32))

/-- Layer-0 user embeddings as the program computes them: the embedding joined with the two looked-up rows along
    the columns, times the transposed weights, plus the bias repeated down the rows. -/
def user0T (a : Args) : FVec Ideal S10000x32 .f32 :=
  addf
    (Host.dotGeneral (F := Ideal) dot_S10000x48_S48x32_S10000x32_1_0_0_1_n_n none
      (concatenate S10000x48 1 [⟨S10000x32, a.ue⟩, ⟨S10000x8, take8 a.recW a.recI⟩, ⟨S10000x8, take8 a.typW a.typI⟩]
        concatenates_S10000x32_S10000x8_S10000x8_S10000x48_d1 : FVec Ideal S10000x48 .f32)
      (transpose S48x32 [1, 0] a.upw transposes_S32x48_S48x32_1_0 : FVec Ideal S48x32 .f32))
    (broadcastInDim S10000x32 ![0, 1] bcast_S1x32_S10000x32_0_1 (broadcastInDim S1x32 ![1] bcast_S32_S1x32_1 a.upb))

/-- Layer-0 item embeddings as the program computes them. -/
def item0T (a : Args) : FVec Ideal S5000x32 .f32 :=
  addf
    (Host.dotGeneral (F := Ideal) dot_S5000x40_S40x32_S5000x32_1_0_0_1_n_n none
      (concatenate S5000x40 1 [⟨S5000x32, a.ie⟩, ⟨S5000x8, take16 a.resW a.resI⟩] concatenates_S5000x32_S5000x8_S5000x40_d1 : FVec Ideal S5000x40 .f32)
      (transpose S40x32 [1, 0] a.ipw transposes_S32x40_S40x32_1_0 : FVec Ideal S40x32 .f32))
    (broadcastInDim S5000x32 ![0, 1] bcast_S1x32_S5000x32_0_1 (broadcastInDim S1x32 ![1] bcast_S32_S1x32_1 a.ipb))

/-- One propagation step towards the users as the program computes it: the weight matrix times item embeddings. -/
def toUsersT (adj : FVec Ideal S10000x5000 .f32) (x : FVec Ideal S5000x32 .f32) : FVec Ideal S10000x32 .f32 :=
  Host.dotGeneral (F := Ideal) dot_S10000x5000_S5000x32_S10000x32_1_0_0_1_n_n none adj x

/-- One propagation step towards the items as the program computes it: the transposed weight matrix times user
    embeddings. -/
def toItemsT (adj : FVec Ideal S10000x5000 .f32) (x : FVec Ideal S10000x32 .f32) : FVec Ideal S5000x32 .f32 :=
  Host.dotGeneral (F := Ideal) dot_S5000x10000_S10000x32_S5000x32_1_0_0_1_n_n none
    (transpose S5000x10000 [1, 0] adj transposes_S10000x5000_S5000x10000_1_0) x

/-- The mean of four layers of user embeddings as the program computes it: each layer given a middle axis of
    extent one, the four stacked along it, summed along it from zero, and divided by four. -/
def meanU (l0 l1 l2 l3 : FVec Ideal S10000x32 .f32) : FVec Ideal S10000x32 .f32 :=
  Host.divf (F := Ideal)
    (Host.reduceAdd (F := Ideal)
      (concatenate S10000x4x32 1
        [⟨S10000x1x32, broadcastInDim S10000x1x32 ![0, 2] bcast_S10000x32_S10000x1x32_0_2 l0⟩,
         ⟨S10000x1x32, broadcastInDim S10000x1x32 ![0, 2] bcast_S10000x32_S10000x1x32_0_2 l1⟩,
         ⟨S10000x1x32, broadcastInDim S10000x1x32 ![0, 2] bcast_S10000x32_S10000x1x32_0_2 l2⟩,
         ⟨S10000x1x32, broadcastInDim S10000x1x32 ![0, 2] bcast_S10000x32_S10000x1x32_0_2 l3⟩]
        concatenates_S10000x1x32_S10000x1x32_S10000x1x32_S10000x1x32_S10000x4x32_d1)
      (constant (F := Ideal) S_ .f32 0x00000000#32) reducesTo_S10000x4x32_S10000x32_d1 h_S_)
    (broadcastInDim S10000x32 ![] bcast_S_S10000x32 (constant (F := Ideal) S_ .f32 0x40800000#32))

/-- The mean of four layers of item embeddings as the program computes it: each layer given a middle axis of
    extent one, the four stacked along it, summed along it from zero, and divided by four. -/
def meanI (l0 l1 l2 l3 : FVec Ideal S5000x32 .f32) : FVec Ideal S5000x32 .f32 :=
  Host.divf (F := Ideal)
    (Host.reduceAdd (F := Ideal)
      (concatenate S5000x4x32 1
        [⟨S5000x1x32, broadcastInDim S5000x1x32 ![0, 2] bcast_S5000x32_S5000x1x32_0_2 l0⟩,
         ⟨S5000x1x32, broadcastInDim S5000x1x32 ![0, 2] bcast_S5000x32_S5000x1x32_0_2 l1⟩,
         ⟨S5000x1x32, broadcastInDim S5000x1x32 ![0, 2] bcast_S5000x32_S5000x1x32_0_2 l2⟩,
         ⟨S5000x1x32, broadcastInDim S5000x1x32 ![0, 2] bcast_S5000x32_S5000x1x32_0_2 l3⟩]
        concatenates_S5000x1x32_S5000x1x32_S5000x1x32_S5000x1x32_S5000x4x32_d1)
      (constant (F := Ideal) S_ .f32 0x00000000#32) reducesTo_S5000x4x32_S5000x32_d1 h_S_)
    (broadcastInDim S5000x32 ![] bcast_S_S5000x32 (constant (F := Ideal) S_ .f32 0x40800000#32))

/-- The user embeddings after each layer, as the program computes them (the order of its operations: each layer's
    users from the previous layer's items, each layer's items from the previous layer's users). -/
def uT (a : Args) : Nat → FVec Ideal S10000x32 .f32
  | 0 => user0T a
  | 1 => toUsersT a.adj (item0T a)
  | 2 => toUsersT a.adj (toItemsT a.adj (user0T a))
  | _ => toUsersT a.adj (toItemsT a.adj (toUsersT a.adj (item0T a)))

/-- The item embeddings after each layer, as the program computes them. -/
def iT (a : Args) : Nat → FVec Ideal S5000x32 .f32
  | 0 => item0T a
  | 1 => toItemsT a.adj (user0T a)
  | 2 => toItemsT a.adj (toUsersT a.adj (item0T a))
  | _ => toItemsT a.adj (toUsersT a.adj (toItemsT a.adj (user0T a)))

/-- The program's first result as a function of the arguments. -/
def outU (a : Args) : FVec Ideal S10000x32 .f32 := meanU (uT a 0) (uT a 1) (uT a 2) (uT a 3)
/-- The program's second result as a function of the arguments. -/
def outI (a : Args) : FVec Ideal S5000x32 .f32 := meanI (iT a 0) (iT a 1) (iT a 2) (iT a 3)

end Cert.ReferenceIdeal.RefValue

end
-- ==== Proof.RefAfter.lean ====
/-
  What the reference program leaves in its two result buffers: the fold of its one hundred and ten operations, read
  at each result buffer, is the composition of the program's stretches over the argument arrays as they stood at the
  start — the lookups, the two affine maps, the propagation steps and the means of RefStage.
-/
import proofs.«129974_g1760936592044_cont_8to1_853_2_alg».proof.Proof.RefRun
import proofs.«129974_g1760936592044_cont_8to1_853_2_alg».proof.Proof.RefStage

noncomputable section

namespace Cert.ReferenceIdeal.RefValue

open Cert.ReferenceIdeal Cert.ReferenceIdeal.Gen Idealize.ShloMosaic Idealize.ShloMosaic.TcCoe Idealize.SL.Sem Idealize.ShloMosaic.StableHlo Cert.Spec
open Cert.ReferenceIdeal.RefRun

/-- The arguments, read off a device's buffer contents. -/
def argsOf (V : Valuation τ sig (Elt Ideal)) : Args :=
  { adj := V (Proc.devRef .tc main_arg0), recI := V (Proc.devRef .tc main_arg1), typI := V (Proc.devRef .tc main_arg2),
    resI := V (Proc.devRef .tc main_arg3), ue := V (Proc.devRef .tc main_arg4), ie := V (Proc.devRef .tc main_arg5),
    recW := V (Proc.devRef .tc main_arg6), typW := V (Proc.devRef .tc main_arg7), resW := V (Proc.devRef .tc main_arg8),
    upw := V (Proc.devRef .tc main_arg9), upb := V (Proc.devRef .tc main_arg10), ipw := V (Proc.devRef .tc main_arg11),
    ipb := V (Proc.devRef .tc main_arg12) }

-- the operations' definitions are never opened: each operation's result is rewritten at its own buffer, and the two
-- sides are then the same composition of the same operations
attribute [local irreducible] Host.reduce Host.gather Host.reduceAdd Host.divf concatenate transpose broadcastInDim in
set_option maxRecDepth 16384 in
set_option maxHeartbeats 1600000 in
/-- The first result buffer after the operations: the mean of the four layers of user embeddings. -/
theorem after_v31 (V : Valuation τ sig (Elt Ideal)) :
    after (ops (F := Ideal)) V (Proc.devRef .tc main_v31) = outU (argsOf V) := by
  after_results_simp
  rfl

attribute [local irreducible] Host.reduce Host.gather Host.reduceAdd Host.divf concatenate transpose broadcastInDim in
set_option maxRecDepth 16384 in
set_option maxHeartbeats 1600000 in
/-- The second result buffer after the operations: the mean of the four layers of item embeddings. -/
theorem after_v39 (V : Valuation τ sig (Elt Ideal)) :
    after (ops (F := Ideal)) V (Proc.devRef .tc main_v39) = outI (argsOf V) := by
  after_results_simp
  rfl

end Cert.ReferenceIdeal.RefValue

end
-- ==== Proof.RefAfterArgs.lean ====
/-
  No operation of the reference program writes an argument buffer: the fold of its operations, read at each of the
  thirteen argument buffers, is what the buffer held at the start.
-/
import proofs.«129974_g1760936592044_cont_8to1_853_2_alg».proof.Proof.RefRun
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun

set_option maxRecDepth 16384 in
set_option maxHeartbeats 1600000 in
theorem after_arg0 (V : Valuation τ sig (Elt Ideal)) :
    after (ops (F := Ideal)) V (Proc.devRef .tc main_arg0) = V (Proc.devRef .tc main_arg0) := by
  after_results_simp

set_option maxRecDepth 16384 in
set_option maxHeartbeats 1600000 in
theorem after_arg1 (V : Valuation τ sig (Elt Ideal)) :
    after (ops (F := Ideal)) V (Proc.devRef .tc main_arg1) = V (Proc.devRef .tc main_arg1) := by
  after_results_simp

set_option maxRecDepth 16384 in
set_option maxHeartbeats 1600000 in
theorem after_arg2 (V : Valuation τ sig (Elt Ideal)) :
    after (ops (F := Ideal)) V (Proc.devRef .tc main_arg2) = V (Proc.devRef .tc main_arg2) := by
  after_results_simp

set_option maxRecDepth 16384 in
set_option maxHeartbeats 1600000 in
theorem after_arg3 (V : Valuation τ sig (Elt Ideal)) :
    after (ops (F := Ideal)) V (Proc.devRef .tc main_arg3) = V (Proc.devRef .tc main_arg3) := by
  after_results_simp

set_option maxRecDepth 16384 in
set_option maxHeartbeats 1600000 in
theorem after_arg4 (V : Valuation τ sig (Elt Ideal)) :
    after (ops (F := Ideal)) V (Proc.devRef .tc main_arg4) = V (Proc.devRef .tc main_arg4) := by
  after_results_simp

set_option maxRecDepth 16384 in
set_option maxHeartbeats 1600000 in
theorem after_arg5 (V : Valuation τ sig (Elt Ideal)) :
    after (ops (F := Ideal)) V (Proc.devRef .tc main_arg5) = V (Proc.devRef .tc main_arg5) := by
  after_results_simp

set_option maxRecDepth 16384 in
set_option maxHeartbeats 1600000 in
theorem after_arg6 (V : Valuation τ sig (Elt Ideal)) :
    after (ops (F := Ideal)) V (Proc.devRef .tc main_arg6) = V (Proc.devRef .tc main_arg6) := by
  after_results_simp

set_option maxRecDepth 16384 in
set_option maxHeartbeats 1600000 in
theorem after_arg7 (V : Valuation τ sig (Elt Ideal)) :
    after (ops (F := Ideal)) V (Proc.devRef .tc main_arg7) = V (Proc.devRef .tc main_arg7) := by
  after_results_simp

set_option maxRecDepth 16384 in
set_option maxHeartbeats 1600000 in
theorem after_arg8 (V : Valuation τ sig (Elt Ideal)) :
    after (ops (F := Ideal)) V (Proc.devRef .tc main_arg8) = V (Proc.devRef .tc main_arg8) := by
  after_results_simp

set_option maxRecDepth 16384 in
set_option maxHeartbeats 1600000 in
theorem after_arg9 (V : Valuation τ sig (Elt Ideal)) :
    after (ops (F := Ideal)) V (Proc.devRef .tc main_arg9) = V (Proc.devRef .tc main_arg9) := by
  after_results_simp

set_option maxRecDepth 16384 in
set_option maxHeartbeats 1600000 in
theorem after_arg10 (V : Valuation τ sig (Elt Ideal)) :
    after (ops (F := Ideal)) V (Proc.devRef .tc main_arg10) = V (Proc.devRef .tc main_arg10) := by
  after_results_simp

set_option maxRecDepth 16384 in
set_option maxHeartbeats 1600000 in
theorem after_arg11 (V : Valuation τ sig (Elt Ideal)) :
    after (ops (F := Ideal)) V (Proc.devRef .tc main_arg11) = V (Proc.devRef .tc main_arg11) := by
  after_results_simp

set_option maxRecDepth 16384 in
set_option maxHeartbeats 1600000 in
theorem after_arg12 (V : Valuation τ sig (Elt Ideal)) :
    after (ops (F := Ideal)) V (Proc.devRef .tc main_arg12) = V (Proc.devRef .tc main_arg12) := by
  after_results_simp

end Cert.ReferenceIdeal.RefValue

end
-- ==== Proof.RefPre.lean ====
/-
  The precondition, decoded as far as the reference's value needs it. The printed predicate is one conjunction of
  nineteen tests: sixteen say an argument array is finite; the last three say that every word of each category-index
  array is at least zero and below its table's height (8, 8 and 16), each as a reduce by `and` of the two signed
  comparisons. A conjunction that is one has every conjunct one; a reduce by `and` that is one met only ones; and a
  signed comparison that is one says what it says of the signed values.
-/
import proofs.«129974_g1760936592044_cont_8to1_853_2_alg».proof.Pre_finite_inputs
import proofs.«129974_g1760936592044_cont_8to1_853_2_alg».proof.Proof.Gen.Pre_finite_inputs
import Idealize.ShloMosaic.Lib.ReduceAll
import Idealize.ShloMosaic.Lib.ValueIdx
import Idealize.ShloMosaic.PureOps.Ideal

noncomputable section

namespace Cert.ReferenceIdeal.RefValue

open Idealize.ShloMosaic Idealize.ShloMosaic.ValueIdx Cert.Pre_finite_inputs Cert.Pre_finite_inputs.Gen

/-- An `and` of two arrays of one-bit words is one at an index exactly when both are. -/
theorem andi_apply_eq_one {s : Shape} (x y : IVec s 1) (i : s.Idx) : andi x y i = 1#1 ↔ x i = 1#1 ∧ y i = 1#1 := by
  show IntOp.andi (x i) (y i) = 1#1 ↔ _
  generalize x i = a
  generalize y i = b
  revert a b
  decide

/-- A word the signed test `≥ 0` passes is not negative. -/
theorem toInt_nonneg_of_sge (w : BitVec 32) (h : IntOp.cmpi .sge w 0#32 = 1#1) : 0 ≤ w.toInt := by
  by_cases h0 : 0 ≤ w.toInt
  · exact h0
  · have e : IntOp.cmpi .sge w 0#32 = 0#1 := by simp [IntOp.cmpi, BitVec.sle, h0]
    rw [e] at h
    exact absurd h (by decide)

/-- A word the signed test `< c` passes is below `c` as a signed number. -/
theorem toInt_lt_of_slt (w c : BitVec 32) (h : IntOp.cmpi .slt w c = 1#1) : w.toInt < c.toInt := by
  by_cases h0 : w.toInt < c.toInt
  · exact h0
  · have e : IntOp.cmpi .slt w c = 0#1 := by simp [IntOp.cmpi, BitVec.slt, h0]
    rw [e] at h
    exact absurd h (by decide)

/-- The rank-0 shape has one index. -/
theorem subsingleton_scalar : Subsingleton S_.Idx := ⟨fun _ _ => funext fun d => d.elim0⟩

/-- THE THREE INDEX RANGES, out of the precondition: every word of the two user category arrays is in 0…7, every
    word of the item category array in 0…15. -/
theorem ranges_of_pre (a0 : FVec Ideal S10000x5000 .f32) (a1 a2 : IVec S10000 32) (a3 : IVec S5000 32)
    (a4 : FVec Ideal S10000x32 .f32) (a5 : FVec Ideal S5000x32 .f32) (a6 a7 : FVec Ideal S8x8 .f32)
    (a8 : FVec Ideal S16x8 .f32) (a9 : FVec Ideal S32x48 .f32) (a10 : FVec Ideal S32 .f32)
    (a11 : FVec Ideal S32x40 .f32) (a12 : FVec Ideal S32 .f32)
    (h : Cert.Pre_finite_inputs.fn (F := Ideal) a0 a1 a2 a3 a4 a5 a6 a7 a8 a9 a10 a11 a12 = fun _ => 1#1) :
    (∀ u : Fin 10000, 0 ≤ (a1 (ix1 u)).toInt ∧ (a1 (ix1 u)).toInt < 8)
      ∧ (∀ u : Fin 10000, 0 ≤ (a2 (ix1 u)).toInt ∧ (a2 (ix1 u)).toInt < 8)
      ∧ (∀ j : Fin 5000, 0 ≤ (a3 (ix1 j)).toInt ∧ (a3 (ix1 j)).toInt < 16) := by
  haveI := subsingleton_scalar
  have e := congrFun h ix0
  unfold Cert.Pre_finite_inputs.fn Cert.Pre_finite_inputs.fn_part1 Cert.Pre_finite_inputs.fn_part2
    Cert.Pre_finite_inputs.fn_part3 Cert.Pre_finite_inputs.fn_part4 at e
  dsimp only at e
  -- the conjunction, peeled from the outside: the last conjunct is the item array's test, then the two user arrays'
  obtain ⟨e62, e68⟩ := (andi_apply_eq_one _ _ _).mp e
  obtain ⟨e55, e61⟩ := (andi_apply_eq_one _ _ _).mp e62
  obtain ⟨-, e54⟩ := (andi_apply_eq_one _ _ _).mp e55

  -- a1: at least zero and below 8
  have r_a1 : ∀ u : Fin 10000, 0 ≤ (a1 (ix1 u)).toInt ∧ (a1 (ix1 u)).toInt < 8 := fun u => by
    obtain ⟨hge, hlt⟩ := (andi_apply_eq_one _ _ _).mp (Host.reduce_andi_all _ _ _ _ _ e54 (ix1 u))
    have hc : (8#32 : BitVec 32).toInt = 8 := by decide
    have h1 : (a1 (ix1 u)).toInt < (8#32 : BitVec 32).toInt := toInt_lt_of_slt _ _ hlt
    exact ⟨toInt_nonneg_of_sge _ hge, by omega⟩
  -- a2: at least zero and below 8
  have r_a2 : ∀ u : Fin 10000, 0 ≤ (a2 (ix1 u)).toInt ∧ (a2 (ix1 u)).toInt < 8 := fun u => by
    obtain ⟨hge, hlt⟩ := (andi_apply_eq_one _ _ _).mp (Host.reduce_andi_all _ _ _ _ _ e61 (ix1 u))
    have hc : (8#32 : BitVec 32).toInt = 8 := by decide
    have h1 : (a2 (ix1 u)).toInt < (8#32 : BitVec 32).toInt := toInt_lt_of_slt _ _ hlt
    exact ⟨toInt_nonneg_of_sge _ hge, by omega⟩
  -- a3: at least zero and below 16
  have r_a3 : ∀ u : Fin 5000, 0 ≤ (a3 (ix1 u)).toInt ∧ (a3 (ix1 u)).toInt < 16 := fun u => by
    obtain ⟨hge, hlt⟩ := (andi_apply_eq_one _ _ _).mp (Host.reduce_andi_all _ _ _ _ _ e68 (ix1 u))
    have hc : (16#32 : BitVec 32).toInt = 16 := by decide
    have h1 : (a3 (ix1 u)).toInt < (16#32 : BitVec 32).toInt := toInt_lt_of_slt _ _ hlt
    exact ⟨toInt_nonneg_of_sge _ hge, by omega⟩
  exact ⟨r_a1, r_a2, r_a3⟩

end Cert.ReferenceIdeal.RefValue

end
-- ==== Proof.RefTake.lean ====
/-
  The table lookup, read at an entry. The program wraps a negative word by the table's height, fetches the row at the
  word clamped into the table, and keeps the row only where the wrapped word names a row. When every word already
  names a row — it is at least zero and below the table's height — none of the three does anything: the lookup is the
  table's row at the word, which is what the specification's `pick` says.
-/
import proofs.«129974_g1760936592044_cont_8to1_853_2_alg».proof.Proof.RefStage
import Idealize.ShloMosaic.Lib.ValueIdx
import Idealize.ShloMosaic.Lib.Pipeline.Value
import Idealize.ShloMosaic.PureOps.Reduce

noncomputable section

namespace Cert.ReferenceIdeal.RefValue

open Cert.ReferenceIdeal Cert.ReferenceIdeal.Gen Idealize.ShloMosaic Idealize.ShloMosaic.ValueIdx Cert.Spec

/-- A left fold by `and` from one over words that are all one is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l fun n hn => h n (List.mem_cons_of_mem _ hn)

/-- A reduce by `and`, from an initial value of ones, of an array of ones is one at every result index. -/
theorem reduce_andi_ones {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_one x _ fun n _ => hx n

/-- A word that is not negative as a signed number is not below zero. -/
theorem cmpi_slt_zero (w : BitVec 32) (h : 0 ≤ w.toInt) : IntOp.cmpi .slt w 0#32 = 0#1 := by
  have h' : ¬ w.toInt < 0 := by omega
  simp [IntOp.cmpi, BitVec.slt, h']

/-- … and is at least zero. -/
theorem cmpi_sge_zero (w : BitVec 32) (h : 0 ≤ w.toInt) : IntOp.cmpi .sge w 0#32 = 1#1 := by
  simp [IntOp.cmpi, BitVec.sle, h]

/-- The signed comparison `≤` of two words whose signed values compare so. -/
theorem cmpi_sle_of_le (w c : BitVec 32) (h : w.toInt ≤ c.toInt) : IntOp.cmpi .sle w c = 1#1 := by
  simp [IntOp.cmpi, BitVec.sle, h]

/-- A word that is not negative as a signed number is the same number read unsigned. -/
theorem toNat_of_toInt_nonneg (w : BitVec 32) (h : 0 ≤ w.toInt) : w.toInt.toNat = w.toNat := by
  have hlt := w.isLt
  rw [BitVec.toInt_eq_toNat_cond] at h ⊢
  by_cases hc : 2 * w.toNat < 2 ^ 32
  · rw [if_pos hc]; omega
  · rw [if_neg hc] at h; omega

section Gather
variable {α : Type}

/-- The dimension numbers of a gather of whole rows: a table `[V, 8]`, one start index per result row
    (indices `[N, 1]`), the row axis collapsed, the column axis carried over. -/
abbrev rowDims (V N : Nat) (wf : GatherDims.WF ⟨2, ![V, 8]⟩ ⟨2, ![N, 1]⟩ ⟨2, ![N, 8]⟩ [1] [0] [] [0] [] 1 ![1, 8]) :
    GatherDims ⟨2, ![V, 8]⟩ ⟨2, ![N, 1]⟩ ⟨2, ![N, 8]⟩ where
  offsetDims := [1]
  collapsedSliceDims := [0]
  operandBatchingDims := []
  startIndicesBatchingDims := []
  startIndexMap := [0]
  indexVectorDim := 1
  sliceSizes := ![1, 8]
  wf := wf

/-- That gather read at entry `(u, f)`: the table at the row the start index `idx[u, 0]` names, read signed and
    clamped into the table's rows, and at column `f`. -/
theorem gather_row_apply {V N w : Nat} (hV : 0 < V)
    (wf : GatherDims.WF ⟨2, ![V, 8]⟩ ⟨2, ![N, 1]⟩ ⟨2, ![N, 8]⟩ [1] [0] [] [0] [] 1 ![1, 8])
    (x : (⟨2, ![V, 8]⟩ : Shape).Idx → α) (idx : IVec ⟨2, ![N, 1]⟩ w) (u : Fin N) (f : Fin 8) :
    Host.gather (rowDims V N wf) x idx (ix2 u f)
      = x (ix2 (⟨min (idx (ix2 u (0 : Fin 1))).toInt.toNat (V - 1), by omega⟩ : Fin V) f) := by
  unfold Host.gather
  refine congrArg x (funext fun a => Fin.ext ?_)
  show (rowDims V N wf).start (ix2 u f) idx a + (rowDims V N wf).batchCoord (ix2 u f) a + (rowDims V N wf).offCoord (ix2 u f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims V N wf).startIndexMap from List.mem_singleton.mpr rfl)]
    have hsi : (rowDims V N wf).siIdx (ix2 u f) ⟨List.idxOf (⟨0, by decide⟩ : Fin 2) (rowDims V N wf).startIndexMap,
        List.idxOf_lt_length_iff.2 (List.mem_singleton.mpr rfl)⟩ = ix2 u (0 : Fin 1) := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin 2) ∉ (rowDims V N wf).startIndexMap from
      fun h => absurd (congrArg Fin.val (List.mem_singleton.mp h)) Nat.one_ne_zero)]
    unfold GatherDims.offCoord
    rw [dif_pos (show (⟨1, by decide⟩ : Fin 2) ∈ (rowDims V N wf).sKept from
      (GatherDims.mem_sKept _ _).mpr
        ⟨fun h => absurd (congrArg Fin.val (List.mem_singleton.mp h)) Nat.one_ne_zero, List.not_mem_nil⟩)]
    simp only [Nat.zero_add]
    rfl

end Gather

/-- Under the range hypothesis the program's lookup into the 8-row table is the row the word names: the word is not
    negative, so it is not wrapped; it lies in 0…7, so the range test passes at every node and the filler is never
    chosen; and the clamp of the gather leaves it where it is. -/
theorem take8_apply (tbl : FVec Ideal S8x8 .f32) (idx : IVec S10000 32)
    (hidx : ∀ u : Fin 10000, 0 ≤ (idx (ix1 u)).toInt ∧ (idx (ix1 u)).toInt < 8) (u : Fin 10000) (f : Fin 8) :
    take8 tbl idx (ix2 u f) = pick tbl idx u f := by
  have hw : (select (cmpi .slt idx (broadcastInDim S10000 ![] bcast_S_S10000 (constantI S_ 32 0#32))) (addi idx (broadcastInDim S10000 ![] bcast_S_S10000 (constantI S_ 32 8#32))) idx : IVec S10000 32) = idx := by
    funext i
    obtain ⟨u', rfl⟩ : ∃ u' : Fin 10000, i = ix1 u' := ⟨i 0, eq_ix1 i⟩
    show Scalar.select (IntOp.cmpi .slt (idx (ix1 u')) 0#32) _ _ = _
    rw [cmpi_slt_zero _ (hidx u').1, select_zero]
  have hq : ∀ j : S10000x1.Idx, (broadcastInDim S10000x1 ![0] bcast_S10000_S10000x1_0 idx : IVec S10000x1 32) j = idx (ix1 (j 0)) := fun j =>
    broadcastInDim_apply ![0] bcast_S10000_S10000x1_0 idx j (ix1 (j 0)) (fun a => by
      obtain rfl : a = 0 := Subsingleton.elim _ _
      rfl)
  have hok : ∀ j : S10000.Idx, (Host.reduce IntOp.andi (andi (cmpi .sge (broadcastInDim S10000x1 ![0] bcast_S10000_S10000x1_0 idx : IVec S10000x1 32) (broadcastInDim S10000x1 ![] bcast_S_S10000x1 (constantI S_ 32 0#32))) (cmpi .sle (broadcastInDim S10000x1 ![0] bcast_S10000_S10000x1_0 idx : IVec S10000x1 32) (broadcastInDim S10000x1 ![0, 1] bcast_S1x1_S10000x1_0_1 (broadcastInDim S1x1 ![1] bcast_S1_S1x1_1 (constantI S1 32 7#32))))) (constantI S_ 1 1#1) reducesTo_S10000x1_S10000_d1 h_S_ : IVec S10000 1) j = 1#1 := fun j =>
    reduce_andi_ones _ _ _ _ (fun _ => rfl) (fun i => by
      show IntOp.andi (IntOp.cmpi .sge ((broadcastInDim S10000x1 ![0] bcast_S10000_S10000x1_0 idx : IVec S10000x1 32) i) 0#32) (IntOp.cmpi .sle ((broadcastInDim S10000x1 ![0] bcast_S10000_S10000x1_0 idx : IVec S10000x1 32) i) 7#32) = 1#1
      rw [hq i, cmpi_sge_zero _ (hidx (i 0)).1, cmpi_sle_of_le _ 7#32 (by
        have h7 : (7#32 : BitVec 32).toInt = 7 := by decide
        have := (hidx (i 0)).2
        omega)]
      decide) j
  show Scalar.select ((broadcastInDim S10000x8 ![0] bcast_S10000_S10000x8_0 (Host.reduce IntOp.andi (andi (cmpi .sge (broadcastInDim S10000x1 ![0] bcast_S10000_S10000x1_0 (select (cmpi .slt idx (broadcastInDim S10000 ![] bcast_S_S10000 (constantI S_ 32 0#32))) (addi idx (broadcastInDim S10000 ![] bcast_S_S10000 (constantI S_ 32 8#32))) idx : IVec S10000 32) : IVec S10000x1 32) (broadcastInDim S10000x1 ![] bcast_S_S10000x1 (constantI S_ 32 0#32))) (cmpi .sle (broadcastInDim S10000x1 ![0] bcast_S10000_S10000x1_0 (select (cmpi .slt idx (broadcastInDim S10000 ![] bcast_S_S10000 (constantI S_ 32 0#32))) (addi idx (broadcastInDim S10000 ![] bcast_S_S10000 (constantI S_ 32 8#32))) idx : IVec S10000 32) : IVec S10000x1 32) (broadcastInDim S10000x1 ![0, 1] bcast_S1x1_S10000x1_0_1 (broadcastInDim S1x1 ![1] bcast_S1_S1x1_1 (constantI S1 32 7#32))))) (constantI S_ 1 1#1) reducesTo_S10000x1_S10000_d1 h_S_ : IVec S10000 1) : IVec S10000x8 1) (ix2 u f))
      (Host.gather gather_S8x8_S10000x1_S10000x8_1_0_n_n_0_1_18 tbl (broadcastInDim S10000x1 ![0] bcast_S10000_S10000x1_0 (select (cmpi .slt idx (broadcastInDim S10000 ![] bcast_S_S10000 (constantI S_ 32 0#32))) (addi idx (broadcastInDim S10000 ![] bcast_S_S10000 (constantI S_ 32 8#32))) idx : IVec S10000 32) : IVec S10000x1 32) (ix2 u f)) ((broadcastInDim S10000x8 ![] bcast_S_S10000x8 (constant (F := Ideal) S_ .f32 0x7FC00000#32) : FVec Ideal S10000x8 .f32) (ix2 u f)) = pick tbl idx u f
  rw [hw]
  rw [broadcastInDim_apply ![0] bcast_S10000_S10000x8_0 (Host.reduce IntOp.andi (andi (cmpi .sge (broadcastInDim S10000x1 ![0] bcast_S10000_S10000x1_0 idx : IVec S10000x1 32) (broadcastInDim S10000x1 ![] bcast_S_S10000x1 (constantI S_ 32 0#32))) (cmpi .sle (broadcastInDim S10000x1 ![0] bcast_S10000_S10000x1_0 idx : IVec S10000x1 32) (broadcastInDim S10000x1 ![0, 1] bcast_S1x1_S10000x1_0_1 (broadcastInDim S1x1 ![1] bcast_S1_S1x1_1 (constantI S1 32 7#32))))) (constantI S_ 1 1#1) reducesTo_S10000x1_S10000_d1 h_S_ : IVec S10000 1) (ix2 u f) (ix1 u) (fun a => by
      obtain rfl : a = 0 := Subsingleton.elim _ _
      rfl), hok, select_one]
  refine (gather_row_apply (V := 8) (N := 10000) (by decide) _ tbl _ u f).trans ?_
  have hqu : (broadcastInDim S10000x1 ![0] bcast_S10000_S10000x1_0 idx : IVec S10000x1 32) (ix2 u (0 : Fin 1)) = idx (ix1 u) := hq (ix2 u (0 : Fin 1))
  have h0 := (hidx u).1
  have h1 := (hidx u).2
  have hn : (idx (ix1 u)).toInt.toNat = (idx (ix1 u)).toNat := toNat_of_toInt_nonneg _ h0
  have hlt : (idx (ix1 u)).toNat < 8 := by omega
  unfold pick
  rw [dif_pos hlt]
  refine congrArg tbl (congrArg (fun r => ix2 r f) (Fin.ext ?_))
  show min ((broadcastInDim S10000x1 ![0] bcast_S10000_S10000x1_0 idx : IVec S10000x1 32) (ix2 u (0 : Fin 1))).toInt.toNat (8 - 1) = (idx (ix1 u)).toNat
  rw [hqu]
  omega

/-- Under the range hypothesis the program's lookup into the 16-row table is the row the word names: the word is not
    negative, so it is not wrapped; it lies in 0…15, so the range test passes at every node and the filler is never
    chosen; and the clamp of the gather leaves it where it is. -/
theorem take16_apply (tbl : FVec Ideal S16x8 .f32) (idx : IVec S5000 32)
    (hidx : ∀ u : Fin 5000, 0 ≤ (idx (ix1 u)).toInt ∧ (idx (ix1 u)).toInt < 16) (u : Fin 5000) (f : Fin 8) :
    take16 tbl idx (ix2 u f) = pick tbl idx u f := by
  have hw : (select (cmpi .slt idx (broadcastInDim S5000 ![] bcast_S_S5000 (constantI S_ 32 0#32))) (addi idx (broadcastInDim S5000 ![] bcast_S_S5000 (constantI S_ 32 16#32))) idx : IVec S5000 32) = idx := by
    funext i
    obtain ⟨u', rfl⟩ : ∃ u' : Fin 5000, i = ix1 u' := ⟨i 0, eq_ix1 i⟩
    show Scalar.select (IntOp.cmpi .slt (idx (ix1 u')) 0#32) _ _ = _
    rw [cmpi_slt_zero _ (hidx u').1, select_zero]
  have hq : ∀ j : S5000x1.Idx, (broadcastInDim S5000x1 ![0] bcast_S5000_S5000x1_0 idx : IVec S5000x1 32) j = idx (ix1 (j 0)) := fun j =>
    broadcastInDim_apply ![0] bcast_S5000_S5000x1_0 idx j (ix1 (j 0)) (fun a => by
      obtain rfl : a = 0 := Subsingleton.elim _ _
      rfl)
  have hok : ∀ j : S5000.Idx, (Host.reduce IntOp.andi (andi (cmpi .sge (broadcastInDim S5000x1 ![0] bcast_S5000_S5000x1_0 idx : IVec S5000x1 32) (broadcastInDim S5000x1 ![] bcast_S_S5000x1 (constantI S_ 32 0#32))) (cmpi .sle (broadcastInDim S5000x1 ![0] bcast_S5000_S5000x1_0 idx : IVec S5000x1 32) (broadcastInDim S5000x1 ![0, 1] bcast_S1x1_S5000x1_0_1 (broadcastInDim S1x1 ![1] bcast_S1_S1x1_1 (constantI S1 32 15#32))))) (constantI S_ 1 1#1) reducesTo_S5000x1_S5000_d1 h_S_ : IVec S5000 1) j = 1#1 := fun j =>
    reduce_andi_ones _ _ _ _ (fun _ => rfl) (fun i => by
      show IntOp.andi (IntOp.cmpi .sge ((broadcastInDim S5000x1 ![0] bcast_S5000_S5000x1_0 idx : IVec S5000x1 32) i) 0#32) (IntOp.cmpi .sle ((broadcastInDim S5000x1 ![0] bcast_S5000_S5000x1_0 idx : IVec S5000x1 32) i) 15#32) = 1#1
      rw [hq i, cmpi_sge_zero _ (hidx (i 0)).1, cmpi_sle_of_le _ 15#32 (by
        have h7 : (15#32 : BitVec 32).toInt = 15 := by decide
        have := (hidx (i 0)).2
        omega)]
      decide) j
  show Scalar.select ((broadcastInDim S5000x8 ![0] bcast_S5000_S5000x8_0 (Host.reduce IntOp.andi (andi (cmpi .sge (broadcastInDim S5000x1 ![0] bcast_S5000_S5000x1_0 (select (cmpi .slt idx (broadcastInDim S5000 ![] bcast_S_S5000 (constantI S_ 32 0#32))) (addi idx (broadcastInDim S5000 ![] bcast_S_S5000 (constantI S_ 32 16#32))) idx : IVec S5000 32) : IVec S5000x1 32) (broadcastInDim S5000x1 ![] bcast_S_S5000x1 (constantI S_ 32 0#32))) (cmpi .sle (broadcastInDim S5000x1 ![0] bcast_S5000_S5000x1_0 (select (cmpi .slt idx (broadcastInDim S5000 ![] bcast_S_S5000 (constantI S_ 32 0#32))) (addi idx (broadcastInDim S5000 ![] bcast_S_S5000 (constantI S_ 32 16#32))) idx : IVec S5000 32) : IVec S5000x1 32) (broadcastInDim S5000x1 ![0, 1] bcast_S1x1_S5000x1_0_1 (broadcastInDim S1x1 ![1] bcast_S1_S1x1_1 (constantI S1 32 15#32))))) (constantI S_ 1 1#1) reducesTo_S5000x1_S5000_d1 h_S_ : IVec S5000 1) : IVec S5000x8 1) (ix2 u f))
      (Host.gather gather_S16x8_S5000x1_S5000x8_1_0_n_n_0_1_18 tbl (broadcastInDim S5000x1 ![0] bcast_S5000_S5000x1_0 (select (cmpi .slt idx (broadcastInDim S5000 ![] bcast_S_S5000 (constantI S_ 32 0#32))) (addi idx (broadcastInDim S5000 ![] bcast_S_S5000 (constantI S_ 32 16#32))) idx : IVec S5000 32) : IVec S5000x1 32) (ix2 u f)) ((broadcastInDim S5000x8 ![] bcast_S_S5000x8 (constant (F := Ideal) S_ .f32 0x7FC00000#32) : FVec Ideal S5000x8 .f32) (ix2 u f)) = pick tbl idx u f
  rw [hw]
  rw [broadcastInDim_apply ![0] bcast_S5000_S5000x8_0 (Host.reduce IntOp.andi (andi (cmpi .sge (broadcastInDim S5000x1 ![0] bcast_S5000_S5000x1_0 idx : IVec S5000x1 32) (broadcastInDim S5000x1 ![] bcast_S_S5000x1 (constantI S_ 32 0#32))) (cmpi .sle (broadcastInDim S5000x1 ![0] bcast_S5000_S5000x1_0 idx : IVec S5000x1 32) (broadcastInDim S5000x1 ![0, 1] bcast_S1x1_S5000x1_0_1 (broadcastInDim S1x1 ![1] bcast_S1_S1x1_1 (constantI S1 32 15#32))))) (constantI S_ 1 1#1) reducesTo_S5000x1_S5000_d1 h_S_ : IVec S5000 1) (ix2 u f) (ix1 u) (fun a => by
      obtain rfl : a = 0 := Subsingleton.elim _ _
      rfl), hok, select_one]
  refine (gather_row_apply (V := 16) (N := 5000) (by decide) _ tbl _ u f).trans ?_
  have hqu : (broadcastInDim S5000x1 ![0] bcast_S5000_S5000x1_0 idx : IVec S5000x1 32) (ix2 u (0 : Fin 1)) = idx (ix1 u) := hq (ix2 u (0 : Fin 1))
  have h0 := (hidx u).1
  have h1 := (hidx u).2
  have hn : (idx (ix1 u)).toInt.toNat = (idx (ix1 u)).toNat := toNat_of_toInt_nonneg _ h0
  have hlt : (idx (ix1 u)).toNat < 16 := by omega
  unfold pick
  rw [dif_pos hlt]
  refine congrArg tbl (congrArg (fun r => ix2 r f) (Fin.ext ?_))
  show min ((broadcastInDim S5000x1 ![0] bcast_S5000_S5000x1_0 idx : IVec S5000x1 32) (ix2 u (0 : Fin 1))).toInt.toNat (16 - 1) = (idx (ix1 u)).toNat
  rw [hqu]
  omega

end Cert.ReferenceIdeal.RefValue

end
-- ==== Proof.RefRead.lean ====
/-
  Readings that mention no program: a plain matrix product at an entry as a sum over the contracted axis; a sum over
  48 (or 40) columns as the sums over its column blocks 32 + 8 + 8 (or 32 + 8), grouped from the left; and division by
  the float word of 4 as multiplication by the float word of one quarter.
-/
import Idealize.ShloMosaic.PureOps.Ideal.Laws
import Idealize.ShloMosaic.Lib.ValueIdx
import Idealize.ShloMosaic.Lib.IdealHost

noncomputable section

open scoped BigOperators

namespace Cert.ReferenceIdeal.RefValue

open Idealize.ShloMosaic Idealize.ShloMosaic.ValueIdx

/-- An `M × K` by `K × N` product at entry `(i, j)`: the sum over the contracted axis of the products of the two
    operands' entries. -/
theorem dot_plain_apply (M K N : Nat) (l : FVec Ideal ⟨2, ![M, K]⟩ .f32) (r : FVec Ideal ⟨2, ![K, N]⟩ .f32)
    (i : Fin M) (j : Fin N) :
    Host.dotGeneral (F := Ideal) (DotDims.plain M K N) none l r (ix2 i j) = ∑ c : Fin K, l (ix2 i c) * r (ix2 c j) := by
  show FloatOps.dotGeneral (DotDims.plain M K N) none .single l r (ix2 i j) = _
  rw [Ideal.dotGeneral_apply, ← Equiv.sum_comp (contrEquiv1 (DotDims.plain M K N) K rfl rfl).symm]
  refine Finset.sum_congr rfl fun c _ => ?_
  have hc := contrEquiv1_symm_val (DotDims.plain M K N) K rfl rfl c
  congr 1
  · refine congrArg l (funext fun a => Fin.ext ?_)
    match a with
    | ⟨0, _⟩ => rfl
    | ⟨1, _⟩ => exact ((DotDims.plain M K N).lhsIdx_val_of_single rfl _ _).trans hc
  · refine congrArg r (funext fun a => Fin.ext ?_)
    match a with
    | ⟨0, _⟩ => exact ((DotDims.plain M K N).rhsIdx_val_of_single rfl _ _).trans hc
    | ⟨1, _⟩ => rfl

/-- A sum over 48 columns is the sum over columns 0…31, plus that over 32…39, plus that over 40…47. -/
theorem sum_split_48 {M : Type} [AddCommMonoid M] (g : Fin 48 → M) :
    ∑ c : Fin 48, g c
      = ((∑ k : Fin 32, g ⟨k.val, by omega⟩) + ∑ f : Fin 8, g ⟨32 + f.val, by omega⟩) + ∑ f : Fin 8, g ⟨40 + f.val, by omega⟩ := by
  show ∑ c : Fin (32 + 8 + 8), g c = _
  rw [Fin.sum_univ_add, Fin.sum_univ_add]
  rfl

/-- A sum over 40 columns is the sum over columns 0…31 plus that over 32…39. -/
theorem sum_split_40 {M : Type} [AddCommMonoid M] (g : Fin 40 → M) :
    ∑ c : Fin 40, g c = (∑ k : Fin 32, g ⟨k.val, by omega⟩) + ∑ f : Fin 8, g ⟨32 + f.val, by omega⟩ := by
  show ∑ c : Fin (32 + 8), g c = _
  rw [Fin.sum_univ_add]
  rfl

/-- The float word `0x40800000` is four. -/
theorem ofBits_four : Ideal.ofBits .f32 0x40800000#32 = ((4 : ℝ) : EReal) := by
  simp [Ideal.ofBits, Ideal.ieee]
  rw [← EReal.coe_mul]
  norm_num

/-- The float word `0x3E800000` is one quarter. -/
theorem ofBits_quarter : Ideal.ofBits .f32 0x3E800000#32 = ((1 / 4 : ℝ) : EReal) := by
  simp [Ideal.ofBits, Ideal.ieee]
  rw [← EReal.coe_mul]
  norm_num

/-- Dividing by four is multiplying by one quarter, for every extended real (four is neither zero nor infinite). -/
theorem div_four (x : EReal) : Ideal.div x (Ideal.ofBits .f32 0x40800000#32) = x * Ideal.ofBits .f32 0x3E800000#32 := by
  rw [ofBits_four, ofBits_quarter]
  exact Ideal.div_coe (by norm_num) x

end Cert.ReferenceIdeal.RefValue

end
-- ==== Proof.RefDot.lean ====
/-
  The reference's affine maps, propagation steps and means, read at an entry.

  The joined feature array has the node's embedding in columns 0…31 and its looked-up rows after it; its product with
  the transposed weights, summed over all columns, is therefore the sum over each column block of that block's
  entries against the matching columns of the weights — grouped from the left, as the specification groups them — and
  the bias, repeated down the rows, adds its entry for the output column. A propagation step is a plain product with
  the weight matrix, or with its transpose read back as the matrix itself. The mean stacks the four layers along a
  middle axis, sums along it from zero — layer 0, then 1, 2, 3 — and divides by four, that is multiplies by a quarter.
-/
import proofs.«129974_g1760936592044_cont_8to1_853_2_alg».proof.Proof.RefStage
import proofs.«129974_g1760936592044_cont_8to1_853_2_alg».proof.Proof.RefTake
import proofs.«129974_g1760936592044_cont_8to1_853_2_alg».proof.Proof.RefRead
import Idealize.ShloMosaic.Lib.ValueLayout

noncomputable section

open scoped BigOperators

namespace Cert.ReferenceIdeal.RefValue

open Cert.ReferenceIdeal Cert.ReferenceIdeal.Gen Idealize.ShloMosaic Idealize.ShloMosaic.ValueIdx Cert.Spec

/-- The bias, given a leading axis of extent one and repeated down 10000 rows, reads its entry for the column. -/
theorem biasU (b : FVec Ideal S32 .f32) (u : Fin 10000) (d : Fin 32) :
    (broadcastInDim S10000x32 ![0, 1] bcast_S1x32_S10000x32_0_1 (broadcastInDim S1x32 ![1] bcast_S32_S1x32_1 b) : FVec Ideal S10000x32 .f32) (ix2 u d)
      = b (ix1 d) := by
  rw [broadcastInDim_apply ![0, 1] bcast_S1x32_S10000x32_0_1 _ (ix2 u d) (ix2 (0 : Fin 1) d)
    (fun a => by match a with | ⟨0, _⟩ => rfl | ⟨1, _⟩ => rfl)]
  exact broadcastInDim_apply ![1] bcast_S32_S1x32_1 b (ix2 (0 : Fin 1) d) (ix1 d)
    (fun a => by obtain rfl : a = 0 := Subsingleton.elim _ _; rfl)

/-- The bias, given a leading axis of extent one and repeated down 5000 rows, reads its entry for the column. -/
theorem biasI (b : FVec Ideal S32 .f32) (u : Fin 5000) (d : Fin 32) :
    (broadcastInDim S5000x32 ![0, 1] bcast_S1x32_S5000x32_0_1 (broadcastInDim S1x32 ![1] bcast_S32_S1x32_1 b) : FVec Ideal S5000x32 .f32) (ix2 u d)
      = b (ix1 d) := by
  rw [broadcastInDim_apply ![0, 1] bcast_S1x32_S5000x32_0_1 _ (ix2 u d) (ix2 (0 : Fin 1) d)
    (fun a => by match a with | ⟨0, _⟩ => rfl | ⟨1, _⟩ => rfl)]
  exact broadcastInDim_apply ![1] bcast_S32_S1x32_1 b (ix2 (0 : Fin 1) d) (ix1 d)
    (fun a => by obtain rfl : a = 0 := Subsingleton.elim _ _; rfl)

section JoinedUser
variable (x1 : FVec Ideal S10000x32 .f32) (x2 x3 : FVec Ideal S10000x8 .f32) (u : Fin 10000)

/-- Columns 0…31 of the joined features are piece 0. -/
theorem joinU_0 (k : Fin 32) :
    (concatenate S10000x48 1 [⟨S10000x32, x1⟩, ⟨S10000x8, x2⟩, ⟨S10000x8, x3⟩] concatenates_S10000x32_S10000x8_S10000x8_S10000x48_d1 : FVec Ideal S10000x48 .f32) (ix2 u (⟨k.val, by omega⟩ : Fin 48))
      = x1 (ix2 u k) :=
  concatenate_apply_piece (t := S10000x48) (1 : Fin 2) [⟨S10000x32, x1⟩, ⟨S10000x8, x2⟩, ⟨S10000x8, x3⟩] concatenates_S10000x32_S10000x8_S10000x8_S10000x48_d1 _ 0 (by show (0 : Nat) < 3; decide) S10000x32 x1 rfl rfl 0 rfl
    (ix2 u k) (fun b hb => by match b with | ⟨0, _⟩ => rfl | ⟨1, _⟩ => exact absurd rfl hb) (Nat.zero_add _)

/-- Columns 32…39 of the joined features are piece 1. -/
theorem joinU_1 (k : Fin 8) :
    (concatenate S10000x48 1 [⟨S10000x32, x1⟩, ⟨S10000x8, x2⟩, ⟨S10000x8, x3⟩] concatenates_S10000x32_S10000x8_S10000x8_S10000x48_d1 : FVec Ideal S10000x48 .f32) (ix2 u (⟨32 + k.val, by omega⟩ : Fin 48))
      = x2 (ix2 u k) :=
  concatenate_apply_piece (t := S10000x48) (1 : Fin 2) [⟨S10000x32, x1⟩, ⟨S10000x8, x2⟩, ⟨S10000x8, x3⟩] concatenates_S10000x32_S10000x8_S10000x8_S10000x48_d1 _ 1 (by show (1 : Nat) < 3; decide) S10000x8 x2 rfl rfl 32 rfl
    (ix2 u k) (fun b hb => by match b with | ⟨0, _⟩ => rfl | ⟨1, _⟩ => exact absurd rfl hb) rfl

/-- Columns 40…47 of the joined features are piece 2. -/
theorem joinU_2 (k : Fin 8) :
    (concatenate S10000x48 1 [⟨S10000x32, x1⟩, ⟨S10000x8, x2⟩, ⟨S10000x8, x3⟩] concatenates_S10000x32_S10000x8_S10000x8_S10000x48_d1 : FVec Ideal S10000x48 .f32) (ix2 u (⟨40 + k.val, by omega⟩ : Fin 48))
      = x3 (ix2 u k) :=
  concatenate_apply_piece (t := S10000x48) (1 : Fin 2) [⟨S10000x32, x1⟩, ⟨S10000x8, x2⟩, ⟨S10000x8, x3⟩] concatenates_S10000x32_S10000x8_S10000x8_S10000x48_d1 _ 2 (by show (2 : Nat) < 3; decide) S10000x8 x3 rfl rfl 40 rfl
    (ix2 u k) (fun b hb => by match b with | ⟨0, _⟩ => rfl | ⟨1, _⟩ => exact absurd rfl hb) rfl

end JoinedUser

/-- LAYER 0, USERS: under the range hypotheses the program's layer-0 user embedding is the specification's. -/
theorem user0T_apply (a : Args)
    (hrec : ∀ u : Fin 10000, 0 ≤ (a.recI (ix1 u)).toInt ∧ (a.recI (ix1 u)).toInt < 8)
    (htyp : ∀ u : Fin 10000, 0 ≤ (a.typI (ix1 u)).toInt ∧ (a.typI (ix1 u)).toInt < 8) (u : Fin 10000) (d : Fin 32) :
    user0T a (ix2 u d) = user0 a.ue a.recI a.typI a.recW a.typW a.upw a.upb u d := by
  have hT : ∀ c : Fin 48, (transpose S48x32 [1, 0] a.upw transposes_S32x48_S48x32_1_0 : FVec Ideal S48x32 .f32) (ix2 c d)
      = a.upw (ix2 d c) := fun c => transpose_ix2_apply a.upw _ c d
  show Host.dotGeneral (F := Ideal) (DotDims.plain 10000 48 32) none
        (concatenate S10000x48 1 [⟨S10000x32, a.ue⟩, ⟨S10000x8, take8 a.recW a.recI⟩, ⟨S10000x8, take8 a.typW a.typI⟩]
          concatenates_S10000x32_S10000x8_S10000x8_S10000x48_d1 : FVec Ideal S10000x48 .f32)
        (transpose S48x32 [1, 0] a.upw transposes_S32x48_S48x32_1_0 : FVec Ideal S48x32 .f32) (ix2 u d)
      + (broadcastInDim S10000x32 ![0, 1] bcast_S1x32_S10000x32_0_1 (broadcastInDim S1x32 ![1] bcast_S32_S1x32_1 a.upb) : FVec Ideal S10000x32 .f32) (ix2 u d)
      = _
  rw [dot_plain_apply, biasU, sum_split_48]
  unfold user0
  simp only [hT, joinU_0, joinU_1, joinU_2, take8_apply _ _ hrec, take8_apply _ _ htyp]

section JoinedItem
variable (x1 : FVec Ideal S5000x32 .f32) (x2 : FVec Ideal S5000x8 .f32) (u : Fin 5000)

/-- Columns 0…31 of the joined features are piece 0. -/
theorem joinI_0 (k : Fin 32) :
    (concatenate S5000x40 1 [⟨S5000x32, x1⟩, ⟨S5000x8, x2⟩] concatenates_S5000x32_S5000x8_S5000x40_d1 : FVec Ideal S5000x40 .f32) (ix2 u (⟨k.val, by omega⟩ : Fin 40))
      = x1 (ix2 u k) :=
  concatenate_apply_piece (t := S5000x40) (1 : Fin 2) [⟨S5000x32, x1⟩, ⟨S5000x8, x2⟩] concatenates_S5000x32_S5000x8_S5000x40_d1 _ 0 (by show (0 : Nat) < 2; decide) S5000x32 x1 rfl rfl 0 rfl
    (ix2 u k) (fun b hb => by match b with | ⟨0, _⟩ => rfl | ⟨1, _⟩ => exact absurd rfl hb) (Nat.zero_add _)

/-- Columns 32…39 of the joined features are piece 1. -/
theorem joinI_1 (k : Fin 8) :
    (concatenate S5000x40 1 [⟨S5000x32, x1⟩, ⟨S5000x8, x2⟩] concatenates_S5000x32_S5000x8_S5000x40_d1 : FVec Ideal S5000x40 .f32) (ix2 u (⟨32 + k.val, by omega⟩ : Fin 40))
      = x2 (ix2 u k) :=
  concatenate_apply_piece (t := S5000x40) (1 : Fin 2) [⟨S5000x32, x1⟩, ⟨S5000x8, x2⟩] concatenates_S5000x32_S5000x8_S5000x40_d1 _ 1 (by show (1 : Nat) < 2; decide) S5000x8 x2 rfl rfl 32 rfl
    (ix2 u k) (fun b hb => by match b with | ⟨0, _⟩ => rfl | ⟨1, _⟩ => exact absurd rfl hb) rfl

end JoinedItem

/-- LAYER 0, ITEMS: under the range hypothesis the program's layer-0 item embedding is the specification's. -/
theorem item0T_apply (a : Args)
    (hres : ∀ j : Fin 5000, 0 ≤ (a.resI (ix1 j)).toInt ∧ (a.resI (ix1 j)).toInt < 16) (j : Fin 5000) (d : Fin 32) :
    item0T a (ix2 j d) = item0 a.ie a.resI a.resW a.ipw a.ipb j d := by
  have hT : ∀ c : Fin 40, (transpose S40x32 [1, 0] a.ipw transposes_S32x40_S40x32_1_0 : FVec Ideal S40x32 .f32) (ix2 c d)
      = a.ipw (ix2 d c) := fun c => transpose_ix2_apply a.ipw _ c d
  show Host.dotGeneral (F := Ideal) (DotDims.plain 5000 40 32) none
        (concatenate S5000x40 1 [⟨S5000x32, a.ie⟩, ⟨S5000x8, take16 a.resW a.resI⟩] concatenates_S5000x32_S5000x8_S5000x40_d1 : FVec Ideal S5000x40 .f32)
        (transpose S40x32 [1, 0] a.ipw transposes_S32x40_S40x32_1_0 : FVec Ideal S40x32 .f32) (ix2 j d)
      + (broadcastInDim S5000x32 ![0, 1] bcast_S1x32_S5000x32_0_1 (broadcastInDim S1x32 ![1] bcast_S32_S1x32_1 a.ipb) : FVec Ideal S5000x32 .f32) (ix2 j d)
      = _
  rw [dot_plain_apply, biasI, sum_split_40]
  unfold item0
  simp only [hT, joinI_0, joinI_1, take16_apply _ _ hres]

/-- A propagation step towards the users, at an entry: the weight matrix's row against the item embeddings' column. -/
theorem toUsersT_apply (adj : FVec Ideal S10000x5000 .f32) (x : FVec Ideal S5000x32 .f32) (u : Fin 10000) (d : Fin 32) :
    toUsersT adj x (ix2 u d) = ∑ j : Fin 5000, adj (ix2 u j) * x (ix2 j d) := by
  show Host.dotGeneral (F := Ideal) (DotDims.plain 10000 5000 32) none adj x (ix2 u d) = _
  exact dot_plain_apply 10000 5000 32 adj x u d

/-- A propagation step towards the items, at an entry: the weight matrix's column against the user embeddings'
    column (the transpose read back as the matrix). -/
theorem toItemsT_apply (adj : FVec Ideal S10000x5000 .f32) (x : FVec Ideal S10000x32 .f32) (j : Fin 5000) (d : Fin 32) :
    toItemsT adj x (ix2 j d) = ∑ u : Fin 10000, adj (ix2 u j) * x (ix2 u d) := by
  have hT : ∀ c : Fin 10000, (transpose S5000x10000 [1, 0] adj transposes_S10000x5000_S5000x10000_1_0 : FVec Ideal S5000x10000 .f32) (ix2 j c)
      = adj (ix2 c j) := fun c => transpose_ix2_apply adj _ j c
  show Host.dotGeneral (F := Ideal) (DotDims.plain 5000 10000 32) none
    (transpose S5000x10000 [1, 0] adj transposes_S10000x5000_S5000x10000_1_0 : FVec Ideal S5000x10000 .f32) x (ix2 j d) = _
  rw [dot_plain_apply]
  simp only [hT]

section StackU
variable (y0 y1 y2 y3 : FVec Ideal S10000x1x32 .f32) (u : Fin 10000) (d : Fin 32)

/-- Slab 0 of the stack of four is piece 0. -/
theorem stackU_0 :
    (concatenate S10000x4x32 1 [⟨S10000x1x32, y0⟩, ⟨S10000x1x32, y1⟩, ⟨S10000x1x32, y2⟩, ⟨S10000x1x32, y3⟩] concatenates_S10000x1x32_S10000x1x32_S10000x1x32_S10000x1x32_S10000x4x32_d1 : FVec Ideal S10000x4x32 .f32) (ix3 u (0 : Fin 4) d) = y0 (ix3 u (0 : Fin 1) d) :=
  concatenate_apply_piece (t := S10000x4x32) (1 : Fin 3) [⟨S10000x1x32, y0⟩, ⟨S10000x1x32, y1⟩, ⟨S10000x1x32, y2⟩, ⟨S10000x1x32, y3⟩] concatenates_S10000x1x32_S10000x1x32_S10000x1x32_S10000x1x32_S10000x4x32_d1 _ 0 (by show (0 : Nat) < 4; decide) S10000x1x32 y0 rfl rfl 0 rfl
    (ix3 u (0 : Fin 1) d) (fun b hb => by match b with | ⟨0, _⟩ => rfl | ⟨1, _⟩ => exact absurd rfl hb | ⟨2, _⟩ => rfl) rfl

/-- Slab 1 of the stack of four is piece 1. -/
theorem stackU_1 :
    (concatenate S10000x4x32 1 [⟨S10000x1x32, y0⟩, ⟨S10000x1x32, y1⟩, ⟨S10000x1x32, y2⟩, ⟨S10000x1x32, y3⟩] concatenates_S10000x1x32_S10000x1x32_S10000x1x32_S10000x1x32_S10000x4x32_d1 : FVec Ideal S10000x4x32 .f32) (ix3 u (1 : Fin 4) d) = y1 (ix3 u (0 : Fin 1) d) :=
  concatenate_apply_piece (t := S10000x4x32) (1 : Fin 3) [⟨S10000x1x32, y0⟩, ⟨S10000x1x32, y1⟩, ⟨S10000x1x32, y2⟩, ⟨S10000x1x32, y3⟩] concatenates_S10000x1x32_S10000x1x32_S10000x1x32_S10000x1x32_S10000x4x32_d1 _ 1 (by show (1 : Nat) < 4; decide) S10000x1x32 y1 rfl rfl 1 rfl
    (ix3 u (0 : Fin 1) d) (fun b hb => by match b with | ⟨0, _⟩ => rfl | ⟨1, _⟩ => exact absurd rfl hb | ⟨2, _⟩ => rfl) rfl

/-- Slab 2 of the stack of four is piece 2. -/
theorem stackU_2 :
    (concatenate S10000x4x32 1 [⟨S10000x1x32, y0⟩, ⟨S10000x1x32, y1⟩, ⟨S10000x1x32, y2⟩, ⟨S10000x1x32, y3⟩] concatenates_S10000x1x32_S10000x1x32_S10000x1x32_S10000x1x32_S10000x4x32_d1 : FVec Ideal S10000x4x32 .f32) (ix3 u (2 : Fin 4) d) = y2 (ix3 u (0 : Fin 1) d) :=
  concatenate_apply_piece (t := S10000x4x32) (1 : Fin 3) [⟨S10000x1x32, y0⟩, ⟨S10000x1x32, y1⟩, ⟨S10000x1x32, y2⟩, ⟨S10000x1x32, y3⟩] concatenates_S10000x1x32_S10000x1x32_S10000x1x32_S10000x1x32_S10000x4x32_d1 _ 2 (by show (2 : Nat) < 4; decide) S10000x1x32 y2 rfl rfl 2 rfl
    (ix3 u (0 : Fin 1) d) (fun b hb => by match b with | ⟨0, _⟩ => rfl | ⟨1, _⟩ => exact absurd rfl hb | ⟨2, _⟩ => rfl) rfl

/-- Slab 3 of the stack of four is piece 3. -/
theorem stackU_3 :
    (concatenate S10000x4x32 1 [⟨S10000x1x32, y0⟩, ⟨S10000x1x32, y1⟩, ⟨S10000x1x32, y2⟩, ⟨S10000x1x32, y3⟩] concatenates_S10000x1x32_S10000x1x32_S10000x1x32_S10000x1x32_S10000x4x32_d1 : FVec Ideal S10000x4x32 .f32) (ix3 u (3 : Fin 4) d) = y3 (ix3 u (0 : Fin 1) d) :=
  concatenate_apply_piece (t := S10000x4x32) (1 : Fin 3) [⟨S10000x1x32, y0⟩, ⟨S10000x1x32, y1⟩, ⟨S10000x1x32, y2⟩, ⟨S10000x1x32, y3⟩] concatenates_S10000x1x32_S10000x1x32_S10000x1x32_S10000x1x32_S10000x4x32_d1 _ 3 (by show (3 : Nat) < 4; decide) S10000x1x32 y3 rfl rfl 3 rfl
    (ix3 u (0 : Fin 1) d) (fun b hb => by match b with | ⟨0, _⟩ => rfl | ⟨1, _⟩ => exact absurd rfl hb | ⟨2, _⟩ => rfl) rfl

end StackU

/-- A layer given a middle axis of extent one reads the layer. -/
theorem layerU (l : FVec Ideal S10000x32 .f32) (u : Fin 10000) (d : Fin 32) : (broadcastInDim S10000x1x32 ![0, 2] bcast_S10000x32_S10000x1x32_0_2 l : FVec Ideal S10000x1x32 .f32) (ix3 u (0 : Fin 1) d) = l (ix2 u d) :=
  broadcastInDim_apply ![0, 2] bcast_S10000x32_S10000x1x32_0_2 l _ (ix2 u d) (fun a => by match a with | ⟨0, _⟩ => rfl | ⟨1, _⟩ => rfl)

/-- The index the sum along the middle axis visits at step `k`. -/
theorem liftU (hR : S10000x4x32.Reduces [1] S10000x32) (u : Fin 10000) (d : Fin 32) (k : Fin 4) : hR.lift (ix2 u d) k = ix3 u k d := by
  funext a
  refine Fin.ext ?_
  match a with
  | ⟨0, _⟩ => rfl
  | ⟨1, _⟩ => rfl
  | ⟨2, _⟩ => rfl

/-- THE MEAN of four layers of user embeddings, at an entry: the four summed in layer order, times one quarter. -/
theorem meanU_apply (l0 l1 l2 l3 : FVec Ideal S10000x32 .f32) (u : Fin 10000) (d : Fin 32) :
    meanU l0 l1 l2 l3 (ix2 u d) = (((l0 (ix2 u d) + l1 (ix2 u d)) + l2 (ix2 u d)) + l3 (ix2 u d)) * quarter := by
  have hR : S10000x4x32.Reduces [1] S10000x32 := by decide
  show Ideal.div (Ideal.hostReduceAdd reducesTo_S10000x4x32_S10000x32_d1
      (concatenate S10000x4x32 1 [⟨S10000x1x32, (broadcastInDim S10000x1x32 ![0, 2] bcast_S10000x32_S10000x1x32_0_2 l0 : FVec Ideal S10000x1x32 .f32)⟩, ⟨S10000x1x32, (broadcastInDim S10000x1x32 ![0, 2] bcast_S10000x32_S10000x1x32_0_2 l1 : FVec Ideal S10000x1x32 .f32)⟩, ⟨S10000x1x32, (broadcastInDim S10000x1x32 ![0, 2] bcast_S10000x32_S10000x1x32_0_2 l2 : FVec Ideal S10000x1x32 .f32)⟩, ⟨S10000x1x32, (broadcastInDim S10000x1x32 ![0, 2] bcast_S10000x32_S10000x1x32_0_2 l3 : FVec Ideal S10000x1x32 .f32)⟩] concatenates_S10000x1x32_S10000x1x32_S10000x1x32_S10000x1x32_S10000x4x32_d1 : FVec Ideal S10000x4x32 .f32)
      (Ideal.ofBits .f32 0x00000000#32) (ix2 u d)) (Ideal.ofBits .f32 0x40800000#32) = _
  rw [div_four, Ideal.hostReduceAdd_single _ hR, Ideal.ofBits_zero_f32, zero_add]
  refine (congrArg (fun s => s * Ideal.ofBits .f32 0x3E800000#32) (Fin.sum_univ_four _)).trans ?_
  rw [liftU, liftU, liftU, liftU, stackU_0, stackU_1, stackU_2, stackU_3, layerU, layerU, layerU, layerU]
  rfl

section StackI
variable (y0 y1 y2 y3 : FVec Ideal S5000x1x32 .f32) (u : Fin 5000) (d : Fin 32)

/-- Slab 0 of the stack of four is piece 0. -/
theorem stackI_0 :
    (concatenate S5000x4x32 1 [⟨S5000x1x32, y0⟩, ⟨S5000x1x32, y1⟩, ⟨S5000x1x32, y2⟩, ⟨S5000x1x32, y3⟩] concatenates_S5000x1x32_S5000x1x32_S5000x1x32_S5000x1x32_S5000x4x32_d1 : FVec Ideal S5000x4x32 .f32) (ix3 u (0 : Fin 4) d) = y0 (ix3 u (0 : Fin 1) d) :=
  concatenate_apply_piece (t := S5000x4x32) (1 : Fin 3) [⟨S5000x1x32, y0⟩, ⟨S5000x1x32, y1⟩, ⟨S5000x1x32, y2⟩, ⟨S5000x1x32, y3⟩] concatenates_S5000x1x32_S5000x1x32_S5000x1x32_S5000x1x32_S5000x4x32_d1 _ 0 (by show (0 : Nat) < 4; decide) S5000x1x32 y0 rfl rfl 0 rfl
    (ix3 u (0 : Fin 1) d) (fun b hb => by match b with | ⟨0, _⟩ => rfl | ⟨1, _⟩ => exact absurd rfl hb | ⟨2, _⟩ => rfl) rfl

/-- Slab 1 of the stack of four is piece 1. -/
theorem stackI_1 :
    (concatenate S5000x4x32 1 [⟨S5000x1x32, y0⟩, ⟨S5000x1x32, y1⟩, ⟨S5000x1x32, y2⟩, ⟨S5000x1x32, y3⟩] concatenates_S5000x1x32_S5000x1x32_S5000x1x32_S5000x1x32_S5000x4x32_d1 : FVec Ideal S5000x4x32 .f32) (ix3 u (1 : Fin 4) d) = y1 (ix3 u (0 : Fin 1) d) :=
  concatenate_apply_piece (t := S5000x4x32) (1 : Fin 3) [⟨S5000x1x32, y0⟩, ⟨S5000x1x32, y1⟩, ⟨S5000x1x32, y2⟩, ⟨S5000x1x32, y3⟩] concatenates_S5000x1x32_S5000x1x32_S5000x1x32_S5000x1x32_S5000x4x32_d1 _ 1 (by show (1 : Nat) < 4; decide) S5000x1x32 y1 rfl rfl 1 rfl
    (ix3 u (0 : Fin 1) d) (fun b hb => by match b with | ⟨0, _⟩ => rfl | ⟨1, _⟩ => exact absurd rfl hb | ⟨2, _⟩ => rfl) rfl

/-- Slab 2 of the stack of four is piece 2. -/
theorem stackI_2 :
    (concatenate S5000x4x32 1 [⟨S5000x1x32, y0⟩, ⟨S5000x1x32, y1⟩, ⟨S5000x1x32, y2⟩, ⟨S5000x1x32, y3⟩] concatenates_S5000x1x32_S5000x1x32_S5000x1x32_S5000x1x32_S5000x4x32_d1 : FVec Ideal S5000x4x32 .f32) (ix3 u (2 : Fin 4) d) = y2 (ix3 u (0 : Fin 1) d) :=
  concatenate_apply_piece (t := S5000x4x32) (1 : Fin 3) [⟨S5000x1x32, y0⟩, ⟨S5000x1x32, y1⟩, ⟨S5000x1x32, y2⟩, ⟨S5000x1x32, y3⟩] concatenates_S5000x1x32_S5000x1x32_S5000x1x32_S5000x1x32_S5000x4x32_d1 _ 2 (by show (2 : Nat) < 4; decide) S5000x1x32 y2 rfl rfl 2 rfl
    (ix3 u (0 : Fin 1) d) (fun b hb => by match b with | ⟨0, _⟩ => rfl | ⟨1, _⟩ => exact absurd rfl hb | ⟨2, _⟩ => rfl) rfl

/-- Slab 3 of the stack of four is piece 3. -/
theorem stackI_3 :
    (concatenate S5000x4x32 1 [⟨S5000x1x32, y0⟩, ⟨S5000x1x32, y1⟩, ⟨S5000x1x32, y2⟩, ⟨S5000x1x32, y3⟩] concatenates_S5000x1x32_S5000x1x32_S5000x1x32_S5000x1x32_S5000x4x32_d1 : FVec Ideal S5000x4x32 .f32) (ix3 u (3 : Fin 4) d) = y3 (ix3 u (0 : Fin 1) d) :=
  concatenate_apply_piece (t := S5000x4x32) (1 : Fin 3) [⟨S5000x1x32, y0⟩, ⟨S5000x1x32, y1⟩, ⟨S5000x1x32, y2⟩, ⟨S5000x1x32, y3⟩] concatenates_S5000x1x32_S5000x1x32_S5000x1x32_S5000x1x32_S5000x4x32_d1 _ 3 (by show (3 : Nat) < 4; decide) S5000x1x32 y3 rfl rfl 3 rfl
    (ix3 u (0 : Fin 1) d) (fun b hb => by match b with | ⟨0, _⟩ => rfl | ⟨1, _⟩ => exact absurd rfl hb | ⟨2, _⟩ => rfl) rfl

end StackI

/-- A layer given a middle axis of extent one reads the layer. -/
theorem layerI (l : FVec Ideal S5000x32 .f32) (u : Fin 5000) (d : Fin 32) : (broadcastInDim S5000x1x32 ![0, 2] bcast_S5000x32_S5000x1x32_0_2 l : FVec Ideal S5000x1x32 .f32) (ix3 u (0 : Fin 1) d) = l (ix2 u d) :=
  broadcastInDim_apply ![0, 2] bcast_S5000x32_S5000x1x32_0_2 l _ (ix2 u d) (fun a => by match a with | ⟨0, _⟩ => rfl | ⟨1, _⟩ => rfl)

/-- The index the sum along the middle axis visits at step `k`. -/
theorem liftI (hR : S5000x4x32.Reduces [1] S5000x32) (u : Fin 5000) (d : Fin 32) (k : Fin 4) : hR.lift (ix2 u d) k = ix3 u k d := by
  funext a
  refine Fin.ext ?_
  match a with
  | ⟨0, _⟩ => rfl
  | ⟨1, _⟩ => rfl
  | ⟨2, _⟩ => rfl

/-- THE MEAN of four layers of item embeddings, at an entry: the four summed in layer order, times one quarter. -/
theorem meanI_apply (l0 l1 l2 l3 : FVec Ideal S5000x32 .f32) (u : Fin 5000) (d : Fin 32) :
    meanI l0 l1 l2 l3 (ix2 u d) = (((l0 (ix2 u d) + l1 (ix2 u d)) + l2 (ix2 u d)) + l3 (ix2 u d)) * quarter := by
  have hR : S5000x4x32.Reduces [1] S5000x32 := by decide
  show Ideal.div (Ideal.hostReduceAdd reducesTo_S5000x4x32_S5000x32_d1
      (concatenate S5000x4x32 1 [⟨S5000x1x32, (broadcastInDim S5000x1x32 ![0, 2] bcast_S5000x32_S5000x1x32_0_2 l0 : FVec Ideal S5000x1x32 .f32)⟩, ⟨S5000x1x32, (broadcastInDim S5000x1x32 ![0, 2] bcast_S5000x32_S5000x1x32_0_2 l1 : FVec Ideal S5000x1x32 .f32)⟩, ⟨S5000x1x32, (broadcastInDim S5000x1x32 ![0, 2] bcast_S5000x32_S5000x1x32_0_2 l2 : FVec Ideal S5000x1x32 .f32)⟩, ⟨S5000x1x32, (broadcastInDim S5000x1x32 ![0, 2] bcast_S5000x32_S5000x1x32_0_2 l3 : FVec Ideal S5000x1x32 .f32)⟩] concatenates_S5000x1x32_S5000x1x32_S5000x1x32_S5000x1x32_S5000x4x32_d1 : FVec Ideal S5000x4x32 .f32)
      (Ideal.ofBits .f32 0x00000000#32) (ix2 u d)) (Ideal.ofBits .f32 0x40800000#32) = _
  rw [div_four, Ideal.hostReduceAdd_single _ hR, Ideal.ofBits_zero_f32, zero_add]
  refine (congrArg (fun s => s * Ideal.ofBits .f32 0x3E800000#32) (Fin.sum_univ_four _)).trans ?_
  rw [liftI, liftI, liftI, liftI, stackI_0, stackI_1, stackI_2, stackI_3, layerI, layerI, layerI, layerI]
  rfl

end Cert.ReferenceIdeal.RefValue

end
-- ==== Proof.RefValue.lean ====
/-
  The reference's value. Every weakly fair execution of the reference program terminates with its first result the
  mean over layers 0…3 of the user embeddings, its second the same mean of the item embeddings — the specification's
  `userOut` and `itemOut` of the argument arrays — and the arguments as they were.

  The run leaves each buffer at the fold of the program's operations (RefRun); the fold at the result buffers is the
  composition of the program's stretches (RefAfter), at an argument buffer what was there (RefAfterArgs). Under the
  precondition every category index names a row of its table (RefPre), so each lookup is the specification's `pick`
  (RefTake) and the layer-0 embeddings are the specification's (RefDot); a propagation step applied to arrays that are
  the specification's layer at every entry gives the specification's next layer, so by three rounds all four layers
  agree; and the program's mean of them is the specification's weighted sum (RefDot).
-/
import proofs.«129974_g1760936592044_cont_8to1_853_2_alg».proof.Defs
import proofs.«129974_g1760936592044_cont_8to1_853_2_alg».proof.Proof.Gen.Pre_finite_inputs
import proofs.«129974_g1760936592044_cont_8to1_853_2_alg».proof.Proof.RefRun
import proofs.«129974_g1760936592044_cont_8to1_853_2_alg».proof.Proof.RefAfter
import proofs.«129974_g1760936592044_cont_8to1_853_2_alg».proof.Proof.RefAfterArgs
import proofs.«129974_g1760936592044_cont_8to1_853_2_alg».proof.Proof.RefPre
import proofs.«129974_g1760936592044_cont_8to1_853_2_alg».proof.Proof.RefDot

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx Cert.Spec

/-- The reference's argument arrays on core `c`. -/
def args (m' : (l : Loc Cert.ReferenceIdeal.nD Cert.ReferenceIdeal.τ Cert.ReferenceIdeal.sig) → Buf (Elt Ideal) l)
    (c : Dev Cert.ReferenceIdeal.nD) : Cert.Spec.Args :=
  { adj := m' ((c.tc : Thread nD τ).loc main_arg0),
    recI := m' ((c.tc : Thread nD τ).loc main_arg1),
    typI := m' ((c.tc : Thread nD τ).loc main_arg2),
    resI := m' ((c.tc : Thread nD τ).loc main_arg3),
    ue := m' ((c.tc : Thread nD τ).loc main_arg4),
    ie := m' ((c.tc : Thread nD τ).loc main_arg5),
    recW := m' ((c.tc : Thread nD τ).loc main_arg6),
    typW := m' ((c.tc : Thread nD τ).loc main_arg7),
    resW := m' ((c.tc : Thread nD τ).loc main_arg8),
    upw := m' ((c.tc : Thread nD τ).loc main_arg9),
    upb := m' ((c.tc : Thread nD τ).loc main_arg10),
    ipw := m' ((c.tc : Thread nD τ).loc main_arg11),
    ipb := m' ((c.tc : Thread nD τ).loc main_arg12) }

/-- A step towards the users applied to an array that is `I` at every entry is the specification's step from `I`. -/
theorem stepU (adj : FVec Ideal S10000x5000 .f32) (x : FVec Ideal S5000x32 .f32) (I : Fin 5000 → Fin 32 → EReal)
    (h : ∀ j d, x (ix2 j d) = I j d) (u : Fin 10000) (d : Fin 32) : toUsersT adj x (ix2 u d) = toUsers adj I u d := by
  rw [toUsersT_apply]
  unfold toUsers
  exact Finset.sum_congr rfl fun j _ => by rw [h]

/-- A step towards the items applied to an array that is `U` at every entry is the specification's step from `U`. -/
theorem stepI (adj : FVec Ideal S10000x5000 .f32) (x : FVec Ideal S10000x32 .f32) (U : Fin 10000 → Fin 32 → EReal)
    (h : ∀ u d, x (ix2 u d) = U u d) (j : Fin 5000) (d : Fin 32) : toItemsT adj x (ix2 j d) = toItems adj U j d := by
  rw [toItemsT_apply]
  unfold toItems
  exact Finset.sum_congr rfl fun u _ => by rw [h]

/-- ALL FOUR LAYERS: under the range hypotheses the program's user and item embeddings after 0, 1, 2 and 3 layers are
    the specification's, entry by entry (layer 0 by the affine maps; each later layer from the other side's previous
    one). -/
theorem layers_eq (a : Args)
    (hrec : ∀ u : Fin 10000, 0 ≤ (a.recI (ix1 u)).toInt ∧ (a.recI (ix1 u)).toInt < 8)
    (htyp : ∀ u : Fin 10000, 0 ≤ (a.typI (ix1 u)).toInt ∧ (a.typI (ix1 u)).toInt < 8)
    (hres : ∀ j : Fin 5000, 0 ≤ (a.resI (ix1 j)).toInt ∧ (a.resI (ix1 j)).toInt < 16) :
    (∀ l : Fin 4, ∀ (u : Fin 10000) (d : Fin 32), uT a l.val (ix2 u d) = a.U l.val u d)
      ∧ (∀ l : Fin 4, ∀ (j : Fin 5000) (d : Fin 32), iT a l.val (ix2 j d) = a.I l.val j d) := by
  have hU0 : ∀ (u : Fin 10000) (d : Fin 32), uT a 0 (ix2 u d) = a.U 0 u d := fun u d => user0T_apply a hrec htyp u d
  have hI0 : ∀ (j : Fin 5000) (d : Fin 32), iT a 0 (ix2 j d) = a.I 0 j d := fun j d => item0T_apply a hres j d
  have hU1 : ∀ (u : Fin 10000) (d : Fin 32), uT a 1 (ix2 u d) = a.U 1 u d := fun u d => stepU a.adj (iT a 0) (a.I 0) hI0 u d
  have hI1 : ∀ (j : Fin 5000) (d : Fin 32), iT a 1 (ix2 j d) = a.I 1 j d := fun j d => stepI a.adj (uT a 0) (a.U 0) hU0 j d
  have hU2 : ∀ (u : Fin 10000) (d : Fin 32), uT a 2 (ix2 u d) = a.U 2 u d := fun u d => stepU a.adj (iT a 1) (a.I 1) hI1 u d
  have hI2 : ∀ (j : Fin 5000) (d : Fin 32), iT a 2 (ix2 j d) = a.I 2 j d := fun j d => stepI a.adj (uT a 1) (a.U 1) hU1 j d
  have hU3 : ∀ (u : Fin 10000) (d : Fin 32), uT a 3 (ix2 u d) = a.U 3 u d := fun u d => stepU a.adj (iT a 2) (a.I 2) hI2 u d
  have hI3 : ∀ (j : Fin 5000) (d : Fin 32), iT a 3 (ix2 j d) = a.I 3 j d := fun j d => stepI a.adj (uT a 2) (a.U 2) hU2 j d
  refine ⟨fun l => ?_, fun l => ?_⟩
  · match l with
    | ⟨0, _⟩ => exact hU0
    | ⟨1, _⟩ => exact hU1
    | ⟨2, _⟩ => exact hU2
    | ⟨3, _⟩ => exact hU3
  · match l with
    | ⟨0, _⟩ => exact hI0
    | ⟨1, _⟩ => exact hI1
    | ⟨2, _⟩ => exact hI2
    | ⟨3, _⟩ => exact hI3

/-- The program's first result is the specification's. -/
theorem outU_eq (a : Args)
    (hrec : ∀ u : Fin 10000, 0 ≤ (a.recI (ix1 u)).toInt ∧ (a.recI (ix1 u)).toInt < 8)
    (htyp : ∀ u : Fin 10000, 0 ≤ (a.typI (ix1 u)).toInt ∧ (a.typI (ix1 u)).toInt < 8)
    (hres : ∀ j : Fin 5000, 0 ≤ (a.resI (ix1 j)).toInt ∧ (a.resI (ix1 j)).toInt < 16) : outU a = a.userOut := by
  have hL := (layers_eq a hrec htyp hres).1
  funext i
  obtain ⟨u, d, rfl⟩ : ∃ (u : Fin 10000) (d : Fin 32), i = ix2 u d := ⟨i 0, i 1, eq_ix2 i⟩
  show meanU (uT a 0) (uT a 1) (uT a 2) (uT a 3) (ix2 u d) = (((a.U 0 u d + a.U 1 u d) + a.U 2 u d) + a.U 3 u d) * quarter
  have h0 : uT a 0 (ix2 u d) = a.U 0 u d := hL 0 u d
  have h1 : uT a 1 (ix2 u d) = a.U 1 u d := hL 1 u d
  have h2 : uT a 2 (ix2 u d) = a.U 2 u d := hL 2 u d
  have h3 : uT a 3 (ix2 u d) = a.U 3 u d := hL 3 u d
  rw [meanU_apply, h0, h1, h2, h3]

/-- The program's second result is the specification's. -/
theorem outI_eq (a : Args)
    (hrec : ∀ u : Fin 10000, 0 ≤ (a.recI (ix1 u)).toInt ∧ (a.recI (ix1 u)).toInt < 8)
    (htyp : ∀ u : Fin 10000, 0 ≤ (a.typI (ix1 u)).toInt ∧ (a.typI (ix1 u)).toInt < 8)
    (hres : ∀ j : Fin 5000, 0 ≤ (a.resI (ix1 j)).toInt ∧ (a.resI (ix1 j)).toInt < 16) : outI a = a.itemOut := by
  have hL := (layers_eq a hrec htyp hres).2
  funext i
  obtain ⟨j, d, rfl⟩ : ∃ (j : Fin 5000) (d : Fin 32), i = ix2 j d := ⟨i 0, i 1, eq_ix2 i⟩
  show meanI (iT a 0) (iT a 1) (iT a 2) (iT a 3) (ix2 j d) = (((a.I 0 j d + a.I 1 j d) + a.I 2 j d) + a.I 3 j d) * quarter
  have h0 : iT a 0 (ix2 j d) = a.I 0 j d := hL 0 j d
  have h1 : iT a 1 (ix2 j d) = a.I 1 j d := hL 1 j d
  have h2 : iT a 2 (ix2 j d) = a.I 2 j d := hL 2 j d
  have h3 : iT a 3 (ix2 j d) = a.I 3 j d := hL 3 j d
  rw [meanI_apply, h0, h1, h2, h3]

/-- THE REFERENCE'S RUN: under the precondition every weakly fair execution terminates with the two results the
    specification's functions of the argument arrays, and the arguments unchanged. -/
theorem run (m' : (l : Loc Cert.ReferenceIdeal.nD Cert.ReferenceIdeal.τ Cert.ReferenceIdeal.sig) → Buf (Elt Ideal) l)
    (ρ' : Dev Cert.ReferenceIdeal.nD → PrngReg)
    (hpre : Cert.Pre_ReferenceIdeal (hPre_finite_inputs := Cert.Pre_finite_inputs.Gen.facts) m') :
    θ_run (Cert.ReferenceIdeal.defs (F := Ideal)) (onTc (τ := τ) (main (F := Ideal))) ⟨m', fun _ => 0, ρ'⟩ (fun r => ∀ c : Dev nD,
        r.2.mem ((c.tc : Thread nD τ).loc main_v31) = (args m' c).userOut
      ∧ r.2.mem ((c.tc : Thread nD τ).loc main_v39) = (args m' c).itemOut
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)) :=
  (θ_run (Cert.ReferenceIdeal.defs (F := Ideal)) _ _).mono (fun r h c => by
    obtain ⟨hrec, htyp, hres⟩ := ranges_of_pre _ _ _ _ _ _ _ _ _ _ _ _ _ (hpre c)
    exact ⟨(h c main_v31).trans ((after_v31 (launchContents m' c)).trans (outU_eq (args m' c) hrec htyp hres)),
      (h c main_v39).trans ((after_v39 (launchContents m' c)).trans (outI_eq (args m' c) hrec htyp hres)),
      (h c main_arg0).trans (after_arg0 (launchContents m' c)),
      (h c main_arg1).trans (after_arg1 (launchContents m' c)),
      (h c main_arg2).trans (after_arg2 (launchContents m' c)),
      (h c main_arg3).trans (after_arg3 (launchContents m' c)),
      (h c main_arg4).trans (after_arg4 (launchContents m' c)),
      (h c main_arg5).trans (after_arg5 (launchContents m' c)),
      (h c main_arg6).trans (after_arg6 (launchContents m' c)),
      (h c main_arg7).trans (after_arg7 (launchContents m' c)),
      (h c main_arg8).trans (after_arg8 (launchContents m' c)),
      (h c main_arg9).trans (after_arg9 (launchContents m' c)),
      (h c main_arg10).trans (after_arg10 (launchContents m' c)),
      (h c main_arg11).trans (after_arg11 (launchContents m' c)),
      (h c main_arg12).trans (after_arg12 (launchContents m' c))⟩)
    (RefRun.run_main (F := Ideal) m' ρ')

end Cert.ReferenceIdeal.RefValue

end
-- ==== Proof.lean ====
/-
  The certificate. A graph-convolution recommender: user and item embeddings enriched by looked-up feature embeddings and
  projected, three propagation layers along a user × item weight matrix and its transpose, and the mean of the four layers.
  The kernel computes the look-ups as products with one-hot rows, the projection column block by column block, and each
  layer's two products a 400-row block of the matrix at a time (the product towards the users block by block, the product
  towards the items accumulated over the blocks); the reference gathers, concatenates, multiplies whole matrices, stacks and
  averages. Over the extended reals both are the same function of the arguments (proof/Proof/Spec.lean): sums regrouped and
  reordered, a one-hot product as a table row, and a division by four as a product with one quarter. The claim is under the
  precondition that every float input is finite and every category index lies in its table.

  The three frames: each program's run ends with every argument array as launched. The kernel's is the launch of its two
  kernel regions, stated once for any float instance and read at the word-level instance and at the exact one; the
  reference's is its host program's run. The idealization rewrote nothing, so it preserves the kernel as printed. The two
  idealized programs' results are the specification's two means of their (equal) arguments.
-/
import proofs.«129974_g1760936592044_cont_8to1_853_2_alg».proof.Defs
import proofs.«129974_g1760936592044_cont_8to1_853_2_alg».proof.Proof.Gen.Kernel
import proofs.«129974_g1760936592044_cont_8to1_853_2_alg».proof.Proof.Gen.KernelIdeal
import proofs.«129974_g1760936592044_cont_8to1_853_2_alg».proof.Proof.Gen.ReferenceIdeal
import proofs.«129974_g1760936592044_cont_8to1_853_2_alg».proof.Proof.Gen.Pre_finite_inputs
import proofs.«129974_g1760936592044_cont_8to1_853_2_alg».proof.Proof.K.RunArgs
import proofs.«129974_g1760936592044_cont_8to1_853_2_alg».proof.Proof.KI.Final
import proofs.«129974_g1760936592044_cont_8to1_853_2_alg».proof.Proof.RefValue
import Idealize.ShloMosaic.Adequacy
import Idealize.ShloMosaic.Init

noncomputable section

namespace Cert.Proof

open Idealize.ShloMosaic Idealize.SL.Sem

/-- The word-level kernel runs to the end with its arguments unchanged. -/
theorem frame_kernel : Cert.frame_Kernel (hKernel := Cert.Kernel.Gen.facts) (hPre_finite_inputs := Cert.Pre_finite_inputs.Gen.facts) :=
  fun m ρ _ => (θ_run (Cert.Kernel.defs (F := Bits)) _ _).mono (fun r h c =>
    ⟨(h c _ (Cert.Kernel.Hand.mem_uc Cert.Kernel.main_arg0 (by decide))).trans (Cert.Kernel.Hand.W3_main_arg0 m ρ c),
     (h c _ (Cert.Kernel.Hand.mem_uc Cert.Kernel.main_arg1 (by decide))).trans (Cert.Kernel.Hand.W3_main_arg1 m ρ c),
     (h c _ (Cert.Kernel.Hand.mem_uc Cert.Kernel.main_arg2 (by decide))).trans (Cert.Kernel.Hand.W3_main_arg2 m ρ c),
     (h c _ (Cert.Kernel.Hand.mem_uc Cert.Kernel.main_arg3 (by decide))).trans (Cert.Kernel.Hand.W3_main_arg3 m ρ c),
     (h c _ (Cert.Kernel.Hand.mem_uc Cert.Kernel.main_arg4 (by decide))).trans (Cert.Kernel.Hand.W3_main_arg4 m ρ c),
     (h c _ (Cert.Kernel.Hand.mem_uc Cert.Kernel.main_arg5 (by decide))).trans (Cert.Kernel.Hand.W3_main_arg5 m ρ c),
     (h c _ (Cert.Kernel.Hand.mem_uc Cert.Kernel.main_arg6 (by decide))).trans (Cert.Kernel.Hand.W3_main_arg6 m ρ c),
     (h c _ (Cert.Kernel.Hand.mem_uc Cert.Kernel.main_arg7 (by decide))).trans (Cert.Kernel.Hand.W3_main_arg7 m ρ c),
     (h c _ (Cert.Kernel.Hand.mem_uc Cert.Kernel.main_arg8 (by decide))).trans (Cert.Kernel.Hand.W3_main_arg8 m ρ c),
     (h c _ (Cert.Kernel.Hand.mem_uc Cert.Kernel.main_arg9 (by decide))).trans (Cert.Kernel.Hand.W3_main_arg9 m ρ c),
     (h c _ (Cert.Kernel.Hand.mem_uc Cert.Kernel.main_arg10 (by decide))).trans (Cert.Kernel.Hand.W3_main_arg10 m ρ c),
     (h c _ (Cert.Kernel.Hand.mem_uc Cert.Kernel.main_arg11 (by decide))).trans (Cert.Kernel.Hand.W3_main_arg11 m ρ c),
     (h c _ (Cert.Kernel.Hand.mem_uc Cert.Kernel.main_arg12 (by decide))).trans (Cert.Kernel.Hand.W3_main_arg12 m ρ c)⟩)
    (Cert.Kernel.Hand.run_all (F := Bits) m ρ)

/-- So does the idealized kernel: its run with the results dropped. -/
theorem frame_kernelIdeal : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2.2) (Cert.KernelIdeal.Hand.kernel_run m ρ)

/-- And the idealized reference. -/
theorem frame_referenceIdeal : Cert.frame_ReferenceIdeal (hReferenceIdeal := Cert.ReferenceIdeal.Gen.facts) (hPre_finite_inputs := Cert.Pre_finite_inputs.Gen.facts) :=
  fun m ρ hpre => (θ_run (Cert.ReferenceIdeal.defs (F := Ideal)) _ _).mono (fun _ h c => (h c).2.2) (Cert.ReferenceIdeal.RefValue.run m ρ hpre)

/-- From memories agreeing on the arguments both idealized programs end with the specification's two means. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hargs : ∀ c, Cert.ReferenceIdeal.RefValue.args m' c = Cert.KernelIdeal.Hand.argsK m c := fun c => by
    obtain ⟨h0, h1, h2, h3, h4, h5, h6, h7, h8, h9, h10, h11, h12⟩ := hagree c
    unfold Cert.ReferenceIdeal.RefValue.args Cert.KernelIdeal.Hand.argsK
    rw [h0, h1, h2, h3, h4, h5, h6, h7, h8, h9, h10, h11, h12]
  have hpre' : Cert.Pre_ReferenceIdeal (hPre_finite_inputs := Cert.Pre_finite_inputs.Gen.facts) m' := fun c => by
    obtain ⟨h0, h1, h2, h3, h4, h5, h6, h7, h8, h9, h10, h11, h12⟩ := hagree c
    rw [h0, h1, h2, h3, h4, h5, h6, h7, h8, h9, h10, h11, h12]
    exact hpre c
  refine ⟨fun c => (Cert.KernelIdeal.Hand.argsK m c).userOut, fun c => (Cert.KernelIdeal.Hand.argsK m c).itemOut,
    Cert.KernelIdeal.Hand.kernel_run m ρ, ?_⟩
  refine (θ_run (Cert.ReferenceIdeal.defs (F := Ideal)) _ _).mono (fun r h c => ⟨(h c).1.trans ?_, (h c).2.1.trans ?_, (h c).2.2⟩)
    (Cert.ReferenceIdeal.RefValue.run m' ρ' hpre')
  · rw [hargs c]
  · rw [hargs c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
